-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x200 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S1024x200 32 := broadcastInDim S1024x200 ![] bcast_S_S1024x200 main_c_0
  let main_v5 : IVec S1024x200 1 := cmpi .sge main_arg0 main_v4
  let main_c_1 : IVec S_ 32 := constantI S_ 32 999999#32
  let main_v6 : IVec S1024x200 32 := broadcastInDim S1024x200 ![] bcast_S_S1024x200 main_c_1
  let main_v7 : IVec S1024x200 1 := cmpi .sle main_arg0 main_v6
  let main_v8 : IVec S1024x200 1 := andi main_v5 main_v7
  let main_c_2 : IVec S_ 1 := constantI S_ 1 1#1
  let main_v9 : IVec S_ 1 := (fun x v => Host.reduce IntOp.andi x v reducesTo_S1024x200_S_d0_1 h_S_) main_v8 main_c_2
  let main_v10 : IVec S_ 1 := andi main_v3 main_v9
  main_v10
-- ==== Kernel.lean ====
abbrev S1024x200 : Shape := ⟨2, ![1024, 200]⟩
abbrev S1000000x128 : Shape := ⟨2, ![1000000, 128]⟩
abbrev S32x50x128 : Shape := ⟨3, ![32, 50, 128]⟩
abbrev S204800x128 : Shape := ⟨2, ![204800, 128]⟩
abbrev S50x128 : Shape := ⟨2, ![50, 128]⟩
abbrev S3x128x128 : Shape := ⟨3, ![3, 128, 128]⟩
abbrev S4x64x128 : Shape := ⟨3, ![4, 64, 128]⟩
abbrev S16x4x64x128 : Shape := ⟨4, ![16, 4, 64, 128]⟩
abbrev S_ : Shape := ⟨0, ![]⟩
abbrev S1x50x128 : Shape := ⟨3, ![1, 50, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1x1x64x128 : Shape := ⟨4, ![1, 1, 64, 128]⟩
abbrev S1024x200x128 : Shape := ⟨3, ![1024, 200, 128]⟩

abbrev nBuf : Table → Nat
  | .hbm => 5
  | .shared => 1
  | .local .scVector .vmem => 3
  | _ => 0

abbrev bufTy : (tb : Table) → Fin (nBuf tb) → BufTy
  | .hbm, ⟨0, _⟩ => ⟨S1024x200, .i32⟩
  | .hbm, ⟨1, _⟩ => ⟨S1000000x128, .f32⟩
  | .hbm, ⟨2, _⟩ => ⟨S32x50x128, .i32⟩
  | .hbm, ⟨3, _⟩ => ⟨S204800x128, .f32⟩
  | .hbm, ⟨4, _⟩ => ⟨S1024x200x128, .f32⟩
  | .shared, ⟨0, _⟩ => ⟨S16x4x64x128, .f32⟩
  | .local .scVector .vmem, ⟨0, _⟩ => ⟨S50x128, .i32⟩
  | .local .scVector .vmem, ⟨1, _⟩ => ⟨S3x128x128, .f32⟩
  | .local .scVector .vmem, ⟨2, _⟩ => ⟨S4x64x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_71_r0 : BitVec 32 := 0#32
  let c0_i32_72_r0 : BitVec 32 := 0#32
  ![v1.toNat, 0, 0]
@[reducible] def k0_t1_loop : Scf.Loop 32 :=
  let c0_i32_31 : BitVec 32 := 0#32
  let c10_i32 : BitVec 32 := 10#32
  let v29 : BitVec 32 := Scalar.addi c0_i32_31 c10_i32
  let c1_i32_32 : BitVec 32 := 1#32
  ⟨c0_i32_31, v29, c1_i32_32⟩
def k0_off2 (k0_t1 : Fin k0_t1_loop.trips) (c0_i32_72 : BitVec 32) : Fin 2 → Nat :=
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let v66 : BitVec 32 := Scalar.addi v65 c0_i32_72
  let c0_i32_76 : BitVec 32 := 0#32
  ![v66.toNat, 0]
def k0_off3 (i : grid0.Coords) (k0_t1 : Fin k0_t1_loop.trips) (c0_i32_72 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let v66 : BitVec 32 := Scalar.addi v65 c0_i32_72
  let c128_i32 : BitVec 32 := 128#32
  let v72 : BitVec 32 := Scalar.muli v66 c128_i32
  let v73 : BitVec 32 := Scalar.addi v2 v72
  let c0_i32_82 : BitVec 32 := 0#32
  ![v73.toNat, 0]
def k0_cond1 (k0_t1 : Fin k0_t1_loop.trips) : BitVec 1 :=
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let c0_i32_72 : BitVec 32 := 0#32
  let v66 : BitVec 32 := Scalar.addi v65 c0_i32_72
  let c1_i32_86 : BitVec 32 := 1#32
  let v80 : BitVec 1 := Scalar.cmpi .sge v66 c1_i32_86
  let v81 : BitVec 32 := Scalar.extui v80
  let c0_i32_87 : BitVec 32 := 0#32
  let v82 : BitVec 1 := Scalar.cmpi .ne v81 c0_i32_87
  v82

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let c0_i32_72 : BitVec 32 := 0#32
  let v66 : BitVec 32 := Scalar.addi v65 c0_i32_72
  let c1_i32_263 : BitVec 32 := 1#32
  let v303 : BitVec 32 := Scalar.subi v66 c1_i32_263
  let c128_i32_264 : BitVec 32 := 128#32
  let v304 : BitVec 32 := Scalar.muli v303 c128_i32_264
  let v305 : BitVec 32 := Scalar.addi v2 v304
  let c0_i32_268 : BitVec 32 := 0#32
  ![v305.toNat, 0]
def k0_cond2 (k0_t1 : Fin k0_t1_loop.trips) : BitVec 1 :=
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let c0_i32_72 : BitVec 32 := 0#32
  let v66 : BitVec 32 := Scalar.addi v65 c0_i32_72
  let c2_i32_88 : BitVec 32 := 2#32
  let v83 : BitVec 32 := Scalar.addi v66 c2_i32_88
  let c30_i32_89 : BitVec 32 := 30#32
  let v84 : BitVec 1 := Scalar.cmpi .slt v83 c30_i32_89
  let v85 : BitVec 32 := Scalar.extui v84
  let c0_i32_90 : BitVec 32 := 0#32
  let v86 : BitVec 1 := Scalar.cmpi .ne v85 c0_i32_90
  v86

def k0_off5 (k0_t1 : Fin k0_t1_loop.trips) : Fin 2 → Nat :=
  let c3_i32_71 : BitVec 32 := 3#32
  let c0_i32_31 : BitVec 32 := 0#32
  let c1_i32_32 : BitVec 32 := 1#32
  let arg27 : BitVec 32 := Scf.iv c0_i32_31 c1_i32_32 k0_t1
  let v65 : BitVec 32 := Scalar.muli c3_i32_71 arg27
  let c0_i32_72 : BitVec 32 := 0#32
  let v66 : BitVec 32 := Scalar.addi v65 c0_i32_72
  let c2_i32_263 : BitVec 32 := 2#32
  let v303 : BitVec 32 := Scalar.addi v66 c2_i32_263
  let c0_i32_267 : BitVec 32 := 0#32
  ![v303.toNat, 0]
def k0_cond3 (k0_t1 : Fin k0_t1_loop.trips) : BitVec 1 :=
  let c3_i32_91 : BitVec 32 := 3#32
  let c0_i32_31 : BitVec 32 := 0#32
  let c1_i32_32 : BitVec 32 := 1#32
  let arg27 : BitVec 32 := Scf.iv c0_i32_31 c1_i32_32 k0_t1
  let v87 : BitVec 32 := Scalar.muli c3_i32_91 arg27
  let c1_i32_92 : BitVec 32 := 1#32
  let v88 : BitVec 32 := Scalar.addi v87 c1_i32_92
  let c1_i32_107 : BitVec 32 := 1#32
  let v102 : BitVec 1 := Scalar.cmpi .sge v88 c1_i32_107
  let v103 : BitVec 32 := Scalar.extui v102
  let c0_i32_108 : BitVec 32 := 0#32
  let v104 : BitVec 1 := Scalar.cmpi .ne v103 c0_i32_108
  v104

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3_i32_91 : BitVec 32 := 3#32
  let c0_i32_31 : BitVec 32 := 0#32
  let c1_i32_32 : BitVec 32 := 1#32
  let arg27 : BitVec 32 := Scf.iv c0_i32_31 c1_i32_32 k0_t1
  let v87 : BitVec 32 := Scalar.muli c3_i32_91 arg27
  let c1_i32_92 : BitVec 32 := 1#32
  let v88 : BitVec 32 := Scalar.addi v87 c1_i32_92
  let c1_i32_263 : BitVec 32 := 1#32
  let v303 : BitVec 32 := Scalar.subi v88 c1_i32_263
  let c128_i32_264 : BitVec 32 := 128#32
  let v304 : BitVec 32 := Scalar.muli v303 c128_i32_264
  let v305 : BitVec 32 := Scalar.addi v2 v304
  let c0_i32_268 : BitVec 32 := 0#32
  ![v305.toNat, 0]
def k0_cond4 (k0_t1 : Fin k0_t1_loop.trips) : BitVec 1 :=
  let c3_i32_91 : BitVec 32 := 3#32
  let c0_i32_31 : BitVec 32 := 0#32
  let c1_i32_32 : BitVec 32 := 1#32
  let arg27 : BitVec 32 := Scf.iv c0_i32_31 c1_i32_32 k0_t1
  let v87 : BitVec 32 := Scalar.muli c3_i32_91 arg27
  let c1_i32_92 : BitVec 32 := 1#32
  let v88 : BitVec 32 := Scalar.addi v87 c1_i32_92
  let c2_i32_109 : BitVec 32 := 2#32
  let v105 : BitVec 32 := Scalar.addi v88 c2_i32_109
  let c30_i32_110 : BitVec 32 := 30#32
  let v106 : BitVec 1 := Scalar.cmpi .slt v105 c30_i32_110
  let v107 : BitVec 32 := Scalar.extui v106
  let c0_i32_111 : BitVec 32 := 0#32
  let v108 : BitVec 1 := Scalar.cmpi .ne v107 c0_i32_111
  v108

def k0_off7 (k0_t1 : Fin k0_t1_loop.trips) : Fin 2 → Nat :=
  let c3_i32_91 : BitVec 32 := 3#32
  let c0_i32_31 : BitVec 32 := 0#32
  let c1_i32_32 : BitVec 32 := 1#32
  let arg27 : BitVec 32 := Scf.iv c0_i32_31 c1_i32_32 k0_t1
  let v87 : BitVec 32 := Scalar.muli c3_i32_91 arg27
  let c1_i32_92 : BitVec 32 := 1#32
  let v88 : BitVec 32 := Scalar.addi v87 c1_i32_92
  let c2_i32_263 : BitVec 32 := 2#32
  let v303 : BitVec 32 := Scalar.addi v88 c2_i32_263
  let c0_i32_267 : BitVec 32 := 0#32
  ![v303.toNat, 0]
def k0_cond5 (k0_t1 : Fin k0_t1_loop.trips) : BitVec 1 :=
  let c3_i32_112 : BitVec 32 := 3#32
  let c0_i32_31 : BitVec 32 := 0#32
  let c1_i32_32 : BitVec 32 := 1#32
  let arg27 : BitVec 32 := Scf.iv c0_i32_31 c1_i32_32 k0_t1
  let v109 : BitVec 32 := Scalar.muli c3_i32_112 arg27
  let c2_i32_113 : BitVec 32 := 2#32
  let v110 : BitVec 32 := Scalar.addi v109 c2_i32_113
  let c1_i32_128 : BitVec 32 := 1#32
  let v124 : BitVec 1 := Scalar.cmpi .sge v110 c1_i32_128
  let v125 : BitVec 32 := Scalar.extui v124
  let c0_i32_129 : BitVec 32 := 0#32
  let v126 : BitVec 1 := Scalar.cmpi .ne v125 c0_i32_129
  v126

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3_i32_112 : BitVec 32 := 3#32
  let c0_i32_31 : BitVec 32 := 0#32
  let c1_i32_32 : BitVec 32 := 1#32
  let arg27 : BitVec 32 := Scf.iv c0_i32_31 c1_i32_32 k0_t1
  let v109 : BitVec 32 := Scalar.muli c3_i32_112 arg27
  let c2_i32_113 : BitVec 32 := 2#32
  let v110 : BitVec 32 := Scalar.addi v109 c2_i32_113
  let c1_i32_263 : BitVec 32 := 1#32
  let v303 : BitVec 32 := Scalar.subi v110 c1_i32_263
  let c128_i32_264 : BitVec 32 := 128#32
  let v304 : BitVec 32 := Scalar.muli v303 c128_i32_264
  let v305 : BitVec 32 := Scalar.addi v2 v304
  let c0_i32_268 : BitVec 32 := 0#32
  ![v305.toNat, 0]
def k0_cond6 (k0_t1 : Fin k0_t1_loop.trips) : BitVec 1 :=
  let c3_i32_112 : BitVec 32 := 3#32
  let c0_i32_31 : BitVec 32 := 0#32
  let c1_i32_32 : BitVec 32 := 1#32
  let arg27 : BitVec 32 := Scf.iv c0_i32_31 c1_i32_32 k0_t1
  let v109 : BitVec 32 := Scalar.muli c3_i32_112 arg27
  let c2_i32_113 : BitVec 32 := 2#32
  let v110 : BitVec 32 := Scalar.addi v109 c2_i32_113
  let c2_i32_130 : BitVec 32 := 2#32
  let v127 : BitVec 32 := Scalar.addi v110 c2_i32_130
  let c30_i32_131 : BitVec 32 := 30#32
  let v128 : BitVec 1 := Scalar.cmpi .slt v127 c30_i32_131
  let v129 : BitVec 32 := Scalar.extui v128
  let c0_i32_132 : BitVec 32 := 0#32
  let v130 : BitVec 1 := Scalar.cmpi .ne v129 c0_i32_132
  v130

def k0_off9 (k0_t1 : Fin k0_t1_loop.trips) : Fin 2 → Nat :=
  let c3_i32_112 : BitVec 32 := 3#32
  let c0_i32_31 : BitVec 32 := 0#32
  let c1_i32_32 : BitVec 32 := 1#32
  let arg27 : BitVec 32 := Scf.iv c0_i32_31 c1_i32_32 k0_t1
  let v109 : BitVec 32 := Scalar.muli c3_i32_112 arg27
  let c2_i32_113 : BitVec 32 := 2#32
  let v110 : BitVec 32 := Scalar.addi v109 c2_i32_113
  let c2_i32_263 : BitVec 32 := 2#32
  let v303 : BitVec 32 := Scalar.addi v110 c2_i32_263
  let c0_i32_267 : BitVec 32 := 0#32
  ![v303.toNat, 0]
def k0_off10 (k0_t1 : Fin k0_t1_loop.trips) (c0_i32_133 : BitVec 32) : Fin 2 → Nat :=
  let c30_i32_141 : BitVec 32 := 30#32
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let v132 : BitVec 32 := Scalar.addi v131 c0_i32_133
  let c0_i32_135 : BitVec 32 := 0#32
  let v134 : BitVec 1 := Scalar.cmpi .sgt v132 c0_i32_135
  let v135 : BitVec 32 := Scalar.extui v134
  let c0_i32_136 : BitVec 32 := 0#32
  let v136 : BitVec 1 := Scalar.cmpi .slt v132 c0_i32_136
  let v137 : BitVec 32 := Scalar.extui v136
  let v138 : BitVec 32 := Scalar.subi v135 v137
  let c2_i32_134 : BitVec 32 := 2#32
  let c0_i32_137 : BitVec 32 := 0#32
  let v139 : BitVec 1 := Scalar.cmpi .sgt c2_i32_134 c0_i32_137
  let v140 : BitVec 32 := Scalar.extui v139
  let c0_i32_138 : BitVec 32 := 0#32
  let v141 : BitVec 1 := Scalar.cmpi .slt c2_i32_134 c0_i32_138
  let v142 : BitVec 32 := Scalar.extui v141
  let v143 : BitVec 32 := Scalar.subi v140 v142
  let v144 : BitVec 1 := Scalar.cmpi .ne v138 v143
  let v145 : BitVec 32 := Scalar.remsi v132 c2_i32_134
  let c0_i32_139 : BitVec 32 := 0#32
  let v146 : BitVec 1 := Scalar.cmpi .ne v145 c0_i32_139
  let v147 : BitVec 1 := Scalar.andi v144 v146
  let v133 : BitVec 32 := Scalar.divsi v132 c2_i32_134
  let c1_i32_140 : BitVec 32 := 1#32
  let v148 : BitVec 32 := Scalar.subi v133 c1_i32_140
  let v149 : BitVec 32 := Scalar.select v147 v148 v133
  let v150 : BitVec 32 := Scalar.addi c30_i32_141 v149
  let c0_i32_145 : BitVec 32 := 0#32
  ![v150.toNat, 0]
def k0_cond7 (k0_t1 : Fin k0_t1_loop.trips) : BitVec 1 :=
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c4_i32_148 : BitVec 32 := 4#32
  let v156 : BitVec 1 := Scalar.cmpi .sge v132 c4_i32_148
  let v157 : BitVec 32 := Scalar.extui v156
  let c0_i32_149 : BitVec 32 := 0#32
  let v158 : BitVec 1 := Scalar.cmpi .ne v157 c0_i32_149
  v158

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c4_i32_263 : BitVec 32 := 4#32
  let v303 : BitVec 32 := Scalar.subi v132 c4_i32_263
  let c64_i32_264 : BitVec 32 := 64#32
  let v304 : BitVec 32 := Scalar.muli v303 c64_i32_264
  let v305 : BitVec 32 := Scalar.addi v3 v304
  let c0_i32_266 : BitVec 32 := 0#32
  ![v305.toNat, 0]
def k0_off12 (i : grid0.Coords) : Fin 4 → Nat :=
  let arg1 : BitVec 32 := BitVec.ofNat 32 (i 1).val
  let c0_i32_265 : BitVec 32 := 0#32
  let c0_i32_267 : BitVec 32 := 0#32
  let c0_i32_268 : BitVec 32 := 0#32
  ![arg1.toNat, 0, 0, 0]
def k0_off13 (i : grid0.Coords) : Fin 4 → Nat :=
  let arg1 : BitVec 32 := BitVec.ofNat 32 (i 1).val
  let c0_i32_151 : BitVec 32 := 0#32
  let c0_i32_154 : BitVec 32 := 0#32
  let c0_i32_155 : BitVec 32 := 0#32
  ![arg1.toNat, 0, 0, 0]
def k0_cond8 (k0_t1 : Fin k0_t1_loop.trips) : BitVec 1 :=
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c1_i32_160 : BitVec 32 := 1#32
  let v167 : BitVec 1 := Scalar.cmpi .sge v132 c1_i32_160
  let v168 : BitVec 32 := Scalar.extui v167
  let c0_i32_161 : BitVec 32 := 0#32
  let v169 : BitVec 1 := Scalar.cmpi .ne v168 c0_i32_161
  v169

def k0_off14 (i : grid0.Coords) : Fin 4 → Nat :=
  let arg1 : BitVec 32 := BitVec.ofNat 32 (i 1).val
  let c3_i32_264 : BitVec 32 := 3#32
  let c0_i32_267 : BitVec 32 := 0#32
  let c0_i32_268 : BitVec 32 := 0#32
  ![arg1.toNat, 3, 0, 0]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c1_i32_273 : BitVec 32 := 1#32
  let v311 : BitVec 32 := Scalar.subi v132 c1_i32_273
  let c64_i32_274 : BitVec 32 := 64#32
  let v312 : BitVec 32 := Scalar.muli v311 c64_i32_274
  let v313 : BitVec 32 := Scalar.addi v3 v312
  let c0_i32_276 : BitVec 32 := 0#32
  ![v313.toNat, 0]
def k0_cond9 (k0_t1 : Fin k0_t1_loop.trips) : BitVec 1 :=
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c3_i32_162 : BitVec 32 := 3#32
  let v170 : BitVec 32 := Scalar.addi v132 c3_i32_162
  let c40_i32 : BitVec 32 := 40#32
  let v171 : BitVec 1 := Scalar.cmpi .slt v170 c40_i32
  let v172 : BitVec 32 := Scalar.extui v171
  let c0_i32_163 : BitVec 32 := 0#32
  let v173 : BitVec 1 := Scalar.cmpi .ne v172 c0_i32_163
  v173

def k0_off16 (k0_t1 : Fin k0_t1_loop.trips) : Fin 2 → Nat :=
  let c30_i32_271 : BitVec 32 := 30#32
  let c4_i32 : BitVec 32 := 4#32
  let c0_i32_31 : BitVec 32 := 0#32
  let c1_i32_32 : BitVec 32 := 1#32
  let arg27 : BitVec 32 := Scf.iv c0_i32_31 c1_i32_32 k0_t1
  let v131 : BitVec 32 := Scalar.muli c4_i32 arg27
  let c0_i32_133 : BitVec 32 := 0#32
  let v132 : BitVec 32 := Scalar.addi v131 c0_i32_133
  let c3_i32_263 : BitVec 32 := 3#32
  let v303 : BitVec 32 := Scalar.addi v132 c3_i32_263
  let c0_i32_265 : BitVec 32 := 0#32
  let v305 : BitVec 1 := Scalar.cmpi .sgt v303 c0_i32_265
  let v306 : BitVec 32 := Scalar.extui v305
  let c0_i32_266 : BitVec 32 := 0#32
  let v307 : BitVec 1 := Scalar.cmpi .slt v303 c0_i32_266
  let v308 : BitVec 32 := Scalar.extui v307
  let v309 : BitVec 32 := Scalar.subi v306 v308
  let c2_i32_264 : BitVec 32 := 2#32
  let c0_i32_267 : BitVec 32 := 0#32
  let v310 : BitVec 1 := Scalar.cmpi .sgt c2_i32_264 c0_i32_267
  let v311 : BitVec 32 := Scalar.extui v310
  let c0_i32_268 : BitVec 32 := 0#32
  let v312 : BitVec 1 := Scalar.cmpi .slt c2_i32_264 c0_i32_268
  let v313 : BitVec 32 := Scalar.extui v312
  let v314 : BitVec 32 := Scalar.subi v311 v313
  let v315 : BitVec 1 := Scalar.cmpi .ne v309 v314
  let v316 : BitVec 32 := Scalar.remsi v303 c2_i32_264
  let c0_i32_269 : BitVec 32 := 0#32
  let v317 : BitVec 1 := Scalar.cmpi .ne v316 c0_i32_269
  let v318 : BitVec 1 := Scalar.andi v315 v317
  let v304 : BitVec 32 := Scalar.divsi v303 c2_i32_264
  let c1_i32_270 : BitVec 32 := 1#32
  let v319 : BitVec 32 := Scalar.subi v304 c1_i32_270
  let v320 : BitVec 32 := Scalar.select v318 v319 v304
  let v321 : BitVec 32 := Scalar.addi c30_i32_271 v320
  let c64_i32_275 : BitVec 32 := 64#32
  ![v321.toNat, 64]
def k0_off17 (k0_t1 : Fin k0_t1_loop.trips) (c1_i32_165 : BitVec 32) : Fin 2 → Nat :=
  let c30_i32_173 : BitVec 32 := 30#32
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let v175 : BitVec 32 := Scalar.addi v174 c1_i32_165
  let c0_i32_167 : BitVec 32 := 0#32
  let v177 : BitVec 1 := Scalar.cmpi .sgt v175 c0_i32_167
  let v178 : BitVec 32 := Scalar.extui v177
  let c0_i32_168 : BitVec 32 := 0#32
  let v179 : BitVec 1 := Scalar.cmpi .slt v175 c0_i32_168
  let v180 : BitVec 32 := Scalar.extui v179
  let v181 : BitVec 32 := Scalar.subi v178 v180
  let c2_i32_166 : BitVec 32 := 2#32
  let c0_i32_169 : BitVec 32 := 0#32
  let v182 : BitVec 1 := Scalar.cmpi .sgt c2_i32_166 c0_i32_169
  let v183 : BitVec 32 := Scalar.extui v182
  let c0_i32_170 : BitVec 32 := 0#32
  let v184 : BitVec 1 := Scalar.cmpi .slt c2_i32_166 c0_i32_170
  let v185 : BitVec 32 := Scalar.extui v184
  let v186 : BitVec 32 := Scalar.subi v183 v185
  let v187 : BitVec 1 := Scalar.cmpi .ne v181 v186
  let v188 : BitVec 32 := Scalar.remsi v175 c2_i32_166
  let c0_i32_171 : BitVec 32 := 0#32
  let v189 : BitVec 1 := Scalar.cmpi .ne v188 c0_i32_171
  let v190 : BitVec 1 := Scalar.andi v187 v189
  let v176 : BitVec 32 := Scalar.divsi v175 c2_i32_166
  let c1_i32_172 : BitVec 32 := 1#32
  let v191 : BitVec 32 := Scalar.subi v176 c1_i32_172
  let v192 : BitVec 32 := Scalar.select v190 v191 v176
  let v193 : BitVec 32 := Scalar.addi c30_i32_173 v192
  let c64_i32_177 : BitVec 32 := 64#32
  ![v193.toNat, 64]
def k0_cond10 (k0_t1 : Fin k0_t1_loop.trips) : BitVec 1 :=
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c4_i32_180 : BitVec 32 := 4#32
  let v199 : BitVec 1 := Scalar.cmpi .sge v175 c4_i32_180
  let v200 : BitVec 32 := Scalar.extui v199
  let c0_i32_181 : BitVec 32 := 0#32
  let v201 : BitVec 1 := Scalar.cmpi .ne v200 c0_i32_181
  v201

def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c4_i32_263 : BitVec 32 := 4#32
  let v303 : BitVec 32 := Scalar.subi v175 c4_i32_263
  let c64_i32_264 : BitVec 32 := 64#32
  let v304 : BitVec 32 := Scalar.muli v303 c64_i32_264
  let v305 : BitVec 32 := Scalar.addi v3 v304
  let c0_i32_266 : BitVec 32 := 0#32
  ![v305.toNat, 0]
def k0_off19 (i : grid0.Coords) : Fin 4 → Nat :=
  let arg1 : BitVec 32 := BitVec.ofNat 32 (i 1).val
  let c1_i32_265 : BitVec 32 := 1#32
  let c0_i32_267 : BitVec 32 := 0#32
  let c0_i32_268 : BitVec 32 := 0#32
  ![arg1.toNat, 1, 0, 0]
def k0_off20 (i : grid0.Coords) : Fin 4 → Nat :=
  let arg1 : BitVec 32 := BitVec.ofNat 32 (i 1).val
  let c1_i32_183 : BitVec 32 := 1#32
  let c0_i32_186 : BitVec 32 := 0#32
  let c0_i32_187 : BitVec 32 := 0#32
  ![arg1.toNat, 1, 0, 0]
def k0_cond11 (k0_t1 : Fin k0_t1_loop.trips) : BitVec 1 :=
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c1_i32_192 : BitVec 32 := 1#32
  let v210 : BitVec 1 := Scalar.cmpi .sge v175 c1_i32_192
  let v211 : BitVec 32 := Scalar.extui v210
  let c0_i32_193 : BitVec 32 := 0#32
  let v212 : BitVec 1 := Scalar.cmpi .ne v211 c0_i32_193
  v212

def k0_off21 (i : grid0.Coords) : Fin 4 → Nat :=
  let arg1 : BitVec 32 := BitVec.ofNat 32 (i 1).val
  let c0_i32_264 : BitVec 32 := 0#32
  let c0_i32_267 : BitVec 32 := 0#32
  let c0_i32_268 : BitVec 32 := 0#32
  ![arg1.toNat, 0, 0, 0]
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c1_i32_273 : BitVec 32 := 1#32
  let v311 : BitVec 32 := Scalar.subi v175 c1_i32_273
  let c64_i32_274 : BitVec 32 := 64#32
  let v312 : BitVec 32 := Scalar.muli v311 c64_i32_274
  let v313 : BitVec 32 := Scalar.addi v3 v312
  let c0_i32_276 : BitVec 32 := 0#32
  ![v313.toNat, 0]
def k0_cond12 (k0_t1 : Fin k0_t1_loop.trips) : BitVec 1 :=
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c3_i32_194 : BitVec 32 := 3#32
  let v213 : BitVec 32 := Scalar.addi v175 c3_i32_194
  let c40_i32_195 : BitVec 32 := 40#32
  let v214 : BitVec 1 := Scalar.cmpi .slt v213 c40_i32_195
  let v215 : BitVec 32 := Scalar.extui v214
  let c0_i32_196 : BitVec 32 := 0#32
  let v216 : BitVec 1 := Scalar.cmpi .ne v215 c0_i32_196
  v216

def k0_off23 (k0_t1 : Fin k0_t1_loop.trips) : Fin 2 → Nat :=
  let c30_i32_271 : BitVec 32 := 30#32
  let c4_i32_164 : BitVec 32 := 4#32
  let c0_i32_31 : BitVec 32 := 0#32
  let c1_i32_32 : BitVec 32 := 1#32
  let arg27 : BitVec 32 := Scf.iv c0_i32_31 c1_i32_32 k0_t1
  let v174 : BitVec 32 := Scalar.muli c4_i32_164 arg27
  let c1_i32_165 : BitVec 32 := 1#32
  let v175 : BitVec 32 := Scalar.addi v174 c1_i32_165
  let c3_i32_263 : BitVec 32 := 3#32
  let v303 : BitVec 32 := Scalar.addi v175 c3_i32_263
  let c0_i32_265 : BitVec 32 := 0#32
  let v305 : BitVec 1 := Scalar.cmpi .sgt v303 c0_i32_265
  let v306 : BitVec 32 := Scalar.extui v305
  let c0_i32_266 : BitVec 32 := 0#32
  let v307 : BitVec 1 := Scalar.cmpi .slt v303 c0_i32_266
  let v308 : BitVec 32 := Scalar.extui v307
  let v309 : BitVec 32 := Scalar.subi v306 v308
  let c2_i32_264 : BitVec 32 := 2#32
  let c0_i32_267 : BitVec 32 := 0#32
  let v310 : BitVec 1 := Scalar.cmpi .sgt c2_i32_264 c0_i32_267
  let v311 : BitVec 32 := Scalar.extui v310
  let c0_i32_268 : BitVec 32 := 0#32
  let v312 : BitVec 1 := Scalar.cmpi .slt c2_i32_264 c0_i32_268
  let v313 : BitVec 32 := Scalar.extui v312
  let v314 : BitVec 32 := Scalar.subi v311 v313
  let v315 : BitVec 1 := Scalar.cmpi .ne v309 v314
  let v316 : BitVec 32 := Scalar.remsi v303 c2_i32_264
  let c0_i32_269 : BitVec 32 := 0#32
  let v317 : BitVec 1 := Scalar.cmpi .ne v316 c0_i32_269
  let v318 : BitVec 1 := Scalar.andi v315 v317
  let v304 : BitVec 32 := Scalar.divsi v303 c2_i32_264
  let c1_i32_270 : BitVec 32 := 1#32
  let v319 : BitVec 32 := Scalar.subi v304 c1_i32_270
  let v320 : BitVec 32 := Scalar.select v318 v319 v304
  let v321 : BitVec 32 := Scalar.addi c30_i32_271 v320
  let c0_i32_275 : BitVec 32 := 0#32
  ![v321.toNat, 0]
def k0_cond13 (k0_t1 : Fin k0_t1_loop.trips) : BitVec 1 :=
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c4_i32_213 : BitVec 32 := 4#32
  let v242 : BitVec 1 := Scalar.cmpi .sge v218 c4_i32_213
  let v243 : BitVec 32 := Scalar.extui v242
  let c0_i32_214 : BitVec 32 := 0#32
  let v244 : BitVec 1 := Scalar.cmpi .ne v243 c0_i32_214
  v244

def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c4_i32_263 : BitVec 32 := 4#32
  let v303 : BitVec 32 := Scalar.subi v218 c4_i32_263
  let c64_i32_264 : BitVec 32 := 64#32
  let v304 : BitVec 32 := Scalar.muli v303 c64_i32_264
  let v305 : BitVec 32 := Scalar.addi v3 v304
  let c0_i32_266 : BitVec 32 := 0#32
  ![v305.toNat, 0]
def k0_off25 (i : grid0.Coords) : Fin 4 → Nat :=
  let arg1 : BitVec 32 := BitVec.ofNat 32 (i 1).val
  let c2_i32_265 : BitVec 32 := 2#32
  let c0_i32_267 : BitVec 32 := 0#32
  let c0_i32_268 : BitVec 32 := 0#32
  ![arg1.toNat, 2, 0, 0]
def k0_off26 (i : grid0.Coords) : Fin 4 → Nat :=
  let arg1 : BitVec 32 := BitVec.ofNat 32 (i 1).val
  let c2_i32_216 : BitVec 32 := 2#32
  let c0_i32_219 : BitVec 32 := 0#32
  let c0_i32_220 : BitVec 32 := 0#32
  ![arg1.toNat, 2, 0, 0]
def k0_cond14 (k0_t1 : Fin k0_t1_loop.trips) : BitVec 1 :=
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c1_i32_225 : BitVec 32 := 1#32
  let v253 : BitVec 1 := Scalar.cmpi .sge v218 c1_i32_225
  let v254 : BitVec 32 := Scalar.extui v253
  let c0_i32_226 : BitVec 32 := 0#32
  let v255 : BitVec 1 := Scalar.cmpi .ne v254 c0_i32_226
  v255

def k0_off27 (i : grid0.Coords) : Fin 4 → Nat :=
  let arg1 : BitVec 32 := BitVec.ofNat 32 (i 1).val
  let c1_i32_264 : BitVec 32 := 1#32
  let c0_i32_267 : BitVec 32 := 0#32
  let c0_i32_268 : BitVec 32 := 0#32
  ![arg1.toNat, 1, 0, 0]
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c1_i32_273 : BitVec 32 := 1#32
  let v311 : BitVec 32 := Scalar.subi v218 c1_i32_273
  let c64_i32_274 : BitVec 32 := 64#32
  let v312 : BitVec 32 := Scalar.muli v311 c64_i32_274
  let v313 : BitVec 32 := Scalar.addi v3 v312
  let c0_i32_276 : BitVec 32 := 0#32
  ![v313.toNat, 0]
def k0_cond15 (k0_t1 : Fin k0_t1_loop.trips) : BitVec 1 :=
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c3_i32_227 : BitVec 32 := 3#32
  let v256 : BitVec 32 := Scalar.addi v218 c3_i32_227
  let c40_i32_228 : BitVec 32 := 40#32
  let v257 : BitVec 1 := Scalar.cmpi .slt v256 c40_i32_228
  let v258 : BitVec 32 := Scalar.extui v257
  let c0_i32_229 : BitVec 32 := 0#32
  let v259 : BitVec 1 := Scalar.cmpi .ne v258 c0_i32_229
  v259

def k0_off29 (k0_t1 : Fin k0_t1_loop.trips) : Fin 2 → Nat :=
  let c30_i32_271 : BitVec 32 := 30#32
  let c4_i32_197 : BitVec 32 := 4#32
  let c0_i32_31 : BitVec 32 := 0#32
  let c1_i32_32 : BitVec 32 := 1#32
  let arg27 : BitVec 32 := Scf.iv c0_i32_31 c1_i32_32 k0_t1
  let v217 : BitVec 32 := Scalar.muli c4_i32_197 arg27
  let c2_i32_198 : BitVec 32 := 2#32
  let v218 : BitVec 32 := Scalar.addi v217 c2_i32_198
  let c3_i32_263 : BitVec 32 := 3#32
  let v303 : BitVec 32 := Scalar.addi v218 c3_i32_263
  let c0_i32_265 : BitVec 32 := 0#32
  let v305 : BitVec 1 := Scalar.cmpi .sgt v303 c0_i32_265
  let v306 : BitVec 32 := Scalar.extui v305
  let c0_i32_266 : BitVec 32 := 0#32
  let v307 : BitVec 1 := Scalar.cmpi .slt v303 c0_i32_266
  let v308 : BitVec 32 := Scalar.extui v307
  let v309 : BitVec 32 := Scalar.subi v306 v308
  let c2_i32_264 : BitVec 32 := 2#32
  let c0_i32_267 : BitVec 32 := 0#32
  let v310 : BitVec 1 := Scalar.cmpi .sgt c2_i32_264 c0_i32_267
  let v311 : BitVec 32 := Scalar.extui v310
  let c0_i32_268 : BitVec 32 := 0#32
  let v312 : BitVec 1 := Scalar.cmpi .slt c2_i32_264 c0_i32_268
  let v313 : BitVec 32 := Scalar.extui v312
  let v314 : BitVec 32 := Scalar.subi v311 v313
  let v315 : BitVec 1 := Scalar.cmpi .ne v309 v314
  let v316 : BitVec 32 := Scalar.remsi v303 c2_i32_264
  let c0_i32_269 : BitVec 32 := 0#32
  let v317 : BitVec 1 := Scalar.cmpi .ne v316 c0_i32_269
  let v318 : BitVec 1 := Scalar.andi v315 v317
  let v304 : BitVec 32 := Scalar.divsi v303 c2_i32_264
  let c1_i32_270 : BitVec 32 := 1#32
  let v319 : BitVec 32 := Scalar.subi v304 c1_i32_270
  let v320 : BitVec 32 := Scalar.select v318 v319 v304
  let v321 : BitVec 32 := Scalar.addi c30_i32_271 v320
  let c64_i32_275 : BitVec 32 := 64#32
  ![v321.toNat, 64]
def k0_cond16 (k0_t1 : Fin k0_t1_loop.trips) : BitVec 1 :=
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c4_i32_246 : BitVec 32 := 4#32
  let v285 : BitVec 1 := Scalar.cmpi .sge v261 c4_i32_246
  let v286 : BitVec 32 := Scalar.extui v285
  let c0_i32_247 : BitVec 32 := 0#32
  let v287 : BitVec 1 := Scalar.cmpi .ne v286 c0_i32_247
  v287

def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c4_i32_263 : BitVec 32 := 4#32
  let v303 : BitVec 32 := Scalar.subi v261 c4_i32_263
  let c64_i32_264 : BitVec 32 := 64#32
  let v304 : BitVec 32 := Scalar.muli v303 c64_i32_264
  let v305 : BitVec 32 := Scalar.addi v3 v304
  let c0_i32_266 : BitVec 32 := 0#32
  ![v305.toNat, 0]
def k0_off31 (i : grid0.Coords) : Fin 4 → Nat :=
  let arg1 : BitVec 32 := BitVec.ofNat 32 (i 1).val
  let c3_i32_265 : BitVec 32 := 3#32
  let c0_i32_267 : BitVec 32 := 0#32
  let c0_i32_268 : BitVec 32 := 0#32
  ![arg1.toNat, 3, 0, 0]
def k0_off32 (i : grid0.Coords) : Fin 4 → Nat :=
  let arg1 : BitVec 32 := BitVec.ofNat 32 (i 1).val
  let c3_i32_249 : BitVec 32 := 3#32
  let c0_i32_252 : BitVec 32 := 0#32
  let c0_i32_253 : BitVec 32 := 0#32
  ![arg1.toNat, 3, 0, 0]
def k0_cond17 (k0_t1 : Fin k0_t1_loop.trips) : BitVec 1 :=
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c1_i32_258 : BitVec 32 := 1#32
  let v296 : BitVec 1 := Scalar.cmpi .sge v261 c1_i32_258
  let v297 : BitVec 32 := Scalar.extui v296
  let c0_i32_259 : BitVec 32 := 0#32
  let v298 : BitVec 1 := Scalar.cmpi .ne v297 c0_i32_259
  v298

def k0_off33 (i : grid0.Coords) : Fin 4 → Nat :=
  let arg1 : BitVec 32 := BitVec.ofNat 32 (i 1).val
  let c2_i32_264 : BitVec 32 := 2#32
  let c0_i32_267 : BitVec 32 := 0#32
  let c0_i32_268 : BitVec 32 := 0#32
  ![arg1.toNat, 2, 0, 0]
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c1_i32_273 : BitVec 32 := 1#32
  let v311 : BitVec 32 := Scalar.subi v261 c1_i32_273
  let c64_i32_274 : BitVec 32 := 64#32
  let v312 : BitVec 32 := Scalar.muli v311 c64_i32_274
  let v313 : BitVec 32 := Scalar.addi v3 v312
  let c0_i32_276 : BitVec 32 := 0#32
  ![v313.toNat, 0]
def k0_cond18 (k0_t1 : Fin k0_t1_loop.trips) : BitVec 1 :=
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c3_i32_260 : BitVec 32 := 3#32
  let v299 : BitVec 32 := Scalar.addi v261 c3_i32_260
  let c40_i32_261 : BitVec 32 := 40#32
  let v300 : BitVec 1 := Scalar.cmpi .slt v299 c40_i32_261
  let v301 : BitVec 32 := Scalar.extui v300
  let c0_i32_262 : BitVec 32 := 0#32
  let v302 : BitVec 1 := Scalar.cmpi .ne v301 c0_i32_262
  v302

def k0_off35 (k0_t1 : Fin k0_t1_loop.trips) : Fin 2 → Nat :=
  let c30_i32_271 : BitVec 32 := 30#32
  let c4_i32_230 : BitVec 32 := 4#32
  let c0_i32_31 : BitVec 32 := 0#32
  let c1_i32_32 : BitVec 32 := 1#32
  let arg27 : BitVec 32 := Scf.iv c0_i32_31 c1_i32_32 k0_t1
  let v260 : BitVec 32 := Scalar.muli c4_i32_230 arg27
  let c3_i32_231 : BitVec 32 := 3#32
  let v261 : BitVec 32 := Scalar.addi v260 c3_i32_231
  let c3_i32_263 : BitVec 32 := 3#32
  let v303 : BitVec 32 := Scalar.addi v261 c3_i32_263
  let c0_i32_265 : BitVec 32 := 0#32
  let v305 : BitVec 1 := Scalar.cmpi .sgt v303 c0_i32_265
  let v306 : BitVec 32 := Scalar.extui v305
  let c0_i32_266 : BitVec 32 := 0#32
  let v307 : BitVec 1 := Scalar.cmpi .slt v303 c0_i32_266
  let v308 : BitVec 32 := Scalar.extui v307
  let v309 : BitVec 32 := Scalar.subi v306 v308
  let c2_i32_264 : BitVec 32 := 2#32
  let c0_i32_267 : BitVec 32 := 0#32
  let v310 : BitVec 1 := Scalar.cmpi .sgt c2_i32_264 c0_i32_267
  let v311 : BitVec 32 := Scalar.extui v310
  let c0_i32_268 : BitVec 32 := 0#32
  let v312 : BitVec 1 := Scalar.cmpi .slt c2_i32_264 c0_i32_268
  let v313 : BitVec 32 := Scalar.extui v312
  let v314 : BitVec 32 := Scalar.subi v311 v313
  let v315 : BitVec 1 := Scalar.cmpi .ne v309 v314
  let v316 : BitVec 32 := Scalar.remsi v303 c2_i32_264
  let c0_i32_269 : BitVec 32 := 0#32
  let v317 : BitVec 1 := Scalar.cmpi .ne v316 c0_i32_269
  let v318 : BitVec 1 := Scalar.andi v315 v317
  let v304 : BitVec 32 := Scalar.divsi v303 c2_i32_264
  let c1_i32_270 : BitVec 32 := 1#32
  let v319 : BitVec 32 := Scalar.subi v304 c1_i32_270
  let v320 : BitVec 32 := Scalar.select v318 v319 v304
  let v321 : BitVec 32 := Scalar.addi c30_i32_271 v320
  let c0_i32_275 : BitVec 32 := 0#32
  ![v321.toNat, 0]
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3712_i32 : BitVec 32 := 3712#32
  let v30 : BitVec 32 := Scalar.addi v2 c3712_i32
  let c0_i32_37 : BitVec 32 := 0#32
  ![v30.toNat, 0]
def k0_off37 (i : grid0.Coords) : Fin 4 → Nat :=
  let arg1 : BitVec 32 := BitVec.ofNat 32 (i 1).val
  let c3_i32_41 : BitVec 32 := 3#32
  let c0_i32_44 : BitVec 32 := 0#32
  let c0_i32_45 : BitVec 32 := 0#32
  ![arg1.toNat, 3, 0, 0]
def k0_off38 (i : grid0.Coords) (c2496_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c3840_i32 : BitVec 32 := 3840#32
  let v3 : BitVec 32 := Scalar.addi v2 c3840_i32
  let v45 : BitVec 32 := Scalar.addi v3 c2496_i32
  let c0_i32_51 : BitVec 32 := 0#32
  ![v45.toNat, 0]
def k0_off39 (i : grid0.Coords) : Fin 4 → Nat :=
  let arg1 : BitVec 32 := BitVec.ofNat 32 (i 1).val
  let c0_i32_54 : BitVec 32 := 0#32
  let c0_i32_56 : BitVec 32 := 0#32
  let c0_i32_57 : BitVec 32 := 0#32
  ![arg1.toNat, 0, 0, 0]
def k0_off40 (i : grid0.Coords) : Fin 4 → Nat :=
  let arg1 : BitVec 32 := BitVec.ofNat 32 (i 1).val
  let c1_i32_58 : BitVec 32 := 1#32
  let c0_i32_60 : BitVec 32 := 0#32
  let c0_i32_61 : BitVec 32 := 0#32
  ![arg1.toNat, 1, 0, 0]
def k0_off41 (i : grid0.Coords) : Fin 4 → Nat :=
  let arg1 : BitVec 32 := BitVec.ofNat 32 (i 1).val
  let c2_i32_62 : BitVec 32 := 2#32
  let c0_i32_64 : BitVec 32 := 0#32
  let c0_i32_65 : BitVec 32 := 0#32
  ![arg1.toNat, 2, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S32x50x128 : S1024x200.ShapeCasts S32x50x128
  squeezes_S1x50x128_S50x128 : S1x50x128.Squeezes S50x128
  inb_S3x128x128_S1x128x128_0_0_0 : ∀ a, (![0, 0, 0] : Fin 3 → Nat) a + S1x128x128.size a ≤ S3x128x128.size a
  squeezes_S1x128x128_S128x128 : S1x128x128.Squeezes S128x128
  inb_S50x128_S1x128_0_0 : ∀ a, (![0, 0] : Fin 2 → Nat) a + S1x128.size a ≤ S50x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  inb_S3x128x128_S1x128x128_1_0_0 : ∀ a, (![1, 0, 0] : Fin 3 → Nat) a + S1x128x128.size a ≤ S3x128x128.size a
  inb_S50x128_S1x128_1_0 : ∀ a, (![1, 0] : Fin 2 → Nat) a + S1x128.size a ≤ S50x128.size a
  inb_S4x64x128_S1x64x128_0_0_0 : ∀ a, (![0, 0, 0] : Fin 3 → Nat) a + S1x64x128.size a ≤ S4x64x128.size a
  squeezes_S1x64x128_S64x128 : S1x64x128.Squeezes S64x128
  inb_S50x128_S1x64_30_0 : ∀ a, (![30, 0] : Fin 2 → Nat) a + S1x64.size a ≤ S50x128.size a
  squeezes_S1x64_S64 : S1x64.Squeezes S64
  gathers_S1000000x128_S64x128 : S1000000x128.Gathers 0 S64x128
  inb_S4x64x128_S1x64x128_1_0_0 : ∀ a, (![1, 0, 0] : Fin 3 → Nat) a + S1x64x128.size a ≤ S4x64x128.size a
  inb_S50x128_S1x64_30_64 : ∀ a, (![30, 64] : Fin 2 → Nat) a + S1x64.size a ≤ S50x128.size a
  inb_S4x64x128_S1x64x128_2_0_0 : ∀ a, (![2, 0, 0] : Fin 3 → Nat) a + S1x64x128.size a ≤ S4x64x128.size a
  inb_S50x128_S1x64_31_0 : ∀ a, (![31, 0] : Fin 2 → Nat) a + S1x64.size a ≤ S50x128.size a
  inb_S3x128x128_S1x128x128_2_0_0 : ∀ a, (![2, 0, 0] : Fin 3 → Nat) a + S1x128x128.size a ≤ S3x128x128.size a
  squeezes_S1x1x64x128_S64x128 : S1x1x64x128.Squeezes S64x128
  inb_S4x64x128_S1x64x128_3_0_0 : ∀ a, (![3, 0, 0] : Fin 3 → Nat) a + S1x64x128.size a ≤ S4x64x128.size a
  shapeCasts_S204800x128_S1024x200x128 : S204800x128.ShapeCasts S1024x200x128
  hcc0_scratch4 : 0 + S_.numel ≤ 19
  hcc0_scratch5 : 1 + S_.numel ≤ 19
  hcc0_scratch6 : 2 + S_.numel ≤ 19
  hcc0_scratch7 : 3 + S_.numel ≤ 19
  hcc0_scratch8 : 4 + S_.numel ≤ 19
  hcc0_scratch9 : 5 + S_.numel ≤ 19
  hcc0_scratch10 : 6 + S_.numel ≤ 19
  hcc0_scratch11 : 7 + S_.numel ≤ 19
  hcc0_scratch12 : 8 + S_.numel ≤ 19
  hcc0_scratch13 : 9 + S_.numel ≤ 19
  hcc0_scratch14 : 10 + S_.numel ≤ 19
  hcc0_scratch15 : 11 + S_.numel ≤ 19
  hcc0_scratch16 : 12 + S_.numel ≤ 19
  hcc0_scratch17 : 13 + S_.numel ≤ 19
  hcc0_scratch18 : 14 + S_.numel ≤ 19
  hcc0_scratch19 : 15 + S_.numel ≤ 19
  hcc0_scratch20 : 16 + S_.numel ≤ 19
  hcc0_scratch21 : 17 + S_.numel ≤ 19
  hcc0_scoped0 : 18 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_t1_ok : k0_t1_loop.OK
  k0_off2_inb : ∀ k0_t1 : Fin k0_t1_loop.trips, ∀ (r : Fin 3), ∀ a, (k0_off2 k0_t1 (BitVec.ofNat 32 r.val)) a + S1x128.size a ≤ S50x128.size a
  k0_off3_inb : ∀ (i : grid0.Coords) (k0_t1 : Fin k0_t1_loop.trips), ∀ (r : Fin 3), ∀ a, (k0_off3 i k0_t1 (BitVec.ofNat 32 r.val)) a + S128x128.size a ≤ S204800x128.size a
  k0_off4_inb : ∀ (i : grid0.Coords) (k0_t1 : Fin k0_t1_loop.trips), ∀ (k0_h1 : k0_cond1 k0_t1 = 1#1), ∀ a, (k0_off4 i k0_t1) a + S128x128.size a ≤ S204800x128.size a
  k0_off5_inb : ∀ k0_t1 : Fin k0_t1_loop.trips, ∀ (k0_h2 : k0_cond2 k0_t1 = 1#1), ∀ a, (k0_off5 k0_t1) a + S1x128.size a ≤ S50x128.size a
  k0_off6_inb : ∀ (i : grid0.Coords) (k0_t1 : Fin k0_t1_loop.trips), ∀ (k0_h3 : k0_cond3 k0_t1 = 1#1), ∀ a, (k0_off6 i k0_t1) a + S128x128.size a ≤ S204800x128.size a
  k0_off7_inb : ∀ k0_t1 : Fin k0_t1_loop.trips, ∀ (k0_h4 : k0_cond4 k0_t1 = 1#1), ∀ a, (k0_off7 k0_t1) a + S1x128.size a ≤ S50x128.size a
  k0_off8_inb : ∀ (i : grid0.Coords) (k0_t1 : Fin k0_t1_loop.trips), ∀ (k0_h5 : k0_cond5 k0_t1 = 1#1), ∀ a, (k0_off8 i k0_t1) a + S128x128.size a ≤ S204800x128.size a
  k0_off9_inb : ∀ k0_t1 : Fin k0_t1_loop.trips, ∀ (k0_h6 : k0_cond6 k0_t1 = 1#1), ∀ a, (k0_off9 k0_t1) a + S1x128.size a ≤ S50x128.size a
  k0_off10_inb : ∀ k0_t1 : Fin k0_t1_loop.trips, ∀ (r : Fin 2), ∀ a, (k0_off10 k0_t1 (BitVec.ofNat 32 (2 * r.val))) a + S1x64.size a ≤ S50x128.size a
  k0_off11_inb : ∀ (i : grid0.Coords) (k0_t1 : Fin k0_t1_loop.trips), ∀ (k0_h7 : k0_cond7 k0_t1 = 1#1), ∀ a, (k0_off11 i k0_t1) a + S64x128.size a ≤ S204800x128.size a
  k0_off12_inb : ∀ (i : grid0.Coords) (k0_t1 : Fin k0_t1_loop.trips), ∀ (k0_h7 : k0_cond7 k0_t1 = 1#1), ∀ a, (k0_off12 i) a + S1x1x64x128.size a ≤ S16x4x64x128.size a
  k0_off13_inb : ∀ i : grid0.Coords, ∀ a, (k0_off13 i) a + S1x1x64x128.size a ≤ S16x4x64x128.size a
  k0_off14_inb : ∀ (i : grid0.Coords) (k0_t1 : Fin k0_t1_loop.trips), ∀ (k0_h8 : k0_cond8 k0_t1 = 1#1), ∀ a, (k0_off14 i) a + S1x1x64x128.size a ≤ S16x4x64x128.size a
  k0_off15_inb : ∀ (i : grid0.Coords) (k0_t1 : Fin k0_t1_loop.trips), ∀ (k0_h8 : k0_cond8 k0_t1 = 1#1), ∀ a, (k0_off15 i k0_t1) a + S64x128.size a ≤ S204800x128.size a
  k0_off16_inb : ∀ k0_t1 : Fin k0_t1_loop.trips, ∀ (k0_h9 : k0_cond9 k0_t1 = 1#1), ∀ a, (k0_off16 k0_t1) a + S1x64.size a ≤ S50x128.size a
  k0_off17_inb : ∀ k0_t1 : Fin k0_t1_loop.trips, ∀ (r : Fin 2), ∀ a, (k0_off17 k0_t1 (BitVec.ofNat 32 (1 + 2 * r.val))) a + S1x64.size a ≤ S50x128.size a
  k0_off18_inb : ∀ (i : grid0.Coords) (k0_t1 : Fin k0_t1_loop.trips), ∀ (k0_h10 : k0_cond10 k0_t1 = 1#1), ∀ a, (k0_off18 i k0_t1) a + S64x128.size a ≤ S204800x128.size a
  k0_off19_inb : ∀ (i : grid0.Coords) (k0_t1 : Fin k0_t1_loop.trips), ∀ (k0_h10 : k0_cond10 k0_t1 = 1#1), ∀ a, (k0_off19 i) a + S1x1x64x128.size a ≤ S16x4x64x128.size a
  k0_off20_inb : ∀ i : grid0.Coords, ∀ a, (k0_off20 i) a + S1x1x64x128.size a ≤ S16x4x64x128.size a
  k0_off21_inb : ∀ (i : grid0.Coords) (k0_t1 : Fin k0_t1_loop.trips), ∀ (k0_h11 : k0_cond11 k0_t1 = 1#1), ∀ a, (k0_off21 i) a + S1x1x64x128.size a ≤ S16x4x64x128.size a
  k0_off22_inb : ∀ (i : grid0.Coords) (k0_t1 : Fin k0_t1_loop.trips), ∀ (k0_h11 : k0_cond11 k0_t1 = 1#1), ∀ a, (k0_off22 i k0_t1) a + S64x128.size a ≤ S204800x128.size a
  k0_off23_inb : ∀ k0_t1 : Fin k0_t1_loop.trips, ∀ (k0_h12 : k0_cond12 k0_t1 = 1#1), ∀ a, (k0_off23 k0_t1) a + S1x64.size a ≤ S50x128.size a
  k0_off24_inb : ∀ (i : grid0.Coords) (k0_t1 : Fin k0_t1_loop.trips), ∀ (k0_h13 : k0_cond13 k0_t1 = 1#1), ∀ a, (k0_off24 i k0_t1) a + S64x128.size a ≤ S204800x128.size a
  k0_off25_inb : ∀ (i : grid0.Coords) (k0_t1 : Fin k0_t1_loop.trips), ∀ (k0_h13 : k0_cond13 k0_t1 = 1#1), ∀ a, (k0_off25 i) a + S1x1x64x128.size a ≤ S16x4x64x128.size a
  k0_off26_inb : ∀ i : grid0.Coords, ∀ a, (k0_off26 i) a + S1x1x64x128.size a ≤ S16x4x64x128.size a
  k0_off27_inb : ∀ (i : grid0.Coords) (k0_t1 : Fin k0_t1_loop.trips), ∀ (k0_h14 : k0_cond14 k0_t1 = 1#1), ∀ a, (k0_off27 i) a + S1x1x64x128.size a ≤ S16x4x64x128.size a
  k0_off28_inb : ∀ (i : grid0.Coords) (k0_t1 : Fin k0_t1_loop.trips), ∀ (k0_h14 : k0_cond14 k0_t1 = 1#1), ∀ a, (k0_off28 i k0_t1) a + S64x128.size a ≤ S204800x128.size a
  k0_off29_inb : ∀ k0_t1 : Fin k0_t1_loop.trips, ∀ (k0_h15 : k0_cond15 k0_t1 = 1#1), ∀ a, (k0_off29 k0_t1) a + S1x64.size a ≤ S50x128.size a
  k0_off30_inb : ∀ (i : grid0.Coords) (k0_t1 : Fin k0_t1_loop.trips), ∀ (k0_h16 : k0_cond16 k0_t1 = 1#1), ∀ a, (k0_off30 i k0_t1) a + S64x128.size a ≤ S204800x128.size a
  k0_off31_inb : ∀ (i : grid0.Coords) (k0_t1 : Fin k0_t1_loop.trips), ∀ (k0_h16 : k0_cond16 k0_t1 = 1#1), ∀ a, (k0_off31 i) a + S1x1x64x128.size a ≤ S16x4x64x128.size a
  k0_off32_inb : ∀ i : grid0.Coords, ∀ a, (k0_off32 i) a + S1x1x64x128.size a ≤ S16x4x64x128.size a
  k0_off33_inb : ∀ (i : grid0.Coords) (k0_t1 : Fin k0_t1_loop.trips), ∀ (k0_h17 : k0_cond17 k0_t1 = 1#1), ∀ a, (k0_off33 i) a + S1x1x64x128.size a ≤ S16x4x64x128.size a
  k0_off34_inb : ∀ (i : grid0.Coords) (k0_t1 : Fin k0_t1_loop.trips), ∀ (k0_h17 : k0_cond17 k0_t1 = 1#1), ∀ a, (k0_off34 i k0_t1) a + S64x128.size a ≤ S204800x128.size a
  k0_off35_inb : ∀ k0_t1 : Fin k0_t1_loop.trips, ∀ (k0_h18 : k0_cond18 k0_t1 = 1#1), ∀ a, (k0_off35 k0_t1) a + S1x64.size a ≤ S50x128.size a
  k0_off36_inb : ∀ i : grid0.Coords, ∀ a, (k0_off36 i) a + S128x128.size a ≤ S204800x128.size a
  k0_off37_inb : ∀ i : grid0.Coords, ∀ a, (k0_off37 i) a + S1x1x64x128.size a ≤ S16x4x64x128.size a
  k0_off38_inb : ∀ i : grid0.Coords, ∀ (r : Fin 4), ∀ a, (k0_off38 i (BitVec.ofNat 32 (2304 + 64 * r.val))) a + S64x128.size a ≤ S204800x128.size a
  k0_off39_inb : ∀ i : grid0.Coords, ∀ a, (k0_off39 i) a + S1x1x64x128.size a ≤ S16x4x64x128.size a
  k0_off40_inb : ∀ i : grid0.Coords, ∀ a, (k0_off40 i) a + S1x1x64x128.size a ≤ S16x4x64x128.size a
  k0_off41_inb : ∀ i : grid0.Coords, ∀ a, (k0_off41 i) a + S1x1x64x128.size a ≤ S16x4x64x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scratch12 : DmaSems sig S_ := SemArray.consecutive 8 S_ hcc0_scratch12
abbrev cc0_scratch13 : DmaSems sig S_ := SemArray.consecutive 9 S_ hcc0_scratch13
abbrev cc0_scratch14 : DmaSems sig S_ := SemArray.consecutive 10 S_ hcc0_scratch14
abbrev cc0_scratch15 : DmaSems sig S_ := SemArray.consecutive 11 S_ hcc0_scratch15
abbrev cc0_scratch16 : DmaSems sig S_ := SemArray.consecutive 12 S_ hcc0_scratch16
abbrev cc0_scratch17 : DmaSems sig S_ := SemArray.consecutive 13 S_ hcc0_scratch17
abbrev cc0_scratch18 : DmaSems sig S_ := SemArray.consecutive 14 S_ hcc0_scratch18
abbrev cc0_scratch19 : DmaSems sig S_ := SemArray.consecutive 15 S_ hcc0_scratch19
abbrev cc0_scratch20 : DmaSems sig S_ := SemArray.consecutive 16 S_ hcc0_scratch20
abbrev cc0_scratch21 : DmaSems sig S_ := SemArray.consecutive 17 S_ hcc0_scratch21
abbrev cc0_scoped0 : DmaSems sig S_ := SemArray.consecutive 18 S_ hcc0_scoped0

class Facts : Prop extends Facts₀ where

variable [Facts]
-- ==== ReferenceIdeal.lean ====
abbrev S1024x200 : Shape := ⟨2, ![1024, 200]⟩
abbrev S1000000x128 : Shape := ⟨2, ![1000000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  gather_S1000000x128_S1024x200x1_S1024x200x128_2_0_n_n_0_2_1128_wf : GatherDims.WF S1000000x128 S1024x200x1 S1024x200x128 [2] [0] [] [0] [] 2 ![1, 128]

variable [Facts₀]

def gather_S1000000x128_S1024x200x1_S1024x200x128_2_0_n_n_0_2_1128 : GatherDims S1000000x128 S1024x200x1 S1024x200x128 where
  offsetDims := [2]
  collapsedSliceDims := [0]
  operandBatchingDims := []
  startIndicesBatchingDims := []
  startIndexMap := [0]
  indexVectorDim := 2
  sliceSizes := ![1, 128]
  wf := gather_S1000000x128_S1024x200x1_S1024x200x128_2_0_n_n_0_2_1128_wf

class Facts : Prop extends Facts₀ where

variable [Facts]
-- ==== Proof.Spec.lean ====
/-
  The specification both programs are compared with: an embedding lookup. The result's entry `(b, s, k)` is entry
  `k` of the table's row named by token `(b, s)`. A token is read as an unsigned number; every token the claim
  speaks of lies in `[0, 999999]`, so the cap at the last row below only makes the function total.
-/
import Idealize.ShloMosaic.PureOps
import Idealize.ShloMosaic.Lib.ValueIdx

noncomputable section

namespace Cert.Spec

open Idealize.ShloMosaic Idealize.ShloMosaic.ValueIdx

/-- The token array's shape, the table's and the result's. -/
abbrev STok : Shape := ⟨2, ![1024, 200]⟩
abbrev STab : Shape := ⟨2, ![1000000, 128]⟩
abbrev SOut : Shape := ⟨3, ![1024, 200, 128]⟩

/-- The table row a token names: its unsigned value, capped at the last row. -/
def rowOf (t : BitVec 32) : Fin 1000000 := ⟨min t.toNat 999999, by omega⟩

/-- A token below the number of rows names its own value. -/
theorem rowOf_val {t : BitVec 32} (h : t.toNat < 1000000) : (rowOf t).val = t.toNat := by
  show min t.toNat 999999 = t.toNat
  omega

/-- Every token names a row of the table. -/
def InRange (tok : STok.Idx → BitVec 32) : Prop := ∀ j, (tok j).toNat < 1000000

/-- The lookup: entry `(b, s, k)` of the result is entry `k` of row `rowOf (tok (b, s))` of the table. -/
def lookup {α : Type} (tok : STok.Idx → BitVec 32) (W : STab.Idx → α) : SOut.Idx → α :=
  fun y => W (ix2 (n0 := 1000000) (n1 := 128) (rowOf (tok (ix2 (n0 := 1024) (n1 := 200) (y 0) (y 1)))) (y 2))

theorem lookup_apply {α : Type} (tok : STok.Idx → BitVec 32) (W : STab.Idx → α) (b : Fin 1024) (s : Fin 200) (k : Fin 128) :
    lookup tok W (ix3 b s k) = W (ix2 (rowOf (tok (ix2 b s))) k) := rfl

/-- The tokens regrouped per worker as the kernel sees them, and the kernel's flat result. -/
abbrev SIdx3 : Shape := ⟨3, ![32, 50, 128]⟩
abbrev SFlat : Shape := ⟨2, ![204800, 128]⟩

/-- The regrouped token that flat row `n` of the result is looked up with: worker `n / 6400`, group `n % 6400 / 128`,
    lane `n % 128`. -/
def idx3Of (n : Fin 204800) : SIdx3.Idx :=
  ix3 (n0 := 32) (n1 := 50) (n2 := 128) ⟨n.val / 6400, by omega⟩ ⟨n.val % 6400 / 128, by omega⟩ ⟨n.val % 128, by omega⟩

/-- The lookup over the regrouped tokens, flat: row `n` of the result is the table's row named by the regrouped token
    of `n`. -/
def flatLookup {α : Type} (idx3 : SIdx3.Idx → BitVec 32) (W : STab.Idx → α) : SFlat.Idx → α :=
  fun y => W (ix2 (n0 := 1000000) (n1 := 128) (rowOf (idx3 (idx3Of (y 0)))) (y 1))

theorem flatLookup_apply {α : Type} (idx3 : SIdx3.Idx → BitVec 32) (W : STab.Idx → α) (n : Fin 204800) (k : Fin 128) :
    flatLookup idx3 W (ix2 n k) = W (ix2 (rowOf (idx3 (idx3Of n))) k) := rfl

end Cert.Spec

end
-- ==== Proof.KBCommon.lean ====
/-
  What the body and the launch of the lookup kernel share: the program as the launch theorem sees it, the ghost algebra
  (the handshakes' rounds beside the transfers' counters: every copy of this kernel is issued and waited for by one
  tile on a semaphore of its own, so no schedule is needed), the arrays' locations, and what the handshakes carry.

  The kernel regroups the 204800 tokens as 32 workers × 50 groups × 128 lanes; tile `i` of SparseCore `c` is worker
  `2 i + c` and writes rows `[6400 w, 6400 (w + 1))` of the flat result, each row the table's row its token names.
  Every tile reads the regrouped tokens and the table through a read share of its own; its block of the flat result
  and its row of the SparseCore's shared staging memory it holds outright.
-/
import proofs.«206231_g69020124446782_cont_9to1c4b_129_32_alg».proof.Defs
import proofs.«206231_g69020124446782_cont_9to1c4b_129_32_alg».proof.Proof.Spec
import proofs.«206231_g69020124446782_cont_9to1c4b_129_32_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The tokens, the table, the regrouped tokens, the flat result and the result, as locations of device `d`. -/
abbrev argLoc (d : Dev nD) : Loc nD τ sig := (SparseCore.T d).loc main_arg0
abbrev tabLoc (d : Dev nD) : Loc nD τ sig := (SparseCore.T d).loc main_arg1
abbrev tokLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- SparseCore `c`'s shared staging memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Worker `2 i + c`: tile `i` of SparseCore `c`. -/
def wid (c : Fin 2) (i : Fin 16) : Fin 32 := ⟨2 * i.val + c.val, by omega⟩

/-- Worker `t`'s block of the flat result: rows `[6400 t, 6400 (t + 1))`. -/
theorem hdivOut : 32 ∣ S204800x128.size 0 := ⟨6400, rfl⟩
abbrev blk (t : Fin 32) : Rect S204800x128 := Rect.part (s := S204800x128) (a₀ := 0) hdivOut t
abbrev blkSet (t : Fin 32) : Finset S204800x128.Idx :=
  ((Memref.whole main_v1_scv : Memref sig .scVector .hbm S204800x128 .f32).view.slice (blk t)).set

/-- Tile `i`'s row of the shared staging memory: its four slots. -/
theorem hdivSh : 16 ∣ S16x4x64x128.size 0 := ⟨1, rfl⟩
abbrev shRow (i : Fin 16) : Rect S16x4x64x128 := Rect.part (s := S16x4x64x128) (a₀ := 0) hdivSh i
abbrev shRowSet (i : Fin 16) : Finset S16x4x64x128.Idx :=
  ((Memref.whole cc0_scratch3 : Memref sig .scVector .shared S16x4x64x128 .f32).view.slice (shRow i)).set

/-- Worker `t`'s read share of an array all workers read, and what the TensorCore keeps of it. -/
abbrev rshare (t : Fin 32) : PosShare TreeShare := Transfers.shareTok fullShare 32 t
abbrev keepShare : PosShare TreeShare := Transfers.shareDrop fullShare 32

variable [FloatOps F]

/-- The regrouped tokens: what the reshape before the call leaves in its result. -/
def idx3 (d : Dev nD) : Spec.SIdx3.Idx → BitVec 32 := shapeCast S32x50x128 (m (argLoc d)) shapeCasts_S1024x200_S32x50x128

/-- The flat result the call leaves: row `n` the table's row named by regrouped token `n`. -/
def flatRes (d : Dev nD) : Buf (Elt F) (outLoc d) := Spec.flatLookup (idx3 m d) (m (tabLoc d))

/-! ## What the handshakes carry -/

/-- What a task is handed of the arrays: its read shares of the regrouped tokens and of the table, and its block of the
    flat result, at `f`. -/
def taskArrays (d : Dev nD) (t : Fin 32) (f : Buf (Elt F) (outLoc d)) : sProp 𝕄 :=
  iprop((tokLoc d ↦{rshare t} idx3 m d) ∗ (tabLoc d ↦{rshare t} m (tabLoc d)) ∗ outLoc d ↦[blkSet t]{fullShare} f)

/-- Its row of the shared staging memory, at some contents. -/
def taskShared (d : Dev nD) (c : Fin τ.nSC) (i : Fin 16) : sProp 𝕄 := iprop(∃ g, shLoc d c ↦[shRowSet i]{fullShare} g)

/-- The one call: a SparseCore takes its sixteen tasks' arrays and brings them back, each block of the flat result at
    the lookup; each task takes, beside, its row of the shared staging memory, and brings it back. -/
def P : (K (F := F)).Pay (nD := nD) (Val := Elt F) (Name := ℕ) (U := UU) where
  st := fun q d c => match q with
    | 0 => bigSep Finset.univ fun i : Fin 16 => taskArrays m d (wid (Fin.cast nCore_zero c) i) (m (outLoc d))
  dn := fun q d c => match q with
    | 0 => bigSep Finset.univ fun i : Fin 16 => taskArrays m d (wid (Fin.cast nCore_zero c) i) (flatRes m d)
  go := fun q d c i => match q with
    | 0 => iprop(taskArrays m d (wid (Fin.cast nCore_zero c) (Fin.cast nSub_zero i)) (m (outLoc d))
        ∗ taskShared d ((K (F := F)).core 0 c) (Fin.cast nSub_zero i))
  td := fun q d c i => match q with
    | 0 => iprop(taskArrays m d (wid (Fin.cast nCore_zero c) (Fin.cast nSub_zero i)) (flatRes m d)
        ∗ taskShared d ((K (F := F)).core 0 c) (Fin.cast nSub_zero i))
  x := fun _ _ => iprop(emp)

instance P_storable : (P (F := F) m).IsStorable where
  st q d c := match q with | 0 => by unfold P taskArrays; infer_instance
  dn q d c := match q with | 0 => by unfold P taskArrays; infer_instance
  go q d c i := match q with | 0 => by unfold P taskArrays taskShared; infer_instance
  td q d c i := match q with | 0 => by unfold P taskArrays taskShared; infer_instance

end Cert.Proof.KB

end
-- ==== Proof.KBOwn.lean ====
/-
  A vector subcore's own scoped storage, named piece by piece: its nineteen DMA semaphores, every one scoped and no regular
  semaphore so, each at zero; and its three scratch buffers in its tile memory, each at some contents. Both lists are
  complete: nothing else is the subcore's own, so each equation ends in `emp` (and is given once more without it).
-/
import proofs.«206231_g69020124446782_cont_9to1c4b_129_32_alg».proof.Proof.KBCommon
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The semaphores -/

/-- DMA semaphore `k` of vector subcore `i` of SparseCore `c`, as a cell of the machine. -/
abbrev dcell (d : Dev nD) (c : Fin τ.nSC) (i : Fin τ.nSub) (k : DmaSem sig) : GSem nD τ sig := (V d c i, .dma k)

/-- The scoped semaphore cells of a vector subcore are its nineteen DMA semaphores and nothing else. -/
theorem scopedSemLocs :
    (Finset.univ.filter fun sm : SemLoc sig => sm.isScoped .scVector = true)
      = ([.dma 0, .dma 1, .dma 2, .dma 3, .dma 4, .dma 5, .dma 6, .dma 7, .dma 8, .dma 9, .dma 10, .dma 11, .dma 12, .dma 13,
          .dma 14, .dma 15, .dma 16, .dma 17, .dma 18] : List (SemLoc sig)).toFinset := by
  decide

/-- A vector subcore's own semaphores at zero are its nineteen DMA semaphores at zero, one by one, and nothing else. -/
theorem ownSems0_V (d : Dev nD) (c : Fin τ.nSC) (i : Fin τ.nSub) :
    (ownSems0 (V d c i) : sProp 𝕄)
      = iprop(semVal (dcell d c i cc0_scratch4.sem) 0 ∗ semVal (dcell d c i cc0_scratch5.sem) 0 ∗ semVal (dcell d c i cc0_scratch6.sem) 0
          ∗ semVal (dcell d c i cc0_scratch7.sem) 0 ∗ semVal (dcell d c i cc0_scratch8.sem) 0 ∗ semVal (dcell d c i cc0_scratch9.sem) 0
          ∗ semVal (dcell d c i cc0_scratch10.sem) 0 ∗ semVal (dcell d c i cc0_scratch11.sem) 0 ∗ semVal (dcell d c i cc0_scratch12.sem) 0
          ∗ semVal (dcell d c i cc0_scratch13.sem) 0 ∗ semVal (dcell d c i cc0_scratch14.sem) 0 ∗ semVal (dcell d c i cc0_scratch15.sem) 0
          ∗ semVal (dcell d c i cc0_scratch16.sem) 0 ∗ semVal (dcell d c i cc0_scratch17.sem) 0 ∗ semVal (dcell d c i cc0_scratch18.sem) 0
          ∗ semVal (dcell d c i cc0_scratch19.sem) 0 ∗ semVal (dcell d c i cc0_scratch20.sem) 0 ∗ semVal (dcell d c i cc0_scratch21.sem) 0
          ∗ semVal (dcell d c i cc0_scoped0.sem) 0
          ∗ emp) := by
  rw [SparseCore.Cfg.ownSems0_eq]
  refine (bigSep_eq_bigSepL_of_eq _ scopedSemLocs (by decide) _).trans ?_
  simp only [bigSepL_cons, bigSepL_nil]
  rfl

/-- The same without the closing `emp`. -/
theorem ownSems0_V' (d : Dev nD) (c : Fin τ.nSC) (i : Fin τ.nSub) :
    (ownSems0 (V d c i) : sProp 𝕄)
      = iprop(semVal (dcell d c i cc0_scratch4.sem) 0 ∗ semVal (dcell d c i cc0_scratch5.sem) 0 ∗ semVal (dcell d c i cc0_scratch6.sem) 0
          ∗ semVal (dcell d c i cc0_scratch7.sem) 0 ∗ semVal (dcell d c i cc0_scratch8.sem) 0 ∗ semVal (dcell d c i cc0_scratch9.sem) 0
          ∗ semVal (dcell d c i cc0_scratch10.sem) 0 ∗ semVal (dcell d c i cc0_scratch11.sem) 0 ∗ semVal (dcell d c i cc0_scratch12.sem) 0
          ∗ semVal (dcell d c i cc0_scratch13.sem) 0 ∗ semVal (dcell d c i cc0_scratch14.sem) 0 ∗ semVal (dcell d c i cc0_scratch15.sem) 0
          ∗ semVal (dcell d c i cc0_scratch16.sem) 0 ∗ semVal (dcell d c i cc0_scratch17.sem) 0 ∗ semVal (dcell d c i cc0_scratch18.sem) 0
          ∗ semVal (dcell d c i cc0_scratch19.sem) 0 ∗ semVal (dcell d c i cc0_scratch20.sem) 0 ∗ semVal (dcell d c i cc0_scratch21.sem) 0
          ∗ semVal (dcell d c i cc0_scoped0.sem) 0) := by
  rw [SparseCore.Cfg.ownSems0_eq]
  exact bigSep_eq_bigSepL_of_eq _ scopedSemLocs (by decide) _

/-! ## The buffers -/

/-- No buffer in HBM is a processor's: it is the device's or a SparseCore's. -/
theorem hbmOwner_ne_proc (fl : Bool) (h : τ.HbmHolder fl) (p : Proc τ) : Topo.HbmHolder.owner h ≠ .proc p := by
  cases fl <;> simp [Topo.HbmHolder.owner]

/-- A vector subcore's own buffers are its three scratch buffers in its tile memory and nothing else: the arrays in HBM are
    the device's, the staging memory its SparseCore's. -/
theorem ownRefs_V (c : Fin τ.nSC) (i : Fin τ.nSub) :
    ownRefs (τ := τ) (sig := sig) (.scVector c i)
      = ([(Proc.scVector c i).devRef cc0_scratch0, (Proc.scVector c i).devRef cc0_scratch1,
          (Proc.scVector c i).devRef cc0_scratch2] : List (DevRef τ sig)).toFinset := by
  ext b
  rw [mem_ownRefs, SparseCore.Cfg.home_eq_scVector]
  rcases b with ⟨tb, idx, u⟩
  cases tb with
  | hbm =>
    have hne : (⟨.hbm, idx, u⟩ : DevRef τ sig).owner ≠ .proc (.scVector c i) := hbmOwner_ne_proc (sig.hbmOfSc idx) u (.scVector c i)
    simp [hne]
  | host => exact idx.elim0
  | shared => simp [DevRef.owner]
  | «local» κ cs =>
    cases κ <;> cases cs
    all_goals first | exact idx.elim0 | skip
    obtain ⟨c', i'⟩ := u
    fin_cases idx
    all_goals simp [DevRef.owner, Kind.proc, Proc.holderOf, Proc.coord, Fin.ext_iff]

/-- The three scratch buffers are different buffers. -/
theorem ownRefs_nodup (c : Fin τ.nSC) (i : Fin τ.nSub) :
    ([(Proc.scVector c i).devRef cc0_scratch0, (Proc.scVector c i).devRef cc0_scratch1,
      (Proc.scVector c i).devRef cc0_scratch2] : List (DevRef τ sig)).Nodup :=
  List.Nodup.map (Proc.devRef_injective (Proc.scVector c i))
    (show ([cc0_scratch0, cc0_scratch1, cc0_scratch2] : List (Ref sig .scVector)).Nodup by decide)

/-- A vector subcore's own buffers, each at some contents, are its three scratch buffers at some contents, one by one,
    and nothing else. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ emp) := by
  unfold SparseCore.Cfg.ownBufs
  rw [show (V d c i : Thread nD τ).2 = .scVector c i from rfl, ownRefs_V]
  refine (bigSep_eq_bigSepL _ (ownRefs_nodup c i) _).trans ?_
  simp only [bigSepL_cons, bigSepL_nil]
  rfl

/-- The same without the closing `emp`. -/
theorem ownBufs_V' (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)) := by
  unfold SparseCore.Cfg.ownBufs
  rw [show (V d c i : Thread nD τ).2 = .scVector c i from rfl, ownRefs_V]
  exact bigSep_eq_bigSepL _ (ownRefs_nodup c i) _

end Cert.Proof.KB

end
-- ==== Proof.KBFacts.lean ====
/-
  Pure facts about the index list of one tile of the lookup kernel: the block of regrouped tokens the tile copies into
  its index scratch is, element by element, the regrouped tokens of its worker; so every entry of every list of offsets
  an indexed copy reads out of that scratch names a row of the table.
-/
import proofs.«206231_g69020124446782_cont_9to1c4b_129_32_alg».proof.Proof.KBCommon
import proofs.«206231_g69020124446782_cont_9to1c4b_129_32_alg».proof.Proof.Gen.Kernel.Skeleton
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Facts

variable (d : Dev nD) (L : grid0.Coords)

/-- The tile's block of regrouped tokens as the synchronous copy lands it in the index scratch. -/
def idxPay (d : Dev nD) (L : grid0.Coords) : S50x128.Idx → Elt F .i32 :=
  ReadAs.same.apply (View.read (Elt F) (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view (idx3 m d))

omit [FloatOps F] in
/-- The tile's worker number, `2 · (L 1) + (L 0)`, is one of the 32. -/
theorem worker_lt : 2 * (L 1).val + (L 0).val < 32 := by
  have h0 : (L 0).val < 2 := (L 0).isLt
  have h1 : (L 1).val < 16 := (L 1).isLt
  omega

omit [FloatOps F] in
/-- Where entry `(g, l)` of the tile's block sits among the regrouped tokens: at `(2 · (L 1) + (L 0), g, l)`. The block is
    the unit-thick slab of the array at the worker's number with its first axis dropped, so `(g, l)` is `(0, g, l)` of
    the slab (the same row-major position), which the slab's offsets carry to the worker's row. -/
theorem idxRow_emb (g : Fin 50) (l : Fin 128) :
    (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view.emb (ValueIdx.ix2 g l)
      = (ValueIdx.ix3 (⟨2 * (L 1).val + (L 0).val, worker_lt L⟩ : Fin 32) g l : S32x50x128.Idx) := by
  have hre : Shape.reshapeEquiv (squeezes_S1x50x128_S50x128).numel_eq (ValueIdx.ix2 g l) = (ValueIdx.ix3 (0 : Fin 1) g l : S1x50x128.Idx) :=
    Shape.reshapeEquiv_eq_of_rowMajor _ (by
      rw [Shape.rowMajor_val_three, Shape.rowMajor_val_two]
      show ((0 : ℕ) * 50 + g.val) * 128 + l.val = g.val * 128 + l.val
      omega)
  show (Rect.unit (s := S32x50x128) (k0_off1 L) S1x50x128.size (k0_off1_inb L)).emb (Shape.reshapeEquiv (squeezes_S1x50x128_S50x128).numel_eq (ValueIdx.ix2 g l)) = _
  rw [hre]
  funext a; apply Fin.ext
  rw [Rect.emb_apply]
  show k0_off1 L a + 1 * ((ValueIdx.ix3 (0 : Fin 1) g l : S1x50x128.Idx) a).val = _
  rw [k0_off1_eq]
  match a with
  | ⟨0, _⟩ => show 2 * (L 1).val + (L 0).val + 1 * 0 = 2 * (L 1).val + (L 0).val; omega
  | ⟨1, _⟩ => show 0 + 1 * g.val = g.val; omega
  | ⟨2, _⟩ => show 0 + 1 * l.val = l.val; omega

omit [FloatOps F] in
/-- Entry `(g, l)` of the tile's block is regrouped token `(2 · (L 1) + (L 0), g, l)`. -/
theorem idxPay_apply (g : Fin 50) (l : Fin 128) :
    idxPay m d L (ValueIdx.ix2 g l) = idx3 m d (ValueIdx.ix3 ⟨2 * (L 1).val + (L 0).val, worker_lt L⟩ g l) := by
  unfold idxPay
  rw [ReadAs.apply_same, View.read_apply, cast_eq]
  exact congrArg (idx3 m d) (idxRow_emb L g l)

omit [FloatOps F] in
/-- Every entry of the tile's block names a row of the table, when every regrouped token does. -/
theorem idxPay_inRange (hin : ∀ j, (idx3 m d j).toNat < 1000000) (y : S50x128.Idx) : (idxPay m d L y).toNat < 1000000 := by
  have e : idxPay m d L y = idx3 m d (ValueIdx.ix3 ⟨2 * (L 1).val + (L 0).val, worker_lt L⟩ (y 0) (y 1)) :=
    (congrArg (idxPay m d L) (ValueIdx.eq_ix2 y)).trans (idxPay_apply m d L (y 0) (y 1))
  rw [e]; exact hin _

omit [FloatOps F] in
/-- Whatever part of the index scratch a list of offsets is read from, once the scratch holds entries that all name rows
    of the table, so does the list: reading through a view only picks elements. -/
theorem list_inRange' (w : S50x128.Idx → Elt F .i32) (hw : ∀ y, (w y).toNat < 1000000) :
    ∀ (si : Shape) (r : Rect S50x128) (hr : ∀ a, r.stride a = 1) (sq : r.shape.Squeezes si)
      (g : Buf (Elt F) ((V d ((L 0).castLE hcore0) ((L 1).castLE hsub0)).loc cc0_scratch0)) (x : si.Idx),
      (((((Memref.whole cc0_scratch0 : Memref sig .scVector .vmem S50x128 .i32)).slice r hr).squeeze si sq).view.read (Elt F)
        ((Memref.whole cc0_scratch0 : Memref sig .scVector .vmem S50x128 .i32).view.write (Elt F) g w Finset.univ) x).toNat < 1000000 := by
  intro si r hr sq g x
  have hland : (Memref.whole cc0_scratch0 : Memref sig .scVector .vmem S50x128 .i32).view.write (Elt F) g w Finset.univ = w :=
    View.write_whole_univ _ _ _
  rw [hland, View.read_apply, cast_eq]
  exact hw _

omit [FloatOps F] in
/-- The same once the scratch holds the tile's block of regrouped tokens. -/
theorem list_inRange (hin : ∀ j, (idx3 m d j).toNat < 1000000) :
    ∀ (si : Shape) (r : Rect S50x128) (hr : ∀ a, r.stride a = 1) (sq : r.shape.Squeezes si)
      (g : Buf (Elt F) ((V d ((L 0).castLE hcore0) ((L 1).castLE hsub0)).loc cc0_scratch0)) (x : si.Idx),
      (((((Memref.whole cc0_scratch0 : Memref sig .scVector .vmem S50x128 .i32)).slice r hr).squeeze si sq).view.read (Elt F)
        ((Memref.whole cc0_scratch0 : Memref sig .scVector .vmem S50x128 .i32).view.write (Elt F) g (idxPay m d L) Finset.univ) x).toNat < 1000000 :=
  list_inRange' d L (idxPay m d L) (idxPay_inRange m d L hin)

omit [FloatOps F] in
/-- The same with the worker's number as the launch writes it. -/
theorem idxPay_apply_wid (g : Fin 50) (l : Fin 128) :
    idxPay m d L (ValueIdx.ix2 g l)
      = idx3 m d (ValueIdx.ix3 (wid (Fin.cast (show grid0.bound 0 = 2 from rfl) (L 0)) (Fin.cast (show grid0.bound 1 = 16 from rfl) (L 1))) g l) :=
  idxPay_apply m d L g l

end Facts

end Cert.Proof.KB

end
-- ==== Proof.KBGather.lean ====
/-
  What the tile's indexed copies deliver, read at an index. An indexed copy fills row `k` of its destination with the
  table's row named by word `k` of a list of offsets; the list is one row of the tile's index scratch (or half of one),
  which holds the tile's block of regrouped tokens. So entry `(k, j)` of what a copy delivers is entry `j` of the table's
  row named by the regrouped token at that place of the block. Last, the flat result read at a worker's row.
-/
import proofs.«206231_g69020124446782_cont_9to1c4b_129_32_alg».proof.Proof.KBFacts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Gather

variable (d : Dev nD) (L : grid0.Coords)

omit [FloatOps F] in
/-- In a shape of rank one the index at row-major position `k` is `k`. -/
theorem rowMajor_symm_one {n : ℕ} (k : Fin (⟨1, ![n]⟩ : Shape).numel) :
    (⟨1, ![n]⟩ : Shape).rowMajor.symm k
      = ValueIdx.ix1 (k.cast (show (⟨1, ![n]⟩ : Shape).numel = n from Shape.numel_rank1 _)) := by
  rw [Equiv.symm_apply_eq]; apply Fin.ext; rw [Shape.rowMajor_val_one]; rfl

omit [FloatOps F] in
/-- Where word `k` of a list of `n` offsets sits in the index scratch, the list being the `n` entries of row `g` from
    column `c0` on: at `(g, c0 + k)`. The list is a unit-thick slab of the scratch with its first axis dropped. -/
theorem listEmb (n : ℕ) (sq : (⟨2, ![1, n]⟩ : Shape).Squeezes ⟨1, ![n]⟩) (off : Fin 2 → ℕ)
    (inb : ∀ a, off a + (⟨2, ![1, n]⟩ : Shape).size a ≤ S50x128.size a) (g : Fin 50) (c0 : ℕ) (hc : c0 + n ≤ 128)
    (h0 : off 0 = g.val) (h1 : off 1 = c0) (k : Fin n) :
    (((Memref.whole cc0_scratch0 : Memref sig .scVector .vmem S50x128 .i32).slice
        (Rect.unit (s := S50x128) off (⟨2, ![1, n]⟩ : Shape).size inb) (fun _ => rfl)).squeeze ⟨1, ![n]⟩ sq).view.emb (ValueIdx.ix1 k)
      = (ValueIdx.ix2 g (⟨c0 + k.val, by have := k.isLt; omega⟩ : Fin 128) : S50x128.Idx) := by
  have hre : Shape.reshapeEquiv sq.numel_eq (ValueIdx.ix1 k) = (ValueIdx.ix2 (0 : Fin 1) k : (⟨2, ![1, n]⟩ : Shape).Idx) :=
    Shape.reshapeEquiv_eq_of_rowMajor _ (by
      rw [Shape.rowMajor_val_two, Shape.rowMajor_val_one]
      show (0 : ℕ) * n + k.val = k.val
      omega)
  show (Rect.unit (s := S50x128) off (⟨2, ![1, n]⟩ : Shape).size inb).emb (Shape.reshapeEquiv sq.numel_eq (ValueIdx.ix1 k)) = _
  rw [hre]
  funext a; apply Fin.ext
  rw [Rect.emb_apply]
  match a with
  | ⟨0, _⟩ => show off 0 + 1 * 0 = g.val; omega
  | ⟨1, _⟩ => show off 1 + 1 * k.val = c0 + k.val; omega

omit [FloatOps F] in
/-- Word `k` of such a list, once the scratch holds the tile's block of regrouped tokens: entry `(g, c0 + k)` of the block. -/
theorem listWord (n : ℕ) (sq : (⟨2, ![1, n]⟩ : Shape).Squeezes ⟨1, ![n]⟩) (off : Fin 2 → ℕ)
    (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0)) (k : Fin n) :
    View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) (ValueIdx.ix1 k)
      = idxPay m d L (ValueIdx.ix2 g (⟨c0 + k.val, by have := k.isLt; omega⟩ : Fin 128)) := by
  have hland : (Memref.whole cc0_scratch0 : Memref sig .scVector .vmem S50x128 .i32).view.write (Elt F) fi (idxPay m d L) Finset.univ = idxPay m d L :=
    View.write_whole_univ _ _ _
  rw [hland, View.read_apply, cast_eq]
  exact congrArg (idxPay m d L) (listEmb n sq off inb g c0 hc h0 h1 k)

omit [FloatOps F] in
/-- The row of the table that entry `k` of such a list names, as a number. -/
theorem rows_val (n : ℕ) (hg : S1000000x128.Gathers 0 (⟨2, ![n, 128]⟩ : Shape)) (sq : (⟨2, ![1, n]⟩ : Shape).Squeezes ⟨1, ![n]⟩)
    (off : Fin 2 → ℕ) (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0))
    (hn : (⟨1, ![n]⟩ : Shape).numel = (⟨2, ![n, 128]⟩ : Shape).size hg.axis')
    (hin : ∀ x, (View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) x).toNat
          < S1000000x128.size hg.axis)
    (k : Fin ((⟨2, ![n, 128]⟩ : Shape).size hg.axis')) :
    (SparseCore.rows (View.read (Elt F) (((Memref.whole cc0_scratch0 : Memref sig .scVector .vmem S50x128 .i32).slice
          (Rect.unit (s := S50x128) off (⟨2, ![1, n]⟩ : Shape).size inb) (fun _ => rfl)).squeeze ⟨1, ![n]⟩ sq).view
          (View.write (Elt F) (Memref.whole cc0_scratch0 : Memref sig .scVector .vmem S50x128 .i32).view fi (idxPay m d L) Finset.univ)) hn hin k).val
      = (idxPay m d L (ValueIdx.ix2 g (⟨c0 + k.val, by have : k.val < n := k.isLt; omega⟩ : Fin 128))).toNat := by
  unfold SparseCore.rows
  show BitVec.toNat _ = _
  rw [rowMajor_symm_one, listWord m d L n sq off inb g c0 hc h0 h1 fi]
  rfl

omit [FloatOps F] in
/-- An indexed copy of `n` rows of the table, its list the `n` entries of row `g` of the index scratch from column `c0` on,
    the scratch holding the tile's block of regrouped tokens: entry `(k, j)` of what it delivers is entry `j` of the
    table's row named by entry `(g, c0 + k)` of the block. -/
theorem gather_val_gen (n : ℕ) (hg : S1000000x128.Gathers 0 (⟨2, ![n, 128]⟩ : Shape)) (sq : (⟨2, ![1, n]⟩ : Shape).Squeezes ⟨1, ![n]⟩)
    (off : Fin 2 → ℕ) (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0))
    (hn : (⟨1, ![n]⟩ : Shape).numel = (⟨2, ![n, 128]⟩ : Shape).size hg.axis')
    (hin : ∀ x, (View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) x).toNat
          < S1000000x128.size hg.axis)
    (x : (⟨2, ![n, 128]⟩ : Shape).Idx) :
    SparseCore.gatherPayload hg
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off (⟨2, ![1, n]⟩ : Shape).size inb) (fun _ => rfl)).squeeze ⟨1, ![n]⟩ sq).view
          (View.write (Elt F) (Memref.whole cc0_scratch0 : Memref sig .scVector .vmem S50x128 .i32).view fi (idxPay m d L) Finset.univ)) hn hin) x
      = m (tabLoc d) (ValueIdx.ix2
          (Spec.rowOf (idxPay m d L (ValueIdx.ix2 g (⟨c0 + (x 0).val, by have : (x 0).val < n := (x 0).isLt; omega⟩ : Fin 128))))
          (⟨(x 1).val, (x 1).isLt⟩ : Fin 128)) := by
  have hx0n : (x 0).val < n := (x 0).isLt
  -- the word the list holds for this row, and that it names a row of the table
  have hrow := rows_val m d L n hg sq off inb g c0 hc h0 h1 fi hn hin (x hg.axis')
  have hr : (idxPay m d L (ValueIdx.ix2 g (⟨c0 + (x 0).val, by omega⟩ : Fin 128))).toNat < 1000000 := by
    have hlt := hin (ValueIdx.ix1 ⟨(x 0).val, hx0n⟩)
    rw [listWord m d L n sq off inb g c0 hc h0 h1 fi] at hlt
    exact hlt
  unfold SparseCore.gatherPayload
  rw [View.read_apply, cast_eq]
  refine congrArg (m (tabLoc d)) ?_
  show (Rect.unit (s := S1000000x128) ![0, 0] S1000000x128.size inb_S1000000x128_S1000000x128_0_0).emb (hg.idx _ x) = _
  funext a; apply Fin.ext
  rw [Rect.emb_apply]
  match a with
  | ⟨0, h⟩ =>
    show 0 + 1 * (hg.idx _ x hg.axis).val = (Spec.rowOf _).val
    rw [Shape.Gathers.idx_axis, Spec.rowOf_val hr, hrow, Nat.zero_add, Nat.one_mul]
    rfl
  | ⟨1, h⟩ =>
    show 0 + 1 * (hg.idx _ x ⟨1, h⟩).val = (x 1).val
    rw [Shape.Gathers.idx_of_ne hg _ x ⟨1, h⟩ (by show (1 : ℕ) ≠ 0; omega)]
    show 0 + 1 * (x 1).val = (x 1).val
    omega

omit [FloatOps F] in
/-- A copy of 128 rows, its list a whole row `g` of the index scratch: entry `(k, j)` is entry `j` of the table's row named
    by entry `(g, k)` of the tile's block. -/
theorem gather_row_val (off : Fin 2 → ℕ) (inb : ∀ a, off a + S1x128.size a ≤ S50x128.size a) (g : Fin 50)
    (h0 : off 0 = g.val) (h1 : off 1 = 0)
    (fi : Buf (Elt F) ((V d ((L 0).castLE hcore0) ((L 1).castLE hsub0)).loc cc0_scratch0))
    (hn : S128.numel = S128x128.size (gathers_S1000000x128_S128x128).axis')
    (hin : ∀ x, (View.read (Elt F) (((Memref.whole cc0_scratch0 : Memref sig .scVector .vmem S50x128 .i32).slice
        (Rect.unit (s := S50x128) off S1x128.size inb) (fun _ => rfl)).squeeze S128 squeezes_S1x128_S128).view
        (View.write (Elt F) (Memref.whole cc0_scratch0 : Memref sig .scVector .vmem S50x128 .i32).view fi (idxPay m d L) Finset.univ) x).toNat
          < S1000000x128.size (gathers_S1000000x128_S128x128).axis)
    (x : S128x128.Idx) :
    SparseCore.gatherPayload gathers_S1000000x128_S128x128
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off S1x128.size inb) (fun _ => rfl)).squeeze S128 squeezes_S1x128_S128).view
          (View.write (Elt F) (Memref.whole cc0_scratch0 : Memref sig .scVector .vmem S50x128 .i32).view fi (idxPay m d L) Finset.univ)) hn hin) x
      = m (tabLoc d) (ValueIdx.ix2 (Spec.rowOf (idxPay m d L (ValueIdx.ix2 g (⟨(x 0).val, (x 0).isLt⟩ : Fin 128))))
          (⟨(x 1).val, (x 1).isLt⟩ : Fin 128)) := by
  refine (gather_val_gen m d L 128 gathers_S1000000x128_S128x128 squeezes_S1x128_S128 off inb g 0 (by omega) h0 h1 fi hn hin x).trans ?_
  exact congrArg (fun t : Fin 128 => m (tabLoc d) (ValueIdx.ix2 (Spec.rowOf (idxPay m d L (ValueIdx.ix2 g t))) (⟨(x 1).val, (x 1).isLt⟩ : Fin 128)))
    (Fin.ext (Nat.zero_add _))

omit [FloatOps F] in
/-- A copy of 64 rows, its list the 64 entries of row `g` of the index scratch from column `c0` on: entry `(k, j)` is
    entry `j` of the table's row named by entry `(g, c0 + k)` of the tile's block. -/
theorem gather_half_val (off : Fin 2 → ℕ) (inb : ∀ a, off a + S1x64.size a ≤ S50x128.size a) (g : Fin 50) (c0 : ℕ) (hc : c0 + 64 ≤ 128)
    (h0 : off 0 = g.val) (h1 : off 1 = c0)
    (fi : Buf (Elt F) ((V d ((L 0).castLE hcore0) ((L 1).castLE hsub0)).loc cc0_scratch0))
    (hn : S64.numel = S64x128.size (gathers_S1000000x128_S64x128).axis')
    (hin : ∀ x, (View.read (Elt F) (((Memref.whole cc0_scratch0 : Memref sig .scVector .vmem S50x128 .i32).slice
        (Rect.unit (s := S50x128) off S1x64.size inb) (fun _ => rfl)).squeeze S64 squeezes_S1x64_S64).view
        (View.write (Elt F) (Memref.whole cc0_scratch0 : Memref sig .scVector .vmem S50x128 .i32).view fi (idxPay m d L) Finset.univ) x).toNat
          < S1000000x128.size (gathers_S1000000x128_S64x128).axis)
    (x : S64x128.Idx) :
    SparseCore.gatherPayload gathers_S1000000x128_S64x128
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off S1x64.size inb) (fun _ => rfl)).squeeze S64 squeezes_S1x64_S64).view
          (View.write (Elt F) (Memref.whole cc0_scratch0 : Memref sig .scVector .vmem S50x128 .i32).view fi (idxPay m d L) Finset.univ)) hn hin) x
      = m (tabLoc d) (ValueIdx.ix2
          (Spec.rowOf (idxPay m d L (ValueIdx.ix2 g (⟨c0 + (x 0).val, by have : (x 0).val < 64 := (x 0).isLt; omega⟩ : Fin 128))))
          (⟨(x 1).val, (x 1).isLt⟩ : Fin 128)) :=
  gather_val_gen m d L 64 gathers_S1000000x128_S64x128 squeezes_S1x64_S64 off inb g c0 hc h0 h1 fi hn hin x

omit [FloatOps F] in
/-- The regrouped token of flat row `6400 w + 128 g + l` is the one at `(w, g, l)`. -/
theorem idx3Of_eq (w : Fin 32) (g : Fin 50) (l : Fin 128) (hn : 6400 * w.val + 128 * g.val + l.val < 204800) :
    Spec.idx3Of ⟨6400 * w.val + 128 * g.val + l.val, hn⟩ = ValueIdx.ix3 w g l := by
  have hw := w.isLt
  have hg := g.isLt
  have hl := l.isLt
  funext a
  match a with
  | ⟨0, _⟩ => exact Fin.ext (by show (6400 * w.val + 128 * g.val + l.val) / 6400 = w.val; omega)
  | ⟨1, _⟩ => exact Fin.ext (by show (6400 * w.val + 128 * g.val + l.val) % 6400 / 128 = g.val; omega)
  | ⟨2, _⟩ => exact Fin.ext (by show (6400 * w.val + 128 * g.val + l.val) % 128 = l.val; omega)

omit [FloatOps F] in
/-- The flat result at worker `w`'s row `128 g + l`: the table's row named by regrouped token `(w, g, l)`. -/
theorem flatRes_row (w : Fin 32) (g : Fin 50) (l : Fin 128) (k : Fin 128) :
    flatRes m d (ValueIdx.ix2 (⟨6400 * w.val + 128 * g.val + l.val, by have := w.isLt; have := g.isLt; have := l.isLt; omega⟩ : Fin 204800) k)
      = m (tabLoc d) (ValueIdx.ix2 (Spec.rowOf (idx3 m d (ValueIdx.ix3 w g l))) k) := by
  show Spec.flatLookup (idx3 m d) (m (tabLoc d)) (ValueIdx.ix2 _ k) = _
  rw [Spec.flatLookup_apply, idx3Of_eq]

end Gather

end Cert.Proof.KB

end
-- ==== Proof.KBPieces.lean ====
/-
  Pure facts about the pieces of the flat result that one tile's copies write: a piece of `R` rows from row `r0` is the
  rows `[r0, r0 + R)`, every column; its own index `(j, k)` sits at `(r0 + j, k)` of the array; and a worker's block is
  the rows `[6400 t, 6400 (t + 1))`. A tile's base row `12800 · (L 1) + 6400 · (L 0)` is `6400` times its worker's number
  `2 · (L 1) + (L 0)`, so its pieces lie in its worker's block.
-/
import proofs.«206231_g69020124446782_cont_9to1c4b_129_32_alg».proof.Proof.KBCommon
import proofs.«206231_g69020124446782_cont_9to1c4b_129_32_alg».proof.Proof.Gen.Kernel.Skeleton
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A piece of any size -/

/-- Index `x` of a unit-stride piece of the flat result sits, on each axis, at the piece's offset plus `x`'s coordinate. -/
theorem outPiece_emb (off size : Fin 2 → ℕ) (inb : ∀ a, off a + size a ≤ S204800x128.size a)
    (x : (Rect.unit (s := S204800x128) off size inb).shape.Idx) (a : Fin 2) :
    (((Memref.whole main_v1_scv : Memref sig .scVector .hbm S204800x128 .f32).slice (Rect.unit (s := S204800x128) off size inb) (fun _ => rfl)).view.emb x a).val = off a + (x a).val := by
  show ((Rect.unit (s := S204800x128) off size inb).emb x a).val = _
  rw [Rect.emb_apply]
  show off a + 1 * (x a).val = _
  omega

/-- The elements of a unit-stride piece: on each axis, from the offset, as many as the size. -/
theorem mem_outPiece (off size : Fin 2 → ℕ) (inb : ∀ a, off a + size a ≤ S204800x128.size a) (y : S204800x128.Idx) :
    y ∈ ((Memref.whole main_v1_scv : Memref sig .scVector .hbm S204800x128 .f32).slice (Rect.unit (s := S204800x128) off size inb) (fun _ => rfl)).view.set
      ↔ ∀ a, off a ≤ (y a).val ∧ (y a).val < off a + size a := by
  have hset : ((Memref.whole main_v1_scv : Memref sig .scVector .hbm S204800x128 .f32).slice (Rect.unit (s := S204800x128) off size inb) (fun _ => rfl)).view.set = (Rect.unit (s := S204800x128) off size inb).set := by
    show ((View.whole (main_v1_scv : Ref sig .scVector)).slice (Rect.unit (s := S204800x128) off size inb)).set = _
    rw [View.set_slice]; exact Finset.map_refl
  rw [hset]; exact Rect.mem_set_unit

/-- Every element of a piece is under one of the piece's own indices. -/
theorem exists_of_mem_outPiece (off size : Fin 2 → ℕ) (inb : ∀ a, off a + size a ≤ S204800x128.size a) (y : S204800x128.Idx)
    (hy : y ∈ ((Memref.whole main_v1_scv : Memref sig .scVector .hbm S204800x128 .f32).slice (Rect.unit (s := S204800x128) off size inb) (fun _ => rfl)).view.set) :
    ∃ x : (Rect.unit (s := S204800x128) off size inb).shape.Idx,
      y = ((Memref.whole main_v1_scv : Memref sig .scVector .hbm S204800x128 .f32).slice (Rect.unit (s := S204800x128) off size inb) (fun _ => rfl)).view.emb x := by
  obtain ⟨x, -, hx⟩ := Finset.mem_map.mp hy
  exact ⟨x, hx.symm⟩

theorem piece_row_lt {R off0 r0 j : ℕ} (hinb : off0 + R ≤ 204800) (h0 : off0 = r0) (hj : j < R) : r0 + j < 204800 := by omega

/-! ## Pieces of 128 rows -/

theorem outPiece_emb128 (off : Fin 2 → ℕ) (inb : ∀ a, off a + S128x128.size a ≤ S204800x128.size a) (r0 : ℕ) (h0 : off 0 = r0) (h1 : off 1 = 0)
    (x : S128x128.Idx) :
    ((Memref.whole main_v1_scv : Memref sig .scVector .hbm S204800x128 .f32).slice (Rect.unit (s := S204800x128) off S128x128.size inb) (fun _ => rfl)).view.emb x
      = (ValueIdx.ix2 (⟨r0 + (x 0).val, piece_row_lt (inb 0) h0 (x 0).isLt⟩ : Fin 204800) (⟨(x 1).val, (x 1).isLt⟩ : Fin 128) : S204800x128.Idx) := by
  funext a; apply Fin.ext
  rw [outPiece_emb off S128x128.size inb x a]
  match a with
  | ⟨0, _⟩ => show off 0 + (x 0).val = r0 + (x 0).val; rw [h0]
  | ⟨1, _⟩ => show off 1 + (x 1).val = (x 1).val; rw [h1, Nat.zero_add]

theorem mem_outPiece128 (off : Fin 2 → ℕ) (inb : ∀ a, off a + S128x128.size a ≤ S204800x128.size a) (r0 : ℕ) (h0 : off 0 = r0) (h1 : off 1 = 0)
    (y : S204800x128.Idx) :
    y ∈ ((Memref.whole main_v1_scv : Memref sig .scVector .hbm S204800x128 .f32).slice (Rect.unit (s := S204800x128) off S128x128.size inb) (fun _ => rfl)).view.set ↔ r0 ≤ (y 0).val ∧ (y 0).val < r0 + 128 := by
  rw [mem_outPiece, Fin.forall_fin_two]
  have hy1 : (y 1).val < 128 := (y 1).isLt
  show ((off 0 ≤ (y 0).val ∧ (y 0).val < off 0 + 128) ∧ (off 1 ≤ (y 1).val ∧ (y 1).val < off 1 + 128)) ↔ (r0 ≤ (y 0).val ∧ (y 0).val < r0 + 128)
  rw [h0, h1]; omega

theorem exists_of_mem_outPiece128 (off : Fin 2 → ℕ) (inb : ∀ a, off a + S128x128.size a ≤ S204800x128.size a) (y : S204800x128.Idx)
    (hy : y ∈ ((Memref.whole main_v1_scv : Memref sig .scVector .hbm S204800x128 .f32).slice (Rect.unit (s := S204800x128) off S128x128.size inb) (fun _ => rfl)).view.set) :
    ∃ x : S128x128.Idx, y = ((Memref.whole main_v1_scv : Memref sig .scVector .hbm S204800x128 .f32).slice (Rect.unit (s := S204800x128) off S128x128.size inb) (fun _ => rfl)).view.emb x :=
  exists_of_mem_outPiece off S128x128.size inb y hy

/-! ## Pieces of 64 rows -/

theorem outPiece_emb64 (off : Fin 2 → ℕ) (inb : ∀ a, off a + S64x128.size a ≤ S204800x128.size a) (r0 : ℕ) (h0 : off 0 = r0) (h1 : off 1 = 0)
    (x : S64x128.Idx) :
    ((Memref.whole main_v1_scv : Memref sig .scVector .hbm S204800x128 .f32).slice (Rect.unit (s := S204800x128) off S64x128.size inb) (fun _ => rfl)).view.emb x
      = (ValueIdx.ix2 (⟨r0 + (x 0).val, piece_row_lt (inb 0) h0 (x 0).isLt⟩ : Fin 204800) (⟨(x 1).val, (x 1).isLt⟩ : Fin 128) : S204800x128.Idx) := by
  funext a; apply Fin.ext
  rw [outPiece_emb off S64x128.size inb x a]
  match a with
  | ⟨0, _⟩ => show off 0 + (x 0).val = r0 + (x 0).val; rw [h0]
  | ⟨1, _⟩ => show off 1 + (x 1).val = (x 1).val; rw [h1, Nat.zero_add]

theorem mem_outPiece64 (off : Fin 2 → ℕ) (inb : ∀ a, off a + S64x128.size a ≤ S204800x128.size a) (r0 : ℕ) (h0 : off 0 = r0) (h1 : off 1 = 0)
    (y : S204800x128.Idx) :
    y ∈ ((Memref.whole main_v1_scv : Memref sig .scVector .hbm S204800x128 .f32).slice (Rect.unit (s := S204800x128) off S64x128.size inb) (fun _ => rfl)).view.set ↔ r0 ≤ (y 0).val ∧ (y 0).val < r0 + 64 := by
  rw [mem_outPiece, Fin.forall_fin_two]
  have hy1 : (y 1).val < 128 := (y 1).isLt
  show ((off 0 ≤ (y 0).val ∧ (y 0).val < off 0 + 64) ∧ (off 1 ≤ (y 1).val ∧ (y 1).val < off 1 + 128)) ↔ (r0 ≤ (y 0).val ∧ (y 0).val < r0 + 64)
  rw [h0, h1]; omega

theorem exists_of_mem_outPiece64 (off : Fin 2 → ℕ) (inb : ∀ a, off a + S64x128.size a ≤ S204800x128.size a) (y : S204800x128.Idx)
    (hy : y ∈ ((Memref.whole main_v1_scv : Memref sig .scVector .hbm S204800x128 .f32).slice (Rect.unit (s := S204800x128) off S64x128.size inb) (fun _ => rfl)).view.set) :
    ∃ x : S64x128.Idx, y = ((Memref.whole main_v1_scv : Memref sig .scVector .hbm S204800x128 .f32).slice (Rect.unit (s := S204800x128) off S64x128.size inb) (fun _ => rfl)).view.emb x :=
  exists_of_mem_outPiece off S64x128.size inb y hy

/-! ## A worker's block -/

/-- Worker `t`'s block of the flat result is the rows `[6400 t, 6400 (t + 1))`. -/
theorem mem_blkSet (t : Fin 32) (y : S204800x128.Idx) : y ∈ blkSet t ↔ 6400 * t.val ≤ (y 0).val ∧ (y 0).val < 6400 * (t.val + 1) := by
  have hset : blkSet t = (blk t).set := by
    show ((View.whole (main_v1_scv : Ref sig .scVector)).slice (blk t)).set = _
    rw [View.set_slice]; exact Finset.map_refl
  rw [hset, Rect.mem_set_unit, Fin.forall_fin_two]
  have hy1 : (y 1).val < 128 := (y 1).isLt
  show ((t.val * 6400 ≤ (y 0).val ∧ (y 0).val < t.val * 6400 + 6400) ∧ (0 * 128 ≤ (y 1).val ∧ (y 1).val < 0 * 128 + 128))
    ↔ (6400 * t.val ≤ (y 0).val ∧ (y 0).val < 6400 * (t.val + 1))
  omega

/-- A tile's base row is `6400` times its worker's number. -/
theorem base_eq (L : grid0.Coords) :
    12800 * (L 1).val + 6400 * (L 0).val
      = 6400 * (wid (Fin.cast (show grid0.bound 0 = 2 from rfl) (L 0)) (Fin.cast (show grid0.bound 1 = 16 from rfl) (L 1))).val := by
  show 12800 * (L 1).val + 6400 * (L 0).val = 6400 * (2 * (L 1).val + (L 0).val)
  omega

end Cert.Proof.KB

end
-- ==== Proof.KBOut.lean ====
/-
  The seventy pieces of a tile's block of the flat result, as the kernel's copies name them: thirty of 128 rows
  (piece `n < 30`: rows `[base + 128 n, base + 128 (n + 1))`) and forty of 64 rows (piece `30 + j`: rows
  `[base + 3840 + 64 j, base + 3840 + 64 (j + 1))`), `base = 6400 · worker`. They are pairwise disjoint and cover the block.
-/
import proofs.«206231_g69020124446782_cont_9to1c4b_129_32_alg».proof.Proof.KBPieces

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Piece `n`'s elements, each under the spelling of the copy that writes it. -/
def outK (L : grid0.Coords) : Fin 70 → Finset S204800x128.Idx
  | ⟨0, _⟩ => (((Memref.whole main_v1_scv : Memref sig .scVector .hbm S204800x128 .f32).slice (Rect.unit (s := S204800x128) (k0_off3 L ⟨0, (of_decide_eq_true rfl)⟩ 0#32) S128x128.size (k0_off3_inb L ⟨0, (of_decide_eq_true rfl)⟩ 0)) (fun _ => rfl))).view.set
  | ⟨1, _⟩ => (((Memref.whole main_v1_scv : Memref sig .scVector .hbm S204800x128 .f32).slice (Rect.unit (s := S204800x128) (k0_off3 L ⟨0, (of_decide_eq_true rfl)⟩ 1#32) S128x128.size (k0_off3_inb L ⟨0, (of_decide_eq_true rfl)⟩ 1)) (fun _ => rfl))).view.set
  | ⟨2, _⟩ => (((Memref.whole main_v1_scv : Memref sig .scVector .hbm S204800x128 .f32).slice (Rect.unit (s := S204800x128) (k0_off3 L ⟨0, (of_decide_eq_true rfl)⟩ 2#32) S128x128.size (k0_off3_inb L ⟨0, (of_decide_eq_true rfl)⟩ 2)) (fun _ => rfl))).view.set
  | ⟨3, _⟩ => (((Memref.whole main_v1_scv : Memref sig .scVector .hbm S204800x128 .f32).slice (Rect.unit (s := S204800x128) (k0_off3 L ⟨1, (of_decide_eq_true rfl)⟩ 0#32) S128x128.size (k0_off3_inb L ⟨1, (of_decide_eq_true rfl)⟩ 0)) (fun _ => rfl))).view.set
  | ⟨4, _⟩ => (((Memref.whole main_v1_scv : Memref sig .scVector .hbm S204800x128 .f32).slice (Rect.unit (s := S204800x128) (k0_off3 L ⟨1, (of_decide_eq_true rfl)⟩ 1#32) S128x128.size (k0_off3_inb L ⟨1, (of_decide_eq_true rfl)⟩ 1)) (fun _ => rfl))).view.set
  | ⟨5, _⟩ => (((Memref.whole main_v1_scv : Memref sig .scVector .hbm S204800x128 .f32).slice (Rect.unit (s := S204800x128) (k0_off3 L ⟨1, (of_decide_eq_true rfl)⟩ 2#32) S128x128.size (k0_off3_inb L ⟨1, (of_decide_eq_true rfl)⟩ 2)) (fun _ => rfl))).view.set
  | ⟨6, _⟩ => (((Memref.whole main_v1_scv : Memref sig .scVector .hbm S204800x128 .f32).slice (Rect.unit (s := S204800x128) (k0_off3 L ⟨2, (of_decide_eq_true rfl)⟩ 0#32) S128x128.size (k0_off3_inb L ⟨2, (of_decide_eq_true rfl)⟩ 0)) (fun _ => rfl))).view.set
  | ⟨7, _⟩ => (((Memref.whole main_v1_scv : Memref sig .scVector .hbm S204800x128 .f32).slice (Rect.unit (s := S204800x128) (k0_off3 L ⟨2, (of_decide_eq_true rfl)⟩ 1#32) S128x128.size (k0_off3_inb L ⟨2, (of_decide_eq_true rfl)⟩ 1)) (fun _ => rfl))).view.set
  | ⟨8, _⟩ => (((Memref.whole main_v1_scv : Memref sig .scVector .hbm S204800x128 .f32).slice (Rect.unit (s := S204800x128) (k0_off3 L ⟨2, (of_decide_eq_true rfl)⟩ 2#32) S128x128.size (k0_off3_inb L ⟨2, (of_decide_eq_true rfl)⟩ 2)) (fun _ => rfl))).view.set
  | ⟨9, _⟩ => (((Memref.whole main_v1_scv : Memref sig .scVector .hbm S204800x128 .f32).slice (Rect.unit (s := S204800x128) (k0_off3 L ⟨3, (of_decide_eq_true rfl)⟩ 0#32) S128x128.size (k0_off3_inb L ⟨3, (of_decide_eq_true rfl)⟩ 0)) (fun _ => rfl))).view.set
  | ⟨10, _⟩ => (((Memref.whole main_v1_scv : Memref sig .scVector .hbm S204800x128 .f32).slice (Rect.unit (s := S204800x128) (k0_off3 L ⟨3, (of_decide_eq_true rfl)⟩ 1#32) S128x128.size (k0_off3_inb L ⟨3, (of_decide_eq_true rfl)⟩ 1)) (fun _ => rfl))).view.set
  | ⟨11, _⟩ => (((Memref.whole main_v1_scv : Memref sig .scVector .hbm S204800x128 .f32).slice (Rect.unit (s := S204800x128) (k0_off3 L ⟨3, (of_decide_eq_true rfl)⟩ 2#32) S128x128.size (k0_off3_inb L ⟨3, (of_decide_eq_true rfl)⟩ 2)) (fun _ => rfl))).view.set
  | ⟨12, _⟩ => (((Memref.whole main_v1_scv : Memref sig .scVector .hbm S204800x128 .f32).slice (Rect.unit (s := S204800x128) (k0_off3 L ⟨4, (of_decide_eq_true rfl)⟩ 0#32) S128x128.size (k0_off3_inb L ⟨4, (of_decide_eq_true rfl)⟩ 0)) (fun _ => rfl))).view.set
  | ⟨13, _⟩ => (((Memref.whole main_v1_scv : Memref sig .scVector .hbm S204800x128 .f32).slice (Rect.unit (s := S204800x128) (k0_off3 L ⟨4, (of_decide_eq_true rfl)⟩ 1#32) S128x128.size (k0_off3_inb L ⟨4, (of_decide_eq_true rfl)⟩ 1)) (fun _ => rfl))).view.set
  | ⟨14, _⟩ => (((Memref.whole main_v1_scv : Memref sig .scVector .hbm S204800x128 .f32).slice (Rect.unit (s := S204800x128) (k0_off3 L ⟨4, (of_decide_eq_true rfl)⟩ 2#32) S128x128.size (k0_off3_inb L ⟨4, (of_decide_eq_true rfl)⟩ 2)) (fun _ => rfl))).view.set
  | ⟨15, _⟩ => (((Memref.whole main_v1_scv : Memref sig .scVector .hbm S204800x128 .f32).slice (Rect.unit (s := S204800x128) (k0_off3 L ⟨5, (of_decide_eq_true rfl)⟩ 0#32) S128x128.size (k0_off3_inb L ⟨5, (of_decide_eq_true rfl)⟩ 0)) (fun _ => rfl))).view.set
  | ⟨16, _⟩ => (((Memref.whole main_v1_scv : Memref sig .scVector .hbm S204800x128 .f32).slice (Rect.unit (s := S204800x128) (k0_off3 L ⟨5, (of_decide_eq_true rfl)⟩ 1#32) S128x128.size (k0_off3_inb L ⟨5, (of_decide_eq_true rfl)⟩ 1)) (fun _ => rfl))).view.set
  | ⟨17, _⟩ => (((Memref.whole main_v1_scv : Memref sig .scVector .hbm S204800x128 .f32).slice (Rect.unit (s := S204800x128) (k0_off3 L ⟨5, (of_decide_eq_true rfl)⟩ 2#32) S128x128.size (k0_off3_inb L ⟨5, (of_decide_eq_true rfl)⟩ 2)) (fun _ => rfl))).view.set
  | ⟨18, _⟩ => (((Memref.whole main_v1_scv : Memref sig .scVector .hbm S204800x128 .f32).slice (Rect.unit (s := S204800x128) (k0_off3 L ⟨6, (of_decide_eq_true rfl)⟩ 0#32) S128x128.size (k0_off3_inb L ⟨6, (of_decide_eq_true rfl)⟩ 0)) (fun _ => rfl))).view.set
  | ⟨19, _⟩ => (((Memref.whole main_v1_scv : Memref sig .scVector .hbm S204800x128 .f32).slice (Rect.unit (s := S204800x128) (k0_off3 L ⟨6, (of_decide_eq_true rfl)⟩ 1#32) S128x128.size (k0_off3_inb L ⟨6, (of_decide_eq_true rfl)⟩ 1)) (fun _ => rfl))).view.set
  | ⟨20, _⟩ => (((Memref.whole main_v1_scv : Memref sig .scVector .hbm S204800x128 .f32).slice (Rect.unit (s := S204800x128) (k0_off3 L ⟨6, (of_decide_eq_true rfl)⟩ 2#32) S128x128.size (k0_off3_inb L ⟨6, (of_decide_eq_true rfl)⟩ 2)) (fun _ => rfl))).view.set
  | ⟨21, _⟩ => (((Memref.whole main_v1_scv : Memref sig .scVector .hbm S204800x128 .f32).slice (Rect.unit (s := S204800x128) (k0_off3 L ⟨7, (of_decide_eq_true rfl)⟩ 0#32) S128x128.size (k0_off3_inb L ⟨7, (of_decide_eq_true rfl)⟩ 0)) (fun _ => rfl))).view.set
  | ⟨22, _⟩ => (((Memref.whole main_v1_scv : Memref sig .scVector .hbm S204800x128 .f32).slice (Rect.unit (s := S204800x128) (k0_off3 L ⟨7, (of_decide_eq_true rfl)⟩ 1#32) S128x128.size (k0_off3_inb L ⟨7, (of_decide_eq_true rfl)⟩ 1)) (fun _ => rfl))).view.set
  | ⟨23, _⟩ => (((Memref.whole main_v1_scv : Memref sig .scVector .hbm S204800x128 .f32).slice (Rect.unit (s := S204800x128) (k0_off3 L ⟨7, (of_decide_eq_true rfl)⟩ 2#32) S128x128.size (k0_off3_inb L ⟨7, (of_decide_eq_true rfl)⟩ 2)) (fun _ => rfl))).view.set
  | ⟨24, _⟩ => (((Memref.whole main_v1_scv : Memref sig .scVector .hbm S204800x128 .f32).slice (Rect.unit (s := S204800x128) (k0_off3 L ⟨8, (of_decide_eq_true rfl)⟩ 0#32) S128x128.size (k0_off3_inb L ⟨8, (of_decide_eq_true rfl)⟩ 0)) (fun _ => rfl))).view.set
  | ⟨25, _⟩ => (((Memref.whole main_v1_scv : Memref sig .scVector .hbm S204800x128 .f32).slice (Rect.unit (s := S204800x128) (k0_off3 L ⟨8, (of_decide_eq_true rfl)⟩ 1#32) S128x128.size (k0_off3_inb L ⟨8, (of_decide_eq_true rfl)⟩ 1)) (fun _ => rfl))).view.set
  | ⟨26, _⟩ => (((Memref.whole main_v1_scv : Memref sig .scVector .hbm S204800x128 .f32).slice (Rect.unit (s := S204800x128) (k0_off3 L ⟨8, (of_decide_eq_true rfl)⟩ 2#32) S128x128.size (k0_off3_inb L ⟨8, (of_decide_eq_true rfl)⟩ 2)) (fun _ => rfl))).view.set
  | ⟨27, _⟩ => (((Memref.whole main_v1_scv : Memref sig .scVector .hbm S204800x128 .f32).slice (Rect.unit (s := S204800x128) (k0_off3 L ⟨9, (of_decide_eq_true rfl)⟩ 0#32) S128x128.size (k0_off3_inb L ⟨9, (of_decide_eq_true rfl)⟩ 0)) (fun _ => rfl))).view.set
  | ⟨28, _⟩ => (((Memref.whole main_v1_scv : Memref sig .scVector .hbm S204800x128 .f32).slice (Rect.unit (s := S204800x128) (k0_off3 L ⟨9, (of_decide_eq_true rfl)⟩ 1#32) S128x128.size (k0_off3_inb L ⟨9, (of_decide_eq_true rfl)⟩ 1)) (fun _ => rfl))).view.set
  | ⟨29, _⟩ => (((Memref.whole main_v1_scv : Memref sig .scVector .hbm S204800x128 .f32).slice (Rect.unit (s := S204800x128) (k0_off3 L ⟨9, (of_decide_eq_true rfl)⟩ 2#32) S128x128.size (k0_off3_inb L ⟨9, (of_decide_eq_true rfl)⟩ 2)) (fun _ => rfl))).view.set
  | ⟨30, _⟩ => (((Memref.whole main_v1_scv : Memref sig .scVector .hbm S204800x128 .f32).slice (Rect.unit (s := S204800x128) (k0_off22 L ⟨0, (of_decide_eq_true rfl)⟩) S64x128.size (k0_off22_inb L ⟨0, (of_decide_eq_true rfl)⟩ (of_decide_eq_true rfl))) (fun _ => rfl))).view.set
  | ⟨31, _⟩ => (((Memref.whole main_v1_scv : Memref sig .scVector .hbm S204800x128 .f32).slice (Rect.unit (s := S204800x128) (k0_off28 L ⟨0, (of_decide_eq_true rfl)⟩) S64x128.size (k0_off28_inb L ⟨0, (of_decide_eq_true rfl)⟩ (of_decide_eq_true rfl))) (fun _ => rfl))).view.set
  | ⟨32, _⟩ => (((Memref.whole main_v1_scv : Memref sig .scVector .hbm S204800x128 .f32).slice (Rect.unit (s := S204800x128) (k0_off34 L ⟨0, (of_decide_eq_true rfl)⟩) S64x128.size (k0_off34_inb L ⟨0, (of_decide_eq_true rfl)⟩ (of_decide_eq_true rfl))) (fun _ => rfl))).view.set
  | ⟨33, _⟩ => (((Memref.whole main_v1_scv : Memref sig .scVector .hbm S204800x128 .f32).slice (Rect.unit (s := S204800x128) (k0_off15 L ⟨1, (of_decide_eq_true rfl)⟩) S64x128.size (k0_off15_inb L ⟨1, (of_decide_eq_true rfl)⟩ (of_decide_eq_true rfl))) (fun _ => rfl))).view.set
  | ⟨34, _⟩ => (((Memref.whole main_v1_scv : Memref sig .scVector .hbm S204800x128 .f32).slice (Rect.unit (s := S204800x128) (k0_off22 L ⟨1, (of_decide_eq_true rfl)⟩) S64x128.size (k0_off22_inb L ⟨1, (of_decide_eq_true rfl)⟩ (of_decide_eq_true rfl))) (fun _ => rfl))).view.set
  | ⟨35, _⟩ => (((Memref.whole main_v1_scv : Memref sig .scVector .hbm S204800x128 .f32).slice (Rect.unit (s := S204800x128) (k0_off28 L ⟨1, (of_decide_eq_true rfl)⟩) S64x128.size (k0_off28_inb L ⟨1, (of_decide_eq_true rfl)⟩ (of_decide_eq_true rfl))) (fun _ => rfl))).view.set
  | ⟨36, _⟩ => (((Memref.whole main_v1_scv : Memref sig .scVector .hbm S204800x128 .f32).slice (Rect.unit (s := S204800x128) (k0_off34 L ⟨1, (of_decide_eq_true rfl)⟩) S64x128.size (k0_off34_inb L ⟨1, (of_decide_eq_true rfl)⟩ (of_decide_eq_true rfl))) (fun _ => rfl))).view.set
  | ⟨37, _⟩ => (((Memref.whole main_v1_scv : Memref sig .scVector .hbm S204800x128 .f32).slice (Rect.unit (s := S204800x128) (k0_off15 L ⟨2, (of_decide_eq_true rfl)⟩) S64x128.size (k0_off15_inb L ⟨2, (of_decide_eq_true rfl)⟩ (of_decide_eq_true rfl))) (fun _ => rfl))).view.set
  | ⟨38, _⟩ => (((Memref.whole main_v1_scv : Memref sig .scVector .hbm S204800x128 .f32).slice (Rect.unit (s := S204800x128) (k0_off22 L ⟨2, (of_decide_eq_true rfl)⟩) S64x128.size (k0_off22_inb L ⟨2, (of_decide_eq_true rfl)⟩ (of_decide_eq_true rfl))) (fun _ => rfl))).view.set
  | ⟨39, _⟩ => (((Memref.whole main_v1_scv : Memref sig .scVector .hbm S204800x128 .f32).slice (Rect.unit (s := S204800x128) (k0_off28 L ⟨2, (of_decide_eq_true rfl)⟩) S64x128.size (k0_off28_inb L ⟨2, (of_decide_eq_true rfl)⟩ (of_decide_eq_true rfl))) (fun _ => rfl))).view.set
  | ⟨40, _⟩ => (((Memref.whole main_v1_scv : Memref sig .scVector .hbm S204800x128 .f32).slice (Rect.unit (s := S204800x128) (k0_off34 L ⟨2, (of_decide_eq_true rfl)⟩) S64x128.size (k0_off34_inb L ⟨2, (of_decide_eq_true rfl)⟩ (of_decide_eq_true rfl))) (fun _ => rfl))).view.set
  | ⟨41, _⟩ => (((Memref.whole main_v1_scv : Memref sig .scVector .hbm S204800x128 .f32).slice (Rect.unit (s := S204800x128) (k0_off15 L ⟨3, (of_decide_eq_true rfl)⟩) S64x128.size (k0_off15_inb L ⟨3, (of_decide_eq_true rfl)⟩ (of_decide_eq_true rfl))) (fun _ => rfl))).view.set
  | ⟨42, _⟩ => (((Memref.whole main_v1_scv : Memref sig .scVector .hbm S204800x128 .f32).slice (Rect.unit (s := S204800x128) (k0_off22 L ⟨3, (of_decide_eq_true rfl)⟩) S64x128.size (k0_off22_inb L ⟨3, (of_decide_eq_true rfl)⟩ (of_decide_eq_true rfl))) (fun _ => rfl))).view.set
  | ⟨43, _⟩ => (((Memref.whole main_v1_scv : Memref sig .scVector .hbm S204800x128 .f32).slice (Rect.unit (s := S204800x128) (k0_off28 L ⟨3, (of_decide_eq_true rfl)⟩) S64x128.size (k0_off28_inb L ⟨3, (of_decide_eq_true rfl)⟩ (of_decide_eq_true rfl))) (fun _ => rfl))).view.set
  | ⟨44, _⟩ => (((Memref.whole main_v1_scv : Memref sig .scVector .hbm S204800x128 .f32).slice (Rect.unit (s := S204800x128) (k0_off34 L ⟨3, (of_decide_eq_true rfl)⟩) S64x128.size (k0_off34_inb L ⟨3, (of_decide_eq_true rfl)⟩ (of_decide_eq_true rfl))) (fun _ => rfl))).view.set
  | ⟨45, _⟩ => (((Memref.whole main_v1_scv : Memref sig .scVector .hbm S204800x128 .f32).slice (Rect.unit (s := S204800x128) (k0_off15 L ⟨4, (of_decide_eq_true rfl)⟩) S64x128.size (k0_off15_inb L ⟨4, (of_decide_eq_true rfl)⟩ (of_decide_eq_true rfl))) (fun _ => rfl))).view.set
  | ⟨46, _⟩ => (((Memref.whole main_v1_scv : Memref sig .scVector .hbm S204800x128 .f32).slice (Rect.unit (s := S204800x128) (k0_off22 L ⟨4, (of_decide_eq_true rfl)⟩) S64x128.size (k0_off22_inb L ⟨4, (of_decide_eq_true rfl)⟩ (of_decide_eq_true rfl))) (fun _ => rfl))).view.set
  | ⟨47, _⟩ => (((Memref.whole main_v1_scv : Memref sig .scVector .hbm S204800x128 .f32).slice (Rect.unit (s := S204800x128) (k0_off28 L ⟨4, (of_decide_eq_true rfl)⟩) S64x128.size (k0_off28_inb L ⟨4, (of_decide_eq_true rfl)⟩ (of_decide_eq_true rfl))) (fun _ => rfl))).view.set
  | ⟨48, _⟩ => (((Memref.whole main_v1_scv : Memref sig .scVector .hbm S204800x128 .f32).slice (Rect.unit (s := S204800x128) (k0_off34 L ⟨4, (of_decide_eq_true rfl)⟩) S64x128.size (k0_off34_inb L ⟨4, (of_decide_eq_true rfl)⟩ (of_decide_eq_true rfl))) (fun _ => rfl))).view.set
  | ⟨49, _⟩ => (((Memref.whole main_v1_scv : Memref sig .scVector .hbm S204800x128 .f32).slice (Rect.unit (s := S204800x128) (k0_off15 L ⟨5, (of_decide_eq_true rfl)⟩) S64x128.size (k0_off15_inb L ⟨5, (of_decide_eq_true rfl)⟩ (of_decide_eq_true rfl))) (fun _ => rfl))).view.set
  | ⟨50, _⟩ => (((Memref.whole main_v1_scv : Memref sig .scVector .hbm S204800x128 .f32).slice (Rect.unit (s := S204800x128) (k0_off22 L ⟨5, (of_decide_eq_true rfl)⟩) S64x128.size (k0_off22_inb L ⟨5, (of_decide_eq_true rfl)⟩ (of_decide_eq_true rfl))) (fun _ => rfl))).view.set
  | ⟨51, _⟩ => (((Memref.whole main_v1_scv : Memref sig .scVector .hbm S204800x128 .f32).slice (Rect.unit (s := S204800x128) (k0_off28 L ⟨5, (of_decide_eq_true rfl)⟩) S64x128.size (k0_off28_inb L ⟨5, (of_decide_eq_true rfl)⟩ (of_decide_eq_true rfl))) (fun _ => rfl))).view.set
  | ⟨52, _⟩ => (((Memref.whole main_v1_scv : Memref sig .scVector .hbm S204800x128 .f32).slice (Rect.unit (s := S204800x128) (k0_off34 L ⟨5, (of_decide_eq_true rfl)⟩) S64x128.size (k0_off34_inb L ⟨5, (of_decide_eq_true rfl)⟩ (of_decide_eq_true rfl))) (fun _ => rfl))).view.set
  | ⟨53, _⟩ => (((Memref.whole main_v1_scv : Memref sig .scVector .hbm S204800x128 .f32).slice (Rect.unit (s := S204800x128) (k0_off15 L ⟨6, (of_decide_eq_true rfl)⟩) S64x128.size (k0_off15_inb L ⟨6, (of_decide_eq_true rfl)⟩ (of_decide_eq_true rfl))) (fun _ => rfl))).view.set
  | ⟨54, _⟩ => (((Memref.whole main_v1_scv : Memref sig .scVector .hbm S204800x128 .f32).slice (Rect.unit (s := S204800x128) (k0_off22 L ⟨6, (of_decide_eq_true rfl)⟩) S64x128.size (k0_off22_inb L ⟨6, (of_decide_eq_true rfl)⟩ (of_decide_eq_true rfl))) (fun _ => rfl))).view.set
  | ⟨55, _⟩ => (((Memref.whole main_v1_scv : Memref sig .scVector .hbm S204800x128 .f32).slice (Rect.unit (s := S204800x128) (k0_off28 L ⟨6, (of_decide_eq_true rfl)⟩) S64x128.size (k0_off28_inb L ⟨6, (of_decide_eq_true rfl)⟩ (of_decide_eq_true rfl))) (fun _ => rfl))).view.set
  | ⟨56, _⟩ => (((Memref.whole main_v1_scv : Memref sig .scVector .hbm S204800x128 .f32).slice (Rect.unit (s := S204800x128) (k0_off34 L ⟨6, (of_decide_eq_true rfl)⟩) S64x128.size (k0_off34_inb L ⟨6, (of_decide_eq_true rfl)⟩ (of_decide_eq_true rfl))) (fun _ => rfl))).view.set
  | ⟨57, _⟩ => (((Memref.whole main_v1_scv : Memref sig .scVector .hbm S204800x128 .f32).slice (Rect.unit (s := S204800x128) (k0_off15 L ⟨7, (of_decide_eq_true rfl)⟩) S64x128.size (k0_off15_inb L ⟨7, (of_decide_eq_true rfl)⟩ (of_decide_eq_true rfl))) (fun _ => rfl))).view.set
  | ⟨58, _⟩ => (((Memref.whole main_v1_scv : Memref sig .scVector .hbm S204800x128 .f32).slice (Rect.unit (s := S204800x128) (k0_off22 L ⟨7, (of_decide_eq_true rfl)⟩) S64x128.size (k0_off22_inb L ⟨7, (of_decide_eq_true rfl)⟩ (of_decide_eq_true rfl))) (fun _ => rfl))).view.set
  | ⟨59, _⟩ => (((Memref.whole main_v1_scv : Memref sig .scVector .hbm S204800x128 .f32).slice (Rect.unit (s := S204800x128) (k0_off28 L ⟨7, (of_decide_eq_true rfl)⟩) S64x128.size (k0_off28_inb L ⟨7, (of_decide_eq_true rfl)⟩ (of_decide_eq_true rfl))) (fun _ => rfl))).view.set
  | ⟨60, _⟩ => (((Memref.whole main_v1_scv : Memref sig .scVector .hbm S204800x128 .f32).slice (Rect.unit (s := S204800x128) (k0_off34 L ⟨7, (of_decide_eq_true rfl)⟩) S64x128.size (k0_off34_inb L ⟨7, (of_decide_eq_true rfl)⟩ (of_decide_eq_true rfl))) (fun _ => rfl))).view.set
  | ⟨61, _⟩ => (((Memref.whole main_v1_scv : Memref sig .scVector .hbm S204800x128 .f32).slice (Rect.unit (s := S204800x128) (k0_off15 L ⟨8, (of_decide_eq_true rfl)⟩) S64x128.size (k0_off15_inb L ⟨8, (of_decide_eq_true rfl)⟩ (of_decide_eq_true rfl))) (fun _ => rfl))).view.set
  | ⟨62, _⟩ => (((Memref.whole main_v1_scv : Memref sig .scVector .hbm S204800x128 .f32).slice (Rect.unit (s := S204800x128) (k0_off22 L ⟨8, (of_decide_eq_true rfl)⟩) S64x128.size (k0_off22_inb L ⟨8, (of_decide_eq_true rfl)⟩ (of_decide_eq_true rfl))) (fun _ => rfl))).view.set
  | ⟨63, _⟩ => (((Memref.whole main_v1_scv : Memref sig .scVector .hbm S204800x128 .f32).slice (Rect.unit (s := S204800x128) (k0_off28 L ⟨8, (of_decide_eq_true rfl)⟩) S64x128.size (k0_off28_inb L ⟨8, (of_decide_eq_true rfl)⟩ (of_decide_eq_true rfl))) (fun _ => rfl))).view.set
  | ⟨64, _⟩ => (((Memref.whole main_v1_scv : Memref sig .scVector .hbm S204800x128 .f32).slice (Rect.unit (s := S204800x128) (k0_off34 L ⟨8, (of_decide_eq_true rfl)⟩) S64x128.size (k0_off34_inb L ⟨8, (of_decide_eq_true rfl)⟩ (of_decide_eq_true rfl))) (fun _ => rfl))).view.set
  | ⟨65, _⟩ => (((Memref.whole main_v1_scv : Memref sig .scVector .hbm S204800x128 .f32).slice (Rect.unit (s := S204800x128) (k0_off15 L ⟨9, (of_decide_eq_true rfl)⟩) S64x128.size (k0_off15_inb L ⟨9, (of_decide_eq_true rfl)⟩ (of_decide_eq_true rfl))) (fun _ => rfl))).view.set
  | ⟨66, _⟩ => (((Memref.whole main_v1_scv : Memref sig .scVector .hbm S204800x128 .f32).slice (Rect.unit (s := S204800x128) (k0_off22 L ⟨9, (of_decide_eq_true rfl)⟩) S64x128.size (k0_off22_inb L ⟨9, (of_decide_eq_true rfl)⟩ (of_decide_eq_true rfl))) (fun _ => rfl))).view.set
  | ⟨67, _⟩ => (((Memref.whole main_v1_scv : Memref sig .scVector .hbm S204800x128 .f32).slice (Rect.unit (s := S204800x128) (k0_off28 L ⟨9, (of_decide_eq_true rfl)⟩) S64x128.size (k0_off28_inb L ⟨9, (of_decide_eq_true rfl)⟩ (of_decide_eq_true rfl))) (fun _ => rfl))).view.set
  | ⟨68, _⟩ => (((Memref.whole main_v1_scv : Memref sig .scVector .hbm S204800x128 .f32).slice (Rect.unit (s := S204800x128) (k0_off34 L ⟨9, (of_decide_eq_true rfl)⟩) S64x128.size (k0_off34_inb L ⟨9, (of_decide_eq_true rfl)⟩ (of_decide_eq_true rfl))) (fun _ => rfl))).view.set
  | ⟨69, _⟩ => (((Memref.whole main_v1_scv : Memref sig .scVector .hbm S204800x128 .f32).slice (Rect.unit (s := S204800x128) (k0_off38 L 2496#32) S64x128.size (k0_off38_inb L 3)) (fun _ => rfl))).view.set
  | ⟨n + 70, h⟩ => absurd h (by omega)

/-! ## The pieces as intervals of rows -/

/-- Piece `n`'s first row, and how many rows it has. -/
def outLo (L : grid0.Coords) (n : Fin 70) : ℕ := 12800 * (L 1).val + 6400 * (L 0).val + (if n.val < 30 then 128 * n.val else 3840 + 64 * (n.val - 30))
def outLen (n : Fin 70) : ℕ := if n.val < 30 then 128 else 64

/-- A piece of 128 rows, written in trip `t` as its `r`-th: piece `3 t + r`. -/
theorem mem_off3 (L : grid0.Coords) (t : Fin k0_t1_loop.trips) (r : Fin 3)
    (inb : ∀ a, (k0_off3 L t (BitVec.ofNat 32 r.val)) a + S128x128.size a ≤ S204800x128.size a)
    (y : S204800x128.Idx) (n : Fin 70) (hn : n.val = 3 * t.val + r.val) :
    y ∈ ((Memref.whole main_v1_scv : Memref sig .scVector .hbm S204800x128 .f32).slice (Rect.unit (s := S204800x128) (k0_off3 L t (BitVec.ofNat 32 r.val)) S128x128.size inb) (fun _ => rfl)).view.set ↔ outLo L n ≤ (y 0).val ∧ (y 0).val < outLo L n + outLen n := by
  have ht : t.val < 10 := t.isLt
  have hr : r.val < 3 := r.isLt
  have hlt : n.val < 30 := by omega
  rw [mem_outPiece128 _ inb (12800 * (L 1).val + 6400 * (L 0).val + 384 * t.val + 128 * r.val) (by rw [k0_off3_eq]; rfl) (by rw [k0_off3_eq]; rfl) y]
  unfold outLo outLen
  rw [if_pos hlt, if_pos hlt, hn]
  omega

theorem mem_off22 (L : grid0.Coords) (t : Fin k0_t1_loop.trips) (inb : ∀ a, (k0_off22 L t) a + S64x128.size a ≤ S204800x128.size a)
    (y : S204800x128.Idx) (n : Fin 70) (hn : n.val = 30 + 4 * t.val) :
    y ∈ ((Memref.whole main_v1_scv : Memref sig .scVector .hbm S204800x128 .f32).slice (Rect.unit (s := S204800x128) (k0_off22 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3840) (by rw [k0_off22_eq]; rfl) (by rw [k0_off22_eq]; rfl) y]
  unfold outLo outLen
  rw [if_neg hge, if_neg hge, hn]
  omega

theorem mem_off28 (L : grid0.Coords) (t : Fin k0_t1_loop.trips) (inb : ∀ a, (k0_off28 L t) a + S64x128.size a ≤ S204800x128.size a)
    (y : S204800x128.Idx) (n : Fin 70) (hn : n.val = 31 + 4 * t.val) :
    y ∈ ((Memref.whole main_v1_scv : Memref sig .scVector .hbm S204800x128 .f32).slice (Rect.unit (s := S204800x128) (k0_off28 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3904) (by rw [k0_off28_eq]; rfl) (by rw [k0_off28_eq]; rfl) y]
  unfold outLo outLen
  rw [if_neg hge, if_neg hge, hn]
  omega

theorem mem_off34 (L : grid0.Coords) (t : Fin k0_t1_loop.trips) (inb : ∀ a, (k0_off34 L t) a + S64x128.size a ≤ S204800x128.size a)
    (y : S204800x128.Idx) (n : Fin 70) (hn : n.val = 32 + 4 * t.val) :
    y ∈ ((Memref.whole main_v1_scv : Memref sig .scVector .hbm S204800x128 .f32).slice (Rect.unit (s := S204800x128) (k0_off34 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3968) (by rw [k0_off34_eq]; rfl) (by rw [k0_off34_eq]; rfl) y]
  unfold outLo outLen
  rw [if_neg hge, if_neg hge, hn]
  omega

theorem mem_off15 (L : grid0.Coords) (t : Fin k0_t1_loop.trips) (inb : ∀ a, (k0_off15 L t) a + S64x128.size a ≤ S204800x128.size a)
    (y : S204800x128.Idx) (n : Fin 70) (hn : n.val = 29 + 4 * t.val) (ht : 0 < t.val) :
    y ∈ ((Memref.whole main_v1_scv : Memref sig .scVector .hbm S204800x128 .f32).slice (Rect.unit (s := S204800x128) (k0_off15 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3776) (by rw [k0_off15_eq]; rfl) (by rw [k0_off15_eq]; rfl) y]
  unfold outLo outLen
  rw [if_neg hge, if_neg hge, hn]
  omega

/-- The last piece, written after the loop. -/
theorem mem_off38 (L : grid0.Coords) (r : Fin 4) (inb : ∀ a, (k0_off38 L (BitVec.ofNat 32 (2304 + 64 * r.val))) a + S64x128.size a ≤ S204800x128.size a)
    (y : S204800x128.Idx) (n : Fin 70) (hn : n.val = 66 + r.val) :
    y ∈ ((Memref.whole main_v1_scv : Memref sig .scVector .hbm S204800x128 .f32).slice (Rect.unit (s := S204800x128) (k0_off38 L (BitVec.ofNat 32 (2304 + 64 * r.val))) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 64 * r.val + 6144) (by rw [k0_off38_eq]; rfl) (by rw [k0_off38_eq]; rfl) y]
  unfold outLo outLen
  rw [if_neg hge, if_neg hge, hn]
  omega

/-- Piece `n` is the rows `[outLo L n, outLo L n + outLen n)`. -/
theorem mem_outK (L : grid0.Coords) (n : Fin 70) (y : S204800x128.Idx) : y ∈ outK L n ↔ outLo L n ≤ (y 0).val ∧ (y 0).val < outLo L n + outLen n :=
  match n with
  | ⟨0, h⟩ => mem_off3 L ⟨0, (of_decide_eq_true rfl)⟩ ⟨0, (of_decide_eq_true rfl)⟩ _ y ⟨0, h⟩ rfl
  | ⟨1, h⟩ => mem_off3 L ⟨0, (of_decide_eq_true rfl)⟩ ⟨1, (of_decide_eq_true rfl)⟩ _ y ⟨1, h⟩ rfl
  | ⟨2, h⟩ => mem_off3 L ⟨0, (of_decide_eq_true rfl)⟩ ⟨2, (of_decide_eq_true rfl)⟩ _ y ⟨2, h⟩ rfl
  | ⟨3, h⟩ => mem_off3 L ⟨1, (of_decide_eq_true rfl)⟩ ⟨0, (of_decide_eq_true rfl)⟩ _ y ⟨3, h⟩ rfl
  | ⟨4, h⟩ => mem_off3 L ⟨1, (of_decide_eq_true rfl)⟩ ⟨1, (of_decide_eq_true rfl)⟩ _ y ⟨4, h⟩ rfl
  | ⟨5, h⟩ => mem_off3 L ⟨1, (of_decide_eq_true rfl)⟩ ⟨2, (of_decide_eq_true rfl)⟩ _ y ⟨5, h⟩ rfl
  | ⟨6, h⟩ => mem_off3 L ⟨2, (of_decide_eq_true rfl)⟩ ⟨0, (of_decide_eq_true rfl)⟩ _ y ⟨6, h⟩ rfl
  | ⟨7, h⟩ => mem_off3 L ⟨2, (of_decide_eq_true rfl)⟩ ⟨1, (of_decide_eq_true rfl)⟩ _ y ⟨7, h⟩ rfl
  | ⟨8, h⟩ => mem_off3 L ⟨2, (of_decide_eq_true rfl)⟩ ⟨2, (of_decide_eq_true rfl)⟩ _ y ⟨8, h⟩ rfl
  | ⟨9, h⟩ => mem_off3 L ⟨3, (of_decide_eq_true rfl)⟩ ⟨0, (of_decide_eq_true rfl)⟩ _ y ⟨9, h⟩ rfl
  | ⟨10, h⟩ => mem_off3 L ⟨3, (of_decide_eq_true rfl)⟩ ⟨1, (of_decide_eq_true rfl)⟩ _ y ⟨10, h⟩ rfl
  | ⟨11, h⟩ => mem_off3 L ⟨3, (of_decide_eq_true rfl)⟩ ⟨2, (of_decide_eq_true rfl)⟩ _ y ⟨11, h⟩ rfl
  | ⟨12, h⟩ => mem_off3 L ⟨4, (of_decide_eq_true rfl)⟩ ⟨0, (of_decide_eq_true rfl)⟩ _ y ⟨12, h⟩ rfl
  | ⟨13, h⟩ => mem_off3 L ⟨4, (of_decide_eq_true rfl)⟩ ⟨1, (of_decide_eq_true rfl)⟩ _ y ⟨13, h⟩ rfl
  | ⟨14, h⟩ => mem_off3 L ⟨4, (of_decide_eq_true rfl)⟩ ⟨2, (of_decide_eq_true rfl)⟩ _ y ⟨14, h⟩ rfl
  | ⟨15, h⟩ => mem_off3 L ⟨5, (of_decide_eq_true rfl)⟩ ⟨0, (of_decide_eq_true rfl)⟩ _ y ⟨15, h⟩ rfl
  | ⟨16, h⟩ => mem_off3 L ⟨5, (of_decide_eq_true rfl)⟩ ⟨1, (of_decide_eq_true rfl)⟩ _ y ⟨16, h⟩ rfl
  | ⟨17, h⟩ => mem_off3 L ⟨5, (of_decide_eq_true rfl)⟩ ⟨2, (of_decide_eq_true rfl)⟩ _ y ⟨17, h⟩ rfl
  | ⟨18, h⟩ => mem_off3 L ⟨6, (of_decide_eq_true rfl)⟩ ⟨0, (of_decide_eq_true rfl)⟩ _ y ⟨18, h⟩ rfl
  | ⟨19, h⟩ => mem_off3 L ⟨6, (of_decide_eq_true rfl)⟩ ⟨1, (of_decide_eq_true rfl)⟩ _ y ⟨19, h⟩ rfl
  | ⟨20, h⟩ => mem_off3 L ⟨6, (of_decide_eq_true rfl)⟩ ⟨2, (of_decide_eq_true rfl)⟩ _ y ⟨20, h⟩ rfl
  | ⟨21, h⟩ => mem_off3 L ⟨7, (of_decide_eq_true rfl)⟩ ⟨0, (of_decide_eq_true rfl)⟩ _ y ⟨21, h⟩ rfl
  | ⟨22, h⟩ => mem_off3 L ⟨7, (of_decide_eq_true rfl)⟩ ⟨1, (of_decide_eq_true rfl)⟩ _ y ⟨22, h⟩ rfl
  | ⟨23, h⟩ => mem_off3 L ⟨7, (of_decide_eq_true rfl)⟩ ⟨2, (of_decide_eq_true rfl)⟩ _ y ⟨23, h⟩ rfl
  | ⟨24, h⟩ => mem_off3 L ⟨8, (of_decide_eq_true rfl)⟩ ⟨0, (of_decide_eq_true rfl)⟩ _ y ⟨24, h⟩ rfl
  | ⟨25, h⟩ => mem_off3 L ⟨8, (of_decide_eq_true rfl)⟩ ⟨1, (of_decide_eq_true rfl)⟩ _ y ⟨25, h⟩ rfl
  | ⟨26, h⟩ => mem_off3 L ⟨8, (of_decide_eq_true rfl)⟩ ⟨2, (of_decide_eq_true rfl)⟩ _ y ⟨26, h⟩ rfl
  | ⟨27, h⟩ => mem_off3 L ⟨9, (of_decide_eq_true rfl)⟩ ⟨0, (of_decide_eq_true rfl)⟩ _ y ⟨27, h⟩ rfl
  | ⟨28, h⟩ => mem_off3 L ⟨9, (of_decide_eq_true rfl)⟩ ⟨1, (of_decide_eq_true rfl)⟩ _ y ⟨28, h⟩ rfl
  | ⟨29, h⟩ => mem_off3 L ⟨9, (of_decide_eq_true rfl)⟩ ⟨2, (of_decide_eq_true rfl)⟩ _ y ⟨29, h⟩ rfl
  | ⟨30, h⟩ => mem_off22 L ⟨0, (of_decide_eq_true rfl)⟩ _ y ⟨30, h⟩ rfl
  | ⟨31, h⟩ => mem_off28 L ⟨0, (of_decide_eq_true rfl)⟩ _ y ⟨31, h⟩ rfl
  | ⟨32, h⟩ => mem_off34 L ⟨0, (of_decide_eq_true rfl)⟩ _ y ⟨32, h⟩ rfl
  | ⟨33, h⟩ => mem_off15 L ⟨1, (of_decide_eq_true rfl)⟩ _ y ⟨33, h⟩ rfl (of_decide_eq_true rfl)
  | ⟨34, h⟩ => mem_off22 L ⟨1, (of_decide_eq_true rfl)⟩ _ y ⟨34, h⟩ rfl
  | ⟨35, h⟩ => mem_off28 L ⟨1, (of_decide_eq_true rfl)⟩ _ y ⟨35, h⟩ rfl
  | ⟨36, h⟩ => mem_off34 L ⟨1, (of_decide_eq_true rfl)⟩ _ y ⟨36, h⟩ rfl
  | ⟨37, h⟩ => mem_off15 L ⟨2, (of_decide_eq_true rfl)⟩ _ y ⟨37, h⟩ rfl (of_decide_eq_true rfl)
  | ⟨38, h⟩ => mem_off22 L ⟨2, (of_decide_eq_true rfl)⟩ _ y ⟨38, h⟩ rfl
  | ⟨39, h⟩ => mem_off28 L ⟨2, (of_decide_eq_true rfl)⟩ _ y ⟨39, h⟩ rfl
  | ⟨40, h⟩ => mem_off34 L ⟨2, (of_decide_eq_true rfl)⟩ _ y ⟨40, h⟩ rfl
  | ⟨41, h⟩ => mem_off15 L ⟨3, (of_decide_eq_true rfl)⟩ _ y ⟨41, h⟩ rfl (of_decide_eq_true rfl)
  | ⟨42, h⟩ => mem_off22 L ⟨3, (of_decide_eq_true rfl)⟩ _ y ⟨42, h⟩ rfl
  | ⟨43, h⟩ => mem_off28 L ⟨3, (of_decide_eq_true rfl)⟩ _ y ⟨43, h⟩ rfl
  | ⟨44, h⟩ => mem_off34 L ⟨3, (of_decide_eq_true rfl)⟩ _ y ⟨44, h⟩ rfl
  | ⟨45, h⟩ => mem_off15 L ⟨4, (of_decide_eq_true rfl)⟩ _ y ⟨45, h⟩ rfl (of_decide_eq_true rfl)
  | ⟨46, h⟩ => mem_off22 L ⟨4, (of_decide_eq_true rfl)⟩ _ y ⟨46, h⟩ rfl
  | ⟨47, h⟩ => mem_off28 L ⟨4, (of_decide_eq_true rfl)⟩ _ y ⟨47, h⟩ rfl
  | ⟨48, h⟩ => mem_off34 L ⟨4, (of_decide_eq_true rfl)⟩ _ y ⟨48, h⟩ rfl
  | ⟨49, h⟩ => mem_off15 L ⟨5, (of_decide_eq_true rfl)⟩ _ y ⟨49, h⟩ rfl (of_decide_eq_true rfl)
  | ⟨50, h⟩ => mem_off22 L ⟨5, (of_decide_eq_true rfl)⟩ _ y ⟨50, h⟩ rfl
  | ⟨51, h⟩ => mem_off28 L ⟨5, (of_decide_eq_true rfl)⟩ _ y ⟨51, h⟩ rfl
  | ⟨52, h⟩ => mem_off34 L ⟨5, (of_decide_eq_true rfl)⟩ _ y ⟨52, h⟩ rfl
  | ⟨53, h⟩ => mem_off15 L ⟨6, (of_decide_eq_true rfl)⟩ _ y ⟨53, h⟩ rfl (of_decide_eq_true rfl)
  | ⟨54, h⟩ => mem_off22 L ⟨6, (of_decide_eq_true rfl)⟩ _ y ⟨54, h⟩ rfl
  | ⟨55, h⟩ => mem_off28 L ⟨6, (of_decide_eq_true rfl)⟩ _ y ⟨55, h⟩ rfl
  | ⟨56, h⟩ => mem_off34 L ⟨6, (of_decide_eq_true rfl)⟩ _ y ⟨56, h⟩ rfl
  | ⟨57, h⟩ => mem_off15 L ⟨7, (of_decide_eq_true rfl)⟩ _ y ⟨57, h⟩ rfl (of_decide_eq_true rfl)
  | ⟨58, h⟩ => mem_off22 L ⟨7, (of_decide_eq_true rfl)⟩ _ y ⟨58, h⟩ rfl
  | ⟨59, h⟩ => mem_off28 L ⟨7, (of_decide_eq_true rfl)⟩ _ y ⟨59, h⟩ rfl
  | ⟨60, h⟩ => mem_off34 L ⟨7, (of_decide_eq_true rfl)⟩ _ y ⟨60, h⟩ rfl
  | ⟨61, h⟩ => mem_off15 L ⟨8, (of_decide_eq_true rfl)⟩ _ y ⟨61, h⟩ rfl (of_decide_eq_true rfl)
  | ⟨62, h⟩ => mem_off22 L ⟨8, (of_decide_eq_true rfl)⟩ _ y ⟨62, h⟩ rfl
  | ⟨63, h⟩ => mem_off28 L ⟨8, (of_decide_eq_true rfl)⟩ _ y ⟨63, h⟩ rfl
  | ⟨64, h⟩ => mem_off34 L ⟨8, (of_decide_eq_true rfl)⟩ _ y ⟨64, h⟩ rfl
  | ⟨65, h⟩ => mem_off15 L ⟨9, (of_decide_eq_true rfl)⟩ _ y ⟨65, h⟩ rfl (of_decide_eq_true rfl)
  | ⟨66, h⟩ => mem_off22 L ⟨9, (of_decide_eq_true rfl)⟩ _ y ⟨66, h⟩ rfl
  | ⟨67, h⟩ => mem_off28 L ⟨9, (of_decide_eq_true rfl)⟩ _ y ⟨67, h⟩ rfl
  | ⟨68, h⟩ => mem_off34 L ⟨9, (of_decide_eq_true rfl)⟩ _ y ⟨68, h⟩ rfl
  | ⟨69, h⟩ => mem_off38 L ⟨3, (of_decide_eq_true rfl)⟩ _ y ⟨69, h⟩ rfl
  | ⟨k + 70, h⟩ => absurd h (by omega)

/-- Different pieces share no row. -/
theorem outK_disjoint (L : grid0.Coords) :
    ∀ i ∈ (Finset.univ : Finset (Fin 70)), ∀ j ∈ (Finset.univ : Finset (Fin 70)), i ≠ j → Disjoint (outK L i) (outK L j) := by
  intro i _ j _ hij
  have hv : i.val ≠ j.val := fun e => hij (Fin.ext e)
  have hi' := i.isLt
  have hj' := j.isLt
  rw [Finset.disjoint_left]
  intro y hi hj
  rw [mem_outK] at hi hj
  unfold outLo outLen at hi hj
  split_ifs at hi hj <;> omega

/-- The pieces are the worker's block: its 6400 rows are thirty times 128 and forty times 64. -/
theorem outK_cover (L : grid0.Coords) : (Finset.univ : Finset (Fin 70)).biUnion (outK L) = blkSet (wid (Fin.cast (show grid0.bound 0 = 2 from rfl) (L 0)) (Fin.cast (show grid0.bound 1 = 16 from rfl) (L 1))) := by
  ext y
  have hb := base_eq L
  rw [Finset.mem_biUnion, mem_blkSet]
  constructor
  · rintro ⟨n, -, hn⟩
    rw [mem_outK] at hn
    unfold outLo outLen at hn
    have hn' := n.isLt
    split_ifs at hn <;> omega
  · intro hy
    by_cases h : (y 0).val - (12800 * (L 1).val + 6400 * (L 0).val) < 3840
    · obtain ⟨q, hq⟩ : ∃ q : Fin 70, q.val = ((y 0).val - (12800 * (L 1).val + 6400 * (L 0).val)) / 128 := ⟨⟨_, by omega⟩, rfl⟩
      refine ⟨q, Finset.mem_univ _, ?_⟩
      rw [mem_outK]
      unfold outLo outLen
      have hlt : q.val < 30 := by omega
      rw [if_pos hlt, if_pos hlt]
      omega
    · obtain ⟨q, hq⟩ : ∃ q : Fin 70, q.val = 30 + ((y 0).val - (12800 * (L 1).val + 6400 * (L 0).val) - 3840) / 64 := ⟨⟨_, by omega⟩, rfl⟩
      refine ⟨q, Finset.mem_univ _, ?_⟩
      rw [mem_outK]
      unfold outLo outLen
      have hge : ¬ q.val < 30 := by omega
      rw [if_neg hge, if_neg hge]
      omega

/-! ## The block held as its pieces -/

section Split

open Idealize.ShloMosaic.SparseCore.Cfg (HIx)

variable {F : FTy → Type}

local notation "𝕄" => MT nD τ sig (HIx 1) (Elt F) ℕ UU ℕ

/-- A worker's block of the flat result is its seventy pieces. -/
theorem out_split (d : Dev nD) (L : grid0.Coords) (f : Buf (Elt F) (outLoc d)) :
    (outLoc d ↦[blkSet (wid (Fin.cast (show grid0.bound 0 = 2 from rfl) (L 0)) (Fin.cast (show grid0.bound 1 = 16 from rfl) (L 1)))]{fullShare} f : sProp 𝕄) = bigSep Finset.univ fun n : Fin 70 => outLoc d ↦[outK L n]{fullShare} f := by
  rw [← pointsTo_biUnion Finset.univ (ℓ := outLoc d) (outK L) (outK_disjoint L), outK_cover]

/-- Seventy assertions, one by one in order. -/
theorem out_split_fin (Φ : Fin 70 → sProp 𝕄) :
    bigSep Finset.univ Φ = iprop(Φ ⟨0, (of_decide_eq_true rfl)⟩ ∗ Φ ⟨1, (of_decide_eq_true rfl)⟩ ∗ Φ ⟨2, (of_decide_eq_true rfl)⟩ ∗ Φ ⟨3, (of_decide_eq_true rfl)⟩ ∗ Φ ⟨4, (of_decide_eq_true rfl)⟩ ∗ Φ ⟨5, (of_decide_eq_true rfl)⟩ ∗ Φ ⟨6, (of_decide_eq_true rfl)⟩ ∗ Φ ⟨7, (of_decide_eq_true rfl)⟩ ∗ Φ ⟨8, (of_decide_eq_true rfl)⟩ ∗ Φ ⟨9, (of_decide_eq_true rfl)⟩ ∗ Φ ⟨10, (of_decide_eq_true rfl)⟩ ∗ Φ ⟨11, (of_decide_eq_true rfl)⟩ ∗ Φ ⟨12, (of_decide_eq_true rfl)⟩ ∗ Φ ⟨13, (of_decide_eq_true rfl)⟩ ∗ Φ ⟨14, (of_decide_eq_true rfl)⟩ ∗ Φ ⟨15, (of_decide_eq_true rfl)⟩ ∗ Φ ⟨16, (of_decide_eq_true rfl)⟩ ∗ Φ ⟨17, (of_decide_eq_true rfl)⟩ ∗ Φ ⟨18, (of_decide_eq_true rfl)⟩ ∗ Φ ⟨19, (of_decide_eq_true rfl)⟩ ∗ Φ ⟨20, (of_decide_eq_true rfl)⟩ ∗ Φ ⟨21, (of_decide_eq_true rfl)⟩ ∗ Φ ⟨22, (of_decide_eq_true rfl)⟩ ∗ Φ ⟨23, (of_decide_eq_true rfl)⟩ ∗ Φ ⟨24, (of_decide_eq_true rfl)⟩ ∗ Φ ⟨25, (of_decide_eq_true rfl)⟩ ∗ Φ ⟨26, (of_decide_eq_true rfl)⟩ ∗ Φ ⟨27, (of_decide_eq_true rfl)⟩ ∗ Φ ⟨28, (of_decide_eq_true rfl)⟩ ∗ Φ ⟨29, (of_decide_eq_true rfl)⟩ ∗ Φ ⟨30, (of_decide_eq_true rfl)⟩ ∗ Φ ⟨31, (of_decide_eq_true rfl)⟩ ∗ Φ ⟨32, (of_decide_eq_true rfl)⟩ ∗ Φ ⟨33, (of_decide_eq_true rfl)⟩ ∗ Φ ⟨34, (of_decide_eq_true rfl)⟩ ∗ Φ ⟨35, (of_decide_eq_true rfl)⟩ ∗ Φ ⟨36, (of_decide_eq_true rfl)⟩ ∗ Φ ⟨37, (of_decide_eq_true rfl)⟩ ∗ Φ ⟨38, (of_decide_eq_true rfl)⟩ ∗ Φ ⟨39, (of_decide_eq_true rfl)⟩ ∗ Φ ⟨40, (of_decide_eq_true rfl)⟩ ∗ Φ ⟨41, (of_decide_eq_true rfl)⟩ ∗ Φ ⟨42, (of_decide_eq_true rfl)⟩ ∗ Φ ⟨43, (of_decide_eq_true rfl)⟩ ∗ Φ ⟨44, (of_decide_eq_true rfl)⟩ ∗ Φ ⟨45, (of_decide_eq_true rfl)⟩ ∗ Φ ⟨46, (of_decide_eq_true rfl)⟩ ∗ Φ ⟨47, (of_decide_eq_true rfl)⟩ ∗ Φ ⟨48, (of_decide_eq_true rfl)⟩ ∗ Φ ⟨49, (of_decide_eq_true rfl)⟩ ∗ Φ ⟨50, (of_decide_eq_true rfl)⟩ ∗ Φ ⟨51, (of_decide_eq_true rfl)⟩ ∗ Φ ⟨52, (of_decide_eq_true rfl)⟩ ∗ Φ ⟨53, (of_decide_eq_true rfl)⟩ ∗ Φ ⟨54, (of_decide_eq_true rfl)⟩ ∗ Φ ⟨55, (of_decide_eq_true rfl)⟩ ∗ Φ ⟨56, (of_decide_eq_true rfl)⟩ ∗ Φ ⟨57, (of_decide_eq_true rfl)⟩ ∗ Φ ⟨58, (of_decide_eq_true rfl)⟩ ∗ Φ ⟨59, (of_decide_eq_true rfl)⟩ ∗ Φ ⟨60, (of_decide_eq_true rfl)⟩ ∗ Φ ⟨61, (of_decide_eq_true rfl)⟩ ∗ Φ ⟨62, (of_decide_eq_true rfl)⟩ ∗ Φ ⟨63, (of_decide_eq_true rfl)⟩ ∗ Φ ⟨64, (of_decide_eq_true rfl)⟩ ∗ Φ ⟨65, (of_decide_eq_true rfl)⟩ ∗ Φ ⟨66, (of_decide_eq_true rfl)⟩ ∗ Φ ⟨67, (of_decide_eq_true rfl)⟩ ∗ Φ ⟨68, (of_decide_eq_true rfl)⟩ ∗ Φ ⟨69, (of_decide_eq_true rfl)⟩ ∗ emp) := by
  refine (bigSep_univ_eq_bigSepL (List.finRange 70) (List.toFinset_finRange 70).symm (List.nodup_finRange 70) Φ).trans ?_
  rw [show List.finRange 70 = [⟨0, (of_decide_eq_true rfl)⟩, ⟨1, (of_decide_eq_true rfl)⟩, ⟨2, (of_decide_eq_true rfl)⟩, ⟨3, (of_decide_eq_true rfl)⟩, ⟨4, (of_decide_eq_true rfl)⟩, ⟨5, (of_decide_eq_true rfl)⟩, ⟨6, (of_decide_eq_true rfl)⟩, ⟨7, (of_decide_eq_true rfl)⟩, ⟨8, (of_decide_eq_true rfl)⟩, ⟨9, (of_decide_eq_true rfl)⟩, ⟨10, (of_decide_eq_true rfl)⟩, ⟨11, (of_decide_eq_true rfl)⟩, ⟨12, (of_decide_eq_true rfl)⟩, ⟨13, (of_decide_eq_true rfl)⟩, ⟨14, (of_decide_eq_true rfl)⟩, ⟨15, (of_decide_eq_true rfl)⟩, ⟨16, (of_decide_eq_true rfl)⟩, ⟨17, (of_decide_eq_true rfl)⟩, ⟨18, (of_decide_eq_true rfl)⟩, ⟨19, (of_decide_eq_true rfl)⟩, ⟨20, (of_decide_eq_true rfl)⟩, ⟨21, (of_decide_eq_true rfl)⟩, ⟨22, (of_decide_eq_true rfl)⟩, ⟨23, (of_decide_eq_true rfl)⟩, ⟨24, (of_decide_eq_true rfl)⟩, ⟨25, (of_decide_eq_true rfl)⟩, ⟨26, (of_decide_eq_true rfl)⟩, ⟨27, (of_decide_eq_true rfl)⟩, ⟨28, (of_decide_eq_true rfl)⟩, ⟨29, (of_decide_eq_true rfl)⟩, ⟨30, (of_decide_eq_true rfl)⟩, ⟨31, (of_decide_eq_true rfl)⟩, ⟨32, (of_decide_eq_true rfl)⟩, ⟨33, (of_decide_eq_true rfl)⟩, ⟨34, (of_decide_eq_true rfl)⟩, ⟨35, (of_decide_eq_true rfl)⟩, ⟨36, (of_decide_eq_true rfl)⟩, ⟨37, (of_decide_eq_true rfl)⟩, ⟨38, (of_decide_eq_true rfl)⟩, ⟨39, (of_decide_eq_true rfl)⟩, ⟨40, (of_decide_eq_true rfl)⟩, ⟨41, (of_decide_eq_true rfl)⟩, ⟨42, (of_decide_eq_true rfl)⟩, ⟨43, (of_decide_eq_true rfl)⟩, ⟨44, (of_decide_eq_true rfl)⟩, ⟨45, (of_decide_eq_true rfl)⟩, ⟨46, (of_decide_eq_true rfl)⟩, ⟨47, (of_decide_eq_true rfl)⟩, ⟨48, (of_decide_eq_true rfl)⟩, ⟨49, (of_decide_eq_true rfl)⟩, ⟨50, (of_decide_eq_true rfl)⟩, ⟨51, (of_decide_eq_true rfl)⟩, ⟨52, (of_decide_eq_true rfl)⟩, ⟨53, (of_decide_eq_true rfl)⟩, ⟨54, (of_decide_eq_true rfl)⟩, ⟨55, (of_decide_eq_true rfl)⟩, ⟨56, (of_decide_eq_true rfl)⟩, ⟨57, (of_decide_eq_true rfl)⟩, ⟨58, (of_decide_eq_true rfl)⟩, ⟨59, (of_decide_eq_true rfl)⟩, ⟨60, (of_decide_eq_true rfl)⟩, ⟨61, (of_decide_eq_true rfl)⟩, ⟨62, (of_decide_eq_true rfl)⟩, ⟨63, (of_decide_eq_true rfl)⟩, ⟨64, (of_decide_eq_true rfl)⟩, ⟨65, (of_decide_eq_true rfl)⟩, ⟨66, (of_decide_eq_true rfl)⟩, ⟨67, (of_decide_eq_true rfl)⟩, ⟨68, (of_decide_eq_true rfl)⟩, ⟨69, (of_decide_eq_true rfl)⟩] from by decide]
  simp only [bigSepL_cons, bigSepL_nil]
  rfl

/-- A worker's block of the flat result is its seventy pieces, one by one in order. -/
theorem out_split_list (d : Dev nD) (L : grid0.Coords) (f : Buf (Elt F) (outLoc d)) :
    (outLoc d ↦[blkSet (wid (Fin.cast (show grid0.bound 0 = 2 from rfl) (L 0)) (Fin.cast (show grid0.bound 1 = 16 from rfl) (L 1)))]{fullShare} f : sProp 𝕄)
      = iprop((outLoc d ↦[outK L ⟨0, (of_decide_eq_true rfl)⟩]{fullShare} f) ∗ (outLoc d ↦[outK L ⟨1, (of_decide_eq_true rfl)⟩]{fullShare} f) ∗ (outLoc d ↦[outK L ⟨2, (of_decide_eq_true rfl)⟩]{fullShare} f) ∗ (outLoc d ↦[outK L ⟨3, (of_decide_eq_true rfl)⟩]{fullShare} f) ∗ (outLoc d ↦[outK L ⟨4, (of_decide_eq_true rfl)⟩]{fullShare} f) ∗ (outLoc d ↦[outK L ⟨5, (of_decide_eq_true rfl)⟩]{fullShare} f) ∗ (outLoc d ↦[outK L ⟨6, (of_decide_eq_true rfl)⟩]{fullShare} f) ∗ (outLoc d ↦[outK L ⟨7, (of_decide_eq_true rfl)⟩]{fullShare} f) ∗ (outLoc d ↦[outK L ⟨8, (of_decide_eq_true rfl)⟩]{fullShare} f) ∗ (outLoc d ↦[outK L ⟨9, (of_decide_eq_true rfl)⟩]{fullShare} f) ∗ (outLoc d ↦[outK L ⟨10, (of_decide_eq_true rfl)⟩]{fullShare} f) ∗ (outLoc d ↦[outK L ⟨11, (of_decide_eq_true rfl)⟩]{fullShare} f) ∗ (outLoc d ↦[outK L ⟨12, (of_decide_eq_true rfl)⟩]{fullShare} f) ∗ (outLoc d ↦[outK L ⟨13, (of_decide_eq_true rfl)⟩]{fullShare} f) ∗ (outLoc d ↦[outK L ⟨14, (of_decide_eq_true rfl)⟩]{fullShare} f) ∗ (outLoc d ↦[outK L ⟨15, (of_decide_eq_true rfl)⟩]{fullShare} f) ∗ (outLoc d ↦[outK L ⟨16, (of_decide_eq_true rfl)⟩]{fullShare} f) ∗ (outLoc d ↦[outK L ⟨17, (of_decide_eq_true rfl)⟩]{fullShare} f) ∗ (outLoc d ↦[outK L ⟨18, (of_decide_eq_true rfl)⟩]{fullShare} f) ∗ (outLoc d ↦[outK L ⟨19, (of_decide_eq_true rfl)⟩]{fullShare} f) ∗ (outLoc d ↦[outK L ⟨20, (of_decide_eq_true rfl)⟩]{fullShare} f) ∗ (outLoc d ↦[outK L ⟨21, (of_decide_eq_true rfl)⟩]{fullShare} f) ∗ (outLoc d ↦[outK L ⟨22, (of_decide_eq_true rfl)⟩]{fullShare} f) ∗ (outLoc d ↦[outK L ⟨23, (of_decide_eq_true rfl)⟩]{fullShare} f) ∗ (outLoc d ↦[outK L ⟨24, (of_decide_eq_true rfl)⟩]{fullShare} f) ∗ (outLoc d ↦[outK L ⟨25, (of_decide_eq_true rfl)⟩]{fullShare} f) ∗ (outLoc d ↦[outK L ⟨26, (of_decide_eq_true rfl)⟩]{fullShare} f) ∗ (outLoc d ↦[outK L ⟨27, (of_decide_eq_true rfl)⟩]{fullShare} f) ∗ (outLoc d ↦[outK L ⟨28, (of_decide_eq_true rfl)⟩]{fullShare} f) ∗ (outLoc d ↦[outK L ⟨29, (of_decide_eq_true rfl)⟩]{fullShare} f) ∗ (outLoc d ↦[outK L ⟨30, (of_decide_eq_true rfl)⟩]{fullShare} f) ∗ (outLoc d ↦[outK L ⟨31, (of_decide_eq_true rfl)⟩]{fullShare} f) ∗ (outLoc d ↦[outK L ⟨32, (of_decide_eq_true rfl)⟩]{fullShare} f) ∗ (outLoc d ↦[outK L ⟨33, (of_decide_eq_true rfl)⟩]{fullShare} f) ∗ (outLoc d ↦[outK L ⟨34, (of_decide_eq_true rfl)⟩]{fullShare} f) ∗ (outLoc d ↦[outK L ⟨35, (of_decide_eq_true rfl)⟩]{fullShare} f) ∗ (outLoc d ↦[outK L ⟨36, (of_decide_eq_true rfl)⟩]{fullShare} f) ∗ (outLoc d ↦[outK L ⟨37, (of_decide_eq_true rfl)⟩]{fullShare} f) ∗ (outLoc d ↦[outK L ⟨38, (of_decide_eq_true rfl)⟩]{fullShare} f) ∗ (outLoc d ↦[outK L ⟨39, (of_decide_eq_true rfl)⟩]{fullShare} f) ∗ (outLoc d ↦[outK L ⟨40, (of_decide_eq_true rfl)⟩]{fullShare} f) ∗ (outLoc d ↦[outK L ⟨41, (of_decide_eq_true rfl)⟩]{fullShare} f) ∗ (outLoc d ↦[outK L ⟨42, (of_decide_eq_true rfl)⟩]{fullShare} f) ∗ (outLoc d ↦[outK L ⟨43, (of_decide_eq_true rfl)⟩]{fullShare} f) ∗ (outLoc d ↦[outK L ⟨44, (of_decide_eq_true rfl)⟩]{fullShare} f) ∗ (outLoc d ↦[outK L ⟨45, (of_decide_eq_true rfl)⟩]{fullShare} f) ∗ (outLoc d ↦[outK L ⟨46, (of_decide_eq_true rfl)⟩]{fullShare} f) ∗ (outLoc d ↦[outK L ⟨47, (of_decide_eq_true rfl)⟩]{fullShare} f) ∗ (outLoc d ↦[outK L ⟨48, (of_decide_eq_true rfl)⟩]{fullShare} f) ∗ (outLoc d ↦[outK L ⟨49, (of_decide_eq_true rfl)⟩]{fullShare} f) ∗ (outLoc d ↦[outK L ⟨50, (of_decide_eq_true rfl)⟩]{fullShare} f) ∗ (outLoc d ↦[outK L ⟨51, (of_decide_eq_true rfl)⟩]{fullShare} f) ∗ (outLoc d ↦[outK L ⟨52, (of_decide_eq_true rfl)⟩]{fullShare} f) ∗ (outLoc d ↦[outK L ⟨53, (of_decide_eq_true rfl)⟩]{fullShare} f) ∗ (outLoc d ↦[outK L ⟨54, (of_decide_eq_true rfl)⟩]{fullShare} f) ∗ (outLoc d ↦[outK L ⟨55, (of_decide_eq_true rfl)⟩]{fullShare} f) ∗ (outLoc d ↦[outK L ⟨56, (of_decide_eq_true rfl)⟩]{fullShare} f) ∗ (outLoc d ↦[outK L ⟨57, (of_decide_eq_true rfl)⟩]{fullShare} f) ∗ (outLoc d ↦[outK L ⟨58, (of_decide_eq_true rfl)⟩]{fullShare} f) ∗ (outLoc d ↦[outK L ⟨59, (of_decide_eq_true rfl)⟩]{fullShare} f) ∗ (outLoc d ↦[outK L ⟨60, (of_decide_eq_true rfl)⟩]{fullShare} f) ∗ (outLoc d ↦[outK L ⟨61, (of_decide_eq_true rfl)⟩]{fullShare} f) ∗ (outLoc d ↦[outK L ⟨62, (of_decide_eq_true rfl)⟩]{fullShare} f) ∗ (outLoc d ↦[outK L ⟨63, (of_decide_eq_true rfl)⟩]{fullShare} f) ∗ (outLoc d ↦[outK L ⟨64, (of_decide_eq_true rfl)⟩]{fullShare} f) ∗ (outLoc d ↦[outK L ⟨65, (of_decide_eq_true rfl)⟩]{fullShare} f) ∗ (outLoc d ↦[outK L ⟨66, (of_decide_eq_true rfl)⟩]{fullShare} f) ∗ (outLoc d ↦[outK L ⟨67, (of_decide_eq_true rfl)⟩]{fullShare} f) ∗ (outLoc d ↦[outK L ⟨68, (of_decide_eq_true rfl)⟩]{fullShare} f) ∗ (outLoc d ↦[outK L ⟨69, (of_decide_eq_true rfl)⟩]{fullShare} f) ∗ emp) :=
  (out_split d L f).trans (out_split_fin (F := F) fun n => outLoc d ↦[outK L n]{fullShare} f)

end Split

end Cert.Proof.KB

end
-- ==== Proof.KBSh.lean ====
/-
  The four slots of a tile's row of the SparseCore's shared staging memory, as the kernel's copies into them name
  them. They are pairwise disjoint and cover the row.
-/
import proofs.«206231_g69020124446782_cont_9to1c4b_129_32_alg».proof.Proof.KBCommon
import proofs.«206231_g69020124446782_cont_9to1c4b_129_32_alg».proof.Proof.Gen.Kernel.Skeleton

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Slot `b`'s elements, under the spelling of the copy that fills it. -/
def shK (L : grid0.Coords) : Fin 4 → Finset S16x4x64x128.Idx
  | ⟨0, _⟩ => ((((Memref.whole cc0_scratch3 : Memref sig .scVector .shared S16x4x64x128 .f32).slice (Rect.unit (s := S16x4x64x128) (k0_off13 L) S1x1x64x128.size (k0_off13_inb L)) (fun _ => rfl)).squeeze S64x128 squeezes_S1x1x64x128_S64x128)).view.set
  | ⟨1, _⟩ => ((((Memref.whole cc0_scratch3 : Memref sig .scVector .shared S16x4x64x128 .f32).slice (Rect.unit (s := S16x4x64x128) (k0_off20 L) S1x1x64x128.size (k0_off20_inb L)) (fun _ => rfl)).squeeze S64x128 squeezes_S1x1x64x128_S64x128)).view.set
  | ⟨2, _⟩ => ((((Memref.whole cc0_scratch3 : Memref sig .scVector .shared S16x4x64x128 .f32).slice (Rect.unit (s := S16x4x64x128) (k0_off26 L) S1x1x64x128.size (k0_off26_inb L)) (fun _ => rfl)).squeeze S64x128 squeezes_S1x1x64x128_S64x128)).view.set
  | ⟨3, _⟩ => ((((Memref.whole cc0_scratch3 : Memref sig .scVector .shared S16x4x64x128 .f32).slice (Rect.unit (s := S16x4x64x128) (k0_off32 L) S1x1x64x128.size (k0_off32_inb L)) (fun _ => rfl)).squeeze S64x128 squeezes_S1x1x64x128_S64x128)).view.set
  | ⟨n + 4, h⟩ => absurd h (by omega)

/-! ## Which elements a slot holds -/

/-- The elements of a unit-stride piece of the staging memory, with axes of size one dropped: on each axis, from the
    offset, as many as the size. -/
theorem mem_shPiece (off size : Fin 4 → ℕ) (inb : ∀ a, off a + size a ≤ S16x4x64x128.size a) {s' : Shape}
    (hsq : (Rect.unit (s := S16x4x64x128) off size inb).shape.Squeezes s') (y : S16x4x64x128.Idx) :
    y ∈ (((Memref.whole cc0_scratch3 : Memref sig .scVector .shared S16x4x64x128 .f32).slice (Rect.unit (s := S16x4x64x128) off size inb) (fun _ => rfl)).squeeze s' hsq).view.set
      ↔ ∀ a, off a ≤ (y a).val ∧ (y a).val < off a + size a := by
  show y ∈ (((View.whole (cc0_scratch3 : Ref sig .scVector)).slice (Rect.unit (s := S16x4x64x128) off size inb)).reshape s' hsq.numel_eq).set ↔ _
  rw [View.set_reshape, View.set_slice_whole]
  exact Rect.mem_set_unit

/-- A piece of one row and one slot, whole on the last two axes, at row `L 1` and slot `k`: its elements are those of
    that row and that slot. -/
theorem mem_shSlot (L : grid0.Coords) (k : ℕ) (off : Fin 4 → ℕ) (hoff : off = ![(L 1).val, k, 0, 0])
    (inb : ∀ a, off a + S1x1x64x128.size a ≤ S16x4x64x128.size a) (y : S16x4x64x128.Idx) :
    y ∈ (((Memref.whole cc0_scratch3 : Memref sig .scVector .shared S16x4x64x128 .f32).slice (Rect.unit (s := S16x4x64x128) off S1x1x64x128.size inb) (fun _ => rfl)).squeeze S64x128 squeezes_S1x1x64x128_S64x128).view.set
      ↔ (y 0).val = (L 1).val ∧ (y 1).val = k := by
  subst hoff
  have h2 : (y 2).val < 64 := (y 2).isLt
  have h3 : (y 3).val < 128 := (y 3).isLt
  rw [mem_shPiece]
  constructor
  · intro h
    have h0 := h 0
    have h1 := h 1
    simp at h0 h1
    omega
  · rintro ⟨e0, e1⟩ a
    fin_cases a <;> simp <;> omega

/-- Slot `b` of the tile at place `L` is the elements of row `L 1` and slot `b`. -/
theorem mem_shK (L : grid0.Coords) (b : Fin 4) (y : S16x4x64x128.Idx) : y ∈ shK L b ↔ (y 0).val = (L 1).val ∧ (y 1).val = b.val := by
  match b with
  | ⟨0, _⟩ => exact mem_shSlot L 0 (k0_off13 L) (k0_off13_eq L) (k0_off13_inb L) y
  | ⟨1, _⟩ => exact mem_shSlot L 1 (k0_off20 L) (k0_off20_eq L) (k0_off20_inb L) y
  | ⟨2, _⟩ => exact mem_shSlot L 2 (k0_off26 L) (k0_off26_eq L) (k0_off26_inb L) y
  | ⟨3, _⟩ => exact mem_shSlot L 3 (k0_off32 L) (k0_off32_eq L) (k0_off32_inb L) y

/-- A tile's row of the staging memory is the elements whose first coordinate is the tile's number. -/
theorem mem_shRowSet (i : Fin 16) (y : S16x4x64x128.Idx) : y ∈ shRowSet i ↔ (y 0).val = i.val := by
  have hset : shRowSet i = (shRow i).set := by
    show ((View.whole (cc0_scratch3 : Ref sig .scVector)).slice (shRow i)).set = _
    rw [View.set_slice_whole]
  have h1 : (y 1).val < 4 := (y 1).isLt
  have h2 : (y 2).val < 64 := (y 2).isLt
  have h3 : (y 3).val < 128 := (y 3).isLt
  rw [hset, Rect.mem_set_unit]
  constructor
  · intro h
    have h0 : i.val * 1 ≤ (y 0).val ∧ (y 0).val < i.val * 1 + 1 := h 0
    omega
  · intro e0 (a : Fin 4)
    match a with
    | ⟨0, _⟩ => show i.val * 1 ≤ (y 0).val ∧ (y 0).val < i.val * 1 + 1; omega
    | ⟨1, _⟩ => show 0 * 4 ≤ (y 1).val ∧ (y 1).val < 0 * 4 + 4; omega
    | ⟨2, _⟩ => show 0 * 64 ≤ (y 2).val ∧ (y 2).val < 0 * 64 + 64; omega
    | ⟨3, _⟩ => show 0 * 128 ≤ (y 3).val ∧ (y 3).val < 0 * 128 + 128; omega

/-! ## The four slots are disjoint and make up the row -/

theorem shK_disjoint (L : grid0.Coords) :
    ∀ i ∈ (Finset.univ : Finset (Fin 4)), ∀ j ∈ (Finset.univ : Finset (Fin 4)), i ≠ j → Disjoint (shK L i) (shK L j) :=
  fun i _ j _ hij => Finset.disjoint_left.mpr fun y hi hj =>
    hij (Fin.ext (((mem_shK L i y).mp hi).2.symm.trans ((mem_shK L j y).mp hj).2))

theorem shK_cover (L : grid0.Coords) :
    (Finset.univ : Finset (Fin 4)).biUnion (shK L) = shRowSet (Fin.cast (show grid0.bound 1 = 16 from rfl) (L 1)) := by
  ext y
  rw [Finset.mem_biUnion, mem_shRowSet]
  constructor
  · rintro ⟨b, -, hb⟩
    exact ((mem_shK L b y).mp hb).1
  · intro h
    exact ⟨⟨(y 1).val, (y 1).isLt⟩, Finset.mem_univ _, (mem_shK L _ y).mpr ⟨h, rfl⟩⟩

/-! ## The row held as its four slots -/

open Idealize.ShloMosaic.SparseCore.Cfg (HIx)

variable {F : FTy → Type}

local notation "𝕄" => MT nD τ sig (HIx 1) (Elt F) ℕ UU ℕ

/-- A tile's row of the staging memory at `g` is its four slots, each at `g`. -/
theorem sh_split_list (d : Dev nD) (L : grid0.Coords) (g : Buf (Elt F) (shLoc d ((L 0).castLE hcore0))) :
    (shLoc d ((L 0).castLE hcore0) ↦[shRowSet (Fin.cast (show grid0.bound 1 = 16 from rfl) (L 1))]{fullShare} g : sProp 𝕄)
      = iprop((shLoc d ((L 0).castLE hcore0) ↦[shK L 0]{fullShare} g) ∗ (shLoc d ((L 0).castLE hcore0) ↦[shK L 1]{fullShare} g)
          ∗ (shLoc d ((L 0).castLE hcore0) ↦[shK L 2]{fullShare} g) ∗ (shLoc d ((L 0).castLE hcore0) ↦[shK L 3]{fullShare} g)) := by
  rw [← shK_cover L]
  refine (pointsTo_biUnion Finset.univ (ℓ := shLoc d ((L 0).castLE hcore0)) (shK L) (shK_disjoint L)).trans ?_
  exact bigSep_univ_eq_bigSepL [0, 1, 2, 3] (by decide) (by decide) _

/-- The four slots, each at contents of its own, are the row at some contents. -/
theorem sh_join (d : Dev nD) (L : grid0.Coords) (g0 g1 g2 g3 : Buf (Elt F) (shLoc d ((L 0).castLE hcore0))) :
    iprop((shLoc d ((L 0).castLE hcore0) ↦[shK L 0]{fullShare} g0) ∗ (shLoc d ((L 0).castLE hcore0) ↦[shK L 1]{fullShare} g1)
        ∗ (shLoc d ((L 0).castLE hcore0) ↦[shK L 2]{fullShare} g2) ∗ (shLoc d ((L 0).castLE hcore0) ↦[shK L 3]{fullShare} g3))
      ⊢ (iprop(∃ g, shLoc d ((L 0).castLE hcore0) ↦[shRowSet (Fin.cast (show grid0.bound 1 = 16 from rfl) (L 1))]{fullShare} g) : sProp 𝕄) := by
  have e : (bigSep Finset.univ fun b : Fin 4 => (shLoc d ((L 0).castLE hcore0) ↦[shK L b]{fullShare} (![g0, g1, g2, g3] b) : sProp 𝕄))
      = iprop((shLoc d ((L 0).castLE hcore0) ↦[shK L 0]{fullShare} g0) ∗ (shLoc d ((L 0).castLE hcore0) ↦[shK L 1]{fullShare} g1)
        ∗ (shLoc d ((L 0).castLE hcore0) ↦[shK L 2]{fullShare} g2) ∗ (shLoc d ((L 0).castLE hcore0) ↦[shK L 3]{fullShare} g3)) :=
    bigSep_univ_eq_bigSepL [0, 1, 2, 3] (by decide) (by decide) _
  rw [← e]
  refine (pointsTo_biUnion_join Finset.univ (ℓ := shLoc d ((L 0).castLE hcore0)) (shK L) ![g0, g1, g2, g3] g0 (shK_disjoint L)).trans ?_
  rw [shK_cover]
  iintro ⟨%g, -, Hg⟩
  iexists g; iexact Hg

end Cert.Proof.KB

end
-- ==== Proof.KBSlots.lean ====
/-
  The three 128-row slots of a tile's row buffer and the four 64-row slots of its half-row buffer, as the kernel's
  gathers into them name them. Each family is pairwise disjoint and covers its buffer.
-/
import proofs.«206231_g69020124446782_cont_9to1c4b_129_32_alg».proof.Proof.KBCommon
import proofs.«206231_g69020124446782_cont_9to1c4b_129_32_alg».proof.Proof.Gen.Kernel.Skeleton

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Row slot `b`'s elements. -/
def trK : Fin 3 → Finset S3x128x128.Idx
  | ⟨0, _⟩ => ((((Memref.whole cc0_scratch1 : Memref sig .scVector .vmem S3x128x128 .f32).slice (Rect.unit (s := S3x128x128) ![0, 0, 0] S1x128x128.size inb_S3x128x128_S1x128x128_0_0_0) (fun _ => rfl)).squeeze S128x128 squeezes_S1x128x128_S128x128)).view.set
  | ⟨1, _⟩ => ((((Memref.whole cc0_scratch1 : Memref sig .scVector .vmem S3x128x128 .f32).slice (Rect.unit (s := S3x128x128) ![1, 0, 0] S1x128x128.size inb_S3x128x128_S1x128x128_1_0_0) (fun _ => rfl)).squeeze S128x128 squeezes_S1x128x128_S128x128)).view.set
  | ⟨2, _⟩ => ((((Memref.whole cc0_scratch1 : Memref sig .scVector .vmem S3x128x128 .f32).slice (Rect.unit (s := S3x128x128) ![2, 0, 0] S1x128x128.size inb_S3x128x128_S1x128x128_2_0_0) (fun _ => rfl)).squeeze S128x128 squeezes_S1x128x128_S128x128)).view.set
  | ⟨n + 3, h⟩ => absurd h (by omega)

/-- Half-row slot `q`'s elements. -/
def srK : Fin 4 → Finset S4x64x128.Idx
  | ⟨0, _⟩ => ((((Memref.whole cc0_scratch2 : Memref sig .scVector .vmem S4x64x128 .f32).slice (Rect.unit (s := S4x64x128) ![0, 0, 0] S1x64x128.size inb_S4x64x128_S1x64x128_0_0_0) (fun _ => rfl)).squeeze S64x128 squeezes_S1x64x128_S64x128)).view.set
  | ⟨1, _⟩ => ((((Memref.whole cc0_scratch2 : Memref sig .scVector .vmem S4x64x128 .f32).slice (Rect.unit (s := S4x64x128) ![1, 0, 0] S1x64x128.size inb_S4x64x128_S1x64x128_1_0_0) (fun _ => rfl)).squeeze S64x128 squeezes_S1x64x128_S64x128)).view.set
  | ⟨2, _⟩ => ((((Memref.whole cc0_scratch2 : Memref sig .scVector .vmem S4x64x128 .f32).slice (Rect.unit (s := S4x64x128) ![2, 0, 0] S1x64x128.size inb_S4x64x128_S1x64x128_2_0_0) (fun _ => rfl)).squeeze S64x128 squeezes_S1x64x128_S64x128)).view.set
  | ⟨3, _⟩ => ((((Memref.whole cc0_scratch2 : Memref sig .scVector .vmem S4x64x128 .f32).slice (Rect.unit (s := S4x64x128) ![3, 0, 0] S1x64x128.size inb_S4x64x128_S1x64x128_3_0_0) (fun _ => rfl)).squeeze S64x128 squeezes_S1x64x128_S64x128)).view.set
  | ⟨n + 4, h⟩ => absurd h (by omega)

/-! ## Which elements a slot holds -/

/-- The elements of a unit-stride piece of the row buffer, with axes of size one dropped: on each axis, from the offset, as
    many as the size. -/
theorem mem_trPiece (off size : Fin 3 → ℕ) (inb : ∀ a, off a + size a ≤ S3x128x128.size a) {s' : Shape}
    (hsq : (Rect.unit (s := S3x128x128) off size inb).shape.Squeezes s') (y : S3x128x128.Idx) :
    y ∈ (((Memref.whole cc0_scratch1 : Memref sig .scVector .vmem S3x128x128 .f32).slice (Rect.unit (s := S3x128x128) off size inb) (fun _ => rfl)).squeeze s' hsq).view.set
      ↔ ∀ a, off a ≤ (y a).val ∧ (y a).val < off a + size a := by
  show y ∈ (((View.whole (cc0_scratch1 : Ref sig .scVector)).slice (Rect.unit (s := S3x128x128) off size inb)).reshape s' hsq.numel_eq).set ↔ _
  rw [View.set_reshape, View.set_slice_whole]
  exact Rect.mem_set_unit

/-- The elements of a unit-stride piece of the half-row buffer, with axes of size one dropped: on each axis, from the offset, as
    many as the size. -/
theorem mem_srPiece (off size : Fin 3 → ℕ) (inb : ∀ a, off a + size a ≤ S4x64x128.size a) {s' : Shape}
    (hsq : (Rect.unit (s := S4x64x128) off size inb).shape.Squeezes s') (y : S4x64x128.Idx) :
    y ∈ (((Memref.whole cc0_scratch2 : Memref sig .scVector .vmem S4x64x128 .f32).slice (Rect.unit (s := S4x64x128) off size inb) (fun _ => rfl)).squeeze s' hsq).view.set
      ↔ ∀ a, off a ≤ (y a).val ∧ (y a).val < off a + size a := by
  show y ∈ (((View.whole (cc0_scratch2 : Ref sig .scVector)).slice (Rect.unit (s := S4x64x128) off size inb)).reshape s' hsq.numel_eq).set ↔ _
  rw [View.set_reshape, View.set_slice_whole]
  exact Rect.mem_set_unit

/-- A piece of one slot of the row buffer, whole on the last two axes, at slot `k`: its elements are that slot's. -/
theorem mem_trSlot (k : ℕ) (off : Fin 3 → ℕ) (hoff : off = ![k, 0, 0]) (inb : ∀ a, off a + S1x128x128.size a ≤ S3x128x128.size a)
    (y : S3x128x128.Idx) :
    y ∈ (((Memref.whole cc0_scratch1 : Memref sig .scVector .vmem S3x128x128 .f32).slice (Rect.unit (s := S3x128x128) off S1x128x128.size inb) (fun _ => rfl)).squeeze S128x128 squeezes_S1x128x128_S128x128).view.set
      ↔ (y 0).val = k := by
  subst hoff
  have h1 : (y 1).val < 128 := (y 1).isLt
  have h2 : (y 2).val < 128 := (y 2).isLt
  rw [mem_trPiece]
  constructor
  · intro h
    have h0 := h 0
    simp at h0
    omega
  · rintro e0 a
    fin_cases a <;> simp <;> omega

/-- The same for the half-row buffer. -/
theorem mem_srSlot (k : ℕ) (off : Fin 3 → ℕ) (hoff : off = ![k, 0, 0]) (inb : ∀ a, off a + S1x64x128.size a ≤ S4x64x128.size a)
    (y : S4x64x128.Idx) :
    y ∈ (((Memref.whole cc0_scratch2 : Memref sig .scVector .vmem S4x64x128 .f32).slice (Rect.unit (s := S4x64x128) off S1x64x128.size inb) (fun _ => rfl)).squeeze S64x128 squeezes_S1x64x128_S64x128).view.set
      ↔ (y 0).val = k := by
  subst hoff
  have h1 : (y 1).val < 64 := (y 1).isLt
  have h2 : (y 2).val < 128 := (y 2).isLt
  rw [mem_srPiece]
  constructor
  · intro h
    have h0 := h 0
    simp at h0
    omega
  · rintro e0 a
    fin_cases a <;> simp <;> omega

/-- Row slot `b` is the elements whose first coordinate is `b`. -/
theorem mem_trK (b : Fin 3) (y : S3x128x128.Idx) : y ∈ trK b ↔ (y 0).val = b.val := by
  match b with
  | ⟨0, _⟩ => exact mem_trSlot 0 _ rfl inb_S3x128x128_S1x128x128_0_0_0 y
  | ⟨1, _⟩ => exact mem_trSlot 1 _ rfl inb_S3x128x128_S1x128x128_1_0_0 y
  | ⟨2, _⟩ => exact mem_trSlot 2 _ rfl inb_S3x128x128_S1x128x128_2_0_0 y

/-- Half-row slot `q` is the elements whose first coordinate is `q`. -/
theorem mem_srK (q : Fin 4) (y : S4x64x128.Idx) : y ∈ srK q ↔ (y 0).val = q.val := by
  match q with
  | ⟨0, _⟩ => exact mem_srSlot 0 _ rfl inb_S4x64x128_S1x64x128_0_0_0 y
  | ⟨1, _⟩ => exact mem_srSlot 1 _ rfl inb_S4x64x128_S1x64x128_1_0_0 y
  | ⟨2, _⟩ => exact mem_srSlot 2 _ rfl inb_S4x64x128_S1x64x128_2_0_0 y
  | ⟨3, _⟩ => exact mem_srSlot 3 _ rfl inb_S4x64x128_S1x64x128_3_0_0 y

/-! ## Each family is disjoint and makes up its buffer -/

theorem trK_disjoint :
    ∀ i ∈ (Finset.univ : Finset (Fin 3)), ∀ j ∈ (Finset.univ : Finset (Fin 3)), i ≠ j → Disjoint (trK i) (trK j) :=
  fun i _ j _ hij => Finset.disjoint_left.mpr fun y hi hj =>
    hij (Fin.ext (((mem_trK i y).mp hi).symm.trans ((mem_trK j y).mp hj)))

theorem trK_cover : (Finset.univ : Finset (Fin 3)).biUnion trK = Finset.univ := by
  ext y
  simp only [Finset.mem_biUnion, Finset.mem_univ, true_and, iff_true]
  exact ⟨⟨(y 0).val, (y 0).isLt⟩, (mem_trK _ y).mpr rfl⟩

theorem srK_disjoint :
    ∀ i ∈ (Finset.univ : Finset (Fin 4)), ∀ j ∈ (Finset.univ : Finset (Fin 4)), i ≠ j → Disjoint (srK i) (srK j) :=
  fun i _ j _ hij => Finset.disjoint_left.mpr fun y hi hj =>
    hij (Fin.ext (((mem_srK i y).mp hi).symm.trans ((mem_srK j y).mp hj)))

theorem srK_cover : (Finset.univ : Finset (Fin 4)).biUnion srK = Finset.univ := by
  ext y
  simp only [Finset.mem_biUnion, Finset.mem_univ, true_and, iff_true]
  exact ⟨⟨(y 0).val, (y 0).isLt⟩, (mem_srK _ y).mpr rfl⟩

/-! ## A buffer held as its slots -/

open Idealize.ShloMosaic.SparseCore.Cfg (HIx)

variable {F : FTy → Type}

local notation "𝕄" => MT nD τ sig (HIx 1) (Elt F) ℕ UU ℕ

/-- The row buffer at `f` is its three slots, each at `f`. -/
theorem tr_split_list (d : Dev nD) (L : grid0.Coords) (f : Buf (Elt F) ((V d ((L 0).castLE hcore0) ((L 1).castLE hsub0)).loc cc0_scratch1)) :
    ((V d ((L 0).castLE hcore0) ((L 1).castLE hsub0)).loc cc0_scratch1 ↦{fullShare} f : sProp 𝕄)
      = iprop(((V d ((L 0).castLE hcore0) ((L 1).castLE hsub0)).loc cc0_scratch1 ↦[trK 0]{fullShare} f) ∗ ((V d ((L 0).castLE hcore0) ((L 1).castLE hsub0)).loc cc0_scratch1 ↦[trK 1]{fullShare} f)
          ∗ (V d ((L 0).castLE hcore0) ((L 1).castLE hsub0)).loc cc0_scratch1 ↦[trK 2]{fullShare} f) := by
  have h : ((V d ((L 0).castLE hcore0) ((L 1).castLE hsub0)).loc cc0_scratch1 ↦[Finset.univ.biUnion trK]{fullShare} f : sProp 𝕄)
      = bigSep Finset.univ fun t => (V d ((L 0).castLE hcore0) ((L 1).castLE hsub0)).loc cc0_scratch1 ↦[trK t]{fullShare} f :=
    pointsTo_biUnion Finset.univ (ℓ := (V d ((L 0).castLE hcore0) ((L 1).castLE hsub0)).loc cc0_scratch1) trK trK_disjoint
  rw [trK_cover] at h
  exact h.trans (bigSep_univ_eq_bigSepL [0, 1, 2] (by decide) (by decide) _)

/-- The three slots, each at contents of its own, are the row buffer at some contents. -/
theorem tr_join (d : Dev nD) (L : grid0.Coords) (f0 f1 f2 : Buf (Elt F) ((V d ((L 0).castLE hcore0) ((L 1).castLE hsub0)).loc cc0_scratch1)) :
    iprop(((V d ((L 0).castLE hcore0) ((L 1).castLE hsub0)).loc cc0_scratch1 ↦[trK 0]{fullShare} f0) ∗ ((V d ((L 0).castLE hcore0) ((L 1).castLE hsub0)).loc cc0_scratch1 ↦[trK 1]{fullShare} f1)
        ∗ (V d ((L 0).castLE hcore0) ((L 1).castLE hsub0)).loc cc0_scratch1 ↦[trK 2]{fullShare} f2)
      ⊢ (iprop(∃ f, (V d ((L 0).castLE hcore0) ((L 1).castLE hsub0)).loc cc0_scratch1 ↦{fullShare} f) : sProp 𝕄) := by
  have e : (bigSep Finset.univ fun b : Fin 3 => ((V d ((L 0).castLE hcore0) ((L 1).castLE hsub0)).loc cc0_scratch1 ↦[trK b]{fullShare} (![f0, f1, f2] b) : sProp 𝕄))
      = iprop(((V d ((L 0).castLE hcore0) ((L 1).castLE hsub0)).loc cc0_scratch1 ↦[trK 0]{fullShare} f0) ∗ ((V d ((L 0).castLE hcore0) ((L 1).castLE hsub0)).loc cc0_scratch1 ↦[trK 1]{fullShare} f1)
        ∗ (V d ((L 0).castLE hcore0) ((L 1).castLE hsub0)).loc cc0_scratch1 ↦[trK 2]{fullShare} f2) :=
    bigSep_univ_eq_bigSepL [0, 1, 2] (by decide) (by decide) _
  rw [← e]
  refine (pointsTo_biUnion_join Finset.univ (ℓ := (V d ((L 0).castLE hcore0) ((L 1).castLE hsub0)).loc cc0_scratch1) trK ![f0, f1, f2] f0 trK_disjoint).trans ?_
  rw [trK_cover]
  iintro ⟨%g, -, Hg⟩
  iexists g; iexact Hg

/-- The half-row buffer at `f` is its four slots, each at `f`. -/
theorem sr_split_list (d : Dev nD) (L : grid0.Coords) (f : Buf (Elt F) ((V d ((L 0).castLE hcore0) ((L 1).castLE hsub0)).loc cc0_scratch2)) :
    ((V d ((L 0).castLE hcore0) ((L 1).castLE hsub0)).loc cc0_scratch2 ↦{fullShare} f : sProp 𝕄)
      = iprop(((V d ((L 0).castLE hcore0) ((L 1).castLE hsub0)).loc cc0_scratch2 ↦[srK 0]{fullShare} f) ∗ ((V d ((L 0).castLE hcore0) ((L 1).castLE hsub0)).loc cc0_scratch2 ↦[srK 1]{fullShare} f)
          ∗ ((V d ((L 0).castLE hcore0) ((L 1).castLE hsub0)).loc cc0_scratch2 ↦[srK 2]{fullShare} f) ∗ (V d ((L 0).castLE hcore0) ((L 1).castLE hsub0)).loc cc0_scratch2 ↦[srK 3]{fullShare} f) := by
  have h : ((V d ((L 0).castLE hcore0) ((L 1).castLE hsub0)).loc cc0_scratch2 ↦[Finset.univ.biUnion srK]{fullShare} f : sProp 𝕄)
      = bigSep Finset.univ fun t => (V d ((L 0).castLE hcore0) ((L 1).castLE hsub0)).loc cc0_scratch2 ↦[srK t]{fullShare} f :=
    pointsTo_biUnion Finset.univ (ℓ := (V d ((L 0).castLE hcore0) ((L 1).castLE hsub0)).loc cc0_scratch2) srK srK_disjoint
  rw [srK_cover] at h
  exact h.trans (bigSep_univ_eq_bigSepL [0, 1, 2, 3] (by decide) (by decide) _)

/-- The four slots, each at contents of its own, are the half-row buffer at some contents. -/
theorem sr_join (d : Dev nD) (L : grid0.Coords) (f0 f1 f2 f3 : Buf (Elt F) ((V d ((L 0).castLE hcore0) ((L 1).castLE hsub0)).loc cc0_scratch2)) :
    iprop(((V d ((L 0).castLE hcore0) ((L 1).castLE hsub0)).loc cc0_scratch2 ↦[srK 0]{fullShare} f0) ∗ ((V d ((L 0).castLE hcore0) ((L 1).castLE hsub0)).loc cc0_scratch2 ↦[srK 1]{fullShare} f1)
        ∗ ((V d ((L 0).castLE hcore0) ((L 1).castLE hsub0)).loc cc0_scratch2 ↦[srK 2]{fullShare} f2) ∗ (V d ((L 0).castLE hcore0) ((L 1).castLE hsub0)).loc cc0_scratch2 ↦[srK 3]{fullShare} f3)
      ⊢ (iprop(∃ f, (V d ((L 0).castLE hcore0) ((L 1).castLE hsub0)).loc cc0_scratch2 ↦{fullShare} f) : sProp 𝕄) := by
  have e : (bigSep Finset.univ fun b : Fin 4 => ((V d ((L 0).castLE hcore0) ((L 1).castLE hsub0)).loc cc0_scratch2 ↦[srK b]{fullShare} (![f0, f1, f2, f3] b) : sProp 𝕄))
      = iprop(((V d ((L 0).castLE hcore0) ((L 1).castLE hsub0)).loc cc0_scratch2 ↦[srK 0]{fullShare} f0) ∗ ((V d ((L 0).castLE hcore0) ((L 1).castLE hsub0)).loc cc0_scratch2 ↦[srK 1]{fullShare} f1)
        ∗ ((V d ((L 0).castLE hcore0) ((L 1).castLE hsub0)).loc cc0_scratch2 ↦[srK 2]{fullShare} f2) ∗ (V d ((L 0).castLE hcore0) ((L 1).castLE hsub0)).loc cc0_scratch2 ↦[srK 3]{fullShare} f3) :=
    bigSep_univ_eq_bigSepL [0, 1, 2, 3] (by decide) (by decide) _
  rw [← e]
  refine (pointsTo_biUnion_join Finset.univ (ℓ := (V d ((L 0).castLE hcore0) ((L 1).castLE hsub0)).loc cc0_scratch2) srK ![f0, f1, f2, f3] f0 srK_disjoint).trans ?_
  rw [srK_cover]
  iintro ⟨%g, -, Hg⟩
  iexists g; iexact Hg

end Cert.Proof.KB

end
-- ==== Proof.KBToks.lean ====
/-
  An array every stage of a tile's task reads, held as ten read tokens and a remainder. A share halved ten times, the right
  half set aside each time, is eleven pieces: the ten right halves (the tokens, numbered from the first cut) and the last
  left half (the remainder). One cut is the points-to at a share as the points-tos at its two halves; ten of them in a row
  split the array, and the same ten read backwards put it together again.
-/
import proofs.«206231_g69020124446782_cont_9to1c4b_129_32_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One cut: the remainder after `k` tokens is the remainder after `k' = k + 1` and token `k`. -/
theorem tok_step {ℓ : Loc nD τ sig} (q : PosShare TreeShare) (f : Buf (Elt F) ℓ) (k k' : ℕ) (hk : k' = k + 1) :
    (ℓ ↦{Transfers.shareDrop q k} f : sProp 𝕄) ⊣⊢ iprop((ℓ ↦{Transfers.shareDrop q k'} f) ∗ ℓ ↦{Transfers.shareTokN q k} f) := by
  subst hk
  exact pointsTo_share (PosShare.mem_left_op_right _)

/-- The first cut, from the share itself. -/
theorem tok_first {ℓ : Loc nD τ sig} (q : PosShare TreeShare) (f : Buf (Elt F) ℓ) :
    (ℓ ↦{q} f : sProp 𝕄) ⊣⊢ iprop((ℓ ↦{Transfers.shareDrop q 1} f) ∗ ℓ ↦{Transfers.shareTokN q 0} f) :=
  tok_step (F := F) q f 0 1 rfl

/-- An array at a share is its remainder after ten tokens and the ten tokens. -/
theorem toks10_split {ℓ : Loc nD τ sig} (q : PosShare TreeShare) (f : Buf (Elt F) ℓ) :
    (ℓ ↦{q} f : sProp 𝕄) ⊢ iprop((ℓ ↦{Transfers.shareDrop q 10} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f) ∗ (ℓ ↦{Transfers.shareTokN q 8} f) ∗ ℓ ↦{Transfers.shareTokN q 9} f) := by
  iintro H
  ihave H := (tok_first (F := F) (ℓ := ℓ) q f).1 $$ H
  icases H with ⟨H, T0⟩
  ihave H := (tok_step (F := F) (ℓ := ℓ) q f 1 2 rfl).1 $$ H
  icases H with ⟨H, T1⟩
  ihave H := (tok_step (F := F) (ℓ := ℓ) q f 2 3 rfl).1 $$ H
  icases H with ⟨H, T2⟩
  ihave H := (tok_step (F := F) (ℓ := ℓ) q f 3 4 rfl).1 $$ H
  icases H with ⟨H, T3⟩
  ihave H := (tok_step (F := F) (ℓ := ℓ) q f 4 5 rfl).1 $$ H
  icases H with ⟨H, T4⟩
  ihave H := (tok_step (F := F) (ℓ := ℓ) q f 5 6 rfl).1 $$ H
  icases H with ⟨H, T5⟩
  ihave H := (tok_step (F := F) (ℓ := ℓ) q f 6 7 rfl).1 $$ H
  icases H with ⟨H, T6⟩
  ihave H := (tok_step (F := F) (ℓ := ℓ) q f 7 8 rfl).1 $$ H
  icases H with ⟨H, T7⟩
  ihave H := (tok_step (F := F) (ℓ := ℓ) q f 8 9 rfl).1 $$ H
  icases H with ⟨H, T8⟩
  ihave H := (tok_step (F := F) (ℓ := ℓ) q f 9 10 rfl).1 $$ H
  icases H with ⟨H, T9⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  iexact T9

/-- The remainder after ten tokens and the ten tokens are the array at the share. -/
theorem toks10_join {ℓ : Loc nD τ sig} (q : PosShare TreeShare) (f : Buf (Elt F) ℓ) :
    iprop((ℓ ↦{Transfers.shareDrop q 10} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f) ∗ (ℓ ↦{Transfers.shareTokN q 8} f) ∗ ℓ ↦{Transfers.shareTokN q 9} f)
      ⊢ (ℓ ↦{q} f : sProp 𝕄) := by
  iintro ⟨H, T0, T1, T2, T3, T4, T5, T6, T7, T8, T9⟩
  ihave H := (tok_step (F := F) (ℓ := ℓ) q f 9 10 rfl).2 $$ [H T9]
  · isplitl [H] <;> iassumption
  ihave H := (tok_step (F := F) (ℓ := ℓ) q f 8 9 rfl).2 $$ [H T8]
  · isplitl [H] <;> iassumption
  ihave H := (tok_step (F := F) (ℓ := ℓ) q f 7 8 rfl).2 $$ [H T7]
  · isplitl [H] <;> iassumption
  ihave H := (tok_step (F := F) (ℓ := ℓ) q f 6 7 rfl).2 $$ [H T6]
  · isplitl [H] <;> iassumption
  ihave H := (tok_step (F := F) (ℓ := ℓ) q f 5 6 rfl).2 $$ [H T5]
  · isplitl [H] <;> iassumption
  ihave H := (tok_step (F := F) (ℓ := ℓ) q f 4 5 rfl).2 $$ [H T4]
  · isplitl [H] <;> iassumption
  ihave H := (tok_step (F := F) (ℓ := ℓ) q f 3 4 rfl).2 $$ [H T3]
  · isplitl [H] <;> iassumption
  ihave H := (tok_step (F := F) (ℓ := ℓ) q f 2 3 rfl).2 $$ [H T2]
  · isplitl [H] <;> iassumption
  ihave H := (tok_step (F := F) (ℓ := ℓ) q f 1 2 rfl).2 $$ [H T1]
  · isplitl [H] <;> iassumption
  ihave H := (tok_first (F := F) (ℓ := ℓ) q f).2 $$ [H T0]
  · isplitl [H] <;> iassumption
  iexact H

end Cert.Proof.KB

end
-- ==== Proof.KBVal.lean ====
/-
  The pieces of the flat result, end to end. After the tile's body has run, each of its seventy pieces of the flat
  result holds one whole-piece write of what a copy carried there: for a piece of 128 rows, what an indexed copy left in
  a row buffer; for a piece of 64 rows, what it left in a half-row buffer, moved through a slot of the shared staging
  memory. Reading each buffer back gives the indexed copy's payload, whose entry `(k, j)` is entry `j` of the table's row
  named by the regrouped token at the list's place `k`; and the piece's rows are exactly the flat rows of those tokens.
  So every element of every piece is the flat lookup's.
-/
import proofs.«206231_g69020124446782_cont_9to1c4b_129_32_alg».proof.Proof.KBGather
import proofs.«206231_g69020124446782_cont_9to1c4b_129_32_alg».proof.Proof.KBPieces
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Val

variable (d : Dev nD) (L : grid0.Coords)

omit [FloatOps F] in
/-- A buffer whose last write was of the whole view reads back that write's payload, whatever came before. -/
theorem read_writes_whole {κ : Kind} {sp : Space} {s : Shape} {e : EltTy} (v : View sig κ sp s e) (f : v.ty.Contents (Elt F))
    (w : s.Idx → Elt F e) (Lst : List (View.Piece (Elt F) s e)) :
    View.read (Elt F) v (v.writes (Elt F) f (⟨Rect.whole s, w⟩ :: Lst)) = w := by
  funext x
  have h := View.read_writes_cons_emb v f (Rect.whole s) w Lst x
  rwa [Rect.emb_whole_apply] at h

omit [FloatOps F] in
/-- Two slots of the shared staging memory named by equal offsets are one view. -/
theorem shSlotView_eq (offA offB : Fin 4 → ℕ) (inbA : ∀ a, offA a + S1x1x64x128.size a ≤ S16x4x64x128.size a)
    (inbB : ∀ a, offB a + S1x1x64x128.size a ≤ S16x4x64x128.size a) (h : offA = offB) :
    (((Memref.whole cc0_scratch3 : Memref sig .scVector .shared S16x4x64x128 .f32).slice
        (Rect.unit (s := S16x4x64x128) offA S1x1x64x128.size inbA) (fun _ => rfl)).squeeze S64x128 squeezes_S1x1x64x128_S64x128).view
      = (((Memref.whole cc0_scratch3 : Memref sig .scVector .shared S16x4x64x128 .f32).slice
        (Rect.unit (s := S16x4x64x128) offB S1x1x64x128.size inbB) (fun _ => rfl)).squeeze S64x128 squeezes_S1x1x64x128_S64x128).view := by
  subst h; rfl

omit [FloatOps F] in
/-- The table's row named by entry `(g, l)` of the tile's block, at column `k`, is the flat result at the tile's row
    `128 g + l`, column `k`. -/
theorem tab_eq_flatRes (g : Fin 50) (l : Fin 128) (k : Fin 128) (y : S204800x128.Idx)
    (hy0 : (y 0).val = 12800 * (L 1).val + 6400 * (L 0).val + 128 * g.val + l.val) (hy1 : (y 1).val = k.val) :
    m (tabLoc d) (ValueIdx.ix2 (Spec.rowOf (idxPay m d L (ValueIdx.ix2 g l))) k) = flatRes m d y := by
  have hw := worker_lt L
  have hg := g.isLt
  have hl := l.isLt
  have hy : y = (ValueIdx.ix2 (⟨6400 * (2 * (L 1).val + (L 0).val) + 128 * g.val + l.val, by omega⟩ : Fin 204800) k : S204800x128.Idx) := by
    funext a; apply Fin.ext
    match a with
    | ⟨0, _⟩ => show (y 0).val = 6400 * (2 * (L 1).val + (L 0).val) + 128 * g.val + l.val; omega
    | ⟨1, _⟩ => exact hy1
  rw [hy, idxPay_apply]
  exact (flatRes_row m d ⟨2 * (L 1).val + (L 0).val, worker_lt L⟩ g l k).symm

omit [FloatOps F] in
/-- A piece of `R` rows of the flat result whose last write was of the whole piece, read at the piece's index `x`: the
    payload at `x`. When the payload there is the table's row named by entry `(g, c0 + x 0)` of the tile's block, at column
    `x 1`, and the piece starts at the tile's row `128 g + c0`, that is the flat result. -/
theorem out_piece_val (R : ℕ) (off : Fin 2 → ℕ) (inbO : ∀ a, off a + (⟨2, ![R, 128]⟩ : Shape).size a ≤ S204800x128.size a)
    (g : Fin 50) (c0 : ℕ) (hc : c0 + R ≤ 128)
    (hO0 : off 0 = 12800 * (L 1).val + 6400 * (L 0).val + 128 * g.val + c0) (hO1 : off 1 = 0)
    (f0 : Buf (Elt F) (outLoc d))
    (Lst0 : List (View.Piece (Elt F) (Rect.unit (s := S204800x128) off (⟨2, ![R, 128]⟩ : Shape).size inbO).shape .f32))
    (P : (⟨2, ![R, 128]⟩ : Shape).Idx → Elt F .f32) (x : (⟨2, ![R, 128]⟩ : Shape).Idx)
    (hP : P x = m (tabLoc d) (ValueIdx.ix2
        (Spec.rowOf (idxPay m d L (ValueIdx.ix2 g (⟨c0 + (x 0).val, by have : (x 0).val < R := (x 0).isLt; omega⟩ : Fin 128))))
        (⟨(x 1).val, (x 1).isLt⟩ : Fin 128))) :
    ((Memref.whole main_v1_scv : Memref sig .scVector .hbm S204800x128 .f32).slice
        (Rect.unit (s := S204800x128) off (⟨2, ![R, 128]⟩ : Shape).size inbO) (fun _ => rfl)).view.writes (Elt F) f0
        (⟨Rect.whole (Rect.unit (s := S204800x128) off (⟨2, ![R, 128]⟩ : Shape).size inbO).shape, P⟩ :: Lst0)
        (((Memref.whole main_v1_scv : Memref sig .scVector .hbm S204800x128 .f32).slice
          (Rect.unit (s := S204800x128) off (⟨2, ![R, 128]⟩ : Shape).size inbO) (fun _ => rfl)).view.emb x)
      = flatRes m d (((Memref.whole main_v1_scv : Memref sig .scVector .hbm S204800x128 .f32).slice
          (Rect.unit (s := S204800x128) off (⟨2, ![R, 128]⟩ : Shape).size inbO) (fun _ => rfl)).view.emb x) := by
  have hx0 : (x 0).val < R := (x 0).isLt
  have hw := congrFun (read_writes_whole
    ((Memref.whole main_v1_scv : Memref sig .scVector .hbm S204800x128 .f32).slice
      (Rect.unit (s := S204800x128) off (⟨2, ![R, 128]⟩ : Shape).size inbO) (fun _ => rfl)).view f0 P Lst0) x
  rw [View.read_apply, cast_eq] at hw
  refine hw.trans (hP.trans ?_)
  refine tab_eq_flatRes m d L g _ _ _ ?_ ?_
  · rw [outPiece_emb off _ inbO x 0, hO0]
    show _ = 12800 * (L 1).val + 6400 * (L 0).val + 128 * g.val + (c0 + (x 0).val)
    omega
  · rw [outPiece_emb off _ inbO x 1, hO1, Nat.zero_add]

omit [FloatOps F] in
/-- A piece of 128 rows starting at the tile's row `128 g`, carried from a row buffer that an indexed copy filled with the
    rows named by row `g` of the index scratch. -/
theorem out_val_128 (offO : Fin 2 → ℕ) (g : Fin 50)
    (hO0 : offO 0 = 12800 * (L 1).val + 6400 * (L 0).val + 128 * g.val) (hO1 : offO 1 = 0)
    (inbO : ∀ a, (offO) a + S128x128.size a ≤ S204800x128.size a)
    (f0 : Buf (Elt F) (outLoc d))
    (Lst0 : List (View.Piece (Elt F) (Rect.unit (s := S204800x128) (offO) S128x128.size inbO).shape .f32))
    (v : View sig .scVector .vmem S128x128 .f32) (ft : v.ty.Contents (Elt F)) (Lst : List (View.Piece (Elt F) S128x128 .f32))
    (offL : Fin 2 → ℕ) (inbL : ∀ a, offL a + S1x128.size a ≤ S50x128.size a) (hL0 : offL 0 = g.val) (hL1 : offL 1 = 0)
    (fi : Buf (Elt F) ((V d ((L 0).castLE hcore0) ((L 1).castLE hsub0)).loc cc0_scratch0))
    (hn : S128.numel = S128x128.size (gathers_S1000000x128_S128x128).axis')
    (hin : ∀ x, ((View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ)) x).toNat
          < S1000000x128.size (gathers_S1000000x128_S128x128).axis)
    (x : S128x128.Idx) :
    ((Memref.whole main_v1_scv : Memref sig .scVector .hbm S204800x128 .f32).slice
        (Rect.unit (s := S204800x128) offO S128x128.size inbO) (fun _ => rfl)).view.writes (Elt F) f0
        (⟨Rect.whole (Rect.unit (s := S204800x128) offO S128x128.size inbO).shape,
          ReadAs.same.apply (View.read (Elt F) v (v.writes (Elt F) ft
            (⟨Rect.whole S128x128,
              SparseCore.gatherPayload gathers_S1000000x128_S128x128
                (View.read (Elt F) ((Memref.whole main_arg1_scv : Memref sig .scVector .hbm S1000000x128 .f32).slice
                  (Rect.unit ![0, 0] S1000000x128.size inb_S1000000x128_S1000000x128_0_0) (fun _ => rfl)).view (m (tabLoc d)))
                (SparseCore.rows (View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ))
                  hn hin)⟩ :: Lst)))⟩ :: Lst0)
        (((Memref.whole main_v1_scv : Memref sig .scVector .hbm S204800x128 .f32).slice
        (Rect.unit (s := S204800x128) offO S128x128.size inbO) (fun _ => rfl)).view.emb x)
      = flatRes m d (((Memref.whole main_v1_scv : Memref sig .scVector .hbm S204800x128 .f32).slice
        (Rect.unit (s := S204800x128) offO S128x128.size inbO) (fun _ => rfl)).view.emb x) := by
  refine out_piece_val m d L 128 offO inbO g 0 (by omega) (by rw [hO0, Nat.add_zero]) hO1 f0 Lst0 _ x ?_
  show View.read (Elt F) v (v.writes (Elt F) ft (_ :: Lst)) x = _
  rw [read_writes_whole]
  exact gather_val_gen m d L 128 gathers_S1000000x128_S128x128 squeezes_S1x128_S128 offL inbL g 0 (by omega) hL0 hL1 fi hn hin x

omit [FloatOps F] in
/-- A piece of 64 rows starting at the tile's row `128 g + c0`, carried from a slot of the shared staging memory, filled from
    a half-row buffer that an indexed copy filled with the rows named by the 64 entries of row `g` of the index scratch
    from column `c0` on. The slot is read under one spelling of its offsets and was written under another, equal to it. -/
theorem out_val_64 (offO : Fin 2 → ℕ) (g : Fin 50) (c0 : ℕ) (hc : c0 + 64 ≤ 128)
    (hO0 : offO 0 = 12800 * (L 1).val + 6400 * (L 0).val + 128 * g.val + c0) (hO1 : offO 1 = 0)
    (inbO : ∀ a, (offO) a + S64x128.size a ≤ S204800x128.size a)
    (f0 : Buf (Elt F) (outLoc d))
    (Lst0 : List (View.Piece (Elt F) (Rect.unit (s := S204800x128) (offO) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = g.val) (hL1 : offL 1 = c0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) offO S64x128.size inbO) (fun _ => rfl)).view.writes (Elt F) f0
        (⟨Rect.whole (Rect.unit (s := S204800x128) offO S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) offO S64x128.size inbO) (fun _ => rfl)).view.emb x)
      = flatRes m d (((Memref.whole main_v1_scv : Memref sig .scVector .hbm S204800x128 .f32).slice
        (Rect.unit (s := S204800x128) offO S64x128.size inbO) (fun _ => rfl)).view.emb x) := by
  subst hAB
  refine out_piece_val m d L 64 offO inbO g c0 hc hO0 hO1 f0 Lst0 _ x ?_
  show View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
      ((((Memref.whole cc0_scratch3 : Memref sig .scVector .shared S16x4x64x128 .f32).slice
                (Rect.unit (s := S16x4x64x128) offA S1x1x64x128.size inbA) (fun _ => rfl)).squeeze S64x128 squeezes_S1x1x64x128_S64x128).view.writes (Elt F) gsh (_ :: LstS)) x = _
  rw [read_writes_whole]
  show View.read (Elt F) v (v.writes (Elt F) fs (_ :: Lst)) x = _
  rw [read_writes_whole]
  exact gather_val_gen m d L 64 gathers_S1000000x128_S64x128 squeezes_S1x64_S64 offL inbL g c0 hc hL0 hL1 fi hn hin x

omit [FloatOps F] in
/-- A piece of 128 rows, written in trip `t` as its `r`-th: piece `3 t + r`, its list row `3 t + r` of the index scratch. -/
theorem out_val_off3 (t : Fin k0_t1_loop.trips) (r : Fin 3)
    (inbO : ∀ a, (k0_off3 L t (BitVec.ofNat 32 r.val)) a + S128x128.size a ≤ S204800x128.size a)
    (f0 : Buf (Elt F) (outLoc d))
    (Lst0 : List (View.Piece (Elt F) (Rect.unit (s := S204800x128) (k0_off3 L t (BitVec.ofNat 32 r.val)) S128x128.size inbO).shape .f32))
    (v : View sig .scVector .vmem S128x128 .f32) (ft : v.ty.Contents (Elt F)) (Lst : List (View.Piece (Elt F) S128x128 .f32))
    (offL : Fin 2 → ℕ) (inbL : ∀ a, offL a + S1x128.size a ≤ S50x128.size a) (hL0 : offL 0 = 3 * t.val + r.val) (hL1 : offL 1 = 0)
    (fi : Buf (Elt F) ((V d ((L 0).castLE hcore0) ((L 1).castLE hsub0)).loc cc0_scratch0))
    (hn : S128.numel = S128x128.size (gathers_S1000000x128_S128x128).axis')
    (hin : ∀ x, ((View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ)) x).toNat
          < S1000000x128.size (gathers_S1000000x128_S128x128).axis)
    (x : S128x128.Idx) :
    ((Memref.whole main_v1_scv : Memref sig .scVector .hbm S204800x128 .f32).slice
        (Rect.unit (s := S204800x128) (k0_off3 L t (BitVec.ofNat 32 r.val)) S128x128.size inbO) (fun _ => rfl)).view.writes (Elt F) f0
        (⟨Rect.whole (Rect.unit (s := S204800x128) (k0_off3 L t (BitVec.ofNat 32 r.val)) S128x128.size inbO).shape,
          ReadAs.same.apply (View.read (Elt F) v (v.writes (Elt F) ft
            (⟨Rect.whole S128x128,
              SparseCore.gatherPayload gathers_S1000000x128_S128x128
                (View.read (Elt F) ((Memref.whole main_arg1_scv : Memref sig .scVector .hbm S1000000x128 .f32).slice
                  (Rect.unit ![0, 0] S1000000x128.size inb_S1000000x128_S1000000x128_0_0) (fun _ => rfl)).view (m (tabLoc d)))
                (SparseCore.rows (View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ))
                  hn hin)⟩ :: Lst)))⟩ :: Lst0)
        (((Memref.whole main_v1_scv : Memref sig .scVector .hbm S204800x128 .f32).slice
        (Rect.unit (s := S204800x128) (k0_off3 L t (BitVec.ofNat 32 r.val)) S128x128.size inbO) (fun _ => rfl)).view.emb x)
      = flatRes m d (((Memref.whole main_v1_scv : Memref sig .scVector .hbm S204800x128 .f32).slice
        (Rect.unit (s := S204800x128) (k0_off3 L t (BitVec.ofNat 32 r.val)) S128x128.size inbO) (fun _ => rfl)).view.emb x) := by
  have ht : t.val < 10 := t.isLt
  have hr : r.val < 3 := r.isLt
  refine out_val_128 m d L (k0_off3 L t (BitVec.ofNat 32 r.val)) ⟨3 * t.val + r.val, by omega⟩ ?_ ?_ inbO f0 Lst0 v ft Lst
    offL inbL hL0 hL1 fi hn hin x
  · rw [k0_off3_eq]
    show 12800 * (L 1).val + 6400 * (L 0).val + 384 * t.val + 128 * r.val
      = 12800 * (L 1).val + 6400 * (L 0).val + 128 * (3 * t.val + r.val)
    omega
  · rw [k0_off3_eq]; rfl

omit [FloatOps F] in
/-- The 64-row piece \`4 t\` of the second part: its list the first half of row \`30 + 2 t\` of the index scratch. -/
theorem out_val_off22 (t : Fin k0_t1_loop.trips)
    (inbO : ∀ a, (k0_off22 L t) a + S64x128.size a ≤ S204800x128.size a)
    (f0 : Buf (Elt F) (outLoc d))
    (Lst0 : List (View.Piece (Elt F) (Rect.unit (s := S204800x128) (k0_off22 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 30 + 2 * t.val) (hL1 : offL 1 = 0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off22 L t) S64x128.size inbO) (fun _ => rfl)).view.writes (Elt F) f0
        (⟨Rect.whole (Rect.unit (s := S204800x128) (k0_off22 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off22 L t) S64x128.size inbO) (fun _ => rfl)).view.emb x)
      = flatRes m d (((Memref.whole main_v1_scv : Memref sig .scVector .hbm S204800x128 .f32).slice
        (Rect.unit (s := S204800x128) (k0_off22 L t) S64x128.size inbO) (fun _ => rfl)).view.emb x) := by
  have ht : t.val < 10 := t.isLt
  refine out_val_64 m d L (k0_off22 L t) ⟨30 + 2 * t.val, by omega⟩ 0 (by omega) ?_ ?_ inbO f0 Lst0 offA offB inbA inbB hAB gsh LstS v fs Lst
    offL inbL hL0 hL1 fi hn hin x
  · rw [k0_off22_eq]
    show 12800 * (L 1).val + 6400 * (L 0).val + 256 * t.val + 3840 = 12800 * (L 1).val + 6400 * (L 0).val + 128 * (30 + 2 * t.val) + 0
    omega
  · rw [k0_off22_eq]; rfl

omit [FloatOps F] in
/-- The 64-row piece \`4 t + 1\`: its list the second half of row \`30 + 2 t\`. -/
theorem out_val_off28 (t : Fin k0_t1_loop.trips)
    (inbO : ∀ a, (k0_off28 L t) a + S64x128.size a ≤ S204800x128.size a)
    (f0 : Buf (Elt F) (outLoc d))
    (Lst0 : List (View.Piece (Elt F) (Rect.unit (s := S204800x128) (k0_off28 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 30 + 2 * t.val) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off28 L t) S64x128.size inbO) (fun _ => rfl)).view.writes (Elt F) f0
        (⟨Rect.whole (Rect.unit (s := S204800x128) (k0_off28 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off28 L t) S64x128.size inbO) (fun _ => rfl)).view.emb x)
      = flatRes m d (((Memref.whole main_v1_scv : Memref sig .scVector .hbm S204800x128 .f32).slice
        (Rect.unit (s := S204800x128) (k0_off28 L t) S64x128.size inbO) (fun _ => rfl)).view.emb x) := by
  have ht : t.val < 10 := t.isLt
  refine out_val_64 m d L (k0_off28 L t) ⟨30 + 2 * t.val, by omega⟩ 64 (by omega) ?_ ?_ inbO f0 Lst0 offA offB inbA inbB hAB gsh LstS v fs Lst
    offL inbL hL0 hL1 fi hn hin x
  · rw [k0_off28_eq]
    show 12800 * (L 1).val + 6400 * (L 0).val + 256 * t.val + 3904 = 12800 * (L 1).val + 6400 * (L 0).val + 128 * (30 + 2 * t.val) + 64
    omega
  · rw [k0_off28_eq]; rfl

omit [FloatOps F] in
/-- The 64-row piece \`4 t + 2\`: its list the first half of row \`31 + 2 t\`. -/
theorem out_val_off34 (t : Fin k0_t1_loop.trips)
    (inbO : ∀ a, (k0_off34 L t) a + S64x128.size a ≤ S204800x128.size a)
    (f0 : Buf (Elt F) (outLoc d))
    (Lst0 : List (View.Piece (Elt F) (Rect.unit (s := S204800x128) (k0_off34 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 31 + 2 * t.val) (hL1 : offL 1 = 0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off34 L t) S64x128.size inbO) (fun _ => rfl)).view.writes (Elt F) f0
        (⟨Rect.whole (Rect.unit (s := S204800x128) (k0_off34 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off34 L t) S64x128.size inbO) (fun _ => rfl)).view.emb x)
      = flatRes m d (((Memref.whole main_v1_scv : Memref sig .scVector .hbm S204800x128 .f32).slice
        (Rect.unit (s := S204800x128) (k0_off34 L t) S64x128.size inbO) (fun _ => rfl)).view.emb x) := by
  have ht : t.val < 10 := t.isLt
  refine out_val_64 m d L (k0_off34 L t) ⟨31 + 2 * t.val, by omega⟩ 0 (by omega) ?_ ?_ inbO f0 Lst0 offA offB inbA inbB hAB gsh LstS v fs Lst
    offL inbL hL0 hL1 fi hn hin x
  · rw [k0_off34_eq]
    show 12800 * (L 1).val + 6400 * (L 0).val + 256 * t.val + 3968 = 12800 * (L 1).val + 6400 * (L 0).val + 128 * (31 + 2 * t.val) + 0
    omega
  · rw [k0_off34_eq]; rfl

omit [FloatOps F] in
/-- The 64-row piece \`4 t - 1\` (from the second trip on): its list the second half of row \`29 + 2 t\`. -/
theorem out_val_off15 (t : Fin k0_t1_loop.trips) (htp : 0 < t.val)
    (inbO : ∀ a, (k0_off15 L t) a + S64x128.size a ≤ S204800x128.size a)
    (f0 : Buf (Elt F) (outLoc d))
    (Lst0 : List (View.Piece (Elt F) (Rect.unit (s := S204800x128) (k0_off15 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 29 + 2 * t.val) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off15 L t) S64x128.size inbO) (fun _ => rfl)).view.writes (Elt F) f0
        (⟨Rect.whole (Rect.unit (s := S204800x128) (k0_off15 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off15 L t) S64x128.size inbO) (fun _ => rfl)).view.emb x)
      = flatRes m d (((Memref.whole main_v1_scv : Memref sig .scVector .hbm S204800x128 .f32).slice
        (Rect.unit (s := S204800x128) (k0_off15 L t) S64x128.size inbO) (fun _ => rfl)).view.emb x) := by
  have ht : t.val < 10 := t.isLt
  refine out_val_64 m d L (k0_off15 L t) ⟨29 + 2 * t.val, by omega⟩ 64 (by omega) ?_ ?_ inbO f0 Lst0 offA offB inbA inbB hAB gsh LstS v fs Lst
    offL inbL hL0 hL1 fi hn hin x
  · rw [k0_off15_eq]
    show 12800 * (L 1).val + 6400 * (L 0).val + 256 * t.val + 3776 = 12800 * (L 1).val + 6400 * (L 0).val + 128 * (29 + 2 * t.val) + 64
    omega
  · rw [k0_off15_eq]; rfl

omit [FloatOps F] in
/-- The last 64-row piece, written after the loop: its list the second half of row 49 of the index scratch. -/
theorem out_val_off38
    (inbO : ∀ a, (k0_off38 L 2496#32) a + S64x128.size a ≤ S204800x128.size a)
    (f0 : Buf (Elt F) (outLoc d))
    (Lst0 : List (View.Piece (Elt F) (Rect.unit (s := S204800x128) (k0_off38 L 2496#32) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 49) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off38 L 2496#32) S64x128.size inbO) (fun _ => rfl)).view.writes (Elt F) f0
        (⟨Rect.whole (Rect.unit (s := S204800x128) (k0_off38 L 2496#32) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off38 L 2496#32) S64x128.size inbO) (fun _ => rfl)).view.emb x)
      = flatRes m d (((Memref.whole main_v1_scv : Memref sig .scVector .hbm S204800x128 .f32).slice
        (Rect.unit (s := S204800x128) (k0_off38 L 2496#32) S64x128.size inbO) (fun _ => rfl)).view.emb x) := by
  have e38 : k0_off38 L 2496#32 = ![12800 * (L 1).val + 6400 * (L 0).val + 64 * 3 + 6144, 0] := k0_off38_eq L ⟨3, by omega⟩
  refine out_val_64 m d L (k0_off38 L 2496#32) ⟨49, by omega⟩ 64 (by omega) ?_ ?_ inbO f0 Lst0 offA offB inbA inbB hAB gsh LstS v fs Lst
    offL inbL hL0 hL1 fi hn hin x
  · rw [e38]
    show 12800 * (L 1).val + 6400 * (L 0).val + 64 * 3 + 6144 = 12800 * (L 1).val + 6400 * (L 0).val + 128 * 49 + 64
    omega
  · rw [e38]; rfl

end Val

end Cert.Proof.KB

end
-- ==== Proof.KBTile.lean ====
/-
  One tile's task of the lookup kernel, at a symbolic place: from its read shares of the regrouped tokens and of the
  table, its block of the flat result and its row of the shared staging memory, to the same with every row of the block
  at the table's row its regrouped token names.

  The task first copies its 50 × 128 block of regrouped tokens into its index scratch, then moves 30 groups of 128
  rows through three row slots (gather a group's rows from the table into a slot, write the slot out to the group's
  128 rows of the block) and 40 half-groups of 64 rows through four slots and the shared staging memory (gather, copy
  to the tile's staging slot, write out to the half-group's 64 rows). Every copy completes on a semaphore of its own
  slot and is waited for before its slot is touched again, so each piece of the block ends at the rows gathered for
  it; the ten trips of the kernel's loop are run in sequence.
-/
import proofs.«206231_g69020124446782_cont_9to1c4b_129_32_alg».proof.Proof.KBCommon
import proofs.«206231_g69020124446782_cont_9to1c4b_129_32_alg».proof.Proof.KBOwn
import proofs.«206231_g69020124446782_cont_9to1c4b_129_32_alg».proof.Proof.KBFacts
import proofs.«206231_g69020124446782_cont_9to1c4b_129_32_alg».proof.Proof.KBGather
import proofs.«206231_g69020124446782_cont_9to1c4b_129_32_alg».proof.Proof.KBOut
import proofs.«206231_g69020124446782_cont_9to1c4b_129_32_alg».proof.Proof.KBSh
import proofs.«206231_g69020124446782_cont_9to1c4b_129_32_alg».proof.Proof.KBSlots
import proofs.«206231_g69020124446782_cont_9to1c4b_129_32_alg».proof.Proof.KBToks
import proofs.«206231_g69020124446782_cont_9to1c4b_129_32_alg».proof.Proof.KBVal
import proofs.«206231_g69020124446782_cont_9to1c4b_129_32_alg».proof.Proof.Gen.Kernel.Skeleton
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The kernel's function at place `L`, on the whole arrays, the tile's scratch and its semaphores. -/
abbrev tileProg (L : grid0.Coords) : Prog (TpuEff nD τ sig (Elt F) Λ₀ (.scVector ((L 0).castLE hcore0) ((L 1).castLE hsub0))) PUnit :=
  cc0_emb L (Memref.whole main_v0_scv) (Memref.isWhole_whole _) (Memref.whole main_arg1_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    cc0_scratch10 cc0_scratch11 cc0_scratch12 cc0_scratch13 cc0_scratch14 cc0_scratch15 cc0_scratch16 cc0_scratch17 cc0_scratch18
    cc0_scratch19 cc0_scratch20 cc0_scratch21 cc0_scoped0

abbrev thrV (d : Dev nD) (L : grid0.Coords) : Thread nD τ := V d (cV L) (jV L)
abbrev tokM : Memref sig .scVector .hbm S32x50x128 .i32 := Memref.whole main_v0_scv
abbrev tabM : Memref sig .scVector .hbm S1000000x128 .f32 := Memref.whole main_arg1_scv
abbrev outM : Memref sig .scVector .hbm S204800x128 .f32 := Memref.whole main_v1_scv
abbrev ivM : Memref sig .scVector .vmem S50x128 .i32 := Memref.whole cc0_scratch0
abbrev trM : Memref sig .scVector .vmem S3x128x128 .f32 := Memref.whole cc0_scratch1
abbrev srM : Memref sig .scVector .vmem S4x64x128 .f32 := Memref.whole cc0_scratch2
abbrev shM : Memref sig .scVector .shared S16x4x64x128 .f32 := Memref.whole cc0_scratch3
omit [FloatOps F] in
theorem pts_tok (q : PosShare TreeShare) (f : Buf (Elt F) (tokLoc d)) :
    ((tokM).view.loc (thrV d L) ↦{q} f : sProp 𝕄) = tokLoc d ↦{q} f := rfl
omit [FloatOps F] in
theorem pts_tab (q : PosShare TreeShare) (f : Buf (Elt F) (tabLoc d)) :
    ((tabM).view.loc (thrV d L) ↦{q} f : sProp 𝕄) = tabLoc d ↦{q} f := rfl
omit [FloatOps F] in
theorem pts_iv (f : Buf (Elt F) ((thrV d L).loc cc0_scratch0)) :
    ((ivM).view.loc (thrV d L) ↦{fullShare} f : sProp 𝕄) = (thrV d L).loc cc0_scratch0 ↦{fullShare} f := rfl
omit [FloatOps F] in
/-- A wait recorded at the kernel's own index keeps the recorded waits within what the launch allows. -/
theorem waits_ok_insert {thr : Thread nD τ} {W W' : Waits sig (HIx 1)} {a : SemLoc sig × HIx 1}
    (h : ∀ p ∈ W', p ∈ W ∨ p.2 = none) (ha : a.2 = none) : ∀ p ∈ insert a W', p ∈ W ∨ p.2 = none := by
  intro p hp
  rcases Finset.mem_insert.mp hp with rfl | hp
  · exact Or.inr ha
  · exact h p hp

set_option sl_exec.unrollTrips 10 in
set_option maxHeartbeats 16000000 in
/-- The task on vector subcore `(L 0, L 1)` of device `d`. -/
theorem tile_body (hF : (K (F := F)).Facts) (hin : ∀ j, (idx3 m d j).toNat < 1000000)
    (O : CellTallies nD τ sig (HIx 1)) (W : Waits sig (HIx 1)) (hO : ∀ g, O g none = 0) :
    iprop(levAts (K (F := F)).L (K (F := F)).lev ∗ emp
        ∗ (taskArrays m d (wid (cL L) (jL L)) (m (outLoc d)) ∗ taskShared d (cV L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((taskArrays m d (wid (cL L) (jL L)) (flatRes m d) ∗ taskShared d (cV L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  simp only [cc0_emb_eq_skeleton]; unfold cc0_emb_skel
  rw [(K (F := F)).scopedBufs_V hF d (cV L) (jV L), SparseCore.Cfg.scopedSems0_V (Val := Elt F) d (cV L) (jV L), ownSems0_V', ownBufs_V']
  unfold taskArrays taskShared
  iintro ⟨#Hlv, -, ⟨⟨Htok, Htab, Hout⟩, ⟨%gsh, Hsh⟩⟩, ⟨⟨%fi, Hiv⟩, ⟨%ft, Htr⟩, ⟨%fs, Hsr⟩⟩, ⟨Hs0, Hs1, Hs2, Hs3, Hs4, Hs5, Hs6, Hs7, Hs8, Hs9, Hs10, Hs11, Hs12, Hs13, Hs14, Hs15, Hs16, Hs17, Hs18⟩, HO⟩
  ihave Hmw := ((K (F := F)).mayWaits_none (thr := V d (cV L) (jV L)) hO) $$ Hlv
  -- the arrays, as the tile's memrefs address them
  ihave Htok' := (Entails.of_eq (pts_tok (F := F) d L _ _).symm) $$ Htok
  ihave Htab' := (Entails.of_eq (pts_tab (F := F) d L _ _).symm) $$ Htab
  ihave Hiv' := (Entails.of_eq (pts_iv (F := F) d L _).symm) $$ Hiv
  -- the block of the flat result, piece by piece
  ihave Hx := (Entails.of_eq (out_split_list (F := F) d L (m (outLoc d)))) $$ Hout
  icases Hx with ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, -⟩
  have e_Hp0 : ((((outM).slice (Rect.unit (s := S204800x128) (k0_off3 L ⟨0, (of_decide_eq_true rfl)⟩ 0#32) S128x128.size (k0_off3_inb L ⟨0, (of_decide_eq_true rfl)⟩ 0)) (fun _ => rfl))).view.loc (thrV d L) ↦[(((outM).slice (Rect.unit (s := S204800x128) (k0_off3 L ⟨0, (of_decide_eq_true rfl)⟩ 0#32) S128x128.size (k0_off3_inb L ⟨0, (of_decide_eq_true rfl)⟩ 0)) (fun _ => rfl))).view.set]{fullShare} (m (outLoc d)) : sProp 𝕄) = (outLoc d ↦[outK L ⟨0, (of_decide_eq_true rfl)⟩]{fullShare} m (outLoc d)) := rfl
  ihave Hp0' := (Entails.of_eq e_Hp0.symm) $$ Hp0
  have e_Hp1 : ((((outM).slice (Rect.unit (s := S204800x128) (k0_off3 L ⟨0, (of_decide_eq_true rfl)⟩ 1#32) S128x128.size (k0_off3_inb L ⟨0, (of_decide_eq_true rfl)⟩ 1)) (fun _ => rfl))).view.loc (thrV d L) ↦[(((outM).slice (Rect.unit (s := S204800x128) (k0_off3 L ⟨0, (of_decide_eq_true rfl)⟩ 1#32) S128x128.size (k0_off3_inb L ⟨0, (of_decide_eq_true rfl)⟩ 1)) (fun _ => rfl))).view.set]{fullShare} (m (outLoc d)) : sProp 𝕄) = (outLoc d ↦[outK L ⟨1, (of_decide_eq_true rfl)⟩]{fullShare} m (outLoc d)) := rfl
  ihave Hp1' := (Entails.of_eq e_Hp1.symm) $$ Hp1
  have e_Hp2 : ((((outM).slice (Rect.unit (s := S204800x128) (k0_off3 L ⟨0, (of_decide_eq_true rfl)⟩ 2#32) S128x128.size (k0_off3_inb L ⟨0, (of_decide_eq_true rfl)⟩ 2)) (fun _ => rfl))).view.loc (thrV d L) ↦[(((outM).slice (Rect.unit (s := S204800x128) (k0_off3 L ⟨0, (of_decide_eq_true rfl)⟩ 2#32) S128x128.size (k0_off3_inb L ⟨0, (of_decide_eq_true rfl)⟩ 2)) (fun _ => rfl))).view.set]{fullShare} (m (outLoc d)) : sProp 𝕄) = (outLoc d ↦[outK L ⟨2, (of_decide_eq_true rfl)⟩]{fullShare} m (outLoc d)) := rfl
  ihave Hp2' := (Entails.of_eq e_Hp2.symm) $$ Hp2
  have e_Hp3 : ((((outM).slice (Rect.unit (s := S204800x128) (k0_off3 L ⟨1, (of_decide_eq_true rfl)⟩ 0#32) S128x128.size (k0_off3_inb L ⟨1, (of_decide_eq_true rfl)⟩ 0)) (fun _ => rfl))).view.loc (thrV d L) ↦[(((outM).slice (Rect.unit (s := S204800x128) (k0_off3 L ⟨1, (of_decide_eq_true rfl)⟩ 0#32) S128x128.size (k0_off3_inb L ⟨1, (of_decide_eq_true rfl)⟩ 0)) (fun _ => rfl))).view.set]{fullShare} (m (outLoc d)) : sProp 𝕄) = (outLoc d ↦[outK L ⟨3, (of_decide_eq_true rfl)⟩]{fullShare} m (outLoc d)) := rfl
  ihave Hp3' := (Entails.of_eq e_Hp3.symm) $$ Hp3
  have e_Hp4 : ((((outM).slice (Rect.unit (s := S204800x128) (k0_off3 L ⟨1, (of_decide_eq_true rfl)⟩ 1#32) S128x128.size (k0_off3_inb L ⟨1, (of_decide_eq_true rfl)⟩ 1)) (fun _ => rfl))).view.loc (thrV d L) ↦[(((outM).slice (Rect.unit (s := S204800x128) (k0_off3 L ⟨1, (of_decide_eq_true rfl)⟩ 1#32) S128x128.size (k0_off3_inb L ⟨1, (of_decide_eq_true rfl)⟩ 1)) (fun _ => rfl))).view.set]{fullShare} (m (outLoc d)) : sProp 𝕄) = (outLoc d ↦[outK L ⟨4, (of_decide_eq_true rfl)⟩]{fullShare} m (outLoc d)) := rfl
  ihave Hp4' := (Entails.of_eq e_Hp4.symm) $$ Hp4
  have e_Hp5 : ((((outM).slice (Rect.unit (s := S204800x128) (k0_off3 L ⟨1, (of_decide_eq_true rfl)⟩ 2#32) S128x128.size (k0_off3_inb L ⟨1, (of_decide_eq_true rfl)⟩ 2)) (fun _ => rfl))).view.loc (thrV d L) ↦[(((outM).slice (Rect.unit (s := S204800x128) (k0_off3 L ⟨1, (of_decide_eq_true rfl)⟩ 2#32) S128x128.size (k0_off3_inb L ⟨1, (of_decide_eq_true rfl)⟩ 2)) (fun _ => rfl))).view.set]{fullShare} (m (outLoc d)) : sProp 𝕄) = (outLoc d ↦[outK L ⟨5, (of_decide_eq_true rfl)⟩]{fullShare} m (outLoc d)) := rfl
  ihave Hp5' := (Entails.of_eq e_Hp5.symm) $$ Hp5
  have e_Hp6 : ((((outM).slice (Rect.unit (s := S204800x128) (k0_off3 L ⟨2, (of_decide_eq_true rfl)⟩ 0#32) S128x128.size (k0_off3_inb L ⟨2, (of_decide_eq_true rfl)⟩ 0)) (fun _ => rfl))).view.loc (thrV d L) ↦[(((outM).slice (Rect.unit (s := S204800x128) (k0_off3 L ⟨2, (of_decide_eq_true rfl)⟩ 0#32) S128x128.size (k0_off3_inb L ⟨2, (of_decide_eq_true rfl)⟩ 0)) (fun _ => rfl))).view.set]{fullShare} (m (outLoc d)) : sProp 𝕄) = (outLoc d ↦[outK L ⟨6, (of_decide_eq_true rfl)⟩]{fullShare} m (outLoc d)) := rfl
  ihave Hp6' := (Entails.of_eq e_Hp6.symm) $$ Hp6
  have e_Hp7 : ((((outM).slice (Rect.unit (s := S204800x128) (k0_off3 L ⟨2, (of_decide_eq_true rfl)⟩ 1#32) S128x128.size (k0_off3_inb L ⟨2, (of_decide_eq_true rfl)⟩ 1)) (fun _ => rfl))).view.loc (thrV d L) ↦[(((outM).slice (Rect.unit (s := S204800x128) (k0_off3 L ⟨2, (of_decide_eq_true rfl)⟩ 1#32) S128x128.size (k0_off3_inb L ⟨2, (of_decide_eq_true rfl)⟩ 1)) (fun _ => rfl))).view.set]{fullShare} (m (outLoc d)) : sProp 𝕄) = (outLoc d ↦[outK L ⟨7, (of_decide_eq_true rfl)⟩]{fullShare} m (outLoc d)) := rfl
  ihave Hp7' := (Entails.of_eq e_Hp7.symm) $$ Hp7
  have e_Hp8 : ((((outM).slice (Rect.unit (s := S204800x128) (k0_off3 L ⟨2, (of_decide_eq_true rfl)⟩ 2#32) S128x128.size (k0_off3_inb L ⟨2, (of_decide_eq_true rfl)⟩ 2)) (fun _ => rfl))).view.loc (thrV d L) ↦[(((outM).slice (Rect.unit (s := S204800x128) (k0_off3 L ⟨2, (of_decide_eq_true rfl)⟩ 2#32) S128x128.size (k0_off3_inb L ⟨2, (of_decide_eq_true rfl)⟩ 2)) (fun _ => rfl))).view.set]{fullShare} (m (outLoc d)) : sProp 𝕄) = (outLoc d ↦[outK L ⟨8, (of_decide_eq_true rfl)⟩]{fullShare} m (outLoc d)) := rfl
  ihave Hp8' := (Entails.of_eq e_Hp8.symm) $$ Hp8
  have e_Hp9 : ((((outM).slice (Rect.unit (s := S204800x128) (k0_off3 L ⟨3, (of_decide_eq_true rfl)⟩ 0#32) S128x128.size (k0_off3_inb L ⟨3, (of_decide_eq_true rfl)⟩ 0)) (fun _ => rfl))).view.loc (thrV d L) ↦[(((outM).slice (Rect.unit (s := S204800x128) (k0_off3 L ⟨3, (of_decide_eq_true rfl)⟩ 0#32) S128x128.size (k0_off3_inb L ⟨3, (of_decide_eq_true rfl)⟩ 0)) (fun _ => rfl))).view.set]{fullShare} (m (outLoc d)) : sProp 𝕄) = (outLoc d ↦[outK L ⟨9, (of_decide_eq_true rfl)⟩]{fullShare} m (outLoc d)) := rfl
  ihave Hp9' := (Entails.of_eq e_Hp9.symm) $$ Hp9
  have e_Hp10 : ((((outM).slice (Rect.unit (s := S204800x128) (k0_off3 L ⟨3, (of_decide_eq_true rfl)⟩ 1#32) S128x128.size (k0_off3_inb L ⟨3, (of_decide_eq_true rfl)⟩ 1)) (fun _ => rfl))).view.loc (thrV d L) ↦[(((outM).slice (Rect.unit (s := S204800x128) (k0_off3 L ⟨3, (of_decide_eq_true rfl)⟩ 1#32) S128x128.size (k0_off3_inb L ⟨3, (of_decide_eq_true rfl)⟩ 1)) (fun _ => rfl))).view.set]{fullShare} (m (outLoc d)) : sProp 𝕄) = (outLoc d ↦[outK L ⟨10, (of_decide_eq_true rfl)⟩]{fullShare} m (outLoc d)) := rfl
  ihave Hp10' := (Entails.of_eq e_Hp10.symm) $$ Hp10
  have e_Hp11 : ((((outM).slice (Rect.unit (s := S204800x128) (k0_off3 L ⟨3, (of_decide_eq_true rfl)⟩ 2#32) S128x128.size (k0_off3_inb L ⟨3, (of_decide_eq_true rfl)⟩ 2)) (fun _ => rfl))).view.loc (thrV d L) ↦[(((outM).slice (Rect.unit (s := S204800x128) (k0_off3 L ⟨3, (of_decide_eq_true rfl)⟩ 2#32) S128x128.size (k0_off3_inb L ⟨3, (of_decide_eq_true rfl)⟩ 2)) (fun _ => rfl))).view.set]{fullShare} (m (outLoc d)) : sProp 𝕄) = (outLoc d ↦[outK L ⟨11, (of_decide_eq_true rfl)⟩]{fullShare} m (outLoc d)) := rfl
  ihave Hp11' := (Entails.of_eq e_Hp11.symm) $$ Hp11
  have e_Hp12 : ((((outM).slice (Rect.unit (s := S204800x128) (k0_off3 L ⟨4, (of_decide_eq_true rfl)⟩ 0#32) S128x128.size (k0_off3_inb L ⟨4, (of_decide_eq_true rfl)⟩ 0)) (fun _ => rfl))).view.loc (thrV d L) ↦[(((outM).slice (Rect.unit (s := S204800x128) (k0_off3 L ⟨4, (of_decide_eq_true rfl)⟩ 0#32) S128x128.size (k0_off3_inb L ⟨4, (of_decide_eq_true rfl)⟩ 0)) (fun _ => rfl))).view.set]{fullShare} (m (outLoc d)) : sProp 𝕄) = (outLoc d ↦[outK L ⟨12, (of_decide_eq_true rfl)⟩]{fullShare} m (outLoc d)) := rfl
  ihave Hp12' := (Entails.of_eq e_Hp12.symm) $$ Hp12
  have e_Hp13 : ((((outM).slice (Rect.unit (s := S204800x128) (k0_off3 L ⟨4, (of_decide_eq_true rfl)⟩ 1#32) S128x128.size (k0_off3_inb L ⟨4, (of_decide_eq_true rfl)⟩ 1)) (fun _ => rfl))).view.loc (thrV d L) ↦[(((outM).slice (Rect.unit (s := S204800x128) (k0_off3 L ⟨4, (of_decide_eq_true rfl)⟩ 1#32) S128x128.size (k0_off3_inb L ⟨4, (of_decide_eq_true rfl)⟩ 1)) (fun _ => rfl))).view.set]{fullShare} (m (outLoc d)) : sProp 𝕄) = (outLoc d ↦[outK L ⟨13, (of_decide_eq_true rfl)⟩]{fullShare} m (outLoc d)) := rfl
  ihave Hp13' := (Entails.of_eq e_Hp13.symm) $$ Hp13
  have e_Hp14 : ((((outM).slice (Rect.unit (s := S204800x128) (k0_off3 L ⟨4, (of_decide_eq_true rfl)⟩ 2#32) S128x128.size (k0_off3_inb L ⟨4, (of_decide_eq_true rfl)⟩ 2)) (fun _ => rfl))).view.loc (thrV d L) ↦[(((outM).slice (Rect.unit (s := S204800x128) (k0_off3 L ⟨4, (of_decide_eq_true rfl)⟩ 2#32) S128x128.size (k0_off3_inb L ⟨4, (of_decide_eq_true rfl)⟩ 2)) (fun _ => rfl))).view.set]{fullShare} (m (outLoc d)) : sProp 𝕄) = (outLoc d ↦[outK L ⟨14, (of_decide_eq_true rfl)⟩]{fullShare} m (outLoc d)) := rfl
  ihave Hp14' := (Entails.of_eq e_Hp14.symm) $$ Hp14
  have e_Hp15 : ((((outM).slice (Rect.unit (s := S204800x128) (k0_off3 L ⟨5, (of_decide_eq_true rfl)⟩ 0#32) S128x128.size (k0_off3_inb L ⟨5, (of_decide_eq_true rfl)⟩ 0)) (fun _ => rfl))).view.loc (thrV d L) ↦[(((outM).slice (Rect.unit (s := S204800x128) (k0_off3 L ⟨5, (of_decide_eq_true rfl)⟩ 0#32) S128x128.size (k0_off3_inb L ⟨5, (of_decide_eq_true rfl)⟩ 0)) (fun _ => rfl))).view.set]{fullShare} (m (outLoc d)) : sProp 𝕄) = (outLoc d ↦[outK L ⟨15, (of_decide_eq_true rfl)⟩]{fullShare} m (outLoc d)) := rfl
  ihave Hp15' := (Entails.of_eq e_Hp15.symm) $$ Hp15
  have e_Hp16 : ((((outM).slice (Rect.unit (s := S204800x128) (k0_off3 L ⟨5, (of_decide_eq_true rfl)⟩ 1#32) S128x128.size (k0_off3_inb L ⟨5, (of_decide_eq_true rfl)⟩ 1)) (fun _ => rfl))).view.loc (thrV d L) ↦[(((outM).slice (Rect.unit (s := S204800x128) (k0_off3 L ⟨5, (of_decide_eq_true rfl)⟩ 1#32) S128x128.size (k0_off3_inb L ⟨5, (of_decide_eq_true rfl)⟩ 1)) (fun _ => rfl))).view.set]{fullShare} (m (outLoc d)) : sProp 𝕄) = (outLoc d ↦[outK L ⟨16, (of_decide_eq_true rfl)⟩]{fullShare} m (outLoc d)) := rfl
  ihave Hp16' := (Entails.of_eq e_Hp16.symm) $$ Hp16
  have e_Hp17 : ((((outM).slice (Rect.unit (s := S204800x128) (k0_off3 L ⟨5, (of_decide_eq_true rfl)⟩ 2#32) S128x128.size (k0_off3_inb L ⟨5, (of_decide_eq_true rfl)⟩ 2)) (fun _ => rfl))).view.loc (thrV d L) ↦[(((outM).slice (Rect.unit (s := S204800x128) (k0_off3 L ⟨5, (of_decide_eq_true rfl)⟩ 2#32) S128x128.size (k0_off3_inb L ⟨5, (of_decide_eq_true rfl)⟩ 2)) (fun _ => rfl))).view.set]{fullShare} (m (outLoc d)) : sProp 𝕄) = (outLoc d ↦[outK L ⟨17, (of_decide_eq_true rfl)⟩]{fullShare} m (outLoc d)) := rfl
  ihave Hp17' := (Entails.of_eq e_Hp17.symm) $$ Hp17
  have e_Hp18 : ((((outM).slice (Rect.unit (s := S204800x128) (k0_off3 L ⟨6, (of_decide_eq_true rfl)⟩ 0#32) S128x128.size (k0_off3_inb L ⟨6, (of_decide_eq_true rfl)⟩ 0)) (fun _ => rfl))).view.loc (thrV d L) ↦[(((outM).slice (Rect.unit (s := S204800x128) (k0_off3 L ⟨6, (of_decide_eq_true rfl)⟩ 0#32) S128x128.size (k0_off3_inb L ⟨6, (of_decide_eq_true rfl)⟩ 0)) (fun _ => rfl))).view.set]{fullShare} (m (outLoc d)) : sProp 𝕄) = (outLoc d ↦[outK L ⟨18, (of_decide_eq_true rfl)⟩]{fullShare} m (outLoc d)) := rfl
  ihave Hp18' := (Entails.of_eq e_Hp18.symm) $$ Hp18
  have e_Hp19 : ((((outM).slice (Rect.unit (s := S204800x128) (k0_off3 L ⟨6, (of_decide_eq_true rfl)⟩ 1#32) S128x128.size (k0_off3_inb L ⟨6, (of_decide_eq_true rfl)⟩ 1)) (fun _ => rfl))).view.loc (thrV d L) ↦[(((outM).slice (Rect.unit (s := S204800x128) (k0_off3 L ⟨6, (of_decide_eq_true rfl)⟩ 1#32) S128x128.size (k0_off3_inb L ⟨6, (of_decide_eq_true rfl)⟩ 1)) (fun _ => rfl))).view.set]{fullShare} (m (outLoc d)) : sProp 𝕄) = (outLoc d ↦[outK L ⟨19, (of_decide_eq_true rfl)⟩]{fullShare} m (outLoc d)) := rfl
  ihave Hp19' := (Entails.of_eq e_Hp19.symm) $$ Hp19
  have e_Hp20 : ((((outM).slice (Rect.unit (s := S204800x128) (k0_off3 L ⟨6, (of_decide_eq_true rfl)⟩ 2#32) S128x128.size (k0_off3_inb L ⟨6, (of_decide_eq_true rfl)⟩ 2)) (fun _ => rfl))).view.loc (thrV d L) ↦[(((outM).slice (Rect.unit (s := S204800x128) (k0_off3 L ⟨6, (of_decide_eq_true rfl)⟩ 2#32) S128x128.size (k0_off3_inb L ⟨6, (of_decide_eq_true rfl)⟩ 2)) (fun _ => rfl))).view.set]{fullShare} (m (outLoc d)) : sProp 𝕄) = (outLoc d ↦[outK L ⟨20, (of_decide_eq_true rfl)⟩]{fullShare} m (outLoc d)) := rfl
  ihave Hp20' := (Entails.of_eq e_Hp20.symm) $$ Hp20
  have e_Hp21 : ((((outM).slice (Rect.unit (s := S204800x128) (k0_off3 L ⟨7, (of_decide_eq_true rfl)⟩ 0#32) S128x128.size (k0_off3_inb L ⟨7, (of_decide_eq_true rfl)⟩ 0)) (fun _ => rfl))).view.loc (thrV d L) ↦[(((outM).slice (Rect.unit (s := S204800x128) (k0_off3 L ⟨7, (of_decide_eq_true rfl)⟩ 0#32) S128x128.size (k0_off3_inb L ⟨7, (of_decide_eq_true rfl)⟩ 0)) (fun _ => rfl))).view.set]{fullShare} (m (outLoc d)) : sProp 𝕄) = (outLoc d ↦[outK L ⟨21, (of_decide_eq_true rfl)⟩]{fullShare} m (outLoc d)) := rfl
  ihave Hp21' := (Entails.of_eq e_Hp21.symm) $$ Hp21
  have e_Hp22 : ((((outM).slice (Rect.unit (s := S204800x128) (k0_off3 L ⟨7, (of_decide_eq_true rfl)⟩ 1#32) S128x128.size (k0_off3_inb L ⟨7, (of_decide_eq_true rfl)⟩ 1)) (fun _ => rfl))).view.loc (thrV d L) ↦[(((outM).slice (Rect.unit (s := S204800x128) (k0_off3 L ⟨7, (of_decide_eq_true rfl)⟩ 1#32) S128x128.size (k0_off3_inb L ⟨7, (of_decide_eq_true rfl)⟩ 1)) (fun _ => rfl))).view.set]{fullShare} (m (outLoc d)) : sProp 𝕄) = (outLoc d ↦[outK L ⟨22, (of_decide_eq_true rfl)⟩]{fullShare} m (outLoc d)) := rfl
  ihave Hp22' := (Entails.of_eq e_Hp22.symm) $$ Hp22
  have e_Hp23 : ((((outM).slice (Rect.unit (s := S204800x128) (k0_off3 L ⟨7, (of_decide_eq_true rfl)⟩ 2#32) S128x128.size (k0_off3_inb L ⟨7, (of_decide_eq_true rfl)⟩ 2)) (fun _ => rfl))).view.loc (thrV d L) ↦[(((outM).slice (Rect.unit (s := S204800x128) (k0_off3 L ⟨7, (of_decide_eq_true rfl)⟩ 2#32) S128x128.size (k0_off3_inb L ⟨7, (of_decide_eq_true rfl)⟩ 2)) (fun _ => rfl))).view.set]{fullShare} (m (outLoc d)) : sProp 𝕄) = (outLoc d ↦[outK L ⟨23, (of_decide_eq_true rfl)⟩]{fullShare} m (outLoc d)) := rfl
  ihave Hp23' := (Entails.of_eq e_Hp23.symm) $$ Hp23
  have e_Hp24 : ((((outM).slice (Rect.unit (s := S204800x128) (k0_off3 L ⟨8, (of_decide_eq_true rfl)⟩ 0#32) S128x128.size (k0_off3_inb L ⟨8, (of_decide_eq_true rfl)⟩ 0)) (fun _ => rfl))).view.loc (thrV d L) ↦[(((outM).slice (Rect.unit (s := S204800x128) (k0_off3 L ⟨8, (of_decide_eq_true rfl)⟩ 0#32) S128x128.size (k0_off3_inb L ⟨8, (of_decide_eq_true rfl)⟩ 0)) (fun _ => rfl))).view.set]{fullShare} (m (outLoc d)) : sProp 𝕄) = (outLoc d ↦[outK L ⟨24, (of_decide_eq_true rfl)⟩]{fullShare} m (outLoc d)) := rfl
  ihave Hp24' := (Entails.of_eq e_Hp24.symm) $$ Hp24
  have e_Hp25 : ((((outM).slice (Rect.unit (s := S204800x128) (k0_off3 L ⟨8, (of_decide_eq_true rfl)⟩ 1#32) S128x128.size (k0_off3_inb L ⟨8, (of_decide_eq_true rfl)⟩ 1)) (fun _ => rfl))).view.loc (thrV d L) ↦[(((outM).slice (Rect.unit (s := S204800x128) (k0_off3 L ⟨8, (of_decide_eq_true rfl)⟩ 1#32) S128x128.size (k0_off3_inb L ⟨8, (of_decide_eq_true rfl)⟩ 1)) (fun _ => rfl))).view.set]{fullShare} (m (outLoc d)) : sProp 𝕄) = (outLoc d ↦[outK L ⟨25, (of_decide_eq_true rfl)⟩]{fullShare} m (outLoc d)) := rfl
  ihave Hp25' := (Entails.of_eq e_Hp25.symm) $$ Hp25
  have e_Hp26 : ((((outM).slice (Rect.unit (s := S204800x128) (k0_off3 L ⟨8, (of_decide_eq_true rfl)⟩ 2#32) S128x128.size (k0_off3_inb L ⟨8, (of_decide_eq_true rfl)⟩ 2)) (fun _ => rfl))).view.loc (thrV d L) ↦[(((outM).slice (Rect.unit (s := S204800x128) (k0_off3 L ⟨8, (of_decide_eq_true rfl)⟩ 2#32) S128x128.size (k0_off3_inb L ⟨8, (of_decide_eq_true rfl)⟩ 2)) (fun _ => rfl))).view.set]{fullShare} (m (outLoc d)) : sProp 𝕄) = (outLoc d ↦[outK L ⟨26, (of_decide_eq_true rfl)⟩]{fullShare} m (outLoc d)) := rfl
  ihave Hp26' := (Entails.of_eq e_Hp26.symm) $$ Hp26
  have e_Hp27 : ((((outM).slice (Rect.unit (s := S204800x128) (k0_off3 L ⟨9, (of_decide_eq_true rfl)⟩ 0#32) S128x128.size (k0_off3_inb L ⟨9, (of_decide_eq_true rfl)⟩ 0)) (fun _ => rfl))).view.loc (thrV d L) ↦[(((outM).slice (Rect.unit (s := S204800x128) (k0_off3 L ⟨9, (of_decide_eq_true rfl)⟩ 0#32) S128x128.size (k0_off3_inb L ⟨9, (of_decide_eq_true rfl)⟩ 0)) (fun _ => rfl))).view.set]{fullShare} (m (outLoc d)) : sProp 𝕄) = (outLoc d ↦[outK L ⟨27, (of_decide_eq_true rfl)⟩]{fullShare} m (outLoc d)) := rfl
  ihave Hp27' := (Entails.of_eq e_Hp27.symm) $$ Hp27
  have e_Hp28 : ((((outM).slice (Rect.unit (s := S204800x128) (k0_off3 L ⟨9, (of_decide_eq_true rfl)⟩ 1#32) S128x128.size (k0_off3_inb L ⟨9, (of_decide_eq_true rfl)⟩ 1)) (fun _ => rfl))).view.loc (thrV d L) ↦[(((outM).slice (Rect.unit (s := S204800x128) (k0_off3 L ⟨9, (of_decide_eq_true rfl)⟩ 1#32) S128x128.size (k0_off3_inb L ⟨9, (of_decide_eq_true rfl)⟩ 1)) (fun _ => rfl))).view.set]{fullShare} (m (outLoc d)) : sProp 𝕄) = (outLoc d ↦[outK L ⟨28, (of_decide_eq_true rfl)⟩]{fullShare} m (outLoc d)) := rfl
  ihave Hp28' := (Entails.of_eq e_Hp28.symm) $$ Hp28
  have e_Hp29 : ((((outM).slice (Rect.unit (s := S204800x128) (k0_off3 L ⟨9, (of_decide_eq_true rfl)⟩ 2#32) S128x128.size (k0_off3_inb L ⟨9, (of_decide_eq_true rfl)⟩ 2)) (fun _ => rfl))).view.loc (thrV d L) ↦[(((outM).slice (Rect.unit (s := S204800x128) (k0_off3 L ⟨9, (of_decide_eq_true rfl)⟩ 2#32) S128x128.size (k0_off3_inb L ⟨9, (of_decide_eq_true rfl)⟩ 2)) (fun _ => rfl))).view.set]{fullShare} (m (outLoc d)) : sProp 𝕄) = (outLoc d ↦[outK L ⟨29, (of_decide_eq_true rfl)⟩]{fullShare} m (outLoc d)) := rfl
  ihave Hp29' := (Entails.of_eq e_Hp29.symm) $$ Hp29
  have e_Hp30 : ((((outM).slice (Rect.unit (s := S204800x128) (k0_off22 L ⟨0, (of_decide_eq_true rfl)⟩) S64x128.size (k0_off22_inb L ⟨0, (of_decide_eq_true rfl)⟩ (of_decide_eq_true rfl))) (fun _ => rfl))).view.loc (thrV d L) ↦[(((outM).slice (Rect.unit (s := S204800x128) (k0_off22 L ⟨0, (of_decide_eq_true rfl)⟩) S64x128.size (k0_off22_inb L ⟨0, (of_decide_eq_true rfl)⟩ (of_decide_eq_true rfl))) (fun _ => rfl))).view.set]{fullShare} (m (outLoc d)) : sProp 𝕄) = (outLoc d ↦[outK L ⟨30, (of_decide_eq_true rfl)⟩]{fullShare} m (outLoc d)) := rfl
  ihave Hp30' := (Entails.of_eq e_Hp30.symm) $$ Hp30
  have e_Hp31 : ((((outM).slice (Rect.unit (s := S204800x128) (k0_off28 L ⟨0, (of_decide_eq_true rfl)⟩) S64x128.size (k0_off28_inb L ⟨0, (of_decide_eq_true rfl)⟩ (of_decide_eq_true rfl))) (fun _ => rfl))).view.loc (thrV d L) ↦[(((outM).slice (Rect.unit (s := S204800x128) (k0_off28 L ⟨0, (of_decide_eq_true rfl)⟩) S64x128.size (k0_off28_inb L ⟨0, (of_decide_eq_true rfl)⟩ (of_decide_eq_true rfl))) (fun _ => rfl))).view.set]{fullShare} (m (outLoc d)) : sProp 𝕄) = (outLoc d ↦[outK L ⟨31, (of_decide_eq_true rfl)⟩]{fullShare} m (outLoc d)) := rfl
  ihave Hp31' := (Entails.of_eq e_Hp31.symm) $$ Hp31
  have e_Hp32 : ((((outM).slice (Rect.unit (s := S204800x128) (k0_off34 L ⟨0, (of_decide_eq_true rfl)⟩) S64x128.size (k0_off34_inb L ⟨0, (of_decide_eq_true rfl)⟩ (of_decide_eq_true rfl))) (fun _ => rfl))).view.loc (thrV d L) ↦[(((outM).slice (Rect.unit (s := S204800x128) (k0_off34 L ⟨0, (of_decide_eq_true rfl)⟩) S64x128.size (k0_off34_inb L ⟨0, (of_decide_eq_true rfl)⟩ (of_decide_eq_true rfl))) (fun _ => rfl))).view.set]{fullShare} (m (outLoc d)) : sProp 𝕄) = (outLoc d ↦[outK L ⟨32, (of_decide_eq_true rfl)⟩]{fullShare} m (outLoc d)) := rfl
  ihave Hp32' := (Entails.of_eq e_Hp32.symm) $$ Hp32
  have e_Hp33 : ((((outM).slice (Rect.unit (s := S204800x128) (k0_off15 L ⟨1, (of_decide_eq_true rfl)⟩) S64x128.size (k0_off15_inb L ⟨1, (of_decide_eq_true rfl)⟩ (of_decide_eq_true rfl))) (fun _ => rfl))).view.loc (thrV d L) ↦[(((outM).slice (Rect.unit (s := S204800x128) (k0_off15 L ⟨1, (of_decide_eq_true rfl)⟩) S64x128.size (k0_off15_inb L ⟨1, (of_decide_eq_true rfl)⟩ (of_decide_eq_true rfl))) (fun _ => rfl))).view.set]{fullShare} (m (outLoc d)) : sProp 𝕄) = (outLoc d ↦[outK L ⟨33, (of_decide_eq_true rfl)⟩]{fullShare} m (outLoc d)) := rfl
  ihave Hp33' := (Entails.of_eq e_Hp33.symm) $$ Hp33
  have e_Hp34 : ((((outM).slice (Rect.unit (s := S204800x128) (k0_off22 L ⟨1, (of_decide_eq_true rfl)⟩) S64x128.size (k0_off22_inb L ⟨1, (of_decide_eq_true rfl)⟩ (of_decide_eq_true rfl))) (fun _ => rfl))).view.loc (thrV d L) ↦[(((outM).slice (Rect.unit (s := S204800x128) (k0_off22 L ⟨1, (of_decide_eq_true rfl)⟩) S64x128.size (k0_off22_inb L ⟨1, (of_decide_eq_true rfl)⟩ (of_decide_eq_true rfl))) (fun _ => rfl))).view.set]{fullShare} (m (outLoc d)) : sProp 𝕄) = (outLoc d ↦[outK L ⟨34, (of_decide_eq_true rfl)⟩]{fullShare} m (outLoc d)) := rfl
  ihave Hp34' := (Entails.of_eq e_Hp34.symm) $$ Hp34
  have e_Hp35 : ((((outM).slice (Rect.unit (s := S204800x128) (k0_off28 L ⟨1, (of_decide_eq_true rfl)⟩) S64x128.size (k0_off28_inb L ⟨1, (of_decide_eq_true rfl)⟩ (of_decide_eq_true rfl))) (fun _ => rfl))).view.loc (thrV d L) ↦[(((outM).slice (Rect.unit (s := S204800x128) (k0_off28 L ⟨1, (of_decide_eq_true rfl)⟩) S64x128.size (k0_off28_inb L ⟨1, (of_decide_eq_true rfl)⟩ (of_decide_eq_true rfl))) (fun _ => rfl))).view.set]{fullShare} (m (outLoc d)) : sProp 𝕄) = (outLoc d ↦[outK L ⟨35, (of_decide_eq_true rfl)⟩]{fullShare} m (outLoc d)) := rfl
  ihave Hp35' := (Entails.of_eq e_Hp35.symm) $$ Hp35
  have e_Hp36 : ((((outM).slice (Rect.unit (s := S204800x128) (k0_off34 L ⟨1, (of_decide_eq_true rfl)⟩) S64x128.size (k0_off34_inb L ⟨1, (of_decide_eq_true rfl)⟩ (of_decide_eq_true rfl))) (fun _ => rfl))).view.loc (thrV d L) ↦[(((outM).slice (Rect.unit (s := S204800x128) (k0_off34 L ⟨1, (of_decide_eq_true rfl)⟩) S64x128.size (k0_off34_inb L ⟨1, (of_decide_eq_true rfl)⟩ (of_decide_eq_true rfl))) (fun _ => rfl))).view.set]{fullShare} (m (outLoc d)) : sProp 𝕄) = (outLoc d ↦[outK L ⟨36, (of_decide_eq_true rfl)⟩]{fullShare} m (outLoc d)) := rfl
  ihave Hp36' := (Entails.of_eq e_Hp36.symm) $$ Hp36
  have e_Hp37 : ((((outM).slice (Rect.unit (s := S204800x128) (k0_off15 L ⟨2, (of_decide_eq_true rfl)⟩) S64x128.size (k0_off15_inb L ⟨2, (of_decide_eq_true rfl)⟩ (of_decide_eq_true rfl))) (fun _ => rfl))).view.loc (thrV d L) ↦[(((outM).slice (Rect.unit (s := S204800x128) (k0_off15 L ⟨2, (of_decide_eq_true rfl)⟩) S64x128.size (k0_off15_inb L ⟨2, (of_decide_eq_true rfl)⟩ (of_decide_eq_true rfl))) (fun _ => rfl))).view.set]{fullShare} (m (outLoc d)) : sProp 𝕄) = (outLoc d ↦[outK L ⟨37, (of_decide_eq_true rfl)⟩]{fullShare} m (outLoc d)) := rfl
  ihave Hp37' := (Entails.of_eq e_Hp37.symm) $$ Hp37
  have e_Hp38 : ((((outM).slice (Rect.unit (s := S204800x128) (k0_off22 L ⟨2, (of_decide_eq_true rfl)⟩) S64x128.size (k0_off22_inb L ⟨2, (of_decide_eq_true rfl)⟩ (of_decide_eq_true rfl))) (fun _ => rfl))).view.loc (thrV d L) ↦[(((outM).slice (Rect.unit (s := S204800x128) (k0_off22 L ⟨2, (of_decide_eq_true rfl)⟩) S64x128.size (k0_off22_inb L ⟨2, (of_decide_eq_true rfl)⟩ (of_decide_eq_true rfl))) (fun _ => rfl))).view.set]{fullShare} (m (outLoc d)) : sProp 𝕄) = (outLoc d ↦[outK L ⟨38, (of_decide_eq_true rfl)⟩]{fullShare} m (outLoc d)) := rfl
  ihave Hp38' := (Entails.of_eq e_Hp38.symm) $$ Hp38
  have e_Hp39 : ((((outM).slice (Rect.unit (s := S204800x128) (k0_off28 L ⟨2, (of_decide_eq_true rfl)⟩) S64x128.size (k0_off28_inb L ⟨2, (of_decide_eq_true rfl)⟩ (of_decide_eq_true rfl))) (fun _ => rfl))).view.loc (thrV d L) ↦[(((outM).slice (Rect.unit (s := S204800x128) (k0_off28 L ⟨2, (of_decide_eq_true rfl)⟩) S64x128.size (k0_off28_inb L ⟨2, (of_decide_eq_true rfl)⟩ (of_decide_eq_true rfl))) (fun _ => rfl))).view.set]{fullShare} (m (outLoc d)) : sProp 𝕄) = (outLoc d ↦[outK L ⟨39, (of_decide_eq_true rfl)⟩]{fullShare} m (outLoc d)) := rfl
  ihave Hp39' := (Entails.of_eq e_Hp39.symm) $$ Hp39
  have e_Hp40 : ((((outM).slice (Rect.unit (s := S204800x128) (k0_off34 L ⟨2, (of_decide_eq_true rfl)⟩) S64x128.size (k0_off34_inb L ⟨2, (of_decide_eq_true rfl)⟩ (of_decide_eq_true rfl))) (fun _ => rfl))).view.loc (thrV d L) ↦[(((outM).slice (Rect.unit (s := S204800x128) (k0_off34 L ⟨2, (of_decide_eq_true rfl)⟩) S64x128.size (k0_off34_inb L ⟨2, (of_decide_eq_true rfl)⟩ (of_decide_eq_true rfl))) (fun _ => rfl))).view.set]{fullShare} (m (outLoc d)) : sProp 𝕄) = (outLoc d ↦[outK L ⟨40, (of_decide_eq_true rfl)⟩]{fullShare} m (outLoc d)) := rfl
  ihave Hp40' := (Entails.of_eq e_Hp40.symm) $$ Hp40
  have e_Hp41 : ((((outM).slice (Rect.unit (s := S204800x128) (k0_off15 L ⟨3, (of_decide_eq_true rfl)⟩) S64x128.size (k0_off15_inb L ⟨3, (of_decide_eq_true rfl)⟩ (of_decide_eq_true rfl))) (fun _ => rfl))).view.loc (thrV d L) ↦[(((outM).slice (Rect.unit (s := S204800x128) (k0_off15 L ⟨3, (of_decide_eq_true rfl)⟩) S64x128.size (k0_off15_inb L ⟨3, (of_decide_eq_true rfl)⟩ (of_decide_eq_true rfl))) (fun _ => rfl))).view.set]{fullShare} (m (outLoc d)) : sProp 𝕄) = (outLoc d ↦[outK L ⟨41, (of_decide_eq_true rfl)⟩]{fullShare} m (outLoc d)) := rfl
  ihave Hp41' := (Entails.of_eq e_Hp41.symm) $$ Hp41
  have e_Hp42 : ((((outM).slice (Rect.unit (s := S204800x128) (k0_off22 L ⟨3, (of_decide_eq_true rfl)⟩) S64x128.size (k0_off22_inb L ⟨3, (of_decide_eq_true rfl)⟩ (of_decide_eq_true rfl))) (fun _ => rfl))).view.loc (thrV d L) ↦[(((outM).slice (Rect.unit (s := S204800x128) (k0_off22 L ⟨3, (of_decide_eq_true rfl)⟩) S64x128.size (k0_off22_inb L ⟨3, (of_decide_eq_true rfl)⟩ (of_decide_eq_true rfl))) (fun _ => rfl))).view.set]{fullShare} (m (outLoc d)) : sProp 𝕄) = (outLoc d ↦[outK L ⟨42, (of_decide_eq_true rfl)⟩]{fullShare} m (outLoc d)) := rfl
  ihave Hp42' := (Entails.of_eq e_Hp42.symm) $$ Hp42
  have e_Hp43 : ((((outM).slice (Rect.unit (s := S204800x128) (k0_off28 L ⟨3, (of_decide_eq_true rfl)⟩) S64x128.size (k0_off28_inb L ⟨3, (of_decide_eq_true rfl)⟩ (of_decide_eq_true rfl))) (fun _ => rfl))).view.loc (thrV d L) ↦[(((outM).slice (Rect.unit (s := S204800x128) (k0_off28 L ⟨3, (of_decide_eq_true rfl)⟩) S64x128.size (k0_off28_inb L ⟨3, (of_decide_eq_true rfl)⟩ (of_decide_eq_true rfl))) (fun _ => rfl))).view.set]{fullShare} (m (outLoc d)) : sProp 𝕄) = (outLoc d ↦[outK L ⟨43, (of_decide_eq_true rfl)⟩]{fullShare} m (outLoc d)) := rfl
  ihave Hp43' := (Entails.of_eq e_Hp43.symm) $$ Hp43
  have e_Hp44 : ((((outM).slice (Rect.unit (s := S204800x128) (k0_off34 L ⟨3, (of_decide_eq_true rfl)⟩) S64x128.size (k0_off34_inb L ⟨3, (of_decide_eq_true rfl)⟩ (of_decide_eq_true rfl))) (fun _ => rfl))).view.loc (thrV d L) ↦[(((outM).slice (Rect.unit (s := S204800x128) (k0_off34 L ⟨3, (of_decide_eq_true rfl)⟩) S64x128.size (k0_off34_inb L ⟨3, (of_decide_eq_true rfl)⟩ (of_decide_eq_true rfl))) (fun _ => rfl))).view.set]{fullShare} (m (outLoc d)) : sProp 𝕄) = (outLoc d ↦[outK L ⟨44, (of_decide_eq_true rfl)⟩]{fullShare} m (outLoc d)) := rfl
  ihave Hp44' := (Entails.of_eq e_Hp44.symm) $$ Hp44
  have e_Hp45 : ((((outM).slice (Rect.unit (s := S204800x128) (k0_off15 L ⟨4, (of_decide_eq_true rfl)⟩) S64x128.size (k0_off15_inb L ⟨4, (of_decide_eq_true rfl)⟩ (of_decide_eq_true rfl))) (fun _ => rfl))).view.loc (thrV d L) ↦[(((outM).slice (Rect.unit (s := S204800x128) (k0_off15 L ⟨4, (of_decide_eq_true rfl)⟩) S64x128.size (k0_off15_inb L ⟨4, (of_decide_eq_true rfl)⟩ (of_decide_eq_true rfl))) (fun _ => rfl))).view.set]{fullShare} (m (outLoc d)) : sProp 𝕄) = (outLoc d ↦[outK L ⟨45, (of_decide_eq_true rfl)⟩]{fullShare} m (outLoc d)) := rfl
  ihave Hp45' := (Entails.of_eq e_Hp45.symm) $$ Hp45
  have e_Hp46 : ((((outM).slice (Rect.unit (s := S204800x128) (k0_off22 L ⟨4, (of_decide_eq_true rfl)⟩) S64x128.size (k0_off22_inb L ⟨4, (of_decide_eq_true rfl)⟩ (of_decide_eq_true rfl))) (fun _ => rfl))).view.loc (thrV d L) ↦[(((outM).slice (Rect.unit (s := S204800x128) (k0_off22 L ⟨4, (of_decide_eq_true rfl)⟩) S64x128.size (k0_off22_inb L ⟨4, (of_decide_eq_true rfl)⟩ (of_decide_eq_true rfl))) (fun _ => rfl))).view.set]{fullShare} (m (outLoc d)) : sProp 𝕄) = (outLoc d ↦[outK L ⟨46, (of_decide_eq_true rfl)⟩]{fullShare} m (outLoc d)) := rfl
  ihave Hp46' := (Entails.of_eq e_Hp46.symm) $$ Hp46
  have e_Hp47 : ((((outM).slice (Rect.unit (s := S204800x128) (k0_off28 L ⟨4, (of_decide_eq_true rfl)⟩) S64x128.size (k0_off28_inb L ⟨4, (of_decide_eq_true rfl)⟩ (of_decide_eq_true rfl))) (fun _ => rfl))).view.loc (thrV d L) ↦[(((outM).slice (Rect.unit (s := S204800x128) (k0_off28 L ⟨4, (of_decide_eq_true rfl)⟩) S64x128.size (k0_off28_inb L ⟨4, (of_decide_eq_true rfl)⟩ (of_decide_eq_true rfl))) (fun _ => rfl))).view.set]{fullShare} (m (outLoc d)) : sProp 𝕄) = (outLoc d ↦[outK L ⟨47, (of_decide_eq_true rfl)⟩]{fullShare} m (outLoc d)) := rfl
  ihave Hp47' := (Entails.of_eq e_Hp47.symm) $$ Hp47
  have e_Hp48 : ((((outM).slice (Rect.unit (s := S204800x128) (k0_off34 L ⟨4, (of_decide_eq_true rfl)⟩) S64x128.size (k0_off34_inb L ⟨4, (of_decide_eq_true rfl)⟩ (of_decide_eq_true rfl))) (fun _ => rfl))).view.loc (thrV d L) ↦[(((outM).slice (Rect.unit (s := S204800x128) (k0_off34 L ⟨4, (of_decide_eq_true rfl)⟩) S64x128.size (k0_off34_inb L ⟨4, (of_decide_eq_true rfl)⟩ (of_decide_eq_true rfl))) (fun _ => rfl))).view.set]{fullShare} (m (outLoc d)) : sProp 𝕄) = (outLoc d ↦[outK L ⟨48, (of_decide_eq_true rfl)⟩]{fullShare} m (outLoc d)) := rfl
  ihave Hp48' := (Entails.of_eq e_Hp48.symm) $$ Hp48
  have e_Hp49 : ((((outM).slice (Rect.unit (s := S204800x128) (k0_off15 L ⟨5, (of_decide_eq_true rfl)⟩) S64x128.size (k0_off15_inb L ⟨5, (of_decide_eq_true rfl)⟩ (of_decide_eq_true rfl))) (fun _ => rfl))).view.loc (thrV d L) ↦[(((outM).slice (Rect.unit (s := S204800x128) (k0_off15 L ⟨5, (of_decide_eq_true rfl)⟩) S64x128.size (k0_off15_inb L ⟨5, (of_decide_eq_true rfl)⟩ (of_decide_eq_true rfl))) (fun _ => rfl))).view.set]{fullShare} (m (outLoc d)) : sProp 𝕄) = (outLoc d ↦[outK L ⟨49, (of_decide_eq_true rfl)⟩]{fullShare} m (outLoc d)) := rfl
  ihave Hp49' := (Entails.of_eq e_Hp49.symm) $$ Hp49
  have e_Hp50 : ((((outM).slice (Rect.unit (s := S204800x128) (k0_off22 L ⟨5, (of_decide_eq_true rfl)⟩) S64x128.size (k0_off22_inb L ⟨5, (of_decide_eq_true rfl)⟩ (of_decide_eq_true rfl))) (fun _ => rfl))).view.loc (thrV d L) ↦[(((outM).slice (Rect.unit (s := S204800x128) (k0_off22 L ⟨5, (of_decide_eq_true rfl)⟩) S64x128.size (k0_off22_inb L ⟨5, (of_decide_eq_true rfl)⟩ (of_decide_eq_true rfl))) (fun _ => rfl))).view.set]{fullShare} (m (outLoc d)) : sProp 𝕄) = (outLoc d ↦[outK L ⟨50, (of_decide_eq_true rfl)⟩]{fullShare} m (outLoc d)) := rfl
  ihave Hp50' := (Entails.of_eq e_Hp50.symm) $$ Hp50
  have e_Hp51 : ((((outM).slice (Rect.unit (s := S204800x128) (k0_off28 L ⟨5, (of_decide_eq_true rfl)⟩) S64x128.size (k0_off28_inb L ⟨5, (of_decide_eq_true rfl)⟩ (of_decide_eq_true rfl))) (fun _ => rfl))).view.loc (thrV d L) ↦[(((outM).slice (Rect.unit (s := S204800x128) (k0_off28 L ⟨5, (of_decide_eq_true rfl)⟩) S64x128.size (k0_off28_inb L ⟨5, (of_decide_eq_true rfl)⟩ (of_decide_eq_true rfl))) (fun _ => rfl))).view.set]{fullShare} (m (outLoc d)) : sProp 𝕄) = (outLoc d ↦[outK L ⟨51, (of_decide_eq_true rfl)⟩]{fullShare} m (outLoc d)) := rfl
  ihave Hp51' := (Entails.of_eq e_Hp51.symm) $$ Hp51
  have e_Hp52 : ((((outM).slice (Rect.unit (s := S204800x128) (k0_off34 L ⟨5, (of_decide_eq_true rfl)⟩) S64x128.size (k0_off34_inb L ⟨5, (of_decide_eq_true rfl)⟩ (of_decide_eq_true rfl))) (fun _ => rfl))).view.loc (thrV d L) ↦[(((outM).slice (Rect.unit (s := S204800x128) (k0_off34 L ⟨5, (of_decide_eq_true rfl)⟩) S64x128.size (k0_off34_inb L ⟨5, (of_decide_eq_true rfl)⟩ (of_decide_eq_true rfl))) (fun _ => rfl))).view.set]{fullShare} (m (outLoc d)) : sProp 𝕄) = (outLoc d ↦[outK L ⟨52, (of_decide_eq_true rfl)⟩]{fullShare} m (outLoc d)) := rfl
  ihave Hp52' := (Entails.of_eq e_Hp52.symm) $$ Hp52
  have e_Hp53 : ((((outM).slice (Rect.unit (s := S204800x128) (k0_off15 L ⟨6, (of_decide_eq_true rfl)⟩) S64x128.size (k0_off15_inb L ⟨6, (of_decide_eq_true rfl)⟩ (of_decide_eq_true rfl))) (fun _ => rfl))).view.loc (thrV d L) ↦[(((outM).slice (Rect.unit (s := S204800x128) (k0_off15 L ⟨6, (of_decide_eq_true rfl)⟩) S64x128.size (k0_off15_inb L ⟨6, (of_decide_eq_true rfl)⟩ (of_decide_eq_true rfl))) (fun _ => rfl))).view.set]{fullShare} (m (outLoc d)) : sProp 𝕄) = (outLoc d ↦[outK L ⟨53, (of_decide_eq_true rfl)⟩]{fullShare} m (outLoc d)) := rfl
  ihave Hp53' := (Entails.of_eq e_Hp53.symm) $$ Hp53
  have e_Hp54 : ((((outM).slice (Rect.unit (s := S204800x128) (k0_off22 L ⟨6, (of_decide_eq_true rfl)⟩) S64x128.size (k0_off22_inb L ⟨6, (of_decide_eq_true rfl)⟩ (of_decide_eq_true rfl))) (fun _ => rfl))).view.loc (thrV d L) ↦[(((outM).slice (Rect.unit (s := S204800x128) (k0_off22 L ⟨6, (of_decide_eq_true rfl)⟩) S64x128.size (k0_off22_inb L ⟨6, (of_decide_eq_true rfl)⟩ (of_decide_eq_true rfl))) (fun _ => rfl))).view.set]{fullShare} (m (outLoc d)) : sProp 𝕄) = (outLoc d ↦[outK L ⟨54, (of_decide_eq_true rfl)⟩]{fullShare} m (outLoc d)) := rfl
  ihave Hp54' := (Entails.of_eq e_Hp54.symm) $$ Hp54
  have e_Hp55 : ((((outM).slice (Rect.unit (s := S204800x128) (k0_off28 L ⟨6, (of_decide_eq_true rfl)⟩) S64x128.size (k0_off28_inb L ⟨6, (of_decide_eq_true rfl)⟩ (of_decide_eq_true rfl))) (fun _ => rfl))).view.loc (thrV d L) ↦[(((outM).slice (Rect.unit (s := S204800x128) (k0_off28 L ⟨6, (of_decide_eq_true rfl)⟩) S64x128.size (k0_off28_inb L ⟨6, (of_decide_eq_true rfl)⟩ (of_decide_eq_true rfl))) (fun _ => rfl))).view.set]{fullShare} (m (outLoc d)) : sProp 𝕄) = (outLoc d ↦[outK L ⟨55, (of_decide_eq_true rfl)⟩]{fullShare} m (outLoc d)) := rfl
  ihave Hp55' := (Entails.of_eq e_Hp55.symm) $$ Hp55
  have e_Hp56 : ((((outM).slice (Rect.unit (s := S204800x128) (k0_off34 L ⟨6, (of_decide_eq_true rfl)⟩) S64x128.size (k0_off34_inb L ⟨6, (of_decide_eq_true rfl)⟩ (of_decide_eq_true rfl))) (fun _ => rfl))).view.loc (thrV d L) ↦[(((outM).slice (Rect.unit (s := S204800x128) (k0_off34 L ⟨6, (of_decide_eq_true rfl)⟩) S64x128.size (k0_off34_inb L ⟨6, (of_decide_eq_true rfl)⟩ (of_decide_eq_true rfl))) (fun _ => rfl))).view.set]{fullShare} (m (outLoc d)) : sProp 𝕄) = (outLoc d ↦[outK L ⟨56, (of_decide_eq_true rfl)⟩]{fullShare} m (outLoc d)) := rfl
  ihave Hp56' := (Entails.of_eq e_Hp56.symm) $$ Hp56
  have e_Hp57 : ((((outM).slice (Rect.unit (s := S204800x128) (k0_off15 L ⟨7, (of_decide_eq_true rfl)⟩) S64x128.size (k0_off15_inb L ⟨7, (of_decide_eq_true rfl)⟩ (of_decide_eq_true rfl))) (fun _ => rfl))).view.loc (thrV d L) ↦[(((outM).slice (Rect.unit (s := S204800x128) (k0_off15 L ⟨7, (of_decide_eq_true rfl)⟩) S64x128.size (k0_off15_inb L ⟨7, (of_decide_eq_true rfl)⟩ (of_decide_eq_true rfl))) (fun _ => rfl))).view.set]{fullShare} (m (outLoc d)) : sProp 𝕄) = (outLoc d ↦[outK L ⟨57, (of_decide_eq_true rfl)⟩]{fullShare} m (outLoc d)) := rfl
  ihave Hp57' := (Entails.of_eq e_Hp57.symm) $$ Hp57
  have e_Hp58 : ((((outM).slice (Rect.unit (s := S204800x128) (k0_off22 L ⟨7, (of_decide_eq_true rfl)⟩) S64x128.size (k0_off22_inb L ⟨7, (of_decide_eq_true rfl)⟩ (of_decide_eq_true rfl))) (fun _ => rfl))).view.loc (thrV d L) ↦[(((outM).slice (Rect.unit (s := S204800x128) (k0_off22 L ⟨7, (of_decide_eq_true rfl)⟩) S64x128.size (k0_off22_inb L ⟨7, (of_decide_eq_true rfl)⟩ (of_decide_eq_true rfl))) (fun _ => rfl))).view.set]{fullShare} (m (outLoc d)) : sProp 𝕄) = (outLoc d ↦[outK L ⟨58, (of_decide_eq_true rfl)⟩]{fullShare} m (outLoc d)) := rfl
  ihave Hp58' := (Entails.of_eq e_Hp58.symm) $$ Hp58
  have e_Hp59 : ((((outM).slice (Rect.unit (s := S204800x128) (k0_off28 L ⟨7, (of_decide_eq_true rfl)⟩) S64x128.size (k0_off28_inb L ⟨7, (of_decide_eq_true rfl)⟩ (of_decide_eq_true rfl))) (fun _ => rfl))).view.loc (thrV d L) ↦[(((outM).slice (Rect.unit (s := S204800x128) (k0_off28 L ⟨7, (of_decide_eq_true rfl)⟩) S64x128.size (k0_off28_inb L ⟨7, (of_decide_eq_true rfl)⟩ (of_decide_eq_true rfl))) (fun _ => rfl))).view.set]{fullShare} (m (outLoc d)) : sProp 𝕄) = (outLoc d ↦[outK L ⟨59, (of_decide_eq_true rfl)⟩]{fullShare} m (outLoc d)) := rfl
  ihave Hp59' := (Entails.of_eq e_Hp59.symm) $$ Hp59
  have e_Hp60 : ((((outM).slice (Rect.unit (s := S204800x128) (k0_off34 L ⟨7, (of_decide_eq_true rfl)⟩) S64x128.size (k0_off34_inb L ⟨7, (of_decide_eq_true rfl)⟩ (of_decide_eq_true rfl))) (fun _ => rfl))).view.loc (thrV d L) ↦[(((outM).slice (Rect.unit (s := S204800x128) (k0_off34 L ⟨7, (of_decide_eq_true rfl)⟩) S64x128.size (k0_off34_inb L ⟨7, (of_decide_eq_true rfl)⟩ (of_decide_eq_true rfl))) (fun _ => rfl))).view.set]{fullShare} (m (outLoc d)) : sProp 𝕄) = (outLoc d ↦[outK L ⟨60, (of_decide_eq_true rfl)⟩]{fullShare} m (outLoc d)) := rfl
  ihave Hp60' := (Entails.of_eq e_Hp60.symm) $$ Hp60
  have e_Hp61 : ((((outM).slice (Rect.unit (s := S204800x128) (k0_off15 L ⟨8, (of_decide_eq_true rfl)⟩) S64x128.size (k0_off15_inb L ⟨8, (of_decide_eq_true rfl)⟩ (of_decide_eq_true rfl))) (fun _ => rfl))).view.loc (thrV d L) ↦[(((outM).slice (Rect.unit (s := S204800x128) (k0_off15 L ⟨8, (of_decide_eq_true rfl)⟩) S64x128.size (k0_off15_inb L ⟨8, (of_decide_eq_true rfl)⟩ (of_decide_eq_true rfl))) (fun _ => rfl))).view.set]{fullShare} (m (outLoc d)) : sProp 𝕄) = (outLoc d ↦[outK L ⟨61, (of_decide_eq_true rfl)⟩]{fullShare} m (outLoc d)) := rfl
  ihave Hp61' := (Entails.of_eq e_Hp61.symm) $$ Hp61
  have e_Hp62 : ((((outM).slice (Rect.unit (s := S204800x128) (k0_off22 L ⟨8, (of_decide_eq_true rfl)⟩) S64x128.size (k0_off22_inb L ⟨8, (of_decide_eq_true rfl)⟩ (of_decide_eq_true rfl))) (fun _ => rfl))).view.loc (thrV d L) ↦[(((outM).slice (Rect.unit (s := S204800x128) (k0_off22 L ⟨8, (of_decide_eq_true rfl)⟩) S64x128.size (k0_off22_inb L ⟨8, (of_decide_eq_true rfl)⟩ (of_decide_eq_true rfl))) (fun _ => rfl))).view.set]{fullShare} (m (outLoc d)) : sProp 𝕄) = (outLoc d ↦[outK L ⟨62, (of_decide_eq_true rfl)⟩]{fullShare} m (outLoc d)) := rfl
  ihave Hp62' := (Entails.of_eq e_Hp62.symm) $$ Hp62
  have e_Hp63 : ((((outM).slice (Rect.unit (s := S204800x128) (k0_off28 L ⟨8, (of_decide_eq_true rfl)⟩) S64x128.size (k0_off28_inb L ⟨8, (of_decide_eq_true rfl)⟩ (of_decide_eq_true rfl))) (fun _ => rfl))).view.loc (thrV d L) ↦[(((outM).slice (Rect.unit (s := S204800x128) (k0_off28 L ⟨8, (of_decide_eq_true rfl)⟩) S64x128.size (k0_off28_inb L ⟨8, (of_decide_eq_true rfl)⟩ (of_decide_eq_true rfl))) (fun _ => rfl))).view.set]{fullShare} (m (outLoc d)) : sProp 𝕄) = (outLoc d ↦[outK L ⟨63, (of_decide_eq_true rfl)⟩]{fullShare} m (outLoc d)) := rfl
  ihave Hp63' := (Entails.of_eq e_Hp63.symm) $$ Hp63
  have e_Hp64 : ((((outM).slice (Rect.unit (s := S204800x128) (k0_off34 L ⟨8, (of_decide_eq_true rfl)⟩) S64x128.size (k0_off34_inb L ⟨8, (of_decide_eq_true rfl)⟩ (of_decide_eq_true rfl))) (fun _ => rfl))).view.loc (thrV d L) ↦[(((outM).slice (Rect.unit (s := S204800x128) (k0_off34 L ⟨8, (of_decide_eq_true rfl)⟩) S64x128.size (k0_off34_inb L ⟨8, (of_decide_eq_true rfl)⟩ (of_decide_eq_true rfl))) (fun _ => rfl))).view.set]{fullShare} (m (outLoc d)) : sProp 𝕄) = (outLoc d ↦[outK L ⟨64, (of_decide_eq_true rfl)⟩]{fullShare} m (outLoc d)) := rfl
  ihave Hp64' := (Entails.of_eq e_Hp64.symm) $$ Hp64
  have e_Hp65 : ((((outM).slice (Rect.unit (s := S204800x128) (k0_off15 L ⟨9, (of_decide_eq_true rfl)⟩) S64x128.size (k0_off15_inb L ⟨9, (of_decide_eq_true rfl)⟩ (of_decide_eq_true rfl))) (fun _ => rfl))).view.loc (thrV d L) ↦[(((outM).slice (Rect.unit (s := S204800x128) (k0_off15 L ⟨9, (of_decide_eq_true rfl)⟩) S64x128.size (k0_off15_inb L ⟨9, (of_decide_eq_true rfl)⟩ (of_decide_eq_true rfl))) (fun _ => rfl))).view.set]{fullShare} (m (outLoc d)) : sProp 𝕄) = (outLoc d ↦[outK L ⟨65, (of_decide_eq_true rfl)⟩]{fullShare} m (outLoc d)) := rfl
  ihave Hp65' := (Entails.of_eq e_Hp65.symm) $$ Hp65
  have e_Hp66 : ((((outM).slice (Rect.unit (s := S204800x128) (k0_off22 L ⟨9, (of_decide_eq_true rfl)⟩) S64x128.size (k0_off22_inb L ⟨9, (of_decide_eq_true rfl)⟩ (of_decide_eq_true rfl))) (fun _ => rfl))).view.loc (thrV d L) ↦[(((outM).slice (Rect.unit (s := S204800x128) (k0_off22 L ⟨9, (of_decide_eq_true rfl)⟩) S64x128.size (k0_off22_inb L ⟨9, (of_decide_eq_true rfl)⟩ (of_decide_eq_true rfl))) (fun _ => rfl))).view.set]{fullShare} (m (outLoc d)) : sProp 𝕄) = (outLoc d ↦[outK L ⟨66, (of_decide_eq_true rfl)⟩]{fullShare} m (outLoc d)) := rfl
  ihave Hp66' := (Entails.of_eq e_Hp66.symm) $$ Hp66
  have e_Hp67 : ((((outM).slice (Rect.unit (s := S204800x128) (k0_off28 L ⟨9, (of_decide_eq_true rfl)⟩) S64x128.size (k0_off28_inb L ⟨9, (of_decide_eq_true rfl)⟩ (of_decide_eq_true rfl))) (fun _ => rfl))).view.loc (thrV d L) ↦[(((outM).slice (Rect.unit (s := S204800x128) (k0_off28 L ⟨9, (of_decide_eq_true rfl)⟩) S64x128.size (k0_off28_inb L ⟨9, (of_decide_eq_true rfl)⟩ (of_decide_eq_true rfl))) (fun _ => rfl))).view.set]{fullShare} (m (outLoc d)) : sProp 𝕄) = (outLoc d ↦[outK L ⟨67, (of_decide_eq_true rfl)⟩]{fullShare} m (outLoc d)) := rfl
  ihave Hp67' := (Entails.of_eq e_Hp67.symm) $$ Hp67
  have e_Hp68 : ((((outM).slice (Rect.unit (s := S204800x128) (k0_off34 L ⟨9, (of_decide_eq_true rfl)⟩) S64x128.size (k0_off34_inb L ⟨9, (of_decide_eq_true rfl)⟩ (of_decide_eq_true rfl))) (fun _ => rfl))).view.loc (thrV d L) ↦[(((outM).slice (Rect.unit (s := S204800x128) (k0_off34 L ⟨9, (of_decide_eq_true rfl)⟩) S64x128.size (k0_off34_inb L ⟨9, (of_decide_eq_true rfl)⟩ (of_decide_eq_true rfl))) (fun _ => rfl))).view.set]{fullShare} (m (outLoc d)) : sProp 𝕄) = (outLoc d ↦[outK L ⟨68, (of_decide_eq_true rfl)⟩]{fullShare} m (outLoc d)) := rfl
  ihave Hp68' := (Entails.of_eq e_Hp68.symm) $$ Hp68
  have e_Hp69 : ((((outM).slice (Rect.unit (s := S204800x128) (k0_off38 L 2496#32) S64x128.size (k0_off38_inb L 3)) (fun _ => rfl))).view.loc (thrV d L) ↦[(((outM).slice (Rect.unit (s := S204800x128) (k0_off38 L 2496#32) S64x128.size (k0_off38_inb L 3)) (fun _ => rfl))).view.set]{fullShare} (m (outLoc d)) : sProp 𝕄) = (outLoc d ↦[outK L ⟨69, (of_decide_eq_true rfl)⟩]{fullShare} m (outLoc d)) := rfl
  ihave Hp69' := (Entails.of_eq e_Hp69.symm) $$ Hp69
  -- the staging slots, the row slots and the half-row slots
  ihave Hx := (Entails.of_eq (sh_split_list (F := F) d L gsh)) $$ Hsh
  icases Hx with ⟨Hsl0, Hsl1, Hsl2, Hsl3⟩
  have e_Hsl0 : (((((shM).slice (Rect.unit (s := S16x4x64x128) (k0_off13 L) S1x1x64x128.size (k0_off13_inb L)) (fun _ => rfl)).squeeze S64x128 squeezes_S1x1x64x128_S64x128)).view.loc (thrV d L) ↦[((((shM).slice (Rect.unit (s := S16x4x64x128) (k0_off13 L) S1x1x64x128.size (k0_off13_inb L)) (fun _ => rfl)).squeeze S64x128 squeezes_S1x1x64x128_S64x128)).view.set]{fullShare} gsh : sProp 𝕄) = (shLoc d (cV L) ↦[shK L 0]{fullShare} gsh) := rfl
  ihave Hsl0' := (Entails.of_eq e_Hsl0.symm) $$ Hsl0
  have e_Hsl1 : (((((shM).slice (Rect.unit (s := S16x4x64x128) (k0_off20 L) S1x1x64x128.size (k0_off20_inb L)) (fun _ => rfl)).squeeze S64x128 squeezes_S1x1x64x128_S64x128)).view.loc (thrV d L) ↦[((((shM).slice (Rect.unit (s := S16x4x64x128) (k0_off20 L) S1x1x64x128.size (k0_off20_inb L)) (fun _ => rfl)).squeeze S64x128 squeezes_S1x1x64x128_S64x128)).view.set]{fullShare} gsh : sProp 𝕄) = (shLoc d (cV L) ↦[shK L 1]{fullShare} gsh) := rfl
  ihave Hsl1' := (Entails.of_eq e_Hsl1.symm) $$ Hsl1
  have e_Hsl2 : (((((shM).slice (Rect.unit (s := S16x4x64x128) (k0_off26 L) S1x1x64x128.size (k0_off26_inb L)) (fun _ => rfl)).squeeze S64x128 squeezes_S1x1x64x128_S64x128)).view.loc (thrV d L) ↦[((((shM).slice (Rect.unit (s := S16x4x64x128) (k0_off26 L) S1x1x64x128.size (k0_off26_inb L)) (fun _ => rfl)).squeeze S64x128 squeezes_S1x1x64x128_S64x128)).view.set]{fullShare} gsh : sProp 𝕄) = (shLoc d (cV L) ↦[shK L 2]{fullShare} gsh) := rfl
  ihave Hsl2' := (Entails.of_eq e_Hsl2.symm) $$ Hsl2
  have e_Hsl3 : (((((shM).slice (Rect.unit (s := S16x4x64x128) (k0_off32 L) S1x1x64x128.size (k0_off32_inb L)) (fun _ => rfl)).squeeze S64x128 squeezes_S1x1x64x128_S64x128)).view.loc (thrV d L) ↦[((((shM).slice (Rect.unit (s := S16x4x64x128) (k0_off32 L) S1x1x64x128.size (k0_off32_inb L)) (fun _ => rfl)).squeeze S64x128 squeezes_S1x1x64x128_S64x128)).view.set]{fullShare} gsh : sProp 𝕄) = (shLoc d (cV L) ↦[shK L 3]{fullShare} gsh) := rfl
  ihave Hsl3' := (Entails.of_eq e_Hsl3.symm) $$ Hsl3
  ihave Hx := (Entails.of_eq (tr_split_list (F := F) d L ft)) $$ Htr
  icases Hx with ⟨Htr0, Htr1, Htr2⟩
  have e_Htr0 : (((((trM).slice (Rect.unit (s := S3x128x128) ![0, 0, 0] S1x128x128.size inb_S3x128x128_S1x128x128_0_0_0) (fun _ => rfl)).squeeze S128x128 squeezes_S1x128x128_S128x128)).view.loc (thrV d L) ↦[((((trM).slice (Rect.unit (s := S3x128x128) ![0, 0, 0] S1x128x128.size inb_S3x128x128_S1x128x128_0_0_0) (fun _ => rfl)).squeeze S128x128 squeezes_S1x128x128_S128x128)).view.set]{fullShare} ft : sProp 𝕄) = ((thrV d L).loc cc0_scratch1 ↦[trK 0]{fullShare} ft) := rfl
  ihave Htr0' := (Entails.of_eq e_Htr0.symm) $$ Htr0
  have e_Htr1 : (((((trM).slice (Rect.unit (s := S3x128x128) ![1, 0, 0] S1x128x128.size inb_S3x128x128_S1x128x128_1_0_0) (fun _ => rfl)).squeeze S128x128 squeezes_S1x128x128_S128x128)).view.loc (thrV d L) ↦[((((trM).slice (Rect.unit (s := S3x128x128) ![1, 0, 0] S1x128x128.size inb_S3x128x128_S1x128x128_1_0_0) (fun _ => rfl)).squeeze S128x128 squeezes_S1x128x128_S128x128)).view.set]{fullShare} ft : sProp 𝕄) = ((thrV d L).loc cc0_scratch1 ↦[trK 1]{fullShare} ft) := rfl
  ihave Htr1' := (Entails.of_eq e_Htr1.symm) $$ Htr1
  have e_Htr2 : (((((trM).slice (Rect.unit (s := S3x128x128) ![2, 0, 0] S1x128x128.size inb_S3x128x128_S1x128x128_2_0_0) (fun _ => rfl)).squeeze S128x128 squeezes_S1x128x128_S128x128)).view.loc (thrV d L) ↦[((((trM).slice (Rect.unit (s := S3x128x128) ![2, 0, 0] S1x128x128.size inb_S3x128x128_S1x128x128_2_0_0) (fun _ => rfl)).squeeze S128x128 squeezes_S1x128x128_S128x128)).view.set]{fullShare} ft : sProp 𝕄) = ((thrV d L).loc cc0_scratch1 ↦[trK 2]{fullShare} ft) := rfl
  ihave Htr2' := (Entails.of_eq e_Htr2.symm) $$ Htr2
  ihave Hx := (Entails.of_eq (sr_split_list (F := F) d L fs)) $$ Hsr
  icases Hx with ⟨Hsr0, Hsr1, Hsr2, Hsr3⟩
  have e_Hsr0 : (((((srM).slice (Rect.unit (s := S4x64x128) ![0, 0, 0] S1x64x128.size inb_S4x64x128_S1x64x128_0_0_0) (fun _ => rfl)).squeeze S64x128 squeezes_S1x64x128_S64x128)).view.loc (thrV d L) ↦[((((srM).slice (Rect.unit (s := S4x64x128) ![0, 0, 0] S1x64x128.size inb_S4x64x128_S1x64x128_0_0_0) (fun _ => rfl)).squeeze S64x128 squeezes_S1x64x128_S64x128)).view.set]{fullShare} fs : sProp 𝕄) = ((thrV d L).loc cc0_scratch2 ↦[srK 0]{fullShare} fs) := rfl
  ihave Hsr0' := (Entails.of_eq e_Hsr0.symm) $$ Hsr0
  have e_Hsr1 : (((((srM).slice (Rect.unit (s := S4x64x128) ![1, 0, 0] S1x64x128.size inb_S4x64x128_S1x64x128_1_0_0) (fun _ => rfl)).squeeze S64x128 squeezes_S1x64x128_S64x128)).view.loc (thrV d L) ↦[((((srM).slice (Rect.unit (s := S4x64x128) ![1, 0, 0] S1x64x128.size inb_S4x64x128_S1x64x128_1_0_0) (fun _ => rfl)).squeeze S64x128 squeezes_S1x64x128_S64x128)).view.set]{fullShare} fs : sProp 𝕄) = ((thrV d L).loc cc0_scratch2 ↦[srK 1]{fullShare} fs) := rfl
  ihave Hsr1' := (Entails.of_eq e_Hsr1.symm) $$ Hsr1
  have e_Hsr2 : (((((srM).slice (Rect.unit (s := S4x64x128) ![2, 0, 0] S1x64x128.size inb_S4x64x128_S1x64x128_2_0_0) (fun _ => rfl)).squeeze S64x128 squeezes_S1x64x128_S64x128)).view.loc (thrV d L) ↦[((((srM).slice (Rect.unit (s := S4x64x128) ![2, 0, 0] S1x64x128.size inb_S4x64x128_S1x64x128_2_0_0) (fun _ => rfl)).squeeze S64x128 squeezes_S1x64x128_S64x128)).view.set]{fullShare} fs : sProp 𝕄) = ((thrV d L).loc cc0_scratch2 ↦[srK 2]{fullShare} fs) := rfl
  ihave Hsr2' := (Entails.of_eq e_Hsr2.symm) $$ Hsr2
  have e_Hsr3 : (((((srM).slice (Rect.unit (s := S4x64x128) ![3, 0, 0] S1x64x128.size inb_S4x64x128_S1x64x128_3_0_0) (fun _ => rfl)).squeeze S64x128 squeezes_S1x64x128_S64x128)).view.loc (thrV d L) ↦[((((srM).slice (Rect.unit (s := S4x64x128) ![3, 0, 0] S1x64x128.size inb_S4x64x128_S1x64x128_3_0_0) (fun _ => rfl)).squeeze S64x128 squeezes_S1x64x128_S64x128)).view.set]{fullShare} fs : sProp 𝕄) = ((thrV d L).loc cc0_scratch2 ↦[srK 3]{fullShare} fs) := rfl
  ihave Hsr3' := (Entails.of_eq e_Hsr3.symm) $$ Hsr3
  -- the table, one read token per gather semaphore
  ihave Hx := (toks10_split (F := F) (ℓ := (tabM).view.loc (thrV d L)) (rshare (wid (cL L) (jL L))) (m (tabLoc d))) $$ Htab'
  icases Hx with ⟨Htab', Htb0, Htb1, Htb2, Htb3, Htb4, Htb5, Htb6, Htb7, Htb8, Htb9⟩
  -- the tile's block of regrouped tokens lands in its index scratch
  sl_exec
  ihave Hx := (toks10_split (F := F) (ℓ := (ivM).view.loc (thrV d L)) fullShare _) $$ Hiv'
  icases Hx with ⟨Hiv', Hiq0, Hiq1, Hiq2, Hiq3, Hiq4, Hiq5, Hiq6, Hiq7, Hiq8, Hiq9⟩
  -- every list of offsets the gathers read names rows of the table
  have hlist : ∀ (si : Shape) (r : Rect S50x128) (hr : ∀ a, r.stride a = 1) (sq : r.shape.Squeezes si)
      (g : Buf (Elt F) ((thrV d L).loc cc0_scratch0)) (x : si.Idx),
      ((((ivM).slice r hr).squeeze si sq).view.read (Elt F) ((Memref.whole cc0_scratch0 : Memref sig .scVector .vmem S50x128 .i32).view.write (Elt F) g
        (ReadAs.same.apply (View.read (Elt F) (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view (idx3 m d))) Finset.univ) x).toNat < 1000000 := list_inRange m d L hin
  -- the gathers, the copies and their waits, the ten trips in sequence
  sl_exec
  -- every piece of the block holds the rows gathered for it
  ihave Hq0 : (outLoc d ↦[outK L ⟨0, (of_decide_eq_true rfl)⟩]{fullShare} flatRes m d) $$ [Hp0']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 0 _ _ _ _ _ _ _ _ rfl rfl _ _ _ x
  ihave Hq1 : (outLoc d ↦[outK L ⟨1, (of_decide_eq_true rfl)⟩]{fullShare} flatRes m d) $$ [Hp1']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 1 _ _ _ _ _ _ _ _ rfl rfl _ _ _ x
  ihave Hq2 : (outLoc d ↦[outK L ⟨2, (of_decide_eq_true rfl)⟩]{fullShare} flatRes m d) $$ [Hp2']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 2 _ _ _ _ _ _ _ _ rfl rfl _ _ _ x
  ihave Hq3 : (outLoc d ↦[outK L ⟨3, (of_decide_eq_true rfl)⟩]{fullShare} flatRes m d) $$ [Hp3']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 0 _ _ _ _ _ _ _ _ rfl rfl _ _ _ x
  ihave Hq4 : (outLoc d ↦[outK L ⟨4, (of_decide_eq_true rfl)⟩]{fullShare} flatRes m d) $$ [Hp4']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 1 _ _ _ _ _ _ _ _ rfl rfl _ _ _ x
  ihave Hq5 : (outLoc d ↦[outK L ⟨5, (of_decide_eq_true rfl)⟩]{fullShare} flatRes m d) $$ [Hp5']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 2 _ _ _ _ _ _ _ _ rfl rfl _ _ _ x
  ihave Hq6 : (outLoc d ↦[outK L ⟨6, (of_decide_eq_true rfl)⟩]{fullShare} flatRes m d) $$ [Hp6']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 0 _ _ _ _ _ _ _ _ rfl rfl _ _ _ x
  ihave Hq7 : (outLoc d ↦[outK L ⟨7, (of_decide_eq_true rfl)⟩]{fullShare} flatRes m d) $$ [Hp7']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 1 _ _ _ _ _ _ _ _ rfl rfl _ _ _ x
  ihave Hq8 : (outLoc d ↦[outK L ⟨8, (of_decide_eq_true rfl)⟩]{fullShare} flatRes m d) $$ [Hp8']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 2 _ _ _ _ _ _ _ _ rfl rfl _ _ _ x
  ihave Hq9 : (outLoc d ↦[outK L ⟨9, (of_decide_eq_true rfl)⟩]{fullShare} flatRes m d) $$ [Hp9']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 0 _ _ _ _ _ _ _ _ rfl rfl _ _ _ x
  ihave Hq10 : (outLoc d ↦[outK L ⟨10, (of_decide_eq_true rfl)⟩]{fullShare} flatRes m d) $$ [Hp10']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 1 _ _ _ _ _ _ _ _ rfl rfl _ _ _ x
  ihave Hq11 : (outLoc d ↦[outK L ⟨11, (of_decide_eq_true rfl)⟩]{fullShare} flatRes m d) $$ [Hp11']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 2 _ _ _ _ _ _ _ _ rfl rfl _ _ _ x
  ihave Hq12 : (outLoc d ↦[outK L ⟨12, (of_decide_eq_true rfl)⟩]{fullShare} flatRes m d) $$ [Hp12']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 0 _ _ _ _ _ _ _ _ rfl rfl _ _ _ x
  ihave Hq13 : (outLoc d ↦[outK L ⟨13, (of_decide_eq_true rfl)⟩]{fullShare} flatRes m d) $$ [Hp13']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 1 _ _ _ _ _ _ _ _ rfl rfl _ _ _ x
  ihave Hq14 : (outLoc d ↦[outK L ⟨14, (of_decide_eq_true rfl)⟩]{fullShare} flatRes m d) $$ [Hp14']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 2 _ _ _ _ _ _ _ _ rfl rfl _ _ _ x
  ihave Hq15 : (outLoc d ↦[outK L ⟨15, (of_decide_eq_true rfl)⟩]{fullShare} flatRes m d) $$ [Hp15']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 0 _ _ _ _ _ _ _ _ rfl rfl _ _ _ x
  ihave Hq16 : (outLoc d ↦[outK L ⟨16, (of_decide_eq_true rfl)⟩]{fullShare} flatRes m d) $$ [Hp16']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 1 _ _ _ _ _ _ _ _ rfl rfl _ _ _ x
  ihave Hq17 : (outLoc d ↦[outK L ⟨17, (of_decide_eq_true rfl)⟩]{fullShare} flatRes m d) $$ [Hp17']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 2 _ _ _ _ _ _ _ _ rfl rfl _ _ _ x
  ihave Hq18 : (outLoc d ↦[outK L ⟨18, (of_decide_eq_true rfl)⟩]{fullShare} flatRes m d) $$ [Hp18']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 0 _ _ _ _ _ _ _ _ rfl rfl _ _ _ x
  ihave Hq19 : (outLoc d ↦[outK L ⟨19, (of_decide_eq_true rfl)⟩]{fullShare} flatRes m d) $$ [Hp19']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 1 _ _ _ _ _ _ _ _ rfl rfl _ _ _ x
  ihave Hq20 : (outLoc d ↦[outK L ⟨20, (of_decide_eq_true rfl)⟩]{fullShare} flatRes m d) $$ [Hp20']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 2 _ _ _ _ _ _ _ _ rfl rfl _ _ _ x
  ihave Hq21 : (outLoc d ↦[outK L ⟨21, (of_decide_eq_true rfl)⟩]{fullShare} flatRes m d) $$ [Hp21']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 0 _ _ _ _ _ _ _ _ rfl rfl _ _ _ x
  ihave Hq22 : (outLoc d ↦[outK L ⟨22, (of_decide_eq_true rfl)⟩]{fullShare} flatRes m d) $$ [Hp22']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 1 _ _ _ _ _ _ _ _ rfl rfl _ _ _ x
  ihave Hq23 : (outLoc d ↦[outK L ⟨23, (of_decide_eq_true rfl)⟩]{fullShare} flatRes m d) $$ [Hp23']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 2 _ _ _ _ _ _ _ _ rfl rfl _ _ _ x
  ihave Hq24 : (outLoc d ↦[outK L ⟨24, (of_decide_eq_true rfl)⟩]{fullShare} flatRes m d) $$ [Hp24']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 0 _ _ _ _ _ _ _ _ rfl rfl _ _ _ x
  ihave Hq25 : (outLoc d ↦[outK L ⟨25, (of_decide_eq_true rfl)⟩]{fullShare} flatRes m d) $$ [Hp25']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 1 _ _ _ _ _ _ _ _ rfl rfl _ _ _ x
  ihave Hq26 : (outLoc d ↦[outK L ⟨26, (of_decide_eq_true rfl)⟩]{fullShare} flatRes m d) $$ [Hp26']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 2 _ _ _ _ _ _ _ _ rfl rfl _ _ _ x
  ihave Hq27 : (outLoc d ↦[outK L ⟨27, (of_decide_eq_true rfl)⟩]{fullShare} flatRes m d) $$ [Hp27']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 0 _ _ _ _ _ _ _ _ rfl rfl _ _ _ x
  ihave Hq28 : (outLoc d ↦[outK L ⟨28, (of_decide_eq_true rfl)⟩]{fullShare} flatRes m d) $$ [Hp28']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 1 _ _ _ _ _ _ _ _ rfl rfl _ _ _ x
  ihave Hq29 : (outLoc d ↦[outK L ⟨29, (of_decide_eq_true rfl)⟩]{fullShare} flatRes m d) $$ [Hp29']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 2 _ _ _ _ _ _ _ _ rfl rfl _ _ _ x
  ihave Hq30 : (outLoc d ↦[outK L ⟨30, (of_decide_eq_true rfl)⟩]{fullShare} flatRes m d) $$ [Hp30']
  · istop
    refine sep_elim_right.trans (Entails.of_eq (pointsTo_congr (fun y hy => ?_)))
    obtain ⟨x, rfl⟩ := exists_of_mem_outPiece64 _ _ y hy
    sl_unfold_run_names
    exact out_val_off22 m d L ⟨0, (of_decide_eq_true rfl)⟩ _ _ _ _ _ _ _ ((k0_off21_eq L).trans (k0_off13_eq L).symm) _ _ _ _ _ _ _ rfl rfl _ _ _ x
  ihave Hq31 : (outLoc d ↦[outK L ⟨31, (of_decide_eq_true rfl)⟩]{fullShare} flatRes m d) $$ [Hp31']
  · istop
    refine sep_elim_right.trans (Entails.of_eq (pointsTo_congr (fun y hy => ?_)))
    obtain ⟨x, rfl⟩ := exists_of_mem_outPiece64 _ _ y hy
    sl_unfold_run_names
    exact out_val_off28 m d L ⟨0, (of_decide_eq_true rfl)⟩ _ _ _ _ _ _ _ ((k0_off27_eq L).trans (k0_off20_eq L).symm) _ _ _ _ _ _ _ rfl rfl _ _ _ x
  ihave Hq32 : (outLoc d ↦[outK L ⟨32, (of_decide_eq_true rfl)⟩]{fullShare} flatRes m d) $$ [Hp32']
  · istop
    refine sep_elim_right.trans (Entails.of_eq (pointsTo_congr (fun y hy => ?_)))
    obtain ⟨x, rfl⟩ := exists_of_mem_outPiece64 _ _ y hy
    sl_unfold_run_names
    exact out_val_off34 m d L ⟨0, (of_decide_eq_true rfl)⟩ _ _ _ _ _ _ _ ((k0_off33_eq L).trans (k0_off26_eq L).symm) _ _ _ _ _ _ _ rfl rfl _ _ _ x
  ihave Hq33 : (outLoc d ↦[outK L ⟨33, (of_decide_eq_true rfl)⟩]{fullShare} flatRes m d) $$ [Hp33']
  · istop
    refine sep_elim_right.trans (Entails.of_eq (pointsTo_congr (fun y hy => ?_)))
    obtain ⟨x, rfl⟩ := exists_of_mem_outPiece64 _ _ y hy
    sl_unfold_run_names
    exact out_val_off15 m d L ⟨1, (of_decide_eq_true rfl)⟩ (of_decide_eq_true rfl) _ _ _ _ _ _ _ ((k0_off14_eq L).trans (k0_off32_eq L).symm) _ _ _ _ _ _ _ rfl rfl _ _ _ x
  ihave Hq34 : (outLoc d ↦[outK L ⟨34, (of_decide_eq_true rfl)⟩]{fullShare} flatRes m d) $$ [Hp34']
  · istop
    refine sep_elim_right.trans (Entails.of_eq (pointsTo_congr (fun y hy => ?_)))
    obtain ⟨x, rfl⟩ := exists_of_mem_outPiece64 _ _ y hy
    sl_unfold_run_names
    exact out_val_off22 m d L ⟨1, (of_decide_eq_true rfl)⟩ _ _ _ _ _ _ _ ((k0_off21_eq L).trans (k0_off13_eq L).symm) _ _ _ _ _ _ _ rfl rfl _ _ _ x
  ihave Hq35 : (outLoc d ↦[outK L ⟨35, (of_decide_eq_true rfl)⟩]{fullShare} flatRes m d) $$ [Hp35']
  · istop
    refine sep_elim_right.trans (Entails.of_eq (pointsTo_congr (fun y hy => ?_)))
    obtain ⟨x, rfl⟩ := exists_of_mem_outPiece64 _ _ y hy
    sl_unfold_run_names
    exact out_val_off28 m d L ⟨1, (of_decide_eq_true rfl)⟩ _ _ _ _ _ _ _ ((k0_off27_eq L).trans (k0_off20_eq L).symm) _ _ _ _ _ _ _ rfl rfl _ _ _ x
  ihave Hq36 : (outLoc d ↦[outK L ⟨36, (of_decide_eq_true rfl)⟩]{fullShare} flatRes m d) $$ [Hp36']
  · istop
    refine sep_elim_right.trans (Entails.of_eq (pointsTo_congr (fun y hy => ?_)))
    obtain ⟨x, rfl⟩ := exists_of_mem_outPiece64 _ _ y hy
    sl_unfold_run_names
    exact out_val_off34 m d L ⟨1, (of_decide_eq_true rfl)⟩ _ _ _ _ _ _ _ ((k0_off33_eq L).trans (k0_off26_eq L).symm) _ _ _ _ _ _ _ rfl rfl _ _ _ x
  ihave Hq37 : (outLoc d ↦[outK L ⟨37, (of_decide_eq_true rfl)⟩]{fullShare} flatRes m d) $$ [Hp37']
  · istop
    refine sep_elim_right.trans (Entails.of_eq (pointsTo_congr (fun y hy => ?_)))
    obtain ⟨x, rfl⟩ := exists_of_mem_outPiece64 _ _ y hy
    sl_unfold_run_names
    exact out_val_off15 m d L ⟨2, (of_decide_eq_true rfl)⟩ (of_decide_eq_true rfl) _ _ _ _ _ _ _ ((k0_off14_eq L).trans (k0_off32_eq L).symm) _ _ _ _ _ _ _ rfl rfl _ _ _ x
  ihave Hq38 : (outLoc d ↦[outK L ⟨38, (of_decide_eq_true rfl)⟩]{fullShare} flatRes m d) $$ [Hp38']
  · istop
    refine sep_elim_right.trans (Entails.of_eq (pointsTo_congr (fun y hy => ?_)))
    obtain ⟨x, rfl⟩ := exists_of_mem_outPiece64 _ _ y hy
    sl_unfold_run_names
    exact out_val_off22 m d L ⟨2, (of_decide_eq_true rfl)⟩ _ _ _ _ _ _ _ ((k0_off21_eq L).trans (k0_off13_eq L).symm) _ _ _ _ _ _ _ rfl rfl _ _ _ x
  ihave Hq39 : (outLoc d ↦[outK L ⟨39, (of_decide_eq_true rfl)⟩]{fullShare} flatRes m d) $$ [Hp39']
  · istop
    refine sep_elim_right.trans (Entails.of_eq (pointsTo_congr (fun y hy => ?_)))
    obtain ⟨x, rfl⟩ := exists_of_mem_outPiece64 _ _ y hy
    sl_unfold_run_names
    exact out_val_off28 m d L ⟨2, (of_decide_eq_true rfl)⟩ _ _ _ _ _ _ _ ((k0_off27_eq L).trans (k0_off20_eq L).symm) _ _ _ _ _ _ _ rfl rfl _ _ _ x
  ihave Hq40 : (outLoc d ↦[outK L ⟨40, (of_decide_eq_true rfl)⟩]{fullShare} flatRes m d) $$ [Hp40']
  · istop
    refine sep_elim_right.trans (Entails.of_eq (pointsTo_congr (fun y hy => ?_)))
    obtain ⟨x, rfl⟩ := exists_of_mem_outPiece64 _ _ y hy
    sl_unfold_run_names
    exact out_val_off34 m d L ⟨2, (of_decide_eq_true rfl)⟩ _ _ _ _ _ _ _ ((k0_off33_eq L).trans (k0_off26_eq L).symm) _ _ _ _ _ _ _ rfl rfl _ _ _ x
  ihave Hq41 : (outLoc d ↦[outK L ⟨41, (of_decide_eq_true rfl)⟩]{fullShare} flatRes m d) $$ [Hp41']
  · istop
    refine sep_elim_right.trans (Entails.of_eq (pointsTo_congr (fun y hy => ?_)))
    obtain ⟨x, rfl⟩ := exists_of_mem_outPiece64 _ _ y hy
    sl_unfold_run_names
    exact out_val_off15 m d L ⟨3, (of_decide_eq_true rfl)⟩ (of_decide_eq_true rfl) _ _ _ _ _ _ _ ((k0_off14_eq L).trans (k0_off32_eq L).symm) _ _ _ _ _ _ _ rfl rfl _ _ _ x
  ihave Hq42 : (outLoc d ↦[outK L ⟨42, (of_decide_eq_true rfl)⟩]{fullShare} flatRes m d) $$ [Hp42']
  · istop
    refine sep_elim_right.trans (Entails.of_eq (pointsTo_congr (fun y hy => ?_)))
    obtain ⟨x, rfl⟩ := exists_of_mem_outPiece64 _ _ y hy
    sl_unfold_run_names
    exact out_val_off22 m d L ⟨3, (of_decide_eq_true rfl)⟩ _ _ _ _ _ _ _ ((k0_off21_eq L).trans (k0_off13_eq L).symm) _ _ _ _ _ _ _ rfl rfl _ _ _ x
  ihave Hq43 : (outLoc d ↦[outK L ⟨43, (of_decide_eq_true rfl)⟩]{fullShare} flatRes m d) $$ [Hp43']
  · istop
    refine sep_elim_right.trans (Entails.of_eq (pointsTo_congr (fun y hy => ?_)))
    obtain ⟨x, rfl⟩ := exists_of_mem_outPiece64 _ _ y hy
    sl_unfold_run_names
    exact out_val_off28 m d L ⟨3, (of_decide_eq_true rfl)⟩ _ _ _ _ _ _ _ ((k0_off27_eq L).trans (k0_off20_eq L).symm) _ _ _ _ _ _ _ rfl rfl _ _ _ x
  ihave Hq44 : (outLoc d ↦[outK L ⟨44, (of_decide_eq_true rfl)⟩]{fullShare} flatRes m d) $$ [Hp44']
  · istop
    refine sep_elim_right.trans (Entails.of_eq (pointsTo_congr (fun y hy => ?_)))
    obtain ⟨x, rfl⟩ := exists_of_mem_outPiece64 _ _ y hy
    sl_unfold_run_names
    exact out_val_off34 m d L ⟨3, (of_decide_eq_true rfl)⟩ _ _ _ _ _ _ _ ((k0_off33_eq L).trans (k0_off26_eq L).symm) _ _ _ _ _ _ _ rfl rfl _ _ _ x
  ihave Hq45 : (outLoc d ↦[outK L ⟨45, (of_decide_eq_true rfl)⟩]{fullShare} flatRes m d) $$ [Hp45']
  · istop
    refine sep_elim_right.trans (Entails.of_eq (pointsTo_congr (fun y hy => ?_)))
    obtain ⟨x, rfl⟩ := exists_of_mem_outPiece64 _ _ y hy
    sl_unfold_run_names
    exact out_val_off15 m d L ⟨4, (of_decide_eq_true rfl)⟩ (of_decide_eq_true rfl) _ _ _ _ _ _ _ ((k0_off14_eq L).trans (k0_off32_eq L).symm) _ _ _ _ _ _ _ rfl rfl _ _ _ x
  ihave Hq46 : (outLoc d ↦[outK L ⟨46, (of_decide_eq_true rfl)⟩]{fullShare} flatRes m d) $$ [Hp46']
  · istop
    refine sep_elim_right.trans (Entails.of_eq (pointsTo_congr (fun y hy => ?_)))
    obtain ⟨x, rfl⟩ := exists_of_mem_outPiece64 _ _ y hy
    sl_unfold_run_names
    exact out_val_off22 m d L ⟨4, (of_decide_eq_true rfl)⟩ _ _ _ _ _ _ _ ((k0_off21_eq L).trans (k0_off13_eq L).symm) _ _ _ _ _ _ _ rfl rfl _ _ _ x
  ihave Hq47 : (outLoc d ↦[outK L ⟨47, (of_decide_eq_true rfl)⟩]{fullShare} flatRes m d) $$ [Hp47']
  · istop
    refine sep_elim_right.trans (Entails.of_eq (pointsTo_congr (fun y hy => ?_)))
    obtain ⟨x, rfl⟩ := exists_of_mem_outPiece64 _ _ y hy
    sl_unfold_run_names
    exact out_val_off28 m d L ⟨4, (of_decide_eq_true rfl)⟩ _ _ _ _ _ _ _ ((k0_off27_eq L).trans (k0_off20_eq L).symm) _ _ _ _ _ _ _ rfl rfl _ _ _ x
  ihave Hq48 : (outLoc d ↦[outK L ⟨48, (of_decide_eq_true rfl)⟩]{fullShare} flatRes m d) $$ [Hp48']
  · istop
    refine sep_elim_right.trans (Entails.of_eq (pointsTo_congr (fun y hy => ?_)))
    obtain ⟨x, rfl⟩ := exists_of_mem_outPiece64 _ _ y hy
    sl_unfold_run_names
    exact out_val_off34 m d L ⟨4, (of_decide_eq_true rfl)⟩ _ _ _ _ _ _ _ ((k0_off33_eq L).trans (k0_off26_eq L).symm) _ _ _ _ _ _ _ rfl rfl _ _ _ x
  ihave Hq49 : (outLoc d ↦[outK L ⟨49, (of_decide_eq_true rfl)⟩]{fullShare} flatRes m d) $$ [Hp49']
  · istop
    refine sep_elim_right.trans (Entails.of_eq (pointsTo_congr (fun y hy => ?_)))
    obtain ⟨x, rfl⟩ := exists_of_mem_outPiece64 _ _ y hy
    sl_unfold_run_names
    exact out_val_off15 m d L ⟨5, (of_decide_eq_true rfl)⟩ (of_decide_eq_true rfl) _ _ _ _ _ _ _ ((k0_off14_eq L).trans (k0_off32_eq L).symm) _ _ _ _ _ _ _ rfl rfl _ _ _ x
  ihave Hq50 : (outLoc d ↦[outK L ⟨50, (of_decide_eq_true rfl)⟩]{fullShare} flatRes m d) $$ [Hp50']
  · istop
    refine sep_elim_right.trans (Entails.of_eq (pointsTo_congr (fun y hy => ?_)))
    obtain ⟨x, rfl⟩ := exists_of_mem_outPiece64 _ _ y hy
    sl_unfold_run_names
    exact out_val_off22 m d L ⟨5, (of_decide_eq_true rfl)⟩ _ _ _ _ _ _ _ ((k0_off21_eq L).trans (k0_off13_eq L).symm) _ _ _ _ _ _ _ rfl rfl _ _ _ x
  ihave Hq51 : (outLoc d ↦[outK L ⟨51, (of_decide_eq_true rfl)⟩]{fullShare} flatRes m d) $$ [Hp51']
  · istop
    refine sep_elim_right.trans (Entails.of_eq (pointsTo_congr (fun y hy => ?_)))
    obtain ⟨x, rfl⟩ := exists_of_mem_outPiece64 _ _ y hy
    sl_unfold_run_names
    exact out_val_off28 m d L ⟨5, (of_decide_eq_true rfl)⟩ _ _ _ _ _ _ _ ((k0_off27_eq L).trans (k0_off20_eq L).symm) _ _ _ _ _ _ _ rfl rfl _ _ _ x
  ihave Hq52 : (outLoc d ↦[outK L ⟨52, (of_decide_eq_true rfl)⟩]{fullShare} flatRes m d) $$ [Hp52']
  · istop
    refine sep_elim_right.trans (Entails.of_eq (pointsTo_congr (fun y hy => ?_)))
    obtain ⟨x, rfl⟩ := exists_of_mem_outPiece64 _ _ y hy
    sl_unfold_run_names
    exact out_val_off34 m d L ⟨5, (of_decide_eq_true rfl)⟩ _ _ _ _ _ _ _ ((k0_off33_eq L).trans (k0_off26_eq L).symm) _ _ _ _ _ _ _ rfl rfl _ _ _ x
  ihave Hq53 : (outLoc d ↦[outK L ⟨53, (of_decide_eq_true rfl)⟩]{fullShare} flatRes m d) $$ [Hp53']
  · istop
    refine sep_elim_right.trans (Entails.of_eq (pointsTo_congr (fun y hy => ?_)))
    obtain ⟨x, rfl⟩ := exists_of_mem_outPiece64 _ _ y hy
    sl_unfold_run_names
    exact out_val_off15 m d L ⟨6, (of_decide_eq_true rfl)⟩ (of_decide_eq_true rfl) _ _ _ _ _ _ _ ((k0_off14_eq L).trans (k0_off32_eq L).symm) _ _ _ _ _ _ _ rfl rfl _ _ _ x
  ihave Hq54 : (outLoc d ↦[outK L ⟨54, (of_decide_eq_true rfl)⟩]{fullShare} flatRes m d) $$ [Hp54']
  · istop
    refine sep_elim_right.trans (Entails.of_eq (pointsTo_congr (fun y hy => ?_)))
    obtain ⟨x, rfl⟩ := exists_of_mem_outPiece64 _ _ y hy
    sl_unfold_run_names
    exact out_val_off22 m d L ⟨6, (of_decide_eq_true rfl)⟩ _ _ _ _ _ _ _ ((k0_off21_eq L).trans (k0_off13_eq L).symm) _ _ _ _ _ _ _ rfl rfl _ _ _ x
  ihave Hq55 : (outLoc d ↦[outK L ⟨55, (of_decide_eq_true rfl)⟩]{fullShare} flatRes m d) $$ [Hp55']
  · istop
    refine sep_elim_right.trans (Entails.of_eq (pointsTo_congr (fun y hy => ?_)))
    obtain ⟨x, rfl⟩ := exists_of_mem_outPiece64 _ _ y hy
    sl_unfold_run_names
    exact out_val_off28 m d L ⟨6, (of_decide_eq_true rfl)⟩ _ _ _ _ _ _ _ ((k0_off27_eq L).trans (k0_off20_eq L).symm) _ _ _ _ _ _ _ rfl rfl _ _ _ x
  ihave Hq56 : (outLoc d ↦[outK L ⟨56, (of_decide_eq_true rfl)⟩]{fullShare} flatRes m d) $$ [Hp56']
  · istop
    refine sep_elim_right.trans (Entails.of_eq (pointsTo_congr (fun y hy => ?_)))
    obtain ⟨x, rfl⟩ := exists_of_mem_outPiece64 _ _ y hy
    sl_unfold_run_names
    exact out_val_off34 m d L ⟨6, (of_decide_eq_true rfl)⟩ _ _ _ _ _ _ _ ((k0_off33_eq L).trans (k0_off26_eq L).symm) _ _ _ _ _ _ _ rfl rfl _ _ _ x
  ihave Hq57 : (outLoc d ↦[outK L ⟨57, (of_decide_eq_true rfl)⟩]{fullShare} flatRes m d) $$ [Hp57']
  · istop
    refine sep_elim_right.trans (Entails.of_eq (pointsTo_congr (fun y hy => ?_)))
    obtain ⟨x, rfl⟩ := exists_of_mem_outPiece64 _ _ y hy
    sl_unfold_run_names
    exact out_val_off15 m d L ⟨7, (of_decide_eq_true rfl)⟩ (of_decide_eq_true rfl) _ _ _ _ _ _ _ ((k0_off14_eq L).trans (k0_off32_eq L).symm) _ _ _ _ _ _ _ rfl rfl _ _ _ x
  ihave Hq58 : (outLoc d ↦[outK L ⟨58, (of_decide_eq_true rfl)⟩]{fullShare} flatRes m d) $$ [Hp58']
  · istop
    refine sep_elim_right.trans (Entails.of_eq (pointsTo_congr (fun y hy => ?_)))
    obtain ⟨x, rfl⟩ := exists_of_mem_outPiece64 _ _ y hy
    sl_unfold_run_names
    exact out_val_off22 m d L ⟨7, (of_decide_eq_true rfl)⟩ _ _ _ _ _ _ _ ((k0_off21_eq L).trans (k0_off13_eq L).symm) _ _ _ _ _ _ _ rfl rfl _ _ _ x
  ihave Hq59 : (outLoc d ↦[outK L ⟨59, (of_decide_eq_true rfl)⟩]{fullShare} flatRes m d) $$ [Hp59']
  · istop
    refine sep_elim_right.trans (Entails.of_eq (pointsTo_congr (fun y hy => ?_)))
    obtain ⟨x, rfl⟩ := exists_of_mem_outPiece64 _ _ y hy
    sl_unfold_run_names
    exact out_val_off28 m d L ⟨7, (of_decide_eq_true rfl)⟩ _ _ _ _ _ _ _ ((k0_off27_eq L).trans (k0_off20_eq L).symm) _ _ _ _ _ _ _ rfl rfl _ _ _ x
  ihave Hq60 : (outLoc d ↦[outK L ⟨60, (of_decide_eq_true rfl)⟩]{fullShare} flatRes m d) $$ [Hp60']
  · istop
    refine sep_elim_right.trans (Entails.of_eq (pointsTo_congr (fun y hy => ?_)))
    obtain ⟨x, rfl⟩ := exists_of_mem_outPiece64 _ _ y hy
    sl_unfold_run_names
    exact out_val_off34 m d L ⟨7, (of_decide_eq_true rfl)⟩ _ _ _ _ _ _ _ ((k0_off33_eq L).trans (k0_off26_eq L).symm) _ _ _ _ _ _ _ rfl rfl _ _ _ x
  ihave Hq61 : (outLoc d ↦[outK L ⟨61, (of_decide_eq_true rfl)⟩]{fullShare} flatRes m d) $$ [Hp61']
  · istop
    refine sep_elim_right.trans (Entails.of_eq (pointsTo_congr (fun y hy => ?_)))
    obtain ⟨x, rfl⟩ := exists_of_mem_outPiece64 _ _ y hy
    sl_unfold_run_names
    exact out_val_off15 m d L ⟨8, (of_decide_eq_true rfl)⟩ (of_decide_eq_true rfl) _ _ _ _ _ _ _ ((k0_off14_eq L).trans (k0_off32_eq L).symm) _ _ _ _ _ _ _ rfl rfl _ _ _ x
  ihave Hq62 : (outLoc d ↦[outK L ⟨62, (of_decide_eq_true rfl)⟩]{fullShare} flatRes m d) $$ [Hp62']
  · istop
    refine sep_elim_right.trans (Entails.of_eq (pointsTo_congr (fun y hy => ?_)))
    obtain ⟨x, rfl⟩ := exists_of_mem_outPiece64 _ _ y hy
    sl_unfold_run_names
    exact out_val_off22 m d L ⟨8, (of_decide_eq_true rfl)⟩ _ _ _ _ _ _ _ ((k0_off21_eq L).trans (k0_off13_eq L).symm) _ _ _ _ _ _ _ rfl rfl _ _ _ x
  ihave Hq63 : (outLoc d ↦[outK L ⟨63, (of_decide_eq_true rfl)⟩]{fullShare} flatRes m d) $$ [Hp63']
  · istop
    refine sep_elim_right.trans (Entails.of_eq (pointsTo_congr (fun y hy => ?_)))
    obtain ⟨x, rfl⟩ := exists_of_mem_outPiece64 _ _ y hy
    sl_unfold_run_names
    exact out_val_off28 m d L ⟨8, (of_decide_eq_true rfl)⟩ _ _ _ _ _ _ _ ((k0_off27_eq L).trans (k0_off20_eq L).symm) _ _ _ _ _ _ _ rfl rfl _ _ _ x
  ihave Hq64 : (outLoc d ↦[outK L ⟨64, (of_decide_eq_true rfl)⟩]{fullShare} flatRes m d) $$ [Hp64']
  · istop
    refine sep_elim_right.trans (Entails.of_eq (pointsTo_congr (fun y hy => ?_)))
    obtain ⟨x, rfl⟩ := exists_of_mem_outPiece64 _ _ y hy
    sl_unfold_run_names
    exact out_val_off34 m d L ⟨8, (of_decide_eq_true rfl)⟩ _ _ _ _ _ _ _ ((k0_off33_eq L).trans (k0_off26_eq L).symm) _ _ _ _ _ _ _ rfl rfl _ _ _ x
  ihave Hq65 : (outLoc d ↦[outK L ⟨65, (of_decide_eq_true rfl)⟩]{fullShare} flatRes m d) $$ [Hp65']
  · istop
    refine sep_elim_right.trans (Entails.of_eq (pointsTo_congr (fun y hy => ?_)))
    obtain ⟨x, rfl⟩ := exists_of_mem_outPiece64 _ _ y hy
    sl_unfold_run_names
    exact out_val_off15 m d L ⟨9, (of_decide_eq_true rfl)⟩ (of_decide_eq_true rfl) _ _ _ _ _ _ _ ((k0_off14_eq L).trans (k0_off32_eq L).symm) _ _ _ _ _ _ _ rfl rfl _ _ _ x
  ihave Hq66 : (outLoc d ↦[outK L ⟨66, (of_decide_eq_true rfl)⟩]{fullShare} flatRes m d) $$ [Hp66']
  · istop
    refine sep_elim_right.trans (Entails.of_eq (pointsTo_congr (fun y hy => ?_)))
    obtain ⟨x, rfl⟩ := exists_of_mem_outPiece64 _ _ y hy
    sl_unfold_run_names
    exact out_val_off22 m d L ⟨9, (of_decide_eq_true rfl)⟩ _ _ _ _ _ _ _ ((k0_off21_eq L).trans (k0_off13_eq L).symm) _ _ _ _ _ _ _ rfl rfl _ _ _ x
  ihave Hq67 : (outLoc d ↦[outK L ⟨67, (of_decide_eq_true rfl)⟩]{fullShare} flatRes m d) $$ [Hp67']
  · istop
    refine sep_elim_right.trans (Entails.of_eq (pointsTo_congr (fun y hy => ?_)))
    obtain ⟨x, rfl⟩ := exists_of_mem_outPiece64 _ _ y hy
    sl_unfold_run_names
    exact out_val_off28 m d L ⟨9, (of_decide_eq_true rfl)⟩ _ _ _ _ _ _ _ ((k0_off27_eq L).trans (k0_off20_eq L).symm) _ _ _ _ _ _ _ rfl rfl _ _ _ x
  ihave Hq68 : (outLoc d ↦[outK L ⟨68, (of_decide_eq_true rfl)⟩]{fullShare} flatRes m d) $$ [Hp68']
  · istop
    refine sep_elim_right.trans (Entails.of_eq (pointsTo_congr (fun y hy => ?_)))
    obtain ⟨x, rfl⟩ := exists_of_mem_outPiece64 _ _ y hy
    sl_unfold_run_names
    exact out_val_off34 m d L ⟨9, (of_decide_eq_true rfl)⟩ _ _ _ _ _ _ _ ((k0_off33_eq L).trans (k0_off26_eq L).symm) _ _ _ _ _ _ _ rfl rfl _ _ _ x
  ihave Hq69 : (outLoc d ↦[outK L ⟨69, (of_decide_eq_true rfl)⟩]{fullShare} flatRes m d) $$ [Hp69']
  · istop
    refine sep_elim_right.trans (Entails.of_eq (pointsTo_congr (fun y hy => ?_)))
    obtain ⟨x, rfl⟩ := exists_of_mem_outPiece64 _ _ y hy
    sl_unfold_run_names
    exact out_val_off38 m d L _ _ _ _ _ _ _ ((k0_off37_eq L).trans (k0_off32_eq L).symm) _ _ _ _ _ _ _ rfl rfl _ _ _ x
  -- the pieces, the tokens and the slots joined again
  ihave Hout2 : (outLoc d ↦[blkSet (wid (cL L) (jL L))]{fullShare} flatRes m d) $$ [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69]
  · rw [out_split_list (F := F) d L (flatRes m d)]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    iempintro
  ihave HtabJ := (toks10_join (F := F) (ℓ := (tabM).view.loc (thrV d L)) (rshare (wid (cL L) (jL L))) (m (tabLoc d))) $$ [Htab' Htb0 Htb1 Htb2 Htb3 Htb4 Htb5 Htb6 Htb7 Htb8 Htb9]
  · isplitl [Htab']; · iexact Htab'
    isplitl [Htb0]; · iexact Htb0
    isplitl [Htb1]; · iexact Htb1
    isplitl [Htb2]; · iexact Htb2
    isplitl [Htb3]; · iexact Htb3
    isplitl [Htb4]; · iexact Htb4
    isplitl [Htb5]; · iexact Htb5
    isplitl [Htb6]; · iexact Htb6
    isplitl [Htb7]; · iexact Htb7
    isplitl [Htb8]; · iexact Htb8
    iexact Htb9
  ihave HivJ := (toks10_join (F := F) (ℓ := (ivM).view.loc (thrV d L)) fullShare _) $$ [Hiv' Hiq0 Hiq1 Hiq2 Hiq3 Hiq4 Hiq5 Hiq6 Hiq7 Hiq8 Hiq9]
  · isplitl [Hiv']; · iexact Hiv'
    isplitl [Hiq0]; · iexact Hiq0
    isplitl [Hiq1]; · iexact Hiq1
    isplitl [Hiq2]; · iexact Hiq2
    isplitl [Hiq3]; · iexact Hiq3
    isplitl [Hiq4]; · iexact Hiq4
    isplitl [Hiq5]; · iexact Hiq5
    isplitl [Hiq6]; · iexact Hiq6
    isplitl [Hiq7]; · iexact Hiq7
    isplitl [Hiq8]; · iexact Hiq8
    iexact Hiq9
  ihave HtrJ := (tr_join (F := F) d L _ _ _) $$ [Htr0' Htr1' Htr2']
  · isplitl [Htr0']; · iexact Htr0'
    isplitl [Htr1']; · iexact Htr1'
    iexact Htr2'
  ihave HsrJ := (sr_join (F := F) d L _ _ _ _) $$ [Hsr0' Hsr1' Hsr2' Hsr3']
  · isplitl [Hsr0']; · iexact Hsr0'
    isplitl [Hsr1']; · iexact Hsr1'
    isplitl [Hsr2']; · iexact Hsr2'
    iexact Hsr3'
  ihave HshJ := (sh_join (F := F) d L _ _ _ _) $$ [Hsl0' Hsl1' Hsl2' Hsl3']
  · isplitl [Hsl0']; · iexact Hsl0'
    isplitl [Hsl1']; · iexact Hsl1'
    isplitl [Hsl2']; · iexact Hsl2'
    iexact Hsl3'
  sl_step
  isplitl [Htok' HtabJ Hout2 HshJ]
  · isplitl [Htok' HtabJ Hout2]
    · isplitl [Htok']; · iexact Htok'
      isplitl [HtabJ]; · iexact HtabJ
      iexact Hout2
    · iexact HshJ
  isplitl [HivJ HtrJ HsrJ]
  · isplitl [HivJ]; · iexists _; iexact HivJ
    isplitl [HtrJ]; · iexact HtrJ
    iexact HsrJ
  isplitl [Hs0 Hs1 Hs2 Hs3 Hs4 Hs5 Hs6 Hs7 Hs8 Hs9 Hs10 Hs11 Hs12 Hs13 Hs14 Hs15 Hs16 Hs17 Hs18]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    iexact Hs18
  iexists _; isplitr
  on_goal 2 => iexact HO
  ipureintro
  repeat (refine waits_ok_insert (thr := V d (cV L) (jV L)) ?_ rfl)
  exact fun p hp => Or.inl hp

end Tile

end Cert.Proof.KB

end
-- ==== Proof.KBSplit.lean ====
/-
  The tile side of the lookup kernel's launch: each tile's task as the launch theorem asks for it, how a SparseCore's
  sixteen tasks are handed their shares and hand them back, and the launch element of the ghost state.

  A SparseCore's operands are already stated per task (one read share of the regrouped tokens and of the table, and one
  block of the flat result, per tile), so the split moves only the SparseCore's shared staging memory: it is taken out of
  the sequencer's own buffers, cut into its sixteen rows, one per tile, each handed at some contents; afterwards the
  sixteen rows, each at contents of its own, join into the whole at some contents and go back.
-/
import proofs.«206231_g69020124446782_cont_9to1c4b_129_32_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Each tile's task -/

/-- The place of vector subcore `s` of SparseCore `c` in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel's function at that subcore's place. -/
theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
/-- The waits a task leaves behind, as the launch theorem counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile of the call, from the body at a symbolic place. -/
theorem tileObl (hF : (K (F := F)).Facts) (hin : ∀ d j, (idx3 m d j).toNat < 1000000) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hin d) O W hO).trans (wp_mono frame _ _ fun _ => obl_post)

/-! ## The shared staging memory: its sixteen rows split and join -/

omit [FloatOps F] in
/-- A tile's row of the shared staging memory, as a set of indices: the sixteenth part of the whole along the first axis. -/
theorem shRowSet_eq (i : Fin 16) : shRowSet i = (shRow i).set := by
  show ((View.whole (cc0_scratch3 : Ref sig .scVector)).slice (shRow i)).set = _
  rw [View.set_slice]; exact Finset.map_refl

omit [FloatOps F] in
theorem shRows_disjoint :
    ∀ i ∈ (Finset.univ : Finset (Fin 16)), ∀ j ∈ (Finset.univ : Finset (Fin 16)), i ≠ j → Disjoint (shRowSet i) (shRowSet j) :=
  fun i _ j _ h => by rw [shRowSet_eq, shRowSet_eq]; exact Rect.part_disjoint hdivSh h

omit [FloatOps F] in
theorem shRows_cover : (Finset.univ : Finset (Fin 16)).biUnion shRowSet = Finset.univ :=
  (Finset.biUnion_congr rfl fun i _ => shRowSet_eq i).trans (Rect.biUnion_part hdivSh)

omit [FloatOps F] in
/-- The whole staging memory at `f` is its sixteen rows, each at `f`. -/
theorem shPts_rows (d : Dev nD) (c : Fin τ.nSC) (f : Buf (Elt F) (shLoc d c)) :
    (shLoc d c ↦{fullShare} f : sProp 𝕄) = bigSep Finset.univ fun i : Fin 16 => shLoc d c ↦[shRowSet i]{fullShare} f := by
  rw [← pointsTo_biUnion Finset.univ (ℓ := shLoc d c) shRowSet shRows_disjoint, shRows_cover]; try rfl

omit [FloatOps F] in
/-- so each tile can be handed its row, at some contents; -/
theorem shRows_split (d : Dev nD) (c : Fin τ.nSC) (f : Buf (Elt F) (shLoc d c)) :
    (shLoc d c ↦{fullShare} f : sProp 𝕄) ⊢ bigSep Finset.univ fun i : Fin 16 => taskShared (F := F) d c i := by
  rw [shPts_rows]
  unfold taskShared
  exact SparseCore.ent (bigSep_mono (Φ := fun i : Fin 16 => (shLoc d c ↦[shRowSet i]{fullShare} f : sProp 𝕄))
    (Ψ := fun i : Fin 16 => (iprop(∃ g, shLoc d c ↦[shRowSet i]{fullShare} g) : sProp 𝕄))
    fun i _ => BI.BIClass.exists_intro (Φ := fun g => (shLoc d c ↦[shRowSet i]{fullShare} g : sProp 𝕄)) f)

/-- and the sixteen rows, each at contents of its own, are the whole at some contents. -/
theorem shRows_join (d : Dev nD) (c : Fin τ.nSC) :
    (bigSep Finset.univ fun i : Fin 16 => taskShared (F := F) d c i) ⊢ (iprop(∃ f, shLoc d c ↦{fullShare} f) : sProp 𝕄) := by
  unfold taskShared
  refine (bigSep_exists_pi Finset.univ (fun i (g : Buf (Elt F) (shLoc d c)) => (shLoc d c ↦[shRowSet i]{fullShare} g : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
/-- The staging memory is one of the sequencer's own buffers: those are it, at some contents, and the others. -/
theorem ownBufs_S (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## How a SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call's handshakes carry, spelt out. -/
theorem P_st (d : Dev nD) (c : Fin ((K (F := F)).nCore 0)) :
    (P m).st 0 d c = bigSep Finset.univ fun i : Fin 16 => taskArrays m d (wid (Fin.cast nCore_zero c) i) (m (outLoc d)) := rfl
theorem P_dn (d : Dev nD) (c : Fin ((K (F := F)).nCore 0)) :
    (P m).dn 0 d c = bigSep Finset.univ fun i : Fin 16 => taskArrays m d (wid (Fin.cast nCore_zero c) i) (flatRes m d) := rfl
theorem P_go (d : Dev nD) (c : Fin ((K (F := F)).nCore 0)) (i : Fin ((K (F := F)).nSub 0)) :
    (P m).go 0 d c i = iprop(taskArrays m d (wid (Fin.cast nCore_zero c) (Fin.cast nSub_zero i)) (m (outLoc d))
        ∗ taskShared d ((K (F := F)).core 0 c) (Fin.cast nSub_zero i)) := rfl
theorem P_td (d : Dev nD) (c : Fin ((K (F := F)).nCore 0)) (i : Fin ((K (F := F)).nSub 0)) :
    (P m).td 0 d c i = iprop(taskArrays m d (wid (Fin.cast nCore_zero c) (Fin.cast nSub_zero i)) (flatRes m d)
        ∗ taskShared d ((K (F := F)).core 0 c) (Fin.cast nSub_zero i)) := rfl

/-- The split: a SparseCore's operands are already its tasks'; the staging memory leaves the sequencer's own buffers as
    sixteen rows and comes back joined. -/
theorem vecSplit : (K (F := F)).VecSplit (P m) 0 := by
  intro d c
  simp only [P_st, P_dn, P_go, P_td]
  rw [bigSep_tasks (F := F) (fun i => iprop(taskArrays m d (wid (Fin.cast nCore_zero c) i) (m (outLoc d)) ∗ taskShared d ((K (F := F)).core 0 c) i)),
    bigSep_tasks (F := F) (fun i => iprop(taskArrays m d (wid (Fin.cast nCore_zero c) i) (flatRes m d) ∗ taskShared d ((K (F := F)).core 0 c) i)),
    bigSep_sep', bigSep_sep', ownBufs_S]
  iintro ⟨Hst, ⟨%fsh, Hsh⟩, Hrest⟩; imodintro
  isplitl [Hst Hsh]
  · isplitl [Hst]; · iexact Hst
    iapply (shRows_split d _ fsh); iexact Hsh
  iintro ⟨Htd, Hsh⟩
  isplitl [Htd]; · iexact Htd
  isplitl [Hsh]; · iapply (shRows_join d _); iexact Hsh
  iexact Hrest

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.Reshape.lean ====
/-
  The two regroupings around the flat lookup, against the lookup itself. Both are row-major regroupings, so each only
  renames positions. Entry (b, s, k) of the [1024, 200, 128] result sits at row-major position (b * 200 + s) * 128 + k,
  which in [204800, 128] is row n = b * 200 + s, column k. The regrouped token of row n, at (n / 6400, n % 6400 / 128,
  n % 128) of [32, 50, 128], sits at position (n / 6400 * 50 + n % 6400 / 128) * 128 + n % 128 = n, which in [1024, 200]
  is token (b, s). So the flat lookup over the regrouped tokens, regrouped to [1024, 200, 128], is the lookup.
-/
import proofs.«206231_g69020124446782_cont_9to1c4b_129_32_alg».proof.Proof.Spec
import Idealize.ShloMosaic.Lib.Pipeline.Value

noncomputable section

namespace Cert.Spec

open Idealize.ShloMosaic Idealize.ShloMosaic.ValueIdx

/-- Regrouping the tokens keeps every one of them a row of the table: each regrouped token is one of the tokens. -/
theorem inRange_reshape (tok : STok.Idx → BitVec 32) (h1 : STok.ShapeCasts SIdx3) (hin : InRange tok) :
    ∀ j : SIdx3.Idx, (shapeCast SIdx3 tok h1 j).toNat < 1000000 :=
  fun j => hin (Shape.reshapeEquiv h1 j)

/-- The flat lookup over the regrouped tokens, regrouped to the result's shape, is the lookup. -/
theorem lookup_eq_reshape {α : Type} (tok : STok.Idx → BitVec 32) (W : STab.Idx → α)
    (h1 : STok.ShapeCasts SIdx3) (h2 : SFlat.ShapeCasts SOut) :
    shapeCast SOut (flatLookup (shapeCast SIdx3 tok h1) W) h2 = lookup tok W := by
  funext y
  have hb : (y 0).val < 1024 := (y 0).isLt
  have hs : (y 1).val < 200 := (y 1).isLt
  have hk : (y 2).val < 128 := (y 2).isLt
  -- the flat row of (b, s)
  have hn : (y 0).val * 200 + (y 1).val < 204800 := by omega
  -- the outer regrouping: [1024, 200, 128] at (b, s, k) reads [204800, 128] at (b * 200 + s, k)
  rw [shapeCast_apply _ h2 y (ix2 (n0 := 204800) (n1 := 128) ⟨(y 0).val * 200 + (y 1).val, hn⟩ ⟨(y 2).val, hk⟩)
    (by rw [Shape.rowMajor_val_two, Shape.rowMajor_val_three]
        show ((y 0).val * 200 + (y 1).val) * 128 + (y 2).val = ((y 0).val * 200 + (y 1).val) * 128 + (y 2).val
        rfl)]
  rw [flatLookup_apply]
  -- the inner regrouping: [32, 50, 128] at the regrouped token of row n reads [1024, 200] at (b, s)
  rw [shapeCast_apply tok h1 _ (ix2 (n0 := 1024) (n1 := 200) ⟨(y 0).val, hb⟩ ⟨(y 1).val, hs⟩)
    (by rw [Shape.rowMajor_val_two, Shape.rowMajor_val_three]
        show (y 0).val * 200 + (y 1).val
          = (((y 0).val * 200 + (y 1).val) / 6400 * 50 + ((y 0).val * 200 + (y 1).val) % 6400 / 128) * 128
            + ((y 0).val * 200 + (y 1).val) % 128
        omega)]
  rfl

end Cert.Spec

end
-- ==== Proof.KBMain.lean ====
/-
  @main of the lookup kernel on the TensorCore, and what its final memory says.

  @main regroups the tokens [1024, 200] as [32, 50, 128], calls the SparseCores, and regroups the flat result
  [204800, 128] as [1024, 200, 128]. Before the call the regrouped tokens and the table are cut into one read share per
  worker (and a share the TensorCore keeps), and the flat result into the workers' 32 blocks of 6400 rows; worker
  `2 i + c` is tile `i` of SparseCore `c`, so the 32 workers are the 2 × 16 tiles, each once. After the call every
  block holds the flat lookup, the blocks join to the whole flat result and the shares to the whole arrays; the flat
  lookup over the regrouped tokens, regrouped, is the lookup.
-/
import proofs.«206231_g69020124446782_cont_9to1c4b_129_32_alg».proof.Proof.KBCommon
import proofs.«206231_g69020124446782_cont_9to1c4b_129_32_alg».proof.Proof.Reshape
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The workers are the tiles -/

/-- Worker `2 i + c` is tile `i` of SparseCore `c`: the 32 workers are the 2 × 16 tiles. -/
def widEquiv : Fin 2 × Fin 16 ≃ Fin 32 where
  toFun p := wid p.1 p.2
  invFun t := (⟨t.val % 2, Nat.mod_lt _ (by decide)⟩, ⟨t.val / 2, by have := t.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv t := by
    refine Fin.ext ?_
    show 2 * (t.val / 2) + t.val % 2 = t.val
    omega

/-- Over the workers is over the SparseCores and, of each, the tiles. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  exact bigSep_congr fun _ _ => rfl

/-! ## The flat result's blocks -/

theorem blkSet_eq (t : Fin 32) : blkSet t = (blk t).set := by
  show ((View.whole (main_v1_scv : Ref sig .scVector)).slice (blk t)).set = _
  rw [View.set_slice]; exact Finset.map_refl
theorem blks_disjoint : ∀ t ∈ (Finset.univ : Finset (Fin 32)), ∀ u ∈ (Finset.univ : Finset (Fin 32)), t ≠ u → Disjoint (blkSet t) (blkSet u) :=
  fun t _ u _ h => by rw [blkSet_eq, blkSet_eq]; exact Rect.part_disjoint hdivOut h
theorem blks_cover : (Finset.univ : Finset (Fin 32)).biUnion blkSet = Finset.univ :=
  (Finset.biUnion_congr rfl fun t _ => blkSet_eq t).trans (Rect.biUnion_part hdivOut)

/-- The flat result whole is its 32 blocks. -/
theorem outPts_blks (d : Dev nD) (f : Buf (Elt F) (outLoc d)) :
    (outLoc d ↦{fullShare} f : sProp 𝕄) = bigSep Finset.univ fun t : Fin 32 => outLoc d ↦[blkSet t]{fullShare} f := by
  rw [← pointsTo_biUnion Finset.univ (ℓ := outLoc d) blkSet blks_disjoint, blks_cover]; try rfl

variable [FloatOps F]

/-- What the call takes, and what it brings back, for all the tiles at once: every worker's read shares and every block
    of the flat result at `f`. -/
theorem tasks_eq (d : Dev nD) (f : Buf (Elt F) (outLoc d)) :
    (bigSep Finset.univ fun c : Fin ((K (F := F)).nCore 0) => bigSep Finset.univ fun i : Fin 16 => taskArrays m d (wid (Fin.cast nCore_zero c) i) f)
      = iprop((bigSep Finset.univ fun t : Fin 32 => tokLoc d ↦{rshare t} idx3 m d)
          ∗ (bigSep Finset.univ fun t : Fin 32 => tabLoc d ↦{rshare t} m (tabLoc d))
          ∗ bigSep Finset.univ fun t : Fin 32 => outLoc d ↦[blkSet t]{fullShare} f) := by
  rw [bigSep_workers (F := F) (fun t => taskArrays m d t f)]
  unfold taskArrays
  rw [bigSep_sep', bigSep_sep']

theorem st0_eq (d : Dev nD) :
    (bigSep Finset.univ fun c : Fin ((K (F := F)).nCore 0) => (P m).st 0 d c)
      = bigSep Finset.univ fun c : Fin ((K (F := F)).nCore 0) => bigSep Finset.univ fun i : Fin 16 => taskArrays m d (wid (Fin.cast nCore_zero c) i) (m (outLoc d)) := rfl
theorem dn0_eq (d : Dev nD) :
    (bigSep Finset.univ fun c : Fin ((K (F := F)).nCore 0) => (P m).dn 0 d c)
      = bigSep Finset.univ fun c : Fin ((K (F := F)).nCore 0) => bigSep Finset.univ fun i : Fin 16 => taskArrays m d (wid (Fin.cast nCore_zero c) i) (flatRes m d) := rfl

/-! ## What the final memory says -/

/-- What @main leaves the claim. -/
abbrev FIN (d : Dev nD) : sProp 𝕄 :=
  iprop((argLoc d ↦{fullShare} m (argLoc d)) ∗ (tabLoc d ↦{fullShare} m (tabLoc d))
    ∗ resLoc d ↦{fullShare} (Spec.lookup (m (argLoc d)) (m (tabLoc d)) : Buf (Elt F) (resLoc d)))

def fq (d : Dev nD) (s' : Phys nD τ sig (Elt F)) : Prop :=
  s'.mem.mem (resLoc d) = Spec.lookup (m (argLoc d)) (m (tabLoc d)) ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Hw, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Hw]
  · isplitl [HSI] <;> iassumption
  icases H with ⟨%h2, HSI, -⟩
  ihave H := (SI_pointsTo_agree (st := s') (ℓ := resLoc d) (I := Finset.univ) (q := fullShare)
    (f := (Spec.lookup (m (argLoc d)) (m (tabLoc d)) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## @main on the TensorCore -/

abbrev rArg : DevRef τ sig := Proc.devRef .tc (main_arg0 : Ref sig .tc)
abbrev rTab : DevRef τ sig := Proc.devRef .tc (main_arg1 : Ref sig .tc)
abbrev rTok : DevRef τ sig := Proc.devRef .tc (main_v0 : Ref sig .tc)
abbrev rOut : DevRef τ sig := Proc.devRef .tc (main_v1 : Ref sig .tc)
abbrev rRes : DevRef τ sig := Proc.devRef .tc (main_v2 : Ref sig .tc)

/-- The two regroupings: of the tokens before the call, of the flat result after it. -/
abbrev opTok : HloOp τ sig (Elt F) := StableHlo.reshape main_arg0 main_v0 rfl shapeCasts_S1024x200_S32x50x128
abbrev opRes : HloOp τ sig (Elt F) := StableHlo.reshape main_v1 main_v2 rfl shapeCasts_S204800x128_S1024x200x128

/-- The TensorCore's arrays, all unscoped: the tokens, the table, the regrouped tokens, the flat result, the result. -/
abbrev S5 : Finset (DevRef τ sig) := {rArg, rTab, rTok, rOut, rRes}

omit [FloatOps F] in
theorem held_S5 (d : Dev nD) (W : Valuation τ sig (Elt F)) :
    (held (T d) S5 W : sProp 𝕄) = iprop((argLoc d ↦{fullShare} W rArg) ∗ (tabLoc d ↦{fullShare} W rTab) ∗ (tokLoc d ↦{fullShare} W rTok)
      ∗ (outLoc d ↦{fullShare} W rOut) ∗ resLoc d ↦{fullShare} W rRes) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ (tabLoc d ↦{fullShare} W main_arg1) ∗ (tokLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the regrouped tokens and the flat lookup in their arrays. -/
def V0 (d : Dev nD) : Valuation τ sig (Elt F) := fun b => m (d, b)
def V1 (d : Dev nD) : Valuation τ sig (Elt F) :=
  Function.update (Function.update (V0 m d) rTok (idx3 m d : Buf (Elt F) (tokLoc d))) rOut (flatRes m d)

omit [FloatOps F] in
theorem unscoped_held (d : Dev nD) : (unscopedBufs d (fun b => m ((SparseCore.T d).loc b)) : sProp 𝕄) = held (T d) S5 (V0 m d) := by
  rw [unscopedBufs_eq, held_S5]; rfl

theorem hTok : (opTok (F := F)).bufs ⊆ S5 := show ({rArg, rTok} : Finset (DevRef τ sig)) ⊆ S5 by decide
theorem hRes : (opRes (F := F)).bufs ⊆ S5 := show ({rOut, rRes} : Finset (DevRef τ sig)) ⊆ S5 by decide

/-- After the first regrouping: the regrouped tokens in their array, the rest as launched. -/
theorem tok_arg (d : Dev nD) : (opTok (F := F)).result (V0 m d) rArg = m (argLoc d) :=
  (opTok (F := F)).result_of_not_mem (V0 m d) (b := rArg) (show rArg ∉ ({rTok} : Finset (DevRef τ sig)) by decide)
theorem tok_tab (d : Dev nD) : (opTok (F := F)).result (V0 m d) rTab = m (tabLoc d) :=
  (opTok (F := F)).result_of_not_mem (V0 m d) (b := rTab) (show rTab ∉ ({rTok} : Finset (DevRef τ sig)) by decide)
theorem tok_out (d : Dev nD) : (opTok (F := F)).result (V0 m d) rOut = m (outLoc d) :=
  (opTok (F := F)).result_of_not_mem (V0 m d) (b := rOut) (show rOut ∉ ({rTok} : Finset (DevRef τ sig)) by decide)
theorem tok_res (d : Dev nD) : (opTok (F := F)).result (V0 m d) rRes = m (resLoc d) :=
  (opTok (F := F)).result_of_not_mem (V0 m d) (b := rRes) (show rRes ∉ ({rTok} : Finset (DevRef τ sig)) by decide)
theorem tok_tok (d : Dev nD) : (opTok (F := F)).result (V0 m d) rTok = (idx3 m d : Buf (Elt F) (tokLoc d)) :=
  (StableHlo.reshape_result main_arg0 main_v0 rfl shapeCasts_S1024x200_S32x50x128 ⟨by decide, rfl⟩ ⟨by decide, rfl⟩ (V0 m d)).trans rfl

theorem held_tok (d : Dev nD) :
    (held (T d) S5 ((opTok (F := F)).result (V0 m d)) : sProp 𝕄)
      = iprop((argLoc d ↦{fullShare} m (argLoc d)) ∗ (tabLoc d ↦{fullShare} m (tabLoc d)) ∗ (tokLoc d ↦{fullShare} idx3 m d)
        ∗ (outLoc d ↦{fullShare} m (outLoc d)) ∗ resLoc d ↦{fullShare} m (resLoc d)) := by
  rw [held_S5, tok_arg, tok_tab, tok_tok, tok_out, tok_res]

theorem V1_arg (d : Dev nD) : V1 m d rArg = m (argLoc d) :=
  (Function.update_of_ne (show rArg ≠ rOut by decide) _ _).trans (Function.update_of_ne (show rArg ≠ rTok by decide) _ _)
theorem V1_tab (d : Dev nD) : V1 m d rTab = m (tabLoc d) :=
  (Function.update_of_ne (show rTab ≠ rOut by decide) _ _).trans (Function.update_of_ne (show rTab ≠ rTok by decide) _ _)
theorem V1_res (d : Dev nD) : V1 m d rRes = m (resLoc d) :=
  (Function.update_of_ne (show rRes ≠ rOut by decide) _ _).trans (Function.update_of_ne (show rRes ≠ rTok by decide) _ _)
theorem V1_tok (d : Dev nD) : V1 m d rTok = (idx3 m d : Buf (Elt F) (tokLoc d)) :=
  (Function.update_of_ne (show rTok ≠ rOut by decide) _ _).trans (Function.update_self _ _ _)
theorem V1_out (d : Dev nD) : V1 m d rOut = flatRes m d := Function.update_self _ _ _

/-- After the second regrouping: the lookup in the result, the tokens and the table as launched. -/
theorem res_arg (d : Dev nD) : (opRes (F := F)).result (V1 m d) rArg = m (argLoc d) :=
  ((opRes (F := F)).result_of_not_mem (V1 m d) (b := rArg) (show rArg ∉ ({rRes} : Finset (DevRef τ sig)) by decide)).trans (V1_arg m d)
theorem res_tab (d : Dev nD) : (opRes (F := F)).result (V1 m d) rTab = m (tabLoc d) :=
  ((opRes (F := F)).result_of_not_mem (V1 m d) (b := rTab) (show rTab ∉ ({rRes} : Finset (DevRef τ sig)) by decide)).trans (V1_tab m d)
theorem res_res (d : Dev nD) :
    (opRes (F := F)).result (V1 m d) rRes = (Spec.lookup (m (argLoc d)) (m (tabLoc d)) : Buf (Elt F) (resLoc d)) := by
  refine (StableHlo.reshape_result main_v1 main_v2 rfl shapeCasts_S204800x128_S1024x200x128 ⟨by decide, rfl⟩ ⟨by decide, rfl⟩ (V1 m d)).trans ?_
  show shapeCast S1024x200x128 (V1 m d rOut) shapeCasts_S204800x128_S1024x200x128 = _
  rw [V1_out]
  exact Spec.lookup_eq_reshape (m (argLoc d)) (m (tabLoc d)) shapeCasts_S1024x200_S32x50x128 shapeCasts_S204800x128_S1024x200x128

theorem held_res (d : Dev nD) :
    (held (T d) S5 ((opRes (F := F)).result (V1 m d)) : sProp 𝕄)
      = iprop((argLoc d ↦{fullShare} m (argLoc d)) ∗ (tabLoc d ↦{fullShare} m (tabLoc d)) ∗ (tokLoc d ↦{fullShare} (opRes (F := F)).result (V1 m d) rTok)
        ∗ (outLoc d ↦{fullShare} (opRes (F := F)).result (V1 m d) rOut)
        ∗ resLoc d ↦{fullShare} (Spec.lookup (m (argLoc d)) (m (tabLoc d)) : Buf (Elt F) (resLoc d))) := by
  rw [held_S5, res_arg, res_tab, res_res]

/-- @main on device `d`'s TensorCore: the tokens regrouped; the call, from every worker's read shares of the regrouped
    tokens and of the table and its block of the flat result, the TensorCore keeping a share of each; the flat result,
    whole again at the flat lookup, regrouped: the lookup. The tokens and the table are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the tokens regrouped
  iapply (wp_hlo_within 𝒱 (SparseCore.T d) none Set.univ (op := opTok) (S := S5) hTok (V := V0 m d)) $$ [Hb Hheld]
  · isplitl [Hb]; · iexact Hb
    iexact Hheld
  iintro ⟨Hb, Hheld⟩
  ihave Hh := (Entails.of_eq (held_tok (F := F) m d)) $$ Hheld
  icases Hh with ⟨Ha, Hw, Ht, Ho, Hr⟩
  rw [wp_ret]; imodintro
  -- one read share per worker of the regrouped tokens and of the table, the flat result in the workers' blocks
  ihave Ht' := (Transfers.pointsTo_toks_split fullShare 32) $$ Ht
  icases Ht' with ⟨Htk, Hts⟩
  ihave Hw' := (Transfers.pointsTo_toks_split fullShare 32) $$ Hw
  icases Hw' with ⟨Hwk, Hws⟩
  ihave Hos := (Entails.of_eq (outPts_blks (F := F) d (m (outLoc d)))) $$ Ho
  -- the call
  iapply ((K (F := F)).wp_run (D (F := F)) 𝒱 (EH := EH) (P := P m) κ d 0) $$ [Hst Hts Hws Hos Hb Ha Hr Htk Hwk]
  isplitr; · iexact Hctx
  isplitl [Hst]; · iexact Hst
  isplitl [Hts Hws Hos]
  · rw [st0_eq, tasks_eq]
    isplitl [Hts]; · iexact Hts
    isplitl [Hws]; · iexact Hws
    iexact Hos
  iintro ⟨Hst, Hdn⟩
  ihave Hdn' := (Entails.of_eq ((dn0_eq m d).trans (tasks_eq m d (flatRes m d)))) $$ Hdn
  icases Hdn' with ⟨Hts, Hws, Hos⟩
  -- the shares and the blocks joined
  ihave Ht := (Transfers.pointsTo_toks_join fullShare 32) $$ [Htk Hts]
  · isplitl [Htk]; · iexact Htk
    iexact Hts
  ihave Hw := (Transfers.pointsTo_toks_join fullShare 32) $$ [Hwk Hws]
  · isplitl [Hwk]; · iexact Hwk
    iexact Hws
  ihave Ho := (Entails.of_eq (outPts_blks (F := F) d (flatRes m d)).symm) $$ Hos
  -- the flat result regrouped
  iapply (wp_hlo_within 𝒱 (SparseCore.T d) none Set.univ (op := opRes) (S := S5) hRes (V := V1 m d)) $$ [Hb Ha Hw Ht Ho Hr]
  · isplitl [Hb]; · iexact Hb
    rw [held_S5, V1_arg, V1_tab, V1_tok, V1_out, V1_res]
    isplitl [Ha]; · iexact Ha
    isplitl [Hw]; · iexact Hw
    isplitl [Ht]; · iexact Ht
    isplitl [Ho]; · iexact Ho
    iexact Hr
  iintro ⟨Hb, Hheld⟩
  ihave Hh := (Entails.of_eq (held_res (F := F) m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

end Cert.Proof.KB

end
-- ==== Proof.PreRange.lean ====
/-
  The input-domain predicate, read back on the token side. The predicate is the conjunction of three statements, each a
  reduction by `and` over every axis: every table entry is finite, every token is at least 0 read signed, every token is
  at most 999999 read signed. Here the last two are decoded: a 32-bit word whose signed value lies in [0, 999999] has that
  same value unsigned, so it is below 1000000. Nothing depends on the float instance: the float conjunct is dropped.
-/
import proofs.«206231_g69020124446782_cont_9to1c4b_129_32_alg».proof.Pre_input_domain
import proofs.«206231_g69020124446782_cont_9to1c4b_129_32_alg».proof.Proof.Spec
import Idealize.ShloMosaic.Lib.ReduceAll

noncomputable section

namespace Cert.PreSide

open Idealize.ShloMosaic Idealize.ShloMosaic.ValueIdx

/-- The rank-0 shape has one index. -/
instance subsingleton_scalarIdx : Subsingleton Cert.Pre_input_domain.S_.Idx := ⟨fun a b => funext fun d => d.elim0⟩

/-- A word below 1000000 unsigned has the same value signed (its top bit is clear), and that value lies in [0, 999999]. -/
theorem toInt_of_inRange {t : BitVec 32} (h : t.toNat < 1000000) :
    t.toInt = (t.toNat : Int) ∧ 0 ≤ t.toInt ∧ t.toInt ≤ 999999 := by
  have e : t.toInt = (t.toNat : Int) := by
    rw [BitVec.toInt_eq_toNat_cond]
    split <;> omega
  refine ⟨e, ?_, ?_⟩ <;> omega

/-- Conversely: a word whose signed value lies in [0, 999999] is below 1000000 unsigned. -/
theorem toNat_lt_of_toInt {t : BitVec 32} (h0 : 0 ≤ t.toInt) (h1 : t.toInt ≤ 999999) : t.toNat < 1000000 := by
  rw [BitVec.toInt_eq_toNat_cond] at h0 h1
  split at h0 <;> omega

/-- The predicate holding (its one word is 1) puts every token in [0, 999999]. -/
theorem inRange_of_pre {F : FTy → Type} [FloatOps F] [Cert.Pre_input_domain.Facts]
    (tok : IVec Cert.Pre_input_domain.S1024x200 32) (W : FVec F Cert.Pre_input_domain.S1000000x128 .f32)
    (h : Cert.Pre_input_domain.fn (F := F) tok W = fun _ => 1#1) : Cert.Spec.InRange tok := by
  have e := congrFun h ix0
  dsimp only [Cert.Pre_input_domain.fn] at e
  obtain ⟨-, e2⟩ := IntOp.andi_eq_one.1 e
  intro j
  have ej := Host.reduce_andi_all _ _ _ _ ix0 e2 j
  obtain ⟨ha, hb⟩ := IntOp.andi_eq_one.1 ej
  have h0 := IntOp.cmpi_sge.1 ha
  have h1 := IntOp.cmpi_sle.1 hb
  simp only [broadcastInDim, constantI] at h0 h1
  have c0 : (0#32).toInt = 0 := by decide
  have c1 : (999999#32).toInt = 999999 := by decide
  rw [c0] at h0
  rw [c1] at h1
  exact toNat_lt_of_toInt h0 h1

end Cert.PreSide

end
-- ==== Proof.KBRun.lean ====
/-
  The lookup kernel's run. With every tile's task proved at a symbolic place, the SparseCores' operands split among their
  tiles, and the entry function proved on the TensorCore (the regrouping of the tokens, the call, the regrouping of the flat
  result), every weakly fair execution of the whole family of threads terminates; the result buffer then holds the
  specification's lookup of the tokens and the table, and both arguments are unchanged. The tokens must all name a row of
  the table, which is what the input-domain predicate says of them.
-/
import proofs.«206231_g69020124446782_cont_9to1c4b_129_32_alg».proof.Proof.KBSplit
import proofs.«206231_g69020124446782_cont_9to1c4b_129_32_alg».proof.Proof.KBMain
import proofs.«206231_g69020124446782_cont_9to1c4b_129_32_alg».proof.Proof.PreRange
import proofs.«206231_g69020124446782_cont_9to1c4b_129_32_alg».proof.Proof.Reshape
import proofs.«206231_g69020124446782_cont_9to1c4b_129_32_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the run ends in, on every device: the result at the lookup of the two arguments, the arguments unchanged. -/
def QC : PUnit × MemSt nD τ sig (Elt F) → Prop := fun r => ∀ c : Dev nD,
  r.2.mem (resLoc c) = Spec.lookup (m (argLoc c)) (m (tabLoc c))
    ∧ r.2.mem (argLoc c) = m (argLoc c) ∧ r.2.mem (tabLoc c) = m (tabLoc c)

/-- Tokens that all name a row still do once regrouped: each regrouped token is one of the tokens. -/
theorem inRange_idx3 (hin : ∀ d : Dev nD, Spec.InRange (m (argLoc d))) : ∀ d j, (idx3 m d j).toNat < 1000000 := by
  intro d j
  unfold idx3
  exact Spec.inRange_reshape _ _ (hin d) j

/-- From any memory with zero counters whose tokens all name a row of the table: every weakly fair execution of the
    TensorCore's entry function beside the two sequencers and the thirty-two tiles terminates, with the result at the
    lookup and the arguments unchanged. -/
theorem run_main [∀ e, Nonempty (Elt F e)] (hin : ∀ d : Dev nD, Spec.InRange (m (argLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (inRange_idx3 m hin))
    (fun q _ => match q with | 0 => vecSplit m)
    m ρ main (fun _ => iprop(emp)) (FIN m) (u₀ (F := F)) (sep_elim_left.trans (hu₀ m)) (hmain m ρ) (fq m) (hfin m) (QC m) (fun _ h => h)

/-- The input-domain predicate holding on every device (its one word is 1) puts every token in `[0, 999999]`. -/
theorem inRange_of_pre (m : (ℓ : Loc nD τ sig) → Buf (Elt F) ℓ)
    (h : ∀ c : Dev nD, Cert.Pre_input_domain.fn (F := F) (m (argLoc c)) (m (tabLoc c)) = fun _ => 1#1) :
    ∀ d : Dev nD, Spec.InRange (m (argLoc d)) :=
  fun d => Cert.PreSide.inRange_of_pre (F := F) (m (argLoc d)) (m (tabLoc d)) (h d)

end Cert.Proof.KB

end
-- ==== Proof.KICommon.lean ====
/-
  What the body and the launch of the lookup kernel share: the program as the launch theorem sees it, the ghost algebra
  (the handshakes' rounds beside the transfers' counters: every copy of this kernel is issued and waited for by one
  tile on a semaphore of its own, so no schedule is needed), the arrays' locations, and what the handshakes carry.

  The kernel regroups the 204800 tokens as 32 workers × 50 groups × 128 lanes; tile `i` of SparseCore `c` is worker
  `2 i + c` and writes rows `[6400 w, 6400 (w + 1))` of the flat result, each row the table's row its token names.
  Every tile reads the regrouped tokens and the table through a read share of its own; its block of the flat result
  and its row of the SparseCore's shared staging memory it holds outright.
-/
import proofs.«206231_g69020124446782_cont_9to1c4b_129_32_alg».proof.Defs
import proofs.«206231_g69020124446782_cont_9to1c4b_129_32_alg».proof.Proof.Spec
import proofs.«206231_g69020124446782_cont_9to1c4b_129_32_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The tokens, the table, the regrouped tokens, the flat result and the result, as locations of device `d`. -/
abbrev argLoc (d : Dev nD) : Loc nD τ sig := (SparseCore.T d).loc main_arg0
abbrev tabLoc (d : Dev nD) : Loc nD τ sig := (SparseCore.T d).loc main_arg1
abbrev tokLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- SparseCore `c`'s shared staging memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Worker `2 i + c`: tile `i` of SparseCore `c`. -/
def wid (c : Fin 2) (i : Fin 16) : Fin 32 := ⟨2 * i.val + c.val, by omega⟩

/-- Worker `t`'s block of the flat result: rows `[6400 t, 6400 (t + 1))`. -/
theorem hdivOut : 32 ∣ S204800x128.size 0 := ⟨6400, rfl⟩
abbrev blk (t : Fin 32) : Rect S204800x128 := Rect.part (s := S204800x128) (a₀ := 0) hdivOut t
abbrev blkSet (t : Fin 32) : Finset S204800x128.Idx :=
  ((Memref.whole main_v1_scv : Memref sig .scVector .hbm S204800x128 .f32).view.slice (blk t)).set

/-- Tile `i`'s row of the shared staging memory: its four slots. -/
theorem hdivSh : 16 ∣ S16x4x64x128.size 0 := ⟨1, rfl⟩
abbrev shRow (i : Fin 16) : Rect S16x4x64x128 := Rect.part (s := S16x4x64x128) (a₀ := 0) hdivSh i
abbrev shRowSet (i : Fin 16) : Finset S16x4x64x128.Idx :=
  ((Memref.whole cc0_scratch3 : Memref sig .scVector .shared S16x4x64x128 .f32).view.slice (shRow i)).set

/-- Worker `t`'s read share of an array all workers read, and what the TensorCore keeps of it. -/
abbrev rshare (t : Fin 32) : PosShare TreeShare := Transfers.shareTok fullShare 32 t
abbrev keepShare : PosShare TreeShare := Transfers.shareDrop fullShare 32

variable [FloatOps F]

/-- The regrouped tokens: what the reshape before the call leaves in its result. -/
def idx3 (d : Dev nD) : Spec.SIdx3.Idx → BitVec 32 := shapeCast S32x50x128 (m (argLoc d)) shapeCasts_S1024x200_S32x50x128

/-- The flat result the call leaves: row `n` the table's row named by regrouped token `n`. -/
def flatRes (d : Dev nD) : Buf (Elt F) (outLoc d) := Spec.flatLookup (idx3 m d) (m (tabLoc d))

/-! ## What the handshakes carry -/

/-- What a task is handed of the arrays: its read shares of the regrouped tokens and of the table, and its block of the
    flat result, at `f`. -/
def taskArrays (d : Dev nD) (t : Fin 32) (f : Buf (Elt F) (outLoc d)) : sProp 𝕄 :=
  iprop((tokLoc d ↦{rshare t} idx3 m d) ∗ (tabLoc d ↦{rshare t} m (tabLoc d)) ∗ outLoc d ↦[blkSet t]{fullShare} f)

/-- Its row of the shared staging memory, at some contents. -/
def taskShared (d : Dev nD) (c : Fin τ.nSC) (i : Fin 16) : sProp 𝕄 := iprop(∃ g, shLoc d c ↦[shRowSet i]{fullShare} g)

/-- The one call: a SparseCore takes its sixteen tasks' arrays and brings them back, each block of the flat result at
    the lookup; each task takes, beside, its row of the shared staging memory, and brings it back. -/
def P : (K (F := F)).Pay (nD := nD) (Val := Elt F) (Name := ℕ) (U := UU) where
  st := fun q d c => match q with
    | 0 => bigSep Finset.univ fun i : Fin 16 => taskArrays m d (wid (Fin.cast nCore_zero c) i) (m (outLoc d))
  dn := fun q d c => match q with
    | 0 => bigSep Finset.univ fun i : Fin 16 => taskArrays m d (wid (Fin.cast nCore_zero c) i) (flatRes m d)
  go := fun q d c i => match q with
    | 0 => iprop(taskArrays m d (wid (Fin.cast nCore_zero c) (Fin.cast nSub_zero i)) (m (outLoc d))
        ∗ taskShared d ((K (F := F)).core 0 c) (Fin.cast nSub_zero i))
  td := fun q d c i => match q with
    | 0 => iprop(taskArrays m d (wid (Fin.cast nCore_zero c) (Fin.cast nSub_zero i)) (flatRes m d)
        ∗ taskShared d ((K (F := F)).core 0 c) (Fin.cast nSub_zero i))
  x := fun _ _ => iprop(emp)

instance P_storable : (P (F := F) m).IsStorable where
  st q d c := match q with | 0 => by unfold P taskArrays; infer_instance
  dn q d c := match q with | 0 => by unfold P taskArrays; infer_instance
  go q d c i := match q with | 0 => by unfold P taskArrays taskShared; infer_instance
  td q d c i := match q with | 0 => by unfold P taskArrays taskShared; infer_instance

end Cert.Proof.KI

end
-- ==== Proof.KIOwn.lean ====
/-
  A vector subcore's own scoped storage, named piece by piece: its nineteen DMA semaphores, every one scoped and no regular
  semaphore so, each at zero; and its three scratch buffers in its tile memory, each at some contents. Both lists are
  complete: nothing else is the subcore's own, so each equation ends in `emp` (and is given once more without it).
-/
import proofs.«206231_g69020124446782_cont_9to1c4b_129_32_alg».proof.Proof.KICommon
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The semaphores -/

/-- DMA semaphore `k` of vector subcore `i` of SparseCore `c`, as a cell of the machine. -/
abbrev dcell (d : Dev nD) (c : Fin τ.nSC) (i : Fin τ.nSub) (k : DmaSem sig) : GSem nD τ sig := (V d c i, .dma k)

/-- The scoped semaphore cells of a vector subcore are its nineteen DMA semaphores and nothing else. -/
theorem scopedSemLocs :
    (Finset.univ.filter fun sm : SemLoc sig => sm.isScoped .scVector = true)
      = ([.dma 0, .dma 1, .dma 2, .dma 3, .dma 4, .dma 5, .dma 6, .dma 7, .dma 8, .dma 9, .dma 10, .dma 11, .dma 12, .dma 13,
          .dma 14, .dma 15, .dma 16, .dma 17, .dma 18] : List (SemLoc sig)).toFinset := by
  decide

/-- A vector subcore's own semaphores at zero are its nineteen DMA semaphores at zero, one by one, and nothing else. -/
theorem ownSems0_V (d : Dev nD) (c : Fin τ.nSC) (i : Fin τ.nSub) :
    (ownSems0 (V d c i) : sProp 𝕄)
      = iprop(semVal (dcell d c i cc0_scratch4.sem) 0 ∗ semVal (dcell d c i cc0_scratch5.sem) 0 ∗ semVal (dcell d c i cc0_scratch6.sem) 0
          ∗ semVal (dcell d c i cc0_scratch7.sem) 0 ∗ semVal (dcell d c i cc0_scratch8.sem) 0 ∗ semVal (dcell d c i cc0_scratch9.sem) 0
          ∗ semVal (dcell d c i cc0_scratch10.sem) 0 ∗ semVal (dcell d c i cc0_scratch11.sem) 0 ∗ semVal (dcell d c i cc0_scratch12.sem) 0
          ∗ semVal (dcell d c i cc0_scratch13.sem) 0 ∗ semVal (dcell d c i cc0_scratch14.sem) 0 ∗ semVal (dcell d c i cc0_scratch15.sem) 0
          ∗ semVal (dcell d c i cc0_scratch16.sem) 0 ∗ semVal (dcell d c i cc0_scratch17.sem) 0 ∗ semVal (dcell d c i cc0_scratch18.sem) 0
          ∗ semVal (dcell d c i cc0_scratch19.sem) 0 ∗ semVal (dcell d c i cc0_scratch20.sem) 0 ∗ semVal (dcell d c i cc0_scratch21.sem) 0
          ∗ semVal (dcell d c i cc0_scoped0.sem) 0
          ∗ emp) := by
  rw [SparseCore.Cfg.ownSems0_eq]
  refine (bigSep_eq_bigSepL_of_eq _ scopedSemLocs (by decide) _).trans ?_
  simp only [bigSepL_cons, bigSepL_nil]
  rfl

/-- The same without the closing `emp`. -/
theorem ownSems0_V' (d : Dev nD) (c : Fin τ.nSC) (i : Fin τ.nSub) :
    (ownSems0 (V d c i) : sProp 𝕄)
      = iprop(semVal (dcell d c i cc0_scratch4.sem) 0 ∗ semVal (dcell d c i cc0_scratch5.sem) 0 ∗ semVal (dcell d c i cc0_scratch6.sem) 0
          ∗ semVal (dcell d c i cc0_scratch7.sem) 0 ∗ semVal (dcell d c i cc0_scratch8.sem) 0 ∗ semVal (dcell d c i cc0_scratch9.sem) 0
          ∗ semVal (dcell d c i cc0_scratch10.sem) 0 ∗ semVal (dcell d c i cc0_scratch11.sem) 0 ∗ semVal (dcell d c i cc0_scratch12.sem) 0
          ∗ semVal (dcell d c i cc0_scratch13.sem) 0 ∗ semVal (dcell d c i cc0_scratch14.sem) 0 ∗ semVal (dcell d c i cc0_scratch15.sem) 0
          ∗ semVal (dcell d c i cc0_scratch16.sem) 0 ∗ semVal (dcell d c i cc0_scratch17.sem) 0 ∗ semVal (dcell d c i cc0_scratch18.sem) 0
          ∗ semVal (dcell d c i cc0_scratch19.sem) 0 ∗ semVal (dcell d c i cc0_scratch20.sem) 0 ∗ semVal (dcell d c i cc0_scratch21.sem) 0
          ∗ semVal (dcell d c i cc0_scoped0.sem) 0) := by
  rw [SparseCore.Cfg.ownSems0_eq]
  exact bigSep_eq_bigSepL_of_eq _ scopedSemLocs (by decide) _

/-! ## The buffers -/

/-- No buffer in HBM is a processor's: it is the device's or a SparseCore's. -/
theorem hbmOwner_ne_proc (fl : Bool) (h : τ.HbmHolder fl) (p : Proc τ) : Topo.HbmHolder.owner h ≠ .proc p := by
  cases fl <;> simp [Topo.HbmHolder.owner]

/-- A vector subcore's own buffers are its three scratch buffers in its tile memory and nothing else: the arrays in HBM are
    the device's, the staging memory its SparseCore's. -/
theorem ownRefs_V (c : Fin τ.nSC) (i : Fin τ.nSub) :
    ownRefs (τ := τ) (sig := sig) (.scVector c i)
      = ([(Proc.scVector c i).devRef cc0_scratch0, (Proc.scVector c i).devRef cc0_scratch1,
          (Proc.scVector c i).devRef cc0_scratch2] : List (DevRef τ sig)).toFinset := by
  ext b
  rw [mem_ownRefs, SparseCore.Cfg.home_eq_scVector]
  rcases b with ⟨tb, idx, u⟩
  cases tb with
  | hbm =>
    have hne : (⟨.hbm, idx, u⟩ : DevRef τ sig).owner ≠ .proc (.scVector c i) := hbmOwner_ne_proc (sig.hbmOfSc idx) u (.scVector c i)
    simp [hne]
  | host => exact idx.elim0
  | shared => simp [DevRef.owner]
  | «local» κ cs =>
    cases κ <;> cases cs
    all_goals first | exact idx.elim0 | skip
    obtain ⟨c', i'⟩ := u
    fin_cases idx
    all_goals simp [DevRef.owner, Kind.proc, Proc.holderOf, Proc.coord, Fin.ext_iff]

/-- The three scratch buffers are different buffers. -/
theorem ownRefs_nodup (c : Fin τ.nSC) (i : Fin τ.nSub) :
    ([(Proc.scVector c i).devRef cc0_scratch0, (Proc.scVector c i).devRef cc0_scratch1,
      (Proc.scVector c i).devRef cc0_scratch2] : List (DevRef τ sig)).Nodup :=
  List.Nodup.map (Proc.devRef_injective (Proc.scVector c i))
    (show ([cc0_scratch0, cc0_scratch1, cc0_scratch2] : List (Ref sig .scVector)).Nodup by decide)

/-- A vector subcore's own buffers, each at some contents, are its three scratch buffers at some contents, one by one,
    and nothing else. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ emp) := by
  unfold SparseCore.Cfg.ownBufs
  rw [show (V d c i : Thread nD τ).2 = .scVector c i from rfl, ownRefs_V]
  refine (bigSep_eq_bigSepL _ (ownRefs_nodup c i) _).trans ?_
  simp only [bigSepL_cons, bigSepL_nil]
  rfl

/-- The same without the closing `emp`. -/
theorem ownBufs_V' (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)) := by
  unfold SparseCore.Cfg.ownBufs
  rw [show (V d c i : Thread nD τ).2 = .scVector c i from rfl, ownRefs_V]
  exact bigSep_eq_bigSepL _ (ownRefs_nodup c i) _

end Cert.Proof.KI

end
-- ==== Proof.KIFacts.lean ====
/-
  Pure facts about the index list of one tile of the lookup kernel: the block of regrouped tokens the tile copies into
  its index scratch is, element by element, the regrouped tokens of its worker; so every entry of every list of offsets
  an indexed copy reads out of that scratch names a row of the table.
-/
import proofs.«206231_g69020124446782_cont_9to1c4b_129_32_alg».proof.Proof.KICommon
import proofs.«206231_g69020124446782_cont_9to1c4b_129_32_alg».proof.Proof.Gen.KernelIdeal.Skeleton
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Facts

variable (d : Dev nD) (L : grid0.Coords)

/-- The tile's block of regrouped tokens as the synchronous copy lands it in the index scratch. -/
def idxPay (d : Dev nD) (L : grid0.Coords) : S50x128.Idx → Elt F .i32 :=
  ReadAs.same.apply (View.read (Elt F) (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view (idx3 m d))

omit [FloatOps F] in
/-- The tile's worker number, `2 · (L 1) + (L 0)`, is one of the 32. -/
theorem worker_lt : 2 * (L 1).val + (L 0).val < 32 := by
  have h0 : (L 0).val < 2 := (L 0).isLt
  have h1 : (L 1).val < 16 := (L 1).isLt
  omega

omit [FloatOps F] in
/-- Where entry `(g, l)` of the tile's block sits among the regrouped tokens: at `(2 · (L 1) + (L 0), g, l)`. The block is
    the unit-thick slab of the array at the worker's number with its first axis dropped, so `(g, l)` is `(0, g, l)` of
    the slab (the same row-major position), which the slab's offsets carry to the worker's row. -/
theorem idxRow_emb (g : Fin 50) (l : Fin 128) :
    (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view.emb (ValueIdx.ix2 g l)
      = (ValueIdx.ix3 (⟨2 * (L 1).val + (L 0).val, worker_lt L⟩ : Fin 32) g l : S32x50x128.Idx) := by
  have hre : Shape.reshapeEquiv (squeezes_S1x50x128_S50x128).numel_eq (ValueIdx.ix2 g l) = (ValueIdx.ix3 (0 : Fin 1) g l : S1x50x128.Idx) :=
    Shape.reshapeEquiv_eq_of_rowMajor _ (by
      rw [Shape.rowMajor_val_three, Shape.rowMajor_val_two]
      show ((0 : ℕ) * 50 + g.val) * 128 + l.val = g.val * 128 + l.val
      omega)
  show (Rect.unit (s := S32x50x128) (k0_off1 L) S1x50x128.size (k0_off1_inb L)).emb (Shape.reshapeEquiv (squeezes_S1x50x128_S50x128).numel_eq (ValueIdx.ix2 g l)) = _
  rw [hre]
  funext a; apply Fin.ext
  rw [Rect.emb_apply]
  show k0_off1 L a + 1 * ((ValueIdx.ix3 (0 : Fin 1) g l : S1x50x128.Idx) a).val = _
  rw [k0_off1_eq]
  match a with
  | ⟨0, _⟩ => show 2 * (L 1).val + (L 0).val + 1 * 0 = 2 * (L 1).val + (L 0).val; omega
  | ⟨1, _⟩ => show 0 + 1 * g.val = g.val; omega
  | ⟨2, _⟩ => show 0 + 1 * l.val = l.val; omega

omit [FloatOps F] in
/-- Entry `(g, l)` of the tile's block is regrouped token `(2 · (L 1) + (L 0), g, l)`. -/
theorem idxPay_apply (g : Fin 50) (l : Fin 128) :
    idxPay m d L (ValueIdx.ix2 g l) = idx3 m d (ValueIdx.ix3 ⟨2 * (L 1).val + (L 0).val, worker_lt L⟩ g l) := by
  unfold idxPay
  rw [ReadAs.apply_same, View.read_apply, cast_eq]
  exact congrArg (idx3 m d) (idxRow_emb L g l)

omit [FloatOps F] in
/-- Every entry of the tile's block names a row of the table, when every regrouped token does. -/
theorem idxPay_inRange (hin : ∀ j, (idx3 m d j).toNat < 1000000) (y : S50x128.Idx) : (idxPay m d L y).toNat < 1000000 := by
  have e : idxPay m d L y = idx3 m d (ValueIdx.ix3 ⟨2 * (L 1).val + (L 0).val, worker_lt L⟩ (y 0) (y 1)) :=
    (congrArg (idxPay m d L) (ValueIdx.eq_ix2 y)).trans (idxPay_apply m d L (y 0) (y 1))
  rw [e]; exact hin _

omit [FloatOps F] in
/-- Whatever part of the index scratch a list of offsets is read from, once the scratch holds entries that all name rows
    of the table, so does the list: reading through a view only picks elements. -/
theorem list_inRange' (w : S50x128.Idx → Elt F .i32) (hw : ∀ y, (w y).toNat < 1000000) :
    ∀ (si : Shape) (r : Rect S50x128) (hr : ∀ a, r.stride a = 1) (sq : r.shape.Squeezes si)
      (g : Buf (Elt F) ((V d ((L 0).castLE hcore0) ((L 1).castLE hsub0)).loc cc0_scratch0)) (x : si.Idx),
      (((((Memref.whole cc0_scratch0 : Memref sig .scVector .vmem S50x128 .i32)).slice r hr).squeeze si sq).view.read (Elt F)
        ((Memref.whole cc0_scratch0 : Memref sig .scVector .vmem S50x128 .i32).view.write (Elt F) g w Finset.univ) x).toNat < 1000000 := by
  intro si r hr sq g x
  have hland : (Memref.whole cc0_scratch0 : Memref sig .scVector .vmem S50x128 .i32).view.write (Elt F) g w Finset.univ = w :=
    View.write_whole_univ _ _ _
  rw [hland, View.read_apply, cast_eq]
  exact hw _

omit [FloatOps F] in
/-- The same once the scratch holds the tile's block of regrouped tokens. -/
theorem list_inRange (hin : ∀ j, (idx3 m d j).toNat < 1000000) :
    ∀ (si : Shape) (r : Rect S50x128) (hr : ∀ a, r.stride a = 1) (sq : r.shape.Squeezes si)
      (g : Buf (Elt F) ((V d ((L 0).castLE hcore0) ((L 1).castLE hsub0)).loc cc0_scratch0)) (x : si.Idx),
      (((((Memref.whole cc0_scratch0 : Memref sig .scVector .vmem S50x128 .i32)).slice r hr).squeeze si sq).view.read (Elt F)
        ((Memref.whole cc0_scratch0 : Memref sig .scVector .vmem S50x128 .i32).view.write (Elt F) g (idxPay m d L) Finset.univ) x).toNat < 1000000 :=
  list_inRange' d L (idxPay m d L) (idxPay_inRange m d L hin)

omit [FloatOps F] in
/-- The same with the worker's number as the launch writes it. -/
theorem idxPay_apply_wid (g : Fin 50) (l : Fin 128) :
    idxPay m d L (ValueIdx.ix2 g l)
      = idx3 m d (ValueIdx.ix3 (wid (Fin.cast (show grid0.bound 0 = 2 from rfl) (L 0)) (Fin.cast (show grid0.bound 1 = 16 from rfl) (L 1))) g l) :=
  idxPay_apply m d L g l

end Facts

end Cert.Proof.KI

end
-- ==== Proof.KIGather.lean ====
/-
  What the tile's indexed copies deliver, read at an index. An indexed copy fills row `k` of its destination with the
  table's row named by word `k` of a list of offsets; the list is one row of the tile's index scratch (or half of one),
  which holds the tile's block of regrouped tokens. So entry `(k, j)` of what a copy delivers is entry `j` of the table's
  row named by the regrouped token at that place of the block. Last, the flat result read at a worker's row.
-/
import proofs.«206231_g69020124446782_cont_9to1c4b_129_32_alg».proof.Proof.KIFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Gather

variable (d : Dev nD) (L : grid0.Coords)

omit [FloatOps F] in
/-- In a shape of rank one the index at row-major position `k` is `k`. -/
theorem rowMajor_symm_one {n : ℕ} (k : Fin (⟨1, ![n]⟩ : Shape).numel) :
    (⟨1, ![n]⟩ : Shape).rowMajor.symm k
      = ValueIdx.ix1 (k.cast (show (⟨1, ![n]⟩ : Shape).numel = n from Shape.numel_rank1 _)) := by
  rw [Equiv.symm_apply_eq]; apply Fin.ext; rw [Shape.rowMajor_val_one]; rfl

omit [FloatOps F] in
/-- Where word `k` of a list of `n` offsets sits in the index scratch, the list being the `n` entries of row `g` from
    column `c0` on: at `(g, c0 + k)`. The list is a unit-thick slab of the scratch with its first axis dropped. -/
theorem listEmb (n : ℕ) (sq : (⟨2, ![1, n]⟩ : Shape).Squeezes ⟨1, ![n]⟩) (off : Fin 2 → ℕ)
    (inb : ∀ a, off a + (⟨2, ![1, n]⟩ : Shape).size a ≤ S50x128.size a) (g : Fin 50) (c0 : ℕ) (hc : c0 + n ≤ 128)
    (h0 : off 0 = g.val) (h1 : off 1 = c0) (k : Fin n) :
    (((Memref.whole cc0_scratch0 : Memref sig .scVector .vmem S50x128 .i32).slice
        (Rect.unit (s := S50x128) off (⟨2, ![1, n]⟩ : Shape).size inb) (fun _ => rfl)).squeeze ⟨1, ![n]⟩ sq).view.emb (ValueIdx.ix1 k)
      = (ValueIdx.ix2 g (⟨c0 + k.val, by have := k.isLt; omega⟩ : Fin 128) : S50x128.Idx) := by
  have hre : Shape.reshapeEquiv sq.numel_eq (ValueIdx.ix1 k) = (ValueIdx.ix2 (0 : Fin 1) k : (⟨2, ![1, n]⟩ : Shape).Idx) :=
    Shape.reshapeEquiv_eq_of_rowMajor _ (by
      rw [Shape.rowMajor_val_two, Shape.rowMajor_val_one]
      show (0 : ℕ) * n + k.val = k.val
      omega)
  show (Rect.unit (s := S50x128) off (⟨2, ![1, n]⟩ : Shape).size inb).emb (Shape.reshapeEquiv sq.numel_eq (ValueIdx.ix1 k)) = _
  rw [hre]
  funext a; apply Fin.ext
  rw [Rect.emb_apply]
  match a with
  | ⟨0, _⟩ => show off 0 + 1 * 0 = g.val; omega
  | ⟨1, _⟩ => show off 1 + 1 * k.val = c0 + k.val; omega

omit [FloatOps F] in
/-- Word `k` of such a list, once the scratch holds the tile's block of regrouped tokens: entry `(g, c0 + k)` of the block. -/
theorem listWord (n : ℕ) (sq : (⟨2, ![1, n]⟩ : Shape).Squeezes ⟨1, ![n]⟩) (off : Fin 2 → ℕ)
    (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0)) (k : Fin n) :
    View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) (ValueIdx.ix1 k)
      = idxPay m d L (ValueIdx.ix2 g (⟨c0 + k.val, by have := k.isLt; omega⟩ : Fin 128)) := by
  have hland : (Memref.whole cc0_scratch0 : Memref sig .scVector .vmem S50x128 .i32).view.write (Elt F) fi (idxPay m d L) Finset.univ = idxPay m d L :=
    View.write_whole_univ _ _ _
  rw [hland, View.read_apply, cast_eq]
  exact congrArg (idxPay m d L) (listEmb n sq off inb g c0 hc h0 h1 k)

omit [FloatOps F] in
/-- The row of the table that entry `k` of such a list names, as a number. -/
theorem rows_val (n : ℕ) (hg : S1000000x128.Gathers 0 (⟨2, ![n, 128]⟩ : Shape)) (sq : (⟨2, ![1, n]⟩ : Shape).Squeezes ⟨1, ![n]⟩)
    (off : Fin 2 → ℕ) (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0))
    (hn : (⟨1, ![n]⟩ : Shape).numel = (⟨2, ![n, 128]⟩ : Shape).size hg.axis')
    (hin : ∀ x, (View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) x).toNat
          < S1000000x128.size hg.axis)
    (k : Fin ((⟨2, ![n, 128]⟩ : Shape).size hg.axis')) :
    (SparseCore.rows (View.read (Elt F) (((Memref.whole cc0_scratch0 : Memref sig .scVector .vmem S50x128 .i32).slice
          (Rect.unit (s := S50x128) off (⟨2, ![1, n]⟩ : Shape).size inb) (fun _ => rfl)).squeeze ⟨1, ![n]⟩ sq).view
          (View.write (Elt F) (Memref.whole cc0_scratch0 : Memref sig .scVector .vmem S50x128 .i32).view fi (idxPay m d L) Finset.univ)) hn hin k).val
      = (idxPay m d L (ValueIdx.ix2 g (⟨c0 + k.val, by have : k.val < n := k.isLt; omega⟩ : Fin 128))).toNat := by
  unfold SparseCore.rows
  show BitVec.toNat _ = _
  rw [rowMajor_symm_one, listWord m d L n sq off inb g c0 hc h0 h1 fi]
  rfl

omit [FloatOps F] in
/-- An indexed copy of `n` rows of the table, its list the `n` entries of row `g` of the index scratch from column `c0` on,
    the scratch holding the tile's block of regrouped tokens: entry `(k, j)` of what it delivers is entry `j` of the
    table's row named by entry `(g, c0 + k)` of the block. -/
theorem gather_val_gen (n : ℕ) (hg : S1000000x128.Gathers 0 (⟨2, ![n, 128]⟩ : Shape)) (sq : (⟨2, ![1, n]⟩ : Shape).Squeezes ⟨1, ![n]⟩)
    (off : Fin 2 → ℕ) (inb : ∀ a, off a + (⟨2, ![1, n]⟩ : Shape).size a ≤ S50x128.size a) (g : Fin 50) (c0 : ℕ) (hc : c0 + n ≤ 128)
    (h0 : off 0 = g.val) (h1 : off 1 = c0)
    (fi : Buf (Elt F) ((V d ((L 0).castLE hcore0) ((L 1).castLE hsub0)).loc cc0_scratch0))
    (hn : (⟨1, ![n]⟩ : Shape).numel = (⟨2, ![n, 128]⟩ : Shape).size hg.axis')
    (hin : ∀ x, (View.read (Elt F) (((Memref.whole cc0_scratch0 : Memref sig .scVector .vmem S50x128 .i32).slice
        (Rect.unit (s := S50x128) off (⟨2, ![1, n]⟩ : Shape).size inb) (fun _ => rfl)).squeeze ⟨1, ![n]⟩ sq).view
        (View.write (Elt F) (Memref.whole cc0_scratch0 : Memref sig .scVector .vmem S50x128 .i32).view fi (idxPay m d L) Finset.univ) x).toNat
          < S1000000x128.size hg.axis)
    (x : (⟨2, ![n, 128]⟩ : Shape).Idx) :
    SparseCore.gatherPayload hg
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off (⟨2, ![1, n]⟩ : Shape).size inb) (fun _ => rfl)).squeeze ⟨1, ![n]⟩ sq).view
          (View.write (Elt F) (Memref.whole cc0_scratch0 : Memref sig .scVector .vmem S50x128 .i32).view fi (idxPay m d L) Finset.univ)) hn hin) x
      = m (tabLoc d) (ValueIdx.ix2
          (Spec.rowOf (idxPay m d L (ValueIdx.ix2 g (⟨c0 + (x 0).val, by have : (x 0).val < n := (x 0).isLt; omega⟩ : Fin 128))))
          (⟨(x 1).val, (x 1).isLt⟩ : Fin 128)) := by
  have hx0n : (x 0).val < n := (x 0).isLt
  -- the word the list holds for this row, and that it names a row of the table
  have hrow := rows_val m d L n hg sq off inb g c0 hc h0 h1 fi hn hin (x hg.axis')
  have hr : (idxPay m d L (ValueIdx.ix2 g (⟨c0 + (x 0).val, by omega⟩ : Fin 128))).toNat < 1000000 := by
    have hlt := hin (ValueIdx.ix1 ⟨(x 0).val, hx0n⟩)
    rw [listWord m d L n sq off inb g c0 hc h0 h1 fi] at hlt
    exact hlt
  unfold SparseCore.gatherPayload
  rw [View.read_apply, cast_eq]
  refine congrArg (m (tabLoc d)) ?_
  show (Rect.unit (s := S1000000x128) ![0, 0] S1000000x128.size inb_S1000000x128_S1000000x128_0_0).emb (hg.idx _ x) = _
  funext a; apply Fin.ext
  rw [Rect.emb_apply]
  match a with
  | ⟨0, h⟩ =>
    show 0 + 1 * (hg.idx _ x hg.axis).val = (Spec.rowOf _).val
    rw [Shape.Gathers.idx_axis, Spec.rowOf_val hr, hrow, Nat.zero_add, Nat.one_mul]
    rfl
  | ⟨1, h⟩ =>
    show 0 + 1 * (hg.idx _ x ⟨1, h⟩).val = (x 1).val
    rw [Shape.Gathers.idx_of_ne hg _ x ⟨1, h⟩ (by show (1 : ℕ) ≠ 0; omega)]
    show 0 + 1 * (x 1).val = (x 1).val
    omega

omit [FloatOps F] in
/-- A copy of 128 rows, its list a whole row `g` of the index scratch: entry `(k, j)` is entry `j` of the table's row named
    by entry `(g, k)` of the tile's block. -/
theorem gather_row_val (off : Fin 2 → ℕ) (inb : ∀ a, off a + S1x128.size a ≤ S50x128.size a) (g : Fin 50)
    (h0 : off 0 = g.val) (h1 : off 1 = 0)
    (fi : Buf (Elt F) ((V d ((L 0).castLE hcore0) ((L 1).castLE hsub0)).loc cc0_scratch0))
    (hn : S128.numel = S128x128.size (gathers_S1000000x128_S128x128).axis')
    (hin : ∀ x, (View.read (Elt F) (((Memref.whole cc0_scratch0 : Memref sig .scVector .vmem S50x128 .i32).slice
        (Rect.unit (s := S50x128) off S1x128.size inb) (fun _ => rfl)).squeeze S128 squeezes_S1x128_S128).view
        (View.write (Elt F) (Memref.whole cc0_scratch0 : Memref sig .scVector .vmem S50x128 .i32).view fi (idxPay m d L) Finset.univ) x).toNat
          < S1000000x128.size (gathers_S1000000x128_S128x128).axis)
    (x : S128x128.Idx) :
    SparseCore.gatherPayload gathers_S1000000x128_S128x128
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off S1x128.size inb) (fun _ => rfl)).squeeze S128 squeezes_S1x128_S128).view
          (View.write (Elt F) (Memref.whole cc0_scratch0 : Memref sig .scVector .vmem S50x128 .i32).view fi (idxPay m d L) Finset.univ)) hn hin) x
      = m (tabLoc d) (ValueIdx.ix2 (Spec.rowOf (idxPay m d L (ValueIdx.ix2 g (⟨(x 0).val, (x 0).isLt⟩ : Fin 128))))
          (⟨(x 1).val, (x 1).isLt⟩ : Fin 128)) := by
  refine (gather_val_gen m d L 128 gathers_S1000000x128_S128x128 squeezes_S1x128_S128 off inb g 0 (by omega) h0 h1 fi hn hin x).trans ?_
  exact congrArg (fun t : Fin 128 => m (tabLoc d) (ValueIdx.ix2 (Spec.rowOf (idxPay m d L (ValueIdx.ix2 g t))) (⟨(x 1).val, (x 1).isLt⟩ : Fin 128)))
    (Fin.ext (Nat.zero_add _))

omit [FloatOps F] in
/-- A copy of 64 rows, its list the 64 entries of row `g` of the index scratch from column `c0` on: entry `(k, j)` is
    entry `j` of the table's row named by entry `(g, c0 + k)` of the tile's block. -/
theorem gather_half_val (off : Fin 2 → ℕ) (inb : ∀ a, off a + S1x64.size a ≤ S50x128.size a) (g : Fin 50) (c0 : ℕ) (hc : c0 + 64 ≤ 128)
    (h0 : off 0 = g.val) (h1 : off 1 = c0)
    (fi : Buf (Elt F) ((V d ((L 0).castLE hcore0) ((L 1).castLE hsub0)).loc cc0_scratch0))
    (hn : S64.numel = S64x128.size (gathers_S1000000x128_S64x128).axis')
    (hin : ∀ x, (View.read (Elt F) (((Memref.whole cc0_scratch0 : Memref sig .scVector .vmem S50x128 .i32).slice
        (Rect.unit (s := S50x128) off S1x64.size inb) (fun _ => rfl)).squeeze S64 squeezes_S1x64_S64).view
        (View.write (Elt F) (Memref.whole cc0_scratch0 : Memref sig .scVector .vmem S50x128 .i32).view fi (idxPay m d L) Finset.univ) x).toNat
          < S1000000x128.size (gathers_S1000000x128_S64x128).axis)
    (x : S64x128.Idx) :
    SparseCore.gatherPayload gathers_S1000000x128_S64x128
        (View.read (Elt F) ((Memref.whole main_arg1_scv : Memref sig .scVector .hbm S1000000x128 .f32).slice
          (Rect.unit ![0, 0] S1000000x128.size inb_S1000000x128_S1000000x128_0_0) (fun _ => rfl)).view (m (tabLoc d)))
        (SparseCore.rows (View.read (Elt F) (((Memref.whole cc0_scratch0 : Memref sig .scVector .vmem S50x128 .i32).slice
          (Rect.unit (s := S50x128) off S1x64.size inb) (fun _ => rfl)).squeeze S64 squeezes_S1x64_S64).view
          (View.write (Elt F) (Memref.whole cc0_scratch0 : Memref sig .scVector .vmem S50x128 .i32).view fi (idxPay m d L) Finset.univ)) hn hin) x
      = m (tabLoc d) (ValueIdx.ix2
          (Spec.rowOf (idxPay m d L (ValueIdx.ix2 g (⟨c0 + (x 0).val, by have : (x 0).val < 64 := (x 0).isLt; omega⟩ : Fin 128))))
          (⟨(x 1).val, (x 1).isLt⟩ : Fin 128)) :=
  gather_val_gen m d L 64 gathers_S1000000x128_S64x128 squeezes_S1x64_S64 off inb g c0 hc h0 h1 fi hn hin x

omit [FloatOps F] in
/-- The regrouped token of flat row `6400 w + 128 g + l` is the one at `(w, g, l)`. -/
theorem idx3Of_eq (w : Fin 32) (g : Fin 50) (l : Fin 128) (hn : 6400 * w.val + 128 * g.val + l.val < 204800) :
    Spec.idx3Of ⟨6400 * w.val + 128 * g.val + l.val, hn⟩ = ValueIdx.ix3 w g l := by
  have hw := w.isLt
  have hg := g.isLt
  have hl := l.isLt
  funext a
  match a with
  | ⟨0, _⟩ => exact Fin.ext (by show (6400 * w.val + 128 * g.val + l.val) / 6400 = w.val; omega)
  | ⟨1, _⟩ => exact Fin.ext (by show (6400 * w.val + 128 * g.val + l.val) % 6400 / 128 = g.val; omega)
  | ⟨2, _⟩ => exact Fin.ext (by show (6400 * w.val + 128 * g.val + l.val) % 128 = l.val; omega)

omit [FloatOps F] in
/-- The flat result at worker `w`'s row `128 g + l`: the table's row named by regrouped token `(w, g, l)`. -/
theorem flatRes_row (w : Fin 32) (g : Fin 50) (l : Fin 128) (k : Fin 128) :
    flatRes m d (ValueIdx.ix2 (⟨6400 * w.val + 128 * g.val + l.val, by have := w.isLt; have := g.isLt; have := l.isLt; omega⟩ : Fin 204800) k)
      = m (tabLoc d) (ValueIdx.ix2 (Spec.rowOf (idx3 m d (ValueIdx.ix3 w g l))) k) := by
  show Spec.flatLookup (idx3 m d) (m (tabLoc d)) (ValueIdx.ix2 _ k) = _
  rw [Spec.flatLookup_apply, idx3Of_eq]

end Gather

end Cert.Proof.KI

end
-- ==== Proof.KIPieces.lean ====
/-
  Pure facts about the pieces of the flat result that one tile's copies write: a piece of `R` rows from row `r0` is the
  rows `[r0, r0 + R)`, every column; its own index `(j, k)` sits at `(r0 + j, k)` of the array; and a worker's block is
  the rows `[6400 t, 6400 (t + 1))`. A tile's base row `12800 · (L 1) + 6400 · (L 0)` is `6400` times its worker's number
  `2 · (L 1) + (L 0)`, so its pieces lie in its worker's block.
-/
import proofs.«206231_g69020124446782_cont_9to1c4b_129_32_alg».proof.Proof.KICommon
import proofs.«206231_g69020124446782_cont_9to1c4b_129_32_alg».proof.Proof.Gen.KernelIdeal.Skeleton
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A piece of any size -/

/-- Index `x` of a unit-stride piece of the flat result sits, on each axis, at the piece's offset plus `x`'s coordinate. -/
theorem outPiece_emb (off size : Fin 2 → ℕ) (inb : ∀ a, off a + size a ≤ S204800x128.size a)
    (x : (Rect.unit (s := S204800x128) off size inb).shape.Idx) (a : Fin 2) :
    (((Memref.whole main_v1_scv : Memref sig .scVector .hbm S204800x128 .f32).slice (Rect.unit (s := S204800x128) off size inb) (fun _ => rfl)).view.emb x a).val = off a + (x a).val := by
  show ((Rect.unit (s := S204800x128) off size inb).emb x a).val = _
  rw [Rect.emb_apply]
  show off a + 1 * (x a).val = _
  omega

/-- The elements of a unit-stride piece: on each axis, from the offset, as many as the size. -/
theorem mem_outPiece (off size : Fin 2 → ℕ) (inb : ∀ a, off a + size a ≤ S204800x128.size a) (y : S204800x128.Idx) :
    y ∈ ((Memref.whole main_v1_scv : Memref sig .scVector .hbm S204800x128 .f32).slice (Rect.unit (s := S204800x128) off size inb) (fun _ => rfl)).view.set
      ↔ ∀ a, off a ≤ (y a).val ∧ (y a).val < off a + size a := by
  have hset : ((Memref.whole main_v1_scv : Memref sig .scVector .hbm S204800x128 .f32).slice (Rect.unit (s := S204800x128) off size inb) (fun _ => rfl)).view.set = (Rect.unit (s := S204800x128) off size inb).set := by
    show ((View.whole (main_v1_scv : Ref sig .scVector)).slice (Rect.unit (s := S204800x128) off size inb)).set = _
    rw [View.set_slice]; exact Finset.map_refl
  rw [hset]; exact Rect.mem_set_unit

/-- Every element of a piece is under one of the piece's own indices. -/
theorem exists_of_mem_outPiece (off size : Fin 2 → ℕ) (inb : ∀ a, off a + size a ≤ S204800x128.size a) (y : S204800x128.Idx)
    (hy : y ∈ ((Memref.whole main_v1_scv : Memref sig .scVector .hbm S204800x128 .f32).slice (Rect.unit (s := S204800x128) off size inb) (fun _ => rfl)).view.set) :
    ∃ x : (Rect.unit (s := S204800x128) off size inb).shape.Idx,
      y = ((Memref.whole main_v1_scv : Memref sig .scVector .hbm S204800x128 .f32).slice (Rect.unit (s := S204800x128) off size inb) (fun _ => rfl)).view.emb x := by
  obtain ⟨x, -, hx⟩ := Finset.mem_map.mp hy
  exact ⟨x, hx.symm⟩

theorem piece_row_lt {R off0 r0 j : ℕ} (hinb : off0 + R ≤ 204800) (h0 : off0 = r0) (hj : j < R) : r0 + j < 204800 := by omega

/-! ## Pieces of 128 rows -/

theorem outPiece_emb128 (off : Fin 2 → ℕ) (inb : ∀ a, off a + S128x128.size a ≤ S204800x128.size a) (r0 : ℕ) (h0 : off 0 = r0) (h1 : off 1 = 0)
    (x : S128x128.Idx) :
    ((Memref.whole main_v1_scv : Memref sig .scVector .hbm S204800x128 .f32).slice (Rect.unit (s := S204800x128) off S128x128.size inb) (fun _ => rfl)).view.emb x
      = (ValueIdx.ix2 (⟨r0 + (x 0).val, piece_row_lt (inb 0) h0 (x 0).isLt⟩ : Fin 204800) (⟨(x 1).val, (x 1).isLt⟩ : Fin 128) : S204800x128.Idx) := by
  funext a; apply Fin.ext
  rw [outPiece_emb off S128x128.size inb x a]
  match a with
  | ⟨0, _⟩ => show off 0 + (x 0).val = r0 + (x 0).val; rw [h0]
  | ⟨1, _⟩ => show off 1 + (x 1).val = (x 1).val; rw [h1, Nat.zero_add]

theorem mem_outPiece128 (off : Fin 2 → ℕ) (inb : ∀ a, off a + S128x128.size a ≤ S204800x128.size a) (r0 : ℕ) (h0 : off 0 = r0) (h1 : off 1 = 0)
    (y : S204800x128.Idx) :
    y ∈ ((Memref.whole main_v1_scv : Memref sig .scVector .hbm S204800x128 .f32).slice (Rect.unit (s := S204800x128) off S128x128.size inb) (fun _ => rfl)).view.set ↔ r0 ≤ (y 0).val ∧ (y 0).val < r0 + 128 := by
  rw [mem_outPiece, Fin.forall_fin_two]
  have hy1 : (y 1).val < 128 := (y 1).isLt
  show ((off 0 ≤ (y 0).val ∧ (y 0).val < off 0 + 128) ∧ (off 1 ≤ (y 1).val ∧ (y 1).val < off 1 + 128)) ↔ (r0 ≤ (y 0).val ∧ (y 0).val < r0 + 128)
  rw [h0, h1]; omega

theorem exists_of_mem_outPiece128 (off : Fin 2 → ℕ) (inb : ∀ a, off a + S128x128.size a ≤ S204800x128.size a) (y : S204800x128.Idx)
    (hy : y ∈ ((Memref.whole main_v1_scv : Memref sig .scVector .hbm S204800x128 .f32).slice (Rect.unit (s := S204800x128) off S128x128.size inb) (fun _ => rfl)).view.set) :
    ∃ x : S128x128.Idx, y = ((Memref.whole main_v1_scv : Memref sig .scVector .hbm S204800x128 .f32).slice (Rect.unit (s := S204800x128) off S128x128.size inb) (fun _ => rfl)).view.emb x :=
  exists_of_mem_outPiece off S128x128.size inb y hy

/-! ## Pieces of 64 rows -/

theorem outPiece_emb64 (off : Fin 2 → ℕ) (inb : ∀ a, off a + S64x128.size a ≤ S204800x128.size a) (r0 : ℕ) (h0 : off 0 = r0) (h1 : off 1 = 0)
    (x : S64x128.Idx) :
    ((Memref.whole main_v1_scv : Memref sig .scVector .hbm S204800x128 .f32).slice (Rect.unit (s := S204800x128) off S64x128.size inb) (fun _ => rfl)).view.emb x
      = (ValueIdx.ix2 (⟨r0 + (x 0).val, piece_row_lt (inb 0) h0 (x 0).isLt⟩ : Fin 204800) (⟨(x 1).val, (x 1).isLt⟩ : Fin 128) : S204800x128.Idx) := by
  funext a; apply Fin.ext
  rw [outPiece_emb off S64x128.size inb x a]
  match a with
  | ⟨0, _⟩ => show off 0 + (x 0).val = r0 + (x 0).val; rw [h0]
  | ⟨1, _⟩ => show off 1 + (x 1).val = (x 1).val; rw [h1, Nat.zero_add]

theorem mem_outPiece64 (off : Fin 2 → ℕ) (inb : ∀ a, off a + S64x128.size a ≤ S204800x128.size a) (r0 : ℕ) (h0 : off 0 = r0) (h1 : off 1 = 0)
    (y : S204800x128.Idx) :
    y ∈ ((Memref.whole main_v1_scv : Memref sig .scVector .hbm S204800x128 .f32).slice (Rect.unit (s := S204800x128) off S64x128.size inb) (fun _ => rfl)).view.set ↔ r0 ≤ (y 0).val ∧ (y 0).val < r0 + 64 := by
  rw [mem_outPiece, Fin.forall_fin_two]
  have hy1 : (y 1).val < 128 := (y 1).isLt
  show ((off 0 ≤ (y 0).val ∧ (y 0).val < off 0 + 64) ∧ (off 1 ≤ (y 1).val ∧ (y 1).val < off 1 + 128)) ↔ (r0 ≤ (y 0).val ∧ (y 0).val < r0 + 64)
  rw [h0, h1]; omega

theorem exists_of_mem_outPiece64 (off : Fin 2 → ℕ) (inb : ∀ a, off a + S64x128.size a ≤ S204800x128.size a) (y : S204800x128.Idx)
    (hy : y ∈ ((Memref.whole main_v1_scv : Memref sig .scVector .hbm S204800x128 .f32).slice (Rect.unit (s := S204800x128) off S64x128.size inb) (fun _ => rfl)).view.set) :
    ∃ x : S64x128.Idx, y = ((Memref.whole main_v1_scv : Memref sig .scVector .hbm S204800x128 .f32).slice (Rect.unit (s := S204800x128) off S64x128.size inb) (fun _ => rfl)).view.emb x :=
  exists_of_mem_outPiece off S64x128.size inb y hy

/-! ## A worker's block -/

/-- Worker `t`'s block of the flat result is the rows `[6400 t, 6400 (t + 1))`. -/
theorem mem_blkSet (t : Fin 32) (y : S204800x128.Idx) : y ∈ blkSet t ↔ 6400 * t.val ≤ (y 0).val ∧ (y 0).val < 6400 * (t.val + 1) := by
  have hset : blkSet t = (blk t).set := by
    show ((View.whole (main_v1_scv : Ref sig .scVector)).slice (blk t)).set = _
    rw [View.set_slice]; exact Finset.map_refl
  rw [hset, Rect.mem_set_unit, Fin.forall_fin_two]
  have hy1 : (y 1).val < 128 := (y 1).isLt
  show ((t.val * 6400 ≤ (y 0).val ∧ (y 0).val < t.val * 6400 + 6400) ∧ (0 * 128 ≤ (y 1).val ∧ (y 1).val < 0 * 128 + 128))
    ↔ (6400 * t.val ≤ (y 0).val ∧ (y 0).val < 6400 * (t.val + 1))
  omega

/-- A tile's base row is `6400` times its worker's number. -/
theorem base_eq (L : grid0.Coords) :
    12800 * (L 1).val + 6400 * (L 0).val
      = 6400 * (wid (Fin.cast (show grid0.bound 0 = 2 from rfl) (L 0)) (Fin.cast (show grid0.bound 1 = 16 from rfl) (L 1))).val := by
  show 12800 * (L 1).val + 6400 * (L 0).val = 6400 * (2 * (L 1).val + (L 0).val)
  omega

end Cert.Proof.KI

end
-- ==== Proof.KIOut.lean ====
/-
  The seventy pieces of a tile's block of the flat result, as the kernel's copies name them: thirty of 128 rows
  (piece `n < 30`: rows `[base + 128 n, base + 128 (n + 1))`) and forty of 64 rows (piece `30 + j`: rows
  `[base + 3840 + 64 j, base + 3840 + 64 (j + 1))`), `base = 6400 · worker`. They are pairwise disjoint and cover the block.
-/
import proofs.«206231_g69020124446782_cont_9to1c4b_129_32_alg».proof.Proof.KIPieces

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Piece `n`'s elements, each under the spelling of the copy that writes it. -/
def outK (L : grid0.Coords) : Fin 70 → Finset S204800x128.Idx
  | ⟨0, _⟩ => (((Memref.whole main_v1_scv : Memref sig .scVector .hbm S204800x128 .f32).slice (Rect.unit (s := S204800x128) (k0_off3 L ⟨0, (of_decide_eq_true rfl)⟩ 0#32) S128x128.size (k0_off3_inb L ⟨0, (of_decide_eq_true rfl)⟩ 0)) (fun _ => rfl))).view.set
  | ⟨1, _⟩ => (((Memref.whole main_v1_scv : Memref sig .scVector .hbm S204800x128 .f32).slice (Rect.unit (s := S204800x128) (k0_off3 L ⟨0, (of_decide_eq_true rfl)⟩ 1#32) S128x128.size (k0_off3_inb L ⟨0, (of_decide_eq_true rfl)⟩ 1)) (fun _ => rfl))).view.set
  | ⟨2, _⟩ => (((Memref.whole main_v1_scv : Memref sig .scVector .hbm S204800x128 .f32).slice (Rect.unit (s := S204800x128) (k0_off3 L ⟨0, (of_decide_eq_true rfl)⟩ 2#32) S128x128.size (k0_off3_inb L ⟨0, (of_decide_eq_true rfl)⟩ 2)) (fun _ => rfl))).view.set
  | ⟨3, _⟩ => (((Memref.whole main_v1_scv : Memref sig .scVector .hbm S204800x128 .f32).slice (Rect.unit (s := S204800x128) (k0_off3 L ⟨1, (of_decide_eq_true rfl)⟩ 0#32) S128x128.size (k0_off3_inb L ⟨1, (of_decide_eq_true rfl)⟩ 0)) (fun _ => rfl))).view.set
  | ⟨4, _⟩ => (((Memref.whole main_v1_scv : Memref sig .scVector .hbm S204800x128 .f32).slice (Rect.unit (s := S204800x128) (k0_off3 L ⟨1, (of_decide_eq_true rfl)⟩ 1#32) S128x128.size (k0_off3_inb L ⟨1, (of_decide_eq_true rfl)⟩ 1)) (fun _ => rfl))).view.set
  | ⟨5, _⟩ => (((Memref.whole main_v1_scv : Memref sig .scVector .hbm S204800x128 .f32).slice (Rect.unit (s := S204800x128) (k0_off3 L ⟨1, (of_decide_eq_true rfl)⟩ 2#32) S128x128.size (k0_off3_inb L ⟨1, (of_decide_eq_true rfl)⟩ 2)) (fun _ => rfl))).view.set
  | ⟨6, _⟩ => (((Memref.whole main_v1_scv : Memref sig .scVector .hbm S204800x128 .f32).slice (Rect.unit (s := S204800x128) (k0_off3 L ⟨2, (of_decide_eq_true rfl)⟩ 0#32) S128x128.size (k0_off3_inb L ⟨2, (of_decide_eq_true rfl)⟩ 0)) (fun _ => rfl))).view.set
  | ⟨7, _⟩ => (((Memref.whole main_v1_scv : Memref sig .scVector .hbm S204800x128 .f32).slice (Rect.unit (s := S204800x128) (k0_off3 L ⟨2, (of_decide_eq_true rfl)⟩ 1#32) S128x128.size (k0_off3_inb L ⟨2, (of_decide_eq_true rfl)⟩ 1)) (fun _ => rfl))).view.set
  | ⟨8, _⟩ => (((Memref.whole main_v1_scv : Memref sig .scVector .hbm S204800x128 .f32).slice (Rect.unit (s := S204800x128) (k0_off3 L ⟨2, (of_decide_eq_true rfl)⟩ 2#32) S128x128.size (k0_off3_inb L ⟨2, (of_decide_eq_true rfl)⟩ 2)) (fun _ => rfl))).view.set
  | ⟨9, _⟩ => (((Memref.whole main_v1_scv : Memref sig .scVector .hbm S204800x128 .f32).slice (Rect.unit (s := S204800x128) (k0_off3 L ⟨3, (of_decide_eq_true rfl)⟩ 0#32) S128x128.size (k0_off3_inb L ⟨3, (of_decide_eq_true rfl)⟩ 0)) (fun _ => rfl))).view.set
  | ⟨10, _⟩ => (((Memref.whole main_v1_scv : Memref sig .scVector .hbm S204800x128 .f32).slice (Rect.unit (s := S204800x128) (k0_off3 L ⟨3, (of_decide_eq_true rfl)⟩ 1#32) S128x128.size (k0_off3_inb L ⟨3, (of_decide_eq_true rfl)⟩ 1)) (fun _ => rfl))).view.set
  | ⟨11, _⟩ => (((Memref.whole main_v1_scv : Memref sig .scVector .hbm S204800x128 .f32).slice (Rect.unit (s := S204800x128) (k0_off3 L ⟨3, (of_decide_eq_true rfl)⟩ 2#32) S128x128.size (k0_off3_inb L ⟨3, (of_decide_eq_true rfl)⟩ 2)) (fun _ => rfl))).view.set
  | ⟨12, _⟩ => (((Memref.whole main_v1_scv : Memref sig .scVector .hbm S204800x128 .f32).slice (Rect.unit (s := S204800x128) (k0_off3 L ⟨4, (of_decide_eq_true rfl)⟩ 0#32) S128x128.size (k0_off3_inb L ⟨4, (of_decide_eq_true rfl)⟩ 0)) (fun _ => rfl))).view.set
  | ⟨13, _⟩ => (((Memref.whole main_v1_scv : Memref sig .scVector .hbm S204800x128 .f32).slice (Rect.unit (s := S204800x128) (k0_off3 L ⟨4, (of_decide_eq_true rfl)⟩ 1#32) S128x128.size (k0_off3_inb L ⟨4, (of_decide_eq_true rfl)⟩ 1)) (fun _ => rfl))).view.set
  | ⟨14, _⟩ => (((Memref.whole main_v1_scv : Memref sig .scVector .hbm S204800x128 .f32).slice (Rect.unit (s := S204800x128) (k0_off3 L ⟨4, (of_decide_eq_true rfl)⟩ 2#32) S128x128.size (k0_off3_inb L ⟨4, (of_decide_eq_true rfl)⟩ 2)) (fun _ => rfl))).view.set
  | ⟨15, _⟩ => (((Memref.whole main_v1_scv : Memref sig .scVector .hbm S204800x128 .f32).slice (Rect.unit (s := S204800x128) (k0_off3 L ⟨5, (of_decide_eq_true rfl)⟩ 0#32) S128x128.size (k0_off3_inb L ⟨5, (of_decide_eq_true rfl)⟩ 0)) (fun _ => rfl))).view.set
  | ⟨16, _⟩ => (((Memref.whole main_v1_scv : Memref sig .scVector .hbm S204800x128 .f32).slice (Rect.unit (s := S204800x128) (k0_off3 L ⟨5, (of_decide_eq_true rfl)⟩ 1#32) S128x128.size (k0_off3_inb L ⟨5, (of_decide_eq_true rfl)⟩ 1)) (fun _ => rfl))).view.set
  | ⟨17, _⟩ => (((Memref.whole main_v1_scv : Memref sig .scVector .hbm S204800x128 .f32).slice (Rect.unit (s := S204800x128) (k0_off3 L ⟨5, (of_decide_eq_true rfl)⟩ 2#32) S128x128.size (k0_off3_inb L ⟨5, (of_decide_eq_true rfl)⟩ 2)) (fun _ => rfl))).view.set
  | ⟨18, _⟩ => (((Memref.whole main_v1_scv : Memref sig .scVector .hbm S204800x128 .f32).slice (Rect.unit (s := S204800x128) (k0_off3 L ⟨6, (of_decide_eq_true rfl)⟩ 0#32) S128x128.size (k0_off3_inb L ⟨6, (of_decide_eq_true rfl)⟩ 0)) (fun _ => rfl))).view.set
  | ⟨19, _⟩ => (((Memref.whole main_v1_scv : Memref sig .scVector .hbm S204800x128 .f32).slice (Rect.unit (s := S204800x128) (k0_off3 L ⟨6, (of_decide_eq_true rfl)⟩ 1#32) S128x128.size (k0_off3_inb L ⟨6, (of_decide_eq_true rfl)⟩ 1)) (fun _ => rfl))).view.set
  | ⟨20, _⟩ => (((Memref.whole main_v1_scv : Memref sig .scVector .hbm S204800x128 .f32).slice (Rect.unit (s := S204800x128) (k0_off3 L ⟨6, (of_decide_eq_true rfl)⟩ 2#32) S128x128.size (k0_off3_inb L ⟨6, (of_decide_eq_true rfl)⟩ 2)) (fun _ => rfl))).view.set
  | ⟨21, _⟩ => (((Memref.whole main_v1_scv : Memref sig .scVector .hbm S204800x128 .f32).slice (Rect.unit (s := S204800x128) (k0_off3 L ⟨7, (of_decide_eq_true rfl)⟩ 0#32) S128x128.size (k0_off3_inb L ⟨7, (of_decide_eq_true rfl)⟩ 0)) (fun _ => rfl))).view.set
  | ⟨22, _⟩ => (((Memref.whole main_v1_scv : Memref sig .scVector .hbm S204800x128 .f32).slice (Rect.unit (s := S204800x128) (k0_off3 L ⟨7, (of_decide_eq_true rfl)⟩ 1#32) S128x128.size (k0_off3_inb L ⟨7, (of_decide_eq_true rfl)⟩ 1)) (fun _ => rfl))).view.set
  | ⟨23, _⟩ => (((Memref.whole main_v1_scv : Memref sig .scVector .hbm S204800x128 .f32).slice (Rect.unit (s := S204800x128) (k0_off3 L ⟨7, (of_decide_eq_true rfl)⟩ 2#32) S128x128.size (k0_off3_inb L ⟨7, (of_decide_eq_true rfl)⟩ 2)) (fun _ => rfl))).view.set
  | ⟨24, _⟩ => (((Memref.whole main_v1_scv : Memref sig .scVector .hbm S204800x128 .f32).slice (Rect.unit (s := S204800x128) (k0_off3 L ⟨8, (of_decide_eq_true rfl)⟩ 0#32) S128x128.size (k0_off3_inb L ⟨8, (of_decide_eq_true rfl)⟩ 0)) (fun _ => rfl))).view.set
  | ⟨25, _⟩ => (((Memref.whole main_v1_scv : Memref sig .scVector .hbm S204800x128 .f32).slice (Rect.unit (s := S204800x128) (k0_off3 L ⟨8, (of_decide_eq_true rfl)⟩ 1#32) S128x128.size (k0_off3_inb L ⟨8, (of_decide_eq_true rfl)⟩ 1)) (fun _ => rfl))).view.set
  | ⟨26, _⟩ => (((Memref.whole main_v1_scv : Memref sig .scVector .hbm S204800x128 .f32).slice (Rect.unit (s := S204800x128) (k0_off3 L ⟨8, (of_decide_eq_true rfl)⟩ 2#32) S128x128.size (k0_off3_inb L ⟨8, (of_decide_eq_true rfl)⟩ 2)) (fun _ => rfl))).view.set
  | ⟨27, _⟩ => (((Memref.whole main_v1_scv : Memref sig .scVector .hbm S204800x128 .f32).slice (Rect.unit (s := S204800x128) (k0_off3 L ⟨9, (of_decide_eq_true rfl)⟩ 0#32) S128x128.size (k0_off3_inb L ⟨9, (of_decide_eq_true rfl)⟩ 0)) (fun _ => rfl))).view.set
  | ⟨28, _⟩ => (((Memref.whole main_v1_scv : Memref sig .scVector .hbm S204800x128 .f32).slice (Rect.unit (s := S204800x128) (k0_off3 L ⟨9, (of_decide_eq_true rfl)⟩ 1#32) S128x128.size (k0_off3_inb L ⟨9, (of_decide_eq_true rfl)⟩ 1)) (fun _ => rfl))).view.set
  | ⟨29, _⟩ => (((Memref.whole main_v1_scv : Memref sig .scVector .hbm S204800x128 .f32).slice (Rect.unit (s := S204800x128) (k0_off3 L ⟨9, (of_decide_eq_true rfl)⟩ 2#32) S128x128.size (k0_off3_inb L ⟨9, (of_decide_eq_true rfl)⟩ 2)) (fun _ => rfl))).view.set
  | ⟨30, _⟩ => (((Memref.whole main_v1_scv : Memref sig .scVector .hbm S204800x128 .f32).slice (Rect.unit (s := S204800x128) (k0_off22 L ⟨0, (of_decide_eq_true rfl)⟩) S64x128.size (k0_off22_inb L ⟨0, (of_decide_eq_true rfl)⟩ (of_decide_eq_true rfl))) (fun _ => rfl))).view.set
  | ⟨31, _⟩ => (((Memref.whole main_v1_scv : Memref sig .scVector .hbm S204800x128 .f32).slice (Rect.unit (s := S204800x128) (k0_off28 L ⟨0, (of_decide_eq_true rfl)⟩) S64x128.size (k0_off28_inb L ⟨0, (of_decide_eq_true rfl)⟩ (of_decide_eq_true rfl))) (fun _ => rfl))).view.set
  | ⟨32, _⟩ => (((Memref.whole main_v1_scv : Memref sig .scVector .hbm S204800x128 .f32).slice (Rect.unit (s := S204800x128) (k0_off34 L ⟨0, (of_decide_eq_true rfl)⟩) S64x128.size (k0_off34_inb L ⟨0, (of_decide_eq_true rfl)⟩ (of_decide_eq_true rfl))) (fun _ => rfl))).view.set
  | ⟨33, _⟩ => (((Memref.whole main_v1_scv : Memref sig .scVector .hbm S204800x128 .f32).slice (Rect.unit (s := S204800x128) (k0_off15 L ⟨1, (of_decide_eq_true rfl)⟩) S64x128.size (k0_off15_inb L ⟨1, (of_decide_eq_true rfl)⟩ (of_decide_eq_true rfl))) (fun _ => rfl))).view.set
  | ⟨34, _⟩ => (((Memref.whole main_v1_scv : Memref sig .scVector .hbm S204800x128 .f32).slice (Rect.unit (s := S204800x128) (k0_off22 L ⟨1, (of_decide_eq_true rfl)⟩) S64x128.size (k0_off22_inb L ⟨1, (of_decide_eq_true rfl)⟩ (of_decide_eq_true rfl))) (fun _ => rfl))).view.set
  | ⟨35, _⟩ => (((Memref.whole main_v1_scv : Memref sig .scVector .hbm S204800x128 .f32).slice (Rect.unit (s := S204800x128) (k0_off28 L ⟨1, (of_decide_eq_true rfl)⟩) S64x128.size (k0_off28_inb L ⟨1, (of_decide_eq_true rfl)⟩ (of_decide_eq_true rfl))) (fun _ => rfl))).view.set
  | ⟨36, _⟩ => (((Memref.whole main_v1_scv : Memref sig .scVector .hbm S204800x128 .f32).slice (Rect.unit (s := S204800x128) (k0_off34 L ⟨1, (of_decide_eq_true rfl)⟩) S64x128.size (k0_off34_inb L ⟨1, (of_decide_eq_true rfl)⟩ (of_decide_eq_true rfl))) (fun _ => rfl))).view.set
  | ⟨37, _⟩ => (((Memref.whole main_v1_scv : Memref sig .scVector .hbm S204800x128 .f32).slice (Rect.unit (s := S204800x128) (k0_off15 L ⟨2, (of_decide_eq_true rfl)⟩) S64x128.size (k0_off15_inb L ⟨2, (of_decide_eq_true rfl)⟩ (of_decide_eq_true rfl))) (fun _ => rfl))).view.set
  | ⟨38, _⟩ => (((Memref.whole main_v1_scv : Memref sig .scVector .hbm S204800x128 .f32).slice (Rect.unit (s := S204800x128) (k0_off22 L ⟨2, (of_decide_eq_true rfl)⟩) S64x128.size (k0_off22_inb L ⟨2, (of_decide_eq_true rfl)⟩ (of_decide_eq_true rfl))) (fun _ => rfl))).view.set
  | ⟨39, _⟩ => (((Memref.whole main_v1_scv : Memref sig .scVector .hbm S204800x128 .f32).slice (Rect.unit (s := S204800x128) (k0_off28 L ⟨2, (of_decide_eq_true rfl)⟩) S64x128.size (k0_off28_inb L ⟨2, (of_decide_eq_true rfl)⟩ (of_decide_eq_true rfl))) (fun _ => rfl))).view.set
  | ⟨40, _⟩ => (((Memref.whole main_v1_scv : Memref sig .scVector .hbm S204800x128 .f32).slice (Rect.unit (s := S204800x128) (k0_off34 L ⟨2, (of_decide_eq_true rfl)⟩) S64x128.size (k0_off34_inb L ⟨2, (of_decide_eq_true rfl)⟩ (of_decide_eq_true rfl))) (fun _ => rfl))).view.set
  | ⟨41, _⟩ => (((Memref.whole main_v1_scv : Memref sig .scVector .hbm S204800x128 .f32).slice (Rect.unit (s := S204800x128) (k0_off15 L ⟨3, (of_decide_eq_true rfl)⟩) S64x128.size (k0_off15_inb L ⟨3, (of_decide_eq_true rfl)⟩ (of_decide_eq_true rfl))) (fun _ => rfl))).view.set
  | ⟨42, _⟩ => (((Memref.whole main_v1_scv : Memref sig .scVector .hbm S204800x128 .f32).slice (Rect.unit (s := S204800x128) (k0_off22 L ⟨3, (of_decide_eq_true rfl)⟩) S64x128.size (k0_off22_inb L ⟨3, (of_decide_eq_true rfl)⟩ (of_decide_eq_true rfl))) (fun _ => rfl))).view.set
  | ⟨43, _⟩ => (((Memref.whole main_v1_scv : Memref sig .scVector .hbm S204800x128 .f32).slice (Rect.unit (s := S204800x128) (k0_off28 L ⟨3, (of_decide_eq_true rfl)⟩) S64x128.size (k0_off28_inb L ⟨3, (of_decide_eq_true rfl)⟩ (of_decide_eq_true rfl))) (fun _ => rfl))).view.set
  | ⟨44, _⟩ => (((Memref.whole main_v1_scv : Memref sig .scVector .hbm S204800x128 .f32).slice (Rect.unit (s := S204800x128) (k0_off34 L ⟨3, (of_decide_eq_true rfl)⟩) S64x128.size (k0_off34_inb L ⟨3, (of_decide_eq_true rfl)⟩ (of_decide_eq_true rfl))) (fun _ => rfl))).view.set
  | ⟨45, _⟩ => (((Memref.whole main_v1_scv : Memref sig .scVector .hbm S204800x128 .f32).slice (Rect.unit (s := S204800x128) (k0_off15 L ⟨4, (of_decide_eq_true rfl)⟩) S64x128.size (k0_off15_inb L ⟨4, (of_decide_eq_true rfl)⟩ (of_decide_eq_true rfl))) (fun _ => rfl))).view.set
  | ⟨46, _⟩ => (((Memref.whole main_v1_scv : Memref sig .scVector .hbm S204800x128 .f32).slice (Rect.unit (s := S204800x128) (k0_off22 L ⟨4, (of_decide_eq_true rfl)⟩) S64x128.size (k0_off22_inb L ⟨4, (of_decide_eq_true rfl)⟩ (of_decide_eq_true rfl))) (fun _ => rfl))).view.set
  | ⟨47, _⟩ => (((Memref.whole main_v1_scv : Memref sig .scVector .hbm S204800x128 .f32).slice (Rect.unit (s := S204800x128) (k0_off28 L ⟨4, (of_decide_eq_true rfl)⟩) S64x128.size (k0_off28_inb L ⟨4, (of_decide_eq_true rfl)⟩ (of_decide_eq_true rfl))) (fun _ => rfl))).view.set
  | ⟨48, _⟩ => (((Memref.whole main_v1_scv : Memref sig .scVector .hbm S204800x128 .f32).slice (Rect.unit (s := S204800x128) (k0_off34 L ⟨4, (of_decide_eq_true rfl)⟩) S64x128.size (k0_off34_inb L ⟨4, (of_decide_eq_true rfl)⟩ (of_decide_eq_true rfl))) (fun _ => rfl))).view.set
  | ⟨49, _⟩ => (((Memref.whole main_v1_scv : Memref sig .scVector .hbm S204800x128 .f32).slice (Rect.unit (s := S204800x128) (k0_off15 L ⟨5, (of_decide_eq_true rfl)⟩) S64x128.size (k0_off15_inb L ⟨5, (of_decide_eq_true rfl)⟩ (of_decide_eq_true rfl))) (fun _ => rfl))).view.set
  | ⟨50, _⟩ => (((Memref.whole main_v1_scv : Memref sig .scVector .hbm S204800x128 .f32).slice (Rect.unit (s := S204800x128) (k0_off22 L ⟨5, (of_decide_eq_true rfl)⟩) S64x128.size (k0_off22_inb L ⟨5, (of_decide_eq_true rfl)⟩ (of_decide_eq_true rfl))) (fun _ => rfl))).view.set
  | ⟨51, _⟩ => (((Memref.whole main_v1_scv : Memref sig .scVector .hbm S204800x128 .f32).slice (Rect.unit (s := S204800x128) (k0_off28 L ⟨5, (of_decide_eq_true rfl)⟩) S64x128.size (k0_off28_inb L ⟨5, (of_decide_eq_true rfl)⟩ (of_decide_eq_true rfl))) (fun _ => rfl))).view.set
  | ⟨52, _⟩ => (((Memref.whole main_v1_scv : Memref sig .scVector .hbm S204800x128 .f32).slice (Rect.unit (s := S204800x128) (k0_off34 L ⟨5, (of_decide_eq_true rfl)⟩) S64x128.size (k0_off34_inb L ⟨5, (of_decide_eq_true rfl)⟩ (of_decide_eq_true rfl))) (fun _ => rfl))).view.set
  | ⟨53, _⟩ => (((Memref.whole main_v1_scv : Memref sig .scVector .hbm S204800x128 .f32).slice (Rect.unit (s := S204800x128) (k0_off15 L ⟨6, (of_decide_eq_true rfl)⟩) S64x128.size (k0_off15_inb L ⟨6, (of_decide_eq_true rfl)⟩ (of_decide_eq_true rfl))) (fun _ => rfl))).view.set
  | ⟨54, _⟩ => (((Memref.whole main_v1_scv : Memref sig .scVector .hbm S204800x128 .f32).slice (Rect.unit (s := S204800x128) (k0_off22 L ⟨6, (of_decide_eq_true rfl)⟩) S64x128.size (k0_off22_inb L ⟨6, (of_decide_eq_true rfl)⟩ (of_decide_eq_true rfl))) (fun _ => rfl))).view.set
  | ⟨55, _⟩ => (((Memref.whole main_v1_scv : Memref sig .scVector .hbm S204800x128 .f32).slice (Rect.unit (s := S204800x128) (k0_off28 L ⟨6, (of_decide_eq_true rfl)⟩) S64x128.size (k0_off28_inb L ⟨6, (of_decide_eq_true rfl)⟩ (of_decide_eq_true rfl))) (fun _ => rfl))).view.set
  | ⟨56, _⟩ => (((Memref.whole main_v1_scv : Memref sig .scVector .hbm S204800x128 .f32).slice (Rect.unit (s := S204800x128) (k0_off34 L ⟨6, (of_decide_eq_true rfl)⟩) S64x128.size (k0_off34_inb L ⟨6, (of_decide_eq_true rfl)⟩ (of_decide_eq_true rfl))) (fun _ => rfl))).view.set
  | ⟨57, _⟩ => (((Memref.whole main_v1_scv : Memref sig .scVector .hbm S204800x128 .f32).slice (Rect.unit (s := S204800x128) (k0_off15 L ⟨7, (of_decide_eq_true rfl)⟩) S64x128.size (k0_off15_inb L ⟨7, (of_decide_eq_true rfl)⟩ (of_decide_eq_true rfl))) (fun _ => rfl))).view.set
  | ⟨58, _⟩ => (((Memref.whole main_v1_scv : Memref sig .scVector .hbm S204800x128 .f32).slice (Rect.unit (s := S204800x128) (k0_off22 L ⟨7, (of_decide_eq_true rfl)⟩) S64x128.size (k0_off22_inb L ⟨7, (of_decide_eq_true rfl)⟩ (of_decide_eq_true rfl))) (fun _ => rfl))).view.set
  | ⟨59, _⟩ => (((Memref.whole main_v1_scv : Memref sig .scVector .hbm S204800x128 .f32).slice (Rect.unit (s := S204800x128) (k0_off28 L ⟨7, (of_decide_eq_true rfl)⟩) S64x128.size (k0_off28_inb L ⟨7, (of_decide_eq_true rfl)⟩ (of_decide_eq_true rfl))) (fun _ => rfl))).view.set
  | ⟨60, _⟩ => (((Memref.whole main_v1_scv : Memref sig .scVector .hbm S204800x128 .f32).slice (Rect.unit (s := S204800x128) (k0_off34 L ⟨7, (of_decide_eq_true rfl)⟩) S64x128.size (k0_off34_inb L ⟨7, (of_decide_eq_true rfl)⟩ (of_decide_eq_true rfl))) (fun _ => rfl))).view.set
  | ⟨61, _⟩ => (((Memref.whole main_v1_scv : Memref sig .scVector .hbm S204800x128 .f32).slice (Rect.unit (s := S204800x128) (k0_off15 L ⟨8, (of_decide_eq_true rfl)⟩) S64x128.size (k0_off15_inb L ⟨8, (of_decide_eq_true rfl)⟩ (of_decide_eq_true rfl))) (fun _ => rfl))).view.set
  | ⟨62, _⟩ => (((Memref.whole main_v1_scv : Memref sig .scVector .hbm S204800x128 .f32).slice (Rect.unit (s := S204800x128) (k0_off22 L ⟨8, (of_decide_eq_true rfl)⟩) S64x128.size (k0_off22_inb L ⟨8, (of_decide_eq_true rfl)⟩ (of_decide_eq_true rfl))) (fun _ => rfl))).view.set
  | ⟨63, _⟩ => (((Memref.whole main_v1_scv : Memref sig .scVector .hbm S204800x128 .f32).slice (Rect.unit (s := S204800x128) (k0_off28 L ⟨8, (of_decide_eq_true rfl)⟩) S64x128.size (k0_off28_inb L ⟨8, (of_decide_eq_true rfl)⟩ (of_decide_eq_true rfl))) (fun _ => rfl))).view.set
  | ⟨64, _⟩ => (((Memref.whole main_v1_scv : Memref sig .scVector .hbm S204800x128 .f32).slice (Rect.unit (s := S204800x128) (k0_off34 L ⟨8, (of_decide_eq_true rfl)⟩) S64x128.size (k0_off34_inb L ⟨8, (of_decide_eq_true rfl)⟩ (of_decide_eq_true rfl))) (fun _ => rfl))).view.set
  | ⟨65, _⟩ => (((Memref.whole main_v1_scv : Memref sig .scVector .hbm S204800x128 .f32).slice (Rect.unit (s := S204800x128) (k0_off15 L ⟨9, (of_decide_eq_true rfl)⟩) S64x128.size (k0_off15_inb L ⟨9, (of_decide_eq_true rfl)⟩ (of_decide_eq_true rfl))) (fun _ => rfl))).view.set
  | ⟨66, _⟩ => (((Memref.whole main_v1_scv : Memref sig .scVector .hbm S204800x128 .f32).slice (Rect.unit (s := S204800x128) (k0_off22 L ⟨9, (of_decide_eq_true rfl)⟩) S64x128.size (k0_off22_inb L ⟨9, (of_decide_eq_true rfl)⟩ (of_decide_eq_true rfl))) (fun _ => rfl))).view.set
  | ⟨67, _⟩ => (((Memref.whole main_v1_scv : Memref sig .scVector .hbm S204800x128 .f32).slice (Rect.unit (s := S204800x128) (k0_off28 L ⟨9, (of_decide_eq_true rfl)⟩) S64x128.size (k0_off28_inb L ⟨9, (of_decide_eq_true rfl)⟩ (of_decide_eq_true rfl))) (fun _ => rfl))).view.set
  | ⟨68, _⟩ => (((Memref.whole main_v1_scv : Memref sig .scVector .hbm S204800x128 .f32).slice (Rect.unit (s := S204800x128) (k0_off34 L ⟨9, (of_decide_eq_true rfl)⟩) S64x128.size (k0_off34_inb L ⟨9, (of_decide_eq_true rfl)⟩ (of_decide_eq_true rfl))) (fun _ => rfl))).view.set
  | ⟨69, _⟩ => (((Memref.whole main_v1_scv : Memref sig .scVector .hbm S204800x128 .f32).slice (Rect.unit (s := S204800x128) (k0_off38 L 2496#32) S64x128.size (k0_off38_inb L 3)) (fun _ => rfl))).view.set
  | ⟨n + 70, h⟩ => absurd h (by omega)

/-! ## The pieces as intervals of rows -/

/-- Piece `n`'s first row, and how many rows it has. -/
def outLo (L : grid0.Coords) (n : Fin 70) : ℕ := 12800 * (L 1).val + 6400 * (L 0).val + (if n.val < 30 then 128 * n.val else 3840 + 64 * (n.val - 30))
def outLen (n : Fin 70) : ℕ := if n.val < 30 then 128 else 64

/-- A piece of 128 rows, written in trip `t` as its `r`-th: piece `3 t + r`. -/
theorem mem_off3 (L : grid0.Coords) (t : Fin k0_t1_loop.trips) (r : Fin 3)
    (inb : ∀ a, (k0_off3 L t (BitVec.ofNat 32 r.val)) a + S128x128.size a ≤ S204800x128.size a)
    (y : S204800x128.Idx) (n : Fin 70) (hn : n.val = 3 * t.val + r.val) :
    y ∈ ((Memref.whole main_v1_scv : Memref sig .scVector .hbm S204800x128 .f32).slice (Rect.unit (s := S204800x128) (k0_off3 L t (BitVec.ofNat 32 r.val)) S128x128.size inb) (fun _ => rfl)).view.set ↔ outLo L n ≤ (y 0).val ∧ (y 0).val < outLo L n + outLen n := by
  have ht : t.val < 10 := t.isLt
  have hr : r.val < 3 := r.isLt
  have hlt : n.val < 30 := by omega
  rw [mem_outPiece128 _ inb (12800 * (L 1).val + 6400 * (L 0).val + 384 * t.val + 128 * r.val) (by rw [k0_off3_eq]; rfl) (by rw [k0_off3_eq]; rfl) y]
  unfold outLo outLen
  rw [if_pos hlt, if_pos hlt, hn]
  omega

theorem mem_off22 (L : grid0.Coords) (t : Fin k0_t1_loop.trips) (inb : ∀ a, (k0_off22 L t) a + S64x128.size a ≤ S204800x128.size a)
    (y : S204800x128.Idx) (n : Fin 70) (hn : n.val = 30 + 4 * t.val) :
    y ∈ ((Memref.whole main_v1_scv : Memref sig .scVector .hbm S204800x128 .f32).slice (Rect.unit (s := S204800x128) (k0_off22 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3840) (by rw [k0_off22_eq]; rfl) (by rw [k0_off22_eq]; rfl) y]
  unfold outLo outLen
  rw [if_neg hge, if_neg hge, hn]
  omega

theorem mem_off28 (L : grid0.Coords) (t : Fin k0_t1_loop.trips) (inb : ∀ a, (k0_off28 L t) a + S64x128.size a ≤ S204800x128.size a)
    (y : S204800x128.Idx) (n : Fin 70) (hn : n.val = 31 + 4 * t.val) :
    y ∈ ((Memref.whole main_v1_scv : Memref sig .scVector .hbm S204800x128 .f32).slice (Rect.unit (s := S204800x128) (k0_off28 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3904) (by rw [k0_off28_eq]; rfl) (by rw [k0_off28_eq]; rfl) y]
  unfold outLo outLen
  rw [if_neg hge, if_neg hge, hn]
  omega

theorem mem_off34 (L : grid0.Coords) (t : Fin k0_t1_loop.trips) (inb : ∀ a, (k0_off34 L t) a + S64x128.size a ≤ S204800x128.size a)
    (y : S204800x128.Idx) (n : Fin 70) (hn : n.val = 32 + 4 * t.val) :
    y ∈ ((Memref.whole main_v1_scv : Memref sig .scVector .hbm S204800x128 .f32).slice (Rect.unit (s := S204800x128) (k0_off34 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3968) (by rw [k0_off34_eq]; rfl) (by rw [k0_off34_eq]; rfl) y]
  unfold outLo outLen
  rw [if_neg hge, if_neg hge, hn]
  omega

theorem mem_off15 (L : grid0.Coords) (t : Fin k0_t1_loop.trips) (inb : ∀ a, (k0_off15 L t) a + S64x128.size a ≤ S204800x128.size a)
    (y : S204800x128.Idx) (n : Fin 70) (hn : n.val = 29 + 4 * t.val) (ht : 0 < t.val) :
    y ∈ ((Memref.whole main_v1_scv : Memref sig .scVector .hbm S204800x128 .f32).slice (Rect.unit (s := S204800x128) (k0_off15 L t) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 256 * t.val + 3776) (by rw [k0_off15_eq]; rfl) (by rw [k0_off15_eq]; rfl) y]
  unfold outLo outLen
  rw [if_neg hge, if_neg hge, hn]
  omega

/-- The last piece, written after the loop. -/
theorem mem_off38 (L : grid0.Coords) (r : Fin 4) (inb : ∀ a, (k0_off38 L (BitVec.ofNat 32 (2304 + 64 * r.val))) a + S64x128.size a ≤ S204800x128.size a)
    (y : S204800x128.Idx) (n : Fin 70) (hn : n.val = 66 + r.val) :
    y ∈ ((Memref.whole main_v1_scv : Memref sig .scVector .hbm S204800x128 .f32).slice (Rect.unit (s := S204800x128) (k0_off38 L (BitVec.ofNat 32 (2304 + 64 * r.val))) S64x128.size inb) (fun _ => rfl)).view.set ↔ outLo L n ≤ (y 0).val ∧ (y 0).val < outLo L n + outLen n := by
  have hge : ¬ n.val < 30 := by omega
  rw [mem_outPiece64 _ inb (12800 * (L 1).val + 6400 * (L 0).val + 64 * r.val + 6144) (by rw [k0_off38_eq]; rfl) (by rw [k0_off38_eq]; rfl) y]
  unfold outLo outLen
  rw [if_neg hge, if_neg hge, hn]
  omega

/-- Piece `n` is the rows `[outLo L n, outLo L n + outLen n)`. -/
theorem mem_outK (L : grid0.Coords) (n : Fin 70) (y : S204800x128.Idx) : y ∈ outK L n ↔ outLo L n ≤ (y 0).val ∧ (y 0).val < outLo L n + outLen n :=
  match n with
  | ⟨0, h⟩ => mem_off3 L ⟨0, (of_decide_eq_true rfl)⟩ ⟨0, (of_decide_eq_true rfl)⟩ _ y ⟨0, h⟩ rfl
  | ⟨1, h⟩ => mem_off3 L ⟨0, (of_decide_eq_true rfl)⟩ ⟨1, (of_decide_eq_true rfl)⟩ _ y ⟨1, h⟩ rfl
  | ⟨2, h⟩ => mem_off3 L ⟨0, (of_decide_eq_true rfl)⟩ ⟨2, (of_decide_eq_true rfl)⟩ _ y ⟨2, h⟩ rfl
  | ⟨3, h⟩ => mem_off3 L ⟨1, (of_decide_eq_true rfl)⟩ ⟨0, (of_decide_eq_true rfl)⟩ _ y ⟨3, h⟩ rfl
  | ⟨4, h⟩ => mem_off3 L ⟨1, (of_decide_eq_true rfl)⟩ ⟨1, (of_decide_eq_true rfl)⟩ _ y ⟨4, h⟩ rfl
  | ⟨5, h⟩ => mem_off3 L ⟨1, (of_decide_eq_true rfl)⟩ ⟨2, (of_decide_eq_true rfl)⟩ _ y ⟨5, h⟩ rfl
  | ⟨6, h⟩ => mem_off3 L ⟨2, (of_decide_eq_true rfl)⟩ ⟨0, (of_decide_eq_true rfl)⟩ _ y ⟨6, h⟩ rfl
  | ⟨7, h⟩ => mem_off3 L ⟨2, (of_decide_eq_true rfl)⟩ ⟨1, (of_decide_eq_true rfl)⟩ _ y ⟨7, h⟩ rfl
  | ⟨8, h⟩ => mem_off3 L ⟨2, (of_decide_eq_true rfl)⟩ ⟨2, (of_decide_eq_true rfl)⟩ _ y ⟨8, h⟩ rfl
  | ⟨9, h⟩ => mem_off3 L ⟨3, (of_decide_eq_true rfl)⟩ ⟨0, (of_decide_eq_true rfl)⟩ _ y ⟨9, h⟩ rfl
  | ⟨10, h⟩ => mem_off3 L ⟨3, (of_decide_eq_true rfl)⟩ ⟨1, (of_decide_eq_true rfl)⟩ _ y ⟨10, h⟩ rfl
  | ⟨11, h⟩ => mem_off3 L ⟨3, (of_decide_eq_true rfl)⟩ ⟨2, (of_decide_eq_true rfl)⟩ _ y ⟨11, h⟩ rfl
  | ⟨12, h⟩ => mem_off3 L ⟨4, (of_decide_eq_true rfl)⟩ ⟨0, (of_decide_eq_true rfl)⟩ _ y ⟨12, h⟩ rfl
  | ⟨13, h⟩ => mem_off3 L ⟨4, (of_decide_eq_true rfl)⟩ ⟨1, (of_decide_eq_true rfl)⟩ _ y ⟨13, h⟩ rfl
  | ⟨14, h⟩ => mem_off3 L ⟨4, (of_decide_eq_true rfl)⟩ ⟨2, (of_decide_eq_true rfl)⟩ _ y ⟨14, h⟩ rfl
  | ⟨15, h⟩ => mem_off3 L ⟨5, (of_decide_eq_true rfl)⟩ ⟨0, (of_decide_eq_true rfl)⟩ _ y ⟨15, h⟩ rfl
  | ⟨16, h⟩ => mem_off3 L ⟨5, (of_decide_eq_true rfl)⟩ ⟨1, (of_decide_eq_true rfl)⟩ _ y ⟨16, h⟩ rfl
  | ⟨17, h⟩ => mem_off3 L ⟨5, (of_decide_eq_true rfl)⟩ ⟨2, (of_decide_eq_true rfl)⟩ _ y ⟨17, h⟩ rfl
  | ⟨18, h⟩ => mem_off3 L ⟨6, (of_decide_eq_true rfl)⟩ ⟨0, (of_decide_eq_true rfl)⟩ _ y ⟨18, h⟩ rfl
  | ⟨19, h⟩ => mem_off3 L ⟨6, (of_decide_eq_true rfl)⟩ ⟨1, (of_decide_eq_true rfl)⟩ _ y ⟨19, h⟩ rfl
  | ⟨20, h⟩ => mem_off3 L ⟨6, (of_decide_eq_true rfl)⟩ ⟨2, (of_decide_eq_true rfl)⟩ _ y ⟨20, h⟩ rfl
  | ⟨21, h⟩ => mem_off3 L ⟨7, (of_decide_eq_true rfl)⟩ ⟨0, (of_decide_eq_true rfl)⟩ _ y ⟨21, h⟩ rfl
  | ⟨22, h⟩ => mem_off3 L ⟨7, (of_decide_eq_true rfl)⟩ ⟨1, (of_decide_eq_true rfl)⟩ _ y ⟨22, h⟩ rfl
  | ⟨23, h⟩ => mem_off3 L ⟨7, (of_decide_eq_true rfl)⟩ ⟨2, (of_decide_eq_true rfl)⟩ _ y ⟨23, h⟩ rfl
  | ⟨24, h⟩ => mem_off3 L ⟨8, (of_decide_eq_true rfl)⟩ ⟨0, (of_decide_eq_true rfl)⟩ _ y ⟨24, h⟩ rfl
  | ⟨25, h⟩ => mem_off3 L ⟨8, (of_decide_eq_true rfl)⟩ ⟨1, (of_decide_eq_true rfl)⟩ _ y ⟨25, h⟩ rfl
  | ⟨26, h⟩ => mem_off3 L ⟨8, (of_decide_eq_true rfl)⟩ ⟨2, (of_decide_eq_true rfl)⟩ _ y ⟨26, h⟩ rfl
  | ⟨27, h⟩ => mem_off3 L ⟨9, (of_decide_eq_true rfl)⟩ ⟨0, (of_decide_eq_true rfl)⟩ _ y ⟨27, h⟩ rfl
  | ⟨28, h⟩ => mem_off3 L ⟨9, (of_decide_eq_true rfl)⟩ ⟨1, (of_decide_eq_true rfl)⟩ _ y ⟨28, h⟩ rfl
  | ⟨29, h⟩ => mem_off3 L ⟨9, (of_decide_eq_true rfl)⟩ ⟨2, (of_decide_eq_true rfl)⟩ _ y ⟨29, h⟩ rfl
  | ⟨30, h⟩ => mem_off22 L ⟨0, (of_decide_eq_true rfl)⟩ _ y ⟨30, h⟩ rfl
  | ⟨31, h⟩ => mem_off28 L ⟨0, (of_decide_eq_true rfl)⟩ _ y ⟨31, h⟩ rfl
  | ⟨32, h⟩ => mem_off34 L ⟨0, (of_decide_eq_true rfl)⟩ _ y ⟨32, h⟩ rfl
  | ⟨33, h⟩ => mem_off15 L ⟨1, (of_decide_eq_true rfl)⟩ _ y ⟨33, h⟩ rfl (of_decide_eq_true rfl)
  | ⟨34, h⟩ => mem_off22 L ⟨1, (of_decide_eq_true rfl)⟩ _ y ⟨34, h⟩ rfl
  | ⟨35, h⟩ => mem_off28 L ⟨1, (of_decide_eq_true rfl)⟩ _ y ⟨35, h⟩ rfl
  | ⟨36, h⟩ => mem_off34 L ⟨1, (of_decide_eq_true rfl)⟩ _ y ⟨36, h⟩ rfl
  | ⟨37, h⟩ => mem_off15 L ⟨2, (of_decide_eq_true rfl)⟩ _ y ⟨37, h⟩ rfl (of_decide_eq_true rfl)
  | ⟨38, h⟩ => mem_off22 L ⟨2, (of_decide_eq_true rfl)⟩ _ y ⟨38, h⟩ rfl
  | ⟨39, h⟩ => mem_off28 L ⟨2, (of_decide_eq_true rfl)⟩ _ y ⟨39, h⟩ rfl
  | ⟨40, h⟩ => mem_off34 L ⟨2, (of_decide_eq_true rfl)⟩ _ y ⟨40, h⟩ rfl
  | ⟨41, h⟩ => mem_off15 L ⟨3, (of_decide_eq_true rfl)⟩ _ y ⟨41, h⟩ rfl (of_decide_eq_true rfl)
  | ⟨42, h⟩ => mem_off22 L ⟨3, (of_decide_eq_true rfl)⟩ _ y ⟨42, h⟩ rfl
  | ⟨43, h⟩ => mem_off28 L ⟨3, (of_decide_eq_true rfl)⟩ _ y ⟨43, h⟩ rfl
  | ⟨44, h⟩ => mem_off34 L ⟨3, (of_decide_eq_true rfl)⟩ _ y ⟨44, h⟩ rfl
  | ⟨45, h⟩ => mem_off15 L ⟨4, (of_decide_eq_true rfl)⟩ _ y ⟨45, h⟩ rfl (of_decide_eq_true rfl)
  | ⟨46, h⟩ => mem_off22 L ⟨4, (of_decide_eq_true rfl)⟩ _ y ⟨46, h⟩ rfl
  | ⟨47, h⟩ => mem_off28 L ⟨4, (of_decide_eq_true rfl)⟩ _ y ⟨47, h⟩ rfl
  | ⟨48, h⟩ => mem_off34 L ⟨4, (of_decide_eq_true rfl)⟩ _ y ⟨48, h⟩ rfl
  | ⟨49, h⟩ => mem_off15 L ⟨5, (of_decide_eq_true rfl)⟩ _ y ⟨49, h⟩ rfl (of_decide_eq_true rfl)
  | ⟨50, h⟩ => mem_off22 L ⟨5, (of_decide_eq_true rfl)⟩ _ y ⟨50, h⟩ rfl
  | ⟨51, h⟩ => mem_off28 L ⟨5, (of_decide_eq_true rfl)⟩ _ y ⟨51, h⟩ rfl
  | ⟨52, h⟩ => mem_off34 L ⟨5, (of_decide_eq_true rfl)⟩ _ y ⟨52, h⟩ rfl
  | ⟨53, h⟩ => mem_off15 L ⟨6, (of_decide_eq_true rfl)⟩ _ y ⟨53, h⟩ rfl (of_decide_eq_true rfl)
  | ⟨54, h⟩ => mem_off22 L ⟨6, (of_decide_eq_true rfl)⟩ _ y ⟨54, h⟩ rfl
  | ⟨55, h⟩ => mem_off28 L ⟨6, (of_decide_eq_true rfl)⟩ _ y ⟨55, h⟩ rfl
  | ⟨56, h⟩ => mem_off34 L ⟨6, (of_decide_eq_true rfl)⟩ _ y ⟨56, h⟩ rfl
  | ⟨57, h⟩ => mem_off15 L ⟨7, (of_decide_eq_true rfl)⟩ _ y ⟨57, h⟩ rfl (of_decide_eq_true rfl)
  | ⟨58, h⟩ => mem_off22 L ⟨7, (of_decide_eq_true rfl)⟩ _ y ⟨58, h⟩ rfl
  | ⟨59, h⟩ => mem_off28 L ⟨7, (of_decide_eq_true rfl)⟩ _ y ⟨59, h⟩ rfl
  | ⟨60, h⟩ => mem_off34 L ⟨7, (of_decide_eq_true rfl)⟩ _ y ⟨60, h⟩ rfl
  | ⟨61, h⟩ => mem_off15 L ⟨8, (of_decide_eq_true rfl)⟩ _ y ⟨61, h⟩ rfl (of_decide_eq_true rfl)
  | ⟨62, h⟩ => mem_off22 L ⟨8, (of_decide_eq_true rfl)⟩ _ y ⟨62, h⟩ rfl
  | ⟨63, h⟩ => mem_off28 L ⟨8, (of_decide_eq_true rfl)⟩ _ y ⟨63, h⟩ rfl
  | ⟨64, h⟩ => mem_off34 L ⟨8, (of_decide_eq_true rfl)⟩ _ y ⟨64, h⟩ rfl
  | ⟨65, h⟩ => mem_off15 L ⟨9, (of_decide_eq_true rfl)⟩ _ y ⟨65, h⟩ rfl (of_decide_eq_true rfl)
  | ⟨66, h⟩ => mem_off22 L ⟨9, (of_decide_eq_true rfl)⟩ _ y ⟨66, h⟩ rfl
  | ⟨67, h⟩ => mem_off28 L ⟨9, (of_decide_eq_true rfl)⟩ _ y ⟨67, h⟩ rfl
  | ⟨68, h⟩ => mem_off34 L ⟨9, (of_decide_eq_true rfl)⟩ _ y ⟨68, h⟩ rfl
  | ⟨69, h⟩ => mem_off38 L ⟨3, (of_decide_eq_true rfl)⟩ _ y ⟨69, h⟩ rfl
  | ⟨k + 70, h⟩ => absurd h (by omega)

/-- Different pieces share no row. -/
theorem outK_disjoint (L : grid0.Coords) :
    ∀ i ∈ (Finset.univ : Finset (Fin 70)), ∀ j ∈ (Finset.univ : Finset (Fin 70)), i ≠ j → Disjoint (outK L i) (outK L j) := by
  intro i _ j _ hij
  have hv : i.val ≠ j.val := fun e => hij (Fin.ext e)
  have hi' := i.isLt
  have hj' := j.isLt
  rw [Finset.disjoint_left]
  intro y hi hj
  rw [mem_outK] at hi hj
  unfold outLo outLen at hi hj
  split_ifs at hi hj <;> omega

/-- The pieces are the worker's block: its 6400 rows are thirty times 128 and forty times 64. -/
theorem outK_cover (L : grid0.Coords) : (Finset.univ : Finset (Fin 70)).biUnion (outK L) = blkSet (wid (Fin.cast (show grid0.bound 0 = 2 from rfl) (L 0)) (Fin.cast (show grid0.bound 1 = 16 from rfl) (L 1))) := by
  ext y
  have hb := base_eq L
  rw [Finset.mem_biUnion, mem_blkSet]
  constructor
  · rintro ⟨n, -, hn⟩
    rw [mem_outK] at hn
    unfold outLo outLen at hn
    have hn' := n.isLt
    split_ifs at hn <;> omega
  · intro hy
    by_cases h : (y 0).val - (12800 * (L 1).val + 6400 * (L 0).val) < 3840
    · obtain ⟨q, hq⟩ : ∃ q : Fin 70, q.val = ((y 0).val - (12800 * (L 1).val + 6400 * (L 0).val)) / 128 := ⟨⟨_, by omega⟩, rfl⟩
      refine ⟨q, Finset.mem_univ _, ?_⟩
      rw [mem_outK]
      unfold outLo outLen
      have hlt : q.val < 30 := by omega
      rw [if_pos hlt, if_pos hlt]
      omega
    · obtain ⟨q, hq⟩ : ∃ q : Fin 70, q.val = 30 + ((y 0).val - (12800 * (L 1).val + 6400 * (L 0).val) - 3840) / 64 := ⟨⟨_, by omega⟩, rfl⟩
      refine ⟨q, Finset.mem_univ _, ?_⟩
      rw [mem_outK]
      unfold outLo outLen
      have hge : ¬ q.val < 30 := by omega
      rw [if_neg hge, if_neg hge]
      omega

/-! ## The block held as its pieces -/

section Split

open Idealize.ShloMosaic.SparseCore.Cfg (HIx)

variable {F : FTy → Type}

local notation "𝕄" => MT nD τ sig (HIx 1) (Elt F) ℕ UU ℕ

/-- A worker's block of the flat result is its seventy pieces. -/
theorem out_split (d : Dev nD) (L : grid0.Coords) (f : Buf (Elt F) (outLoc d)) :
    (outLoc d ↦[blkSet (wid (Fin.cast (show grid0.bound 0 = 2 from rfl) (L 0)) (Fin.cast (show grid0.bound 1 = 16 from rfl) (L 1)))]{fullShare} f : sProp 𝕄) = bigSep Finset.univ fun n : Fin 70 => outLoc d ↦[outK L n]{fullShare} f := by
  rw [← pointsTo_biUnion Finset.univ (ℓ := outLoc d) (outK L) (outK_disjoint L), outK_cover]

/-- Seventy assertions, one by one in order. -/
theorem out_split_fin (Φ : Fin 70 → sProp 𝕄) :
    bigSep Finset.univ Φ = iprop(Φ ⟨0, (of_decide_eq_true rfl)⟩ ∗ Φ ⟨1, (of_decide_eq_true rfl)⟩ ∗ Φ ⟨2, (of_decide_eq_true rfl)⟩ ∗ Φ ⟨3, (of_decide_eq_true rfl)⟩ ∗ Φ ⟨4, (of_decide_eq_true rfl)⟩ ∗ Φ ⟨5, (of_decide_eq_true rfl)⟩ ∗ Φ ⟨6, (of_decide_eq_true rfl)⟩ ∗ Φ ⟨7, (of_decide_eq_true rfl)⟩ ∗ Φ ⟨8, (of_decide_eq_true rfl)⟩ ∗ Φ ⟨9, (of_decide_eq_true rfl)⟩ ∗ Φ ⟨10, (of_decide_eq_true rfl)⟩ ∗ Φ ⟨11, (of_decide_eq_true rfl)⟩ ∗ Φ ⟨12, (of_decide_eq_true rfl)⟩ ∗ Φ ⟨13, (of_decide_eq_true rfl)⟩ ∗ Φ ⟨14, (of_decide_eq_true rfl)⟩ ∗ Φ ⟨15, (of_decide_eq_true rfl)⟩ ∗ Φ ⟨16, (of_decide_eq_true rfl)⟩ ∗ Φ ⟨17, (of_decide_eq_true rfl)⟩ ∗ Φ ⟨18, (of_decide_eq_true rfl)⟩ ∗ Φ ⟨19, (of_decide_eq_true rfl)⟩ ∗ Φ ⟨20, (of_decide_eq_true rfl)⟩ ∗ Φ ⟨21, (of_decide_eq_true rfl)⟩ ∗ Φ ⟨22, (of_decide_eq_true rfl)⟩ ∗ Φ ⟨23, (of_decide_eq_true rfl)⟩ ∗ Φ ⟨24, (of_decide_eq_true rfl)⟩ ∗ Φ ⟨25, (of_decide_eq_true rfl)⟩ ∗ Φ ⟨26, (of_decide_eq_true rfl)⟩ ∗ Φ ⟨27, (of_decide_eq_true rfl)⟩ ∗ Φ ⟨28, (of_decide_eq_true rfl)⟩ ∗ Φ ⟨29, (of_decide_eq_true rfl)⟩ ∗ Φ ⟨30, (of_decide_eq_true rfl)⟩ ∗ Φ ⟨31, (of_decide_eq_true rfl)⟩ ∗ Φ ⟨32, (of_decide_eq_true rfl)⟩ ∗ Φ ⟨33, (of_decide_eq_true rfl)⟩ ∗ Φ ⟨34, (of_decide_eq_true rfl)⟩ ∗ Φ ⟨35, (of_decide_eq_true rfl)⟩ ∗ Φ ⟨36, (of_decide_eq_true rfl)⟩ ∗ Φ ⟨37, (of_decide_eq_true rfl)⟩ ∗ Φ ⟨38, (of_decide_eq_true rfl)⟩ ∗ Φ ⟨39, (of_decide_eq_true rfl)⟩ ∗ Φ ⟨40, (of_decide_eq_true rfl)⟩ ∗ Φ ⟨41, (of_decide_eq_true rfl)⟩ ∗ Φ ⟨42, (of_decide_eq_true rfl)⟩ ∗ Φ ⟨43, (of_decide_eq_true rfl)⟩ ∗ Φ ⟨44, (of_decide_eq_true rfl)⟩ ∗ Φ ⟨45, (of_decide_eq_true rfl)⟩ ∗ Φ ⟨46, (of_decide_eq_true rfl)⟩ ∗ Φ ⟨47, (of_decide_eq_true rfl)⟩ ∗ Φ ⟨48, (of_decide_eq_true rfl)⟩ ∗ Φ ⟨49, (of_decide_eq_true rfl)⟩ ∗ Φ ⟨50, (of_decide_eq_true rfl)⟩ ∗ Φ ⟨51, (of_decide_eq_true rfl)⟩ ∗ Φ ⟨52, (of_decide_eq_true rfl)⟩ ∗ Φ ⟨53, (of_decide_eq_true rfl)⟩ ∗ Φ ⟨54, (of_decide_eq_true rfl)⟩ ∗ Φ ⟨55, (of_decide_eq_true rfl)⟩ ∗ Φ ⟨56, (of_decide_eq_true rfl)⟩ ∗ Φ ⟨57, (of_decide_eq_true rfl)⟩ ∗ Φ ⟨58, (of_decide_eq_true rfl)⟩ ∗ Φ ⟨59, (of_decide_eq_true rfl)⟩ ∗ Φ ⟨60, (of_decide_eq_true rfl)⟩ ∗ Φ ⟨61, (of_decide_eq_true rfl)⟩ ∗ Φ ⟨62, (of_decide_eq_true rfl)⟩ ∗ Φ ⟨63, (of_decide_eq_true rfl)⟩ ∗ Φ ⟨64, (of_decide_eq_true rfl)⟩ ∗ Φ ⟨65, (of_decide_eq_true rfl)⟩ ∗ Φ ⟨66, (of_decide_eq_true rfl)⟩ ∗ Φ ⟨67, (of_decide_eq_true rfl)⟩ ∗ Φ ⟨68, (of_decide_eq_true rfl)⟩ ∗ Φ ⟨69, (of_decide_eq_true rfl)⟩ ∗ emp) := by
  refine (bigSep_univ_eq_bigSepL (List.finRange 70) (List.toFinset_finRange 70).symm (List.nodup_finRange 70) Φ).trans ?_
  rw [show List.finRange 70 = [⟨0, (of_decide_eq_true rfl)⟩, ⟨1, (of_decide_eq_true rfl)⟩, ⟨2, (of_decide_eq_true rfl)⟩, ⟨3, (of_decide_eq_true rfl)⟩, ⟨4, (of_decide_eq_true rfl)⟩, ⟨5, (of_decide_eq_true rfl)⟩, ⟨6, (of_decide_eq_true rfl)⟩, ⟨7, (of_decide_eq_true rfl)⟩, ⟨8, (of_decide_eq_true rfl)⟩, ⟨9, (of_decide_eq_true rfl)⟩, ⟨10, (of_decide_eq_true rfl)⟩, ⟨11, (of_decide_eq_true rfl)⟩, ⟨12, (of_decide_eq_true rfl)⟩, ⟨13, (of_decide_eq_true rfl)⟩, ⟨14, (of_decide_eq_true rfl)⟩, ⟨15, (of_decide_eq_true rfl)⟩, ⟨16, (of_decide_eq_true rfl)⟩, ⟨17, (of_decide_eq_true rfl)⟩, ⟨18, (of_decide_eq_true rfl)⟩, ⟨19, (of_decide_eq_true rfl)⟩, ⟨20, (of_decide_eq_true rfl)⟩, ⟨21, (of_decide_eq_true rfl)⟩, ⟨22, (of_decide_eq_true rfl)⟩, ⟨23, (of_decide_eq_true rfl)⟩, ⟨24, (of_decide_eq_true rfl)⟩, ⟨25, (of_decide_eq_true rfl)⟩, ⟨26, (of_decide_eq_true rfl)⟩, ⟨27, (of_decide_eq_true rfl)⟩, ⟨28, (of_decide_eq_true rfl)⟩, ⟨29, (of_decide_eq_true rfl)⟩, ⟨30, (of_decide_eq_true rfl)⟩, ⟨31, (of_decide_eq_true rfl)⟩, ⟨32, (of_decide_eq_true rfl)⟩, ⟨33, (of_decide_eq_true rfl)⟩, ⟨34, (of_decide_eq_true rfl)⟩, ⟨35, (of_decide_eq_true rfl)⟩, ⟨36, (of_decide_eq_true rfl)⟩, ⟨37, (of_decide_eq_true rfl)⟩, ⟨38, (of_decide_eq_true rfl)⟩, ⟨39, (of_decide_eq_true rfl)⟩, ⟨40, (of_decide_eq_true rfl)⟩, ⟨41, (of_decide_eq_true rfl)⟩, ⟨42, (of_decide_eq_true rfl)⟩, ⟨43, (of_decide_eq_true rfl)⟩, ⟨44, (of_decide_eq_true rfl)⟩, ⟨45, (of_decide_eq_true rfl)⟩, ⟨46, (of_decide_eq_true rfl)⟩, ⟨47, (of_decide_eq_true rfl)⟩, ⟨48, (of_decide_eq_true rfl)⟩, ⟨49, (of_decide_eq_true rfl)⟩, ⟨50, (of_decide_eq_true rfl)⟩, ⟨51, (of_decide_eq_true rfl)⟩, ⟨52, (of_decide_eq_true rfl)⟩, ⟨53, (of_decide_eq_true rfl)⟩, ⟨54, (of_decide_eq_true rfl)⟩, ⟨55, (of_decide_eq_true rfl)⟩, ⟨56, (of_decide_eq_true rfl)⟩, ⟨57, (of_decide_eq_true rfl)⟩, ⟨58, (of_decide_eq_true rfl)⟩, ⟨59, (of_decide_eq_true rfl)⟩, ⟨60, (of_decide_eq_true rfl)⟩, ⟨61, (of_decide_eq_true rfl)⟩, ⟨62, (of_decide_eq_true rfl)⟩, ⟨63, (of_decide_eq_true rfl)⟩, ⟨64, (of_decide_eq_true rfl)⟩, ⟨65, (of_decide_eq_true rfl)⟩, ⟨66, (of_decide_eq_true rfl)⟩, ⟨67, (of_decide_eq_true rfl)⟩, ⟨68, (of_decide_eq_true rfl)⟩, ⟨69, (of_decide_eq_true rfl)⟩] from by decide]
  simp only [bigSepL_cons, bigSepL_nil]
  rfl

/-- A worker's block of the flat result is its seventy pieces, one by one in order. -/
theorem out_split_list (d : Dev nD) (L : grid0.Coords) (f : Buf (Elt F) (outLoc d)) :
    (outLoc d ↦[blkSet (wid (Fin.cast (show grid0.bound 0 = 2 from rfl) (L 0)) (Fin.cast (show grid0.bound 1 = 16 from rfl) (L 1)))]{fullShare} f : sProp 𝕄)
      = iprop((outLoc d ↦[outK L ⟨0, (of_decide_eq_true rfl)⟩]{fullShare} f) ∗ (outLoc d ↦[outK L ⟨1, (of_decide_eq_true rfl)⟩]{fullShare} f) ∗ (outLoc d ↦[outK L ⟨2, (of_decide_eq_true rfl)⟩]{fullShare} f) ∗ (outLoc d ↦[outK L ⟨3, (of_decide_eq_true rfl)⟩]{fullShare} f) ∗ (outLoc d ↦[outK L ⟨4, (of_decide_eq_true rfl)⟩]{fullShare} f) ∗ (outLoc d ↦[outK L ⟨5, (of_decide_eq_true rfl)⟩]{fullShare} f) ∗ (outLoc d ↦[outK L ⟨6, (of_decide_eq_true rfl)⟩]{fullShare} f) ∗ (outLoc d ↦[outK L ⟨7, (of_decide_eq_true rfl)⟩]{fullShare} f) ∗ (outLoc d ↦[outK L ⟨8, (of_decide_eq_true rfl)⟩]{fullShare} f) ∗ (outLoc d ↦[outK L ⟨9, (of_decide_eq_true rfl)⟩]{fullShare} f) ∗ (outLoc d ↦[outK L ⟨10, (of_decide_eq_true rfl)⟩]{fullShare} f) ∗ (outLoc d ↦[outK L ⟨11, (of_decide_eq_true rfl)⟩]{fullShare} f) ∗ (outLoc d ↦[outK L ⟨12, (of_decide_eq_true rfl)⟩]{fullShare} f) ∗ (outLoc d ↦[outK L ⟨13, (of_decide_eq_true rfl)⟩]{fullShare} f) ∗ (outLoc d ↦[outK L ⟨14, (of_decide_eq_true rfl)⟩]{fullShare} f) ∗ (outLoc d ↦[outK L ⟨15, (of_decide_eq_true rfl)⟩]{fullShare} f) ∗ (outLoc d ↦[outK L ⟨16, (of_decide_eq_true rfl)⟩]{fullShare} f) ∗ (outLoc d ↦[outK L ⟨17, (of_decide_eq_true rfl)⟩]{fullShare} f) ∗ (outLoc d ↦[outK L ⟨18, (of_decide_eq_true rfl)⟩]{fullShare} f) ∗ (outLoc d ↦[outK L ⟨19, (of_decide_eq_true rfl)⟩]{fullShare} f) ∗ (outLoc d ↦[outK L ⟨20, (of_decide_eq_true rfl)⟩]{fullShare} f) ∗ (outLoc d ↦[outK L ⟨21, (of_decide_eq_true rfl)⟩]{fullShare} f) ∗ (outLoc d ↦[outK L ⟨22, (of_decide_eq_true rfl)⟩]{fullShare} f) ∗ (outLoc d ↦[outK L ⟨23, (of_decide_eq_true rfl)⟩]{fullShare} f) ∗ (outLoc d ↦[outK L ⟨24, (of_decide_eq_true rfl)⟩]{fullShare} f) ∗ (outLoc d ↦[outK L ⟨25, (of_decide_eq_true rfl)⟩]{fullShare} f) ∗ (outLoc d ↦[outK L ⟨26, (of_decide_eq_true rfl)⟩]{fullShare} f) ∗ (outLoc d ↦[outK L ⟨27, (of_decide_eq_true rfl)⟩]{fullShare} f) ∗ (outLoc d ↦[outK L ⟨28, (of_decide_eq_true rfl)⟩]{fullShare} f) ∗ (outLoc d ↦[outK L ⟨29, (of_decide_eq_true rfl)⟩]{fullShare} f) ∗ (outLoc d ↦[outK L ⟨30, (of_decide_eq_true rfl)⟩]{fullShare} f) ∗ (outLoc d ↦[outK L ⟨31, (of_decide_eq_true rfl)⟩]{fullShare} f) ∗ (outLoc d ↦[outK L ⟨32, (of_decide_eq_true rfl)⟩]{fullShare} f) ∗ (outLoc d ↦[outK L ⟨33, (of_decide_eq_true rfl)⟩]{fullShare} f) ∗ (outLoc d ↦[outK L ⟨34, (of_decide_eq_true rfl)⟩]{fullShare} f) ∗ (outLoc d ↦[outK L ⟨35, (of_decide_eq_true rfl)⟩]{fullShare} f) ∗ (outLoc d ↦[outK L ⟨36, (of_decide_eq_true rfl)⟩]{fullShare} f) ∗ (outLoc d ↦[outK L ⟨37, (of_decide_eq_true rfl)⟩]{fullShare} f) ∗ (outLoc d ↦[outK L ⟨38, (of_decide_eq_true rfl)⟩]{fullShare} f) ∗ (outLoc d ↦[outK L ⟨39, (of_decide_eq_true rfl)⟩]{fullShare} f) ∗ (outLoc d ↦[outK L ⟨40, (of_decide_eq_true rfl)⟩]{fullShare} f) ∗ (outLoc d ↦[outK L ⟨41, (of_decide_eq_true rfl)⟩]{fullShare} f) ∗ (outLoc d ↦[outK L ⟨42, (of_decide_eq_true rfl)⟩]{fullShare} f) ∗ (outLoc d ↦[outK L ⟨43, (of_decide_eq_true rfl)⟩]{fullShare} f) ∗ (outLoc d ↦[outK L ⟨44, (of_decide_eq_true rfl)⟩]{fullShare} f) ∗ (outLoc d ↦[outK L ⟨45, (of_decide_eq_true rfl)⟩]{fullShare} f) ∗ (outLoc d ↦[outK L ⟨46, (of_decide_eq_true rfl)⟩]{fullShare} f) ∗ (outLoc d ↦[outK L ⟨47, (of_decide_eq_true rfl)⟩]{fullShare} f) ∗ (outLoc d ↦[outK L ⟨48, (of_decide_eq_true rfl)⟩]{fullShare} f) ∗ (outLoc d ↦[outK L ⟨49, (of_decide_eq_true rfl)⟩]{fullShare} f) ∗ (outLoc d ↦[outK L ⟨50, (of_decide_eq_true rfl)⟩]{fullShare} f) ∗ (outLoc d ↦[outK L ⟨51, (of_decide_eq_true rfl)⟩]{fullShare} f) ∗ (outLoc d ↦[outK L ⟨52, (of_decide_eq_true rfl)⟩]{fullShare} f) ∗ (outLoc d ↦[outK L ⟨53, (of_decide_eq_true rfl)⟩]{fullShare} f) ∗ (outLoc d ↦[outK L ⟨54, (of_decide_eq_true rfl)⟩]{fullShare} f) ∗ (outLoc d ↦[outK L ⟨55, (of_decide_eq_true rfl)⟩]{fullShare} f) ∗ (outLoc d ↦[outK L ⟨56, (of_decide_eq_true rfl)⟩]{fullShare} f) ∗ (outLoc d ↦[outK L ⟨57, (of_decide_eq_true rfl)⟩]{fullShare} f) ∗ (outLoc d ↦[outK L ⟨58, (of_decide_eq_true rfl)⟩]{fullShare} f) ∗ (outLoc d ↦[outK L ⟨59, (of_decide_eq_true rfl)⟩]{fullShare} f) ∗ (outLoc d ↦[outK L ⟨60, (of_decide_eq_true rfl)⟩]{fullShare} f) ∗ (outLoc d ↦[outK L ⟨61, (of_decide_eq_true rfl)⟩]{fullShare} f) ∗ (outLoc d ↦[outK L ⟨62, (of_decide_eq_true rfl)⟩]{fullShare} f) ∗ (outLoc d ↦[outK L ⟨63, (of_decide_eq_true rfl)⟩]{fullShare} f) ∗ (outLoc d ↦[outK L ⟨64, (of_decide_eq_true rfl)⟩]{fullShare} f) ∗ (outLoc d ↦[outK L ⟨65, (of_decide_eq_true rfl)⟩]{fullShare} f) ∗ (outLoc d ↦[outK L ⟨66, (of_decide_eq_true rfl)⟩]{fullShare} f) ∗ (outLoc d ↦[outK L ⟨67, (of_decide_eq_true rfl)⟩]{fullShare} f) ∗ (outLoc d ↦[outK L ⟨68, (of_decide_eq_true rfl)⟩]{fullShare} f) ∗ (outLoc d ↦[outK L ⟨69, (of_decide_eq_true rfl)⟩]{fullShare} f) ∗ emp) :=
  (out_split d L f).trans (out_split_fin (F := F) fun n => outLoc d ↦[outK L n]{fullShare} f)

end Split

end Cert.Proof.KI

end
-- ==== Proof.KISh.lean ====
/-
  The four slots of a tile's row of the SparseCore's shared staging memory, as the kernel's copies into them name
  them. They are pairwise disjoint and cover the row.
-/
import proofs.«206231_g69020124446782_cont_9to1c4b_129_32_alg».proof.Proof.KICommon
import proofs.«206231_g69020124446782_cont_9to1c4b_129_32_alg».proof.Proof.Gen.KernelIdeal.Skeleton

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Slot `b`'s elements, under the spelling of the copy that fills it. -/
def shK (L : grid0.Coords) : Fin 4 → Finset S16x4x64x128.Idx
  | ⟨0, _⟩ => ((((Memref.whole cc0_scratch3 : Memref sig .scVector .shared S16x4x64x128 .f32).slice (Rect.unit (s := S16x4x64x128) (k0_off13 L) S1x1x64x128.size (k0_off13_inb L)) (fun _ => rfl)).squeeze S64x128 squeezes_S1x1x64x128_S64x128)).view.set
  | ⟨1, _⟩ => ((((Memref.whole cc0_scratch3 : Memref sig .scVector .shared S16x4x64x128 .f32).slice (Rect.unit (s := S16x4x64x128) (k0_off20 L) S1x1x64x128.size (k0_off20_inb L)) (fun _ => rfl)).squeeze S64x128 squeezes_S1x1x64x128_S64x128)).view.set
  | ⟨2, _⟩ => ((((Memref.whole cc0_scratch3 : Memref sig .scVector .shared S16x4x64x128 .f32).slice (Rect.unit (s := S16x4x64x128) (k0_off26 L) S1x1x64x128.size (k0_off26_inb L)) (fun _ => rfl)).squeeze S64x128 squeezes_S1x1x64x128_S64x128)).view.set
  | ⟨3, _⟩ => ((((Memref.whole cc0_scratch3 : Memref sig .scVector .shared S16x4x64x128 .f32).slice (Rect.unit (s := S16x4x64x128) (k0_off32 L) S1x1x64x128.size (k0_off32_inb L)) (fun _ => rfl)).squeeze S64x128 squeezes_S1x1x64x128_S64x128)).view.set
  | ⟨n + 4, h⟩ => absurd h (by omega)

/-! ## Which elements a slot holds -/

/-- The elements of a unit-stride piece of the staging memory, with axes of size one dropped: on each axis, from the
    offset, as many as the size. -/
theorem mem_shPiece (off size : Fin 4 → ℕ) (inb : ∀ a, off a + size a ≤ S16x4x64x128.size a) {s' : Shape}
    (hsq : (Rect.unit (s := S16x4x64x128) off size inb).shape.Squeezes s') (y : S16x4x64x128.Idx) :
    y ∈ (((Memref.whole cc0_scratch3 : Memref sig .scVector .shared S16x4x64x128 .f32).slice (Rect.unit (s := S16x4x64x128) off size inb) (fun _ => rfl)).squeeze s' hsq).view.set
      ↔ ∀ a, off a ≤ (y a).val ∧ (y a).val < off a + size a := by
  show y ∈ (((View.whole (cc0_scratch3 : Ref sig .scVector)).slice (Rect.unit (s := S16x4x64x128) off size inb)).reshape s' hsq.numel_eq).set ↔ _
  rw [View.set_reshape, View.set_slice_whole]
  exact Rect.mem_set_unit

/-- A piece of one row and one slot, whole on the last two axes, at row `L 1` and slot `k`: its elements are those of
    that row and that slot. -/
theorem mem_shSlot (L : grid0.Coords) (k : ℕ) (off : Fin 4 → ℕ) (hoff : off = ![(L 1).val, k, 0, 0])
    (inb : ∀ a, off a + S1x1x64x128.size a ≤ S16x4x64x128.size a) (y : S16x4x64x128.Idx) :
    y ∈ (((Memref.whole cc0_scratch3 : Memref sig .scVector .shared S16x4x64x128 .f32).slice (Rect.unit (s := S16x4x64x128) off S1x1x64x128.size inb) (fun _ => rfl)).squeeze S64x128 squeezes_S1x1x64x128_S64x128).view.set
      ↔ (y 0).val = (L 1).val ∧ (y 1).val = k := by
  subst hoff
  have h2 : (y 2).val < 64 := (y 2).isLt
  have h3 : (y 3).val < 128 := (y 3).isLt
  rw [mem_shPiece]
  constructor
  · intro h
    have h0 := h 0
    have h1 := h 1
    simp at h0 h1
    omega
  · rintro ⟨e0, e1⟩ a
    fin_cases a <;> simp <;> omega

/-- Slot `b` of the tile at place `L` is the elements of row `L 1` and slot `b`. -/
theorem mem_shK (L : grid0.Coords) (b : Fin 4) (y : S16x4x64x128.Idx) : y ∈ shK L b ↔ (y 0).val = (L 1).val ∧ (y 1).val = b.val := by
  match b with
  | ⟨0, _⟩ => exact mem_shSlot L 0 (k0_off13 L) (k0_off13_eq L) (k0_off13_inb L) y
  | ⟨1, _⟩ => exact mem_shSlot L 1 (k0_off20 L) (k0_off20_eq L) (k0_off20_inb L) y
  | ⟨2, _⟩ => exact mem_shSlot L 2 (k0_off26 L) (k0_off26_eq L) (k0_off26_inb L) y
  | ⟨3, _⟩ => exact mem_shSlot L 3 (k0_off32 L) (k0_off32_eq L) (k0_off32_inb L) y

/-- A tile's row of the staging memory is the elements whose first coordinate is the tile's number. -/
theorem mem_shRowSet (i : Fin 16) (y : S16x4x64x128.Idx) : y ∈ shRowSet i ↔ (y 0).val = i.val := by
  have hset : shRowSet i = (shRow i).set := by
    show ((View.whole (cc0_scratch3 : Ref sig .scVector)).slice (shRow i)).set = _
    rw [View.set_slice_whole]
  have h1 : (y 1).val < 4 := (y 1).isLt
  have h2 : (y 2).val < 64 := (y 2).isLt
  have h3 : (y 3).val < 128 := (y 3).isLt
  rw [hset, Rect.mem_set_unit]
  constructor
  · intro h
    have h0 : i.val * 1 ≤ (y 0).val ∧ (y 0).val < i.val * 1 + 1 := h 0
    omega
  · intro e0 (a : Fin 4)
    match a with
    | ⟨0, _⟩ => show i.val * 1 ≤ (y 0).val ∧ (y 0).val < i.val * 1 + 1; omega
    | ⟨1, _⟩ => show 0 * 4 ≤ (y 1).val ∧ (y 1).val < 0 * 4 + 4; omega
    | ⟨2, _⟩ => show 0 * 64 ≤ (y 2).val ∧ (y 2).val < 0 * 64 + 64; omega
    | ⟨3, _⟩ => show 0 * 128 ≤ (y 3).val ∧ (y 3).val < 0 * 128 + 128; omega

/-! ## The four slots are disjoint and make up the row -/

theorem shK_disjoint (L : grid0.Coords) :
    ∀ i ∈ (Finset.univ : Finset (Fin 4)), ∀ j ∈ (Finset.univ : Finset (Fin 4)), i ≠ j → Disjoint (shK L i) (shK L j) :=
  fun i _ j _ hij => Finset.disjoint_left.mpr fun y hi hj =>
    hij (Fin.ext (((mem_shK L i y).mp hi).2.symm.trans ((mem_shK L j y).mp hj).2))

theorem shK_cover (L : grid0.Coords) :
    (Finset.univ : Finset (Fin 4)).biUnion (shK L) = shRowSet (Fin.cast (show grid0.bound 1 = 16 from rfl) (L 1)) := by
  ext y
  rw [Finset.mem_biUnion, mem_shRowSet]
  constructor
  · rintro ⟨b, -, hb⟩
    exact ((mem_shK L b y).mp hb).1
  · intro h
    exact ⟨⟨(y 1).val, (y 1).isLt⟩, Finset.mem_univ _, (mem_shK L _ y).mpr ⟨h, rfl⟩⟩

/-! ## The row held as its four slots -/

open Idealize.ShloMosaic.SparseCore.Cfg (HIx)

variable {F : FTy → Type}

local notation "𝕄" => MT nD τ sig (HIx 1) (Elt F) ℕ UU ℕ

/-- A tile's row of the staging memory at `g` is its four slots, each at `g`. -/
theorem sh_split_list (d : Dev nD) (L : grid0.Coords) (g : Buf (Elt F) (shLoc d ((L 0).castLE hcore0))) :
    (shLoc d ((L 0).castLE hcore0) ↦[shRowSet (Fin.cast (show grid0.bound 1 = 16 from rfl) (L 1))]{fullShare} g : sProp 𝕄)
      = iprop((shLoc d ((L 0).castLE hcore0) ↦[shK L 0]{fullShare} g) ∗ (shLoc d ((L 0).castLE hcore0) ↦[shK L 1]{fullShare} g)
          ∗ (shLoc d ((L 0).castLE hcore0) ↦[shK L 2]{fullShare} g) ∗ (shLoc d ((L 0).castLE hcore0) ↦[shK L 3]{fullShare} g)) := by
  rw [← shK_cover L]
  refine (pointsTo_biUnion Finset.univ (ℓ := shLoc d ((L 0).castLE hcore0)) (shK L) (shK_disjoint L)).trans ?_
  exact bigSep_univ_eq_bigSepL [0, 1, 2, 3] (by decide) (by decide) _

/-- The four slots, each at contents of its own, are the row at some contents. -/
theorem sh_join (d : Dev nD) (L : grid0.Coords) (g0 g1 g2 g3 : Buf (Elt F) (shLoc d ((L 0).castLE hcore0))) :
    iprop((shLoc d ((L 0).castLE hcore0) ↦[shK L 0]{fullShare} g0) ∗ (shLoc d ((L 0).castLE hcore0) ↦[shK L 1]{fullShare} g1)
        ∗ (shLoc d ((L 0).castLE hcore0) ↦[shK L 2]{fullShare} g2) ∗ (shLoc d ((L 0).castLE hcore0) ↦[shK L 3]{fullShare} g3))
      ⊢ (iprop(∃ g, shLoc d ((L 0).castLE hcore0) ↦[shRowSet (Fin.cast (show grid0.bound 1 = 16 from rfl) (L 1))]{fullShare} g) : sProp 𝕄) := by
  have e : (bigSep Finset.univ fun b : Fin 4 => (shLoc d ((L 0).castLE hcore0) ↦[shK L b]{fullShare} (![g0, g1, g2, g3] b) : sProp 𝕄))
      = iprop((shLoc d ((L 0).castLE hcore0) ↦[shK L 0]{fullShare} g0) ∗ (shLoc d ((L 0).castLE hcore0) ↦[shK L 1]{fullShare} g1)
        ∗ (shLoc d ((L 0).castLE hcore0) ↦[shK L 2]{fullShare} g2) ∗ (shLoc d ((L 0).castLE hcore0) ↦[shK L 3]{fullShare} g3)) :=
    bigSep_univ_eq_bigSepL [0, 1, 2, 3] (by decide) (by decide) _
  rw [← e]
  refine (pointsTo_biUnion_join Finset.univ (ℓ := shLoc d ((L 0).castLE hcore0)) (shK L) ![g0, g1, g2, g3] g0 (shK_disjoint L)).trans ?_
  rw [shK_cover]
  iintro ⟨%g, -, Hg⟩
  iexists g; iexact Hg

end Cert.Proof.KI

end
-- ==== Proof.KISlots.lean ====
/-
  The three 128-row slots of a tile's row buffer and the four 64-row slots of its half-row buffer, as the kernel's
  gathers into them name them. Each family is pairwise disjoint and covers its buffer.
-/
import proofs.«206231_g69020124446782_cont_9to1c4b_129_32_alg».proof.Proof.KICommon
import proofs.«206231_g69020124446782_cont_9to1c4b_129_32_alg».proof.Proof.Gen.KernelIdeal.Skeleton

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- Row slot `b`'s elements. -/
def trK : Fin 3 → Finset S3x128x128.Idx
  | ⟨0, _⟩ => ((((Memref.whole cc0_scratch1 : Memref sig .scVector .vmem S3x128x128 .f32).slice (Rect.unit (s := S3x128x128) ![0, 0, 0] S1x128x128.size inb_S3x128x128_S1x128x128_0_0_0) (fun _ => rfl)).squeeze S128x128 squeezes_S1x128x128_S128x128)).view.set
  | ⟨1, _⟩ => ((((Memref.whole cc0_scratch1 : Memref sig .scVector .vmem S3x128x128 .f32).slice (Rect.unit (s := S3x128x128) ![1, 0, 0] S1x128x128.size inb_S3x128x128_S1x128x128_1_0_0) (fun _ => rfl)).squeeze S128x128 squeezes_S1x128x128_S128x128)).view.set
  | ⟨2, _⟩ => ((((Memref.whole cc0_scratch1 : Memref sig .scVector .vmem S3x128x128 .f32).slice (Rect.unit (s := S3x128x128) ![2, 0, 0] S1x128x128.size inb_S3x128x128_S1x128x128_2_0_0) (fun _ => rfl)).squeeze S128x128 squeezes_S1x128x128_S128x128)).view.set
  | ⟨n + 3, h⟩ => absurd h (by omega)

/-- Half-row slot `q`'s elements. -/
def srK : Fin 4 → Finset S4x64x128.Idx
  | ⟨0, _⟩ => ((((Memref.whole cc0_scratch2 : Memref sig .scVector .vmem S4x64x128 .f32).slice (Rect.unit (s := S4x64x128) ![0, 0, 0] S1x64x128.size inb_S4x64x128_S1x64x128_0_0_0) (fun _ => rfl)).squeeze S64x128 squeezes_S1x64x128_S64x128)).view.set
  | ⟨1, _⟩ => ((((Memref.whole cc0_scratch2 : Memref sig .scVector .vmem S4x64x128 .f32).slice (Rect.unit (s := S4x64x128) ![1, 0, 0] S1x64x128.size inb_S4x64x128_S1x64x128_1_0_0) (fun _ => rfl)).squeeze S64x128 squeezes_S1x64x128_S64x128)).view.set
  | ⟨2, _⟩ => ((((Memref.whole cc0_scratch2 : Memref sig .scVector .vmem S4x64x128 .f32).slice (Rect.unit (s := S4x64x128) ![2, 0, 0] S1x64x128.size inb_S4x64x128_S1x64x128_2_0_0) (fun _ => rfl)).squeeze S64x128 squeezes_S1x64x128_S64x128)).view.set
  | ⟨3, _⟩ => ((((Memref.whole cc0_scratch2 : Memref sig .scVector .vmem S4x64x128 .f32).slice (Rect.unit (s := S4x64x128) ![3, 0, 0] S1x64x128.size inb_S4x64x128_S1x64x128_3_0_0) (fun _ => rfl)).squeeze S64x128 squeezes_S1x64x128_S64x128)).view.set
  | ⟨n + 4, h⟩ => absurd h (by omega)

/-! ## Which elements a slot holds -/

/-- The elements of a unit-stride piece of the row buffer, with axes of size one dropped: on each axis, from the offset, as
    many as the size. -/
theorem mem_trPiece (off size : Fin 3 → ℕ) (inb : ∀ a, off a + size a ≤ S3x128x128.size a) {s' : Shape}
    (hsq : (Rect.unit (s := S3x128x128) off size inb).shape.Squeezes s') (y : S3x128x128.Idx) :
    y ∈ (((Memref.whole cc0_scratch1 : Memref sig .scVector .vmem S3x128x128 .f32).slice (Rect.unit (s := S3x128x128) off size inb) (fun _ => rfl)).squeeze s' hsq).view.set
      ↔ ∀ a, off a ≤ (y a).val ∧ (y a).val < off a + size a := by
  show y ∈ (((View.whole (cc0_scratch1 : Ref sig .scVector)).slice (Rect.unit (s := S3x128x128) off size inb)).reshape s' hsq.numel_eq).set ↔ _
  rw [View.set_reshape, View.set_slice_whole]
  exact Rect.mem_set_unit

/-- The elements of a unit-stride piece of the half-row buffer, with axes of size one dropped: on each axis, from the offset, as
    many as the size. -/
theorem mem_srPiece (off size : Fin 3 → ℕ) (inb : ∀ a, off a + size a ≤ S4x64x128.size a) {s' : Shape}
    (hsq : (Rect.unit (s := S4x64x128) off size inb).shape.Squeezes s') (y : S4x64x128.Idx) :
    y ∈ (((Memref.whole cc0_scratch2 : Memref sig .scVector .vmem S4x64x128 .f32).slice (Rect.unit (s := S4x64x128) off size inb) (fun _ => rfl)).squeeze s' hsq).view.set
      ↔ ∀ a, off a ≤ (y a).val ∧ (y a).val < off a + size a := by
  show y ∈ (((View.whole (cc0_scratch2 : Ref sig .scVector)).slice (Rect.unit (s := S4x64x128) off size inb)).reshape s' hsq.numel_eq).set ↔ _
  rw [View.set_reshape, View.set_slice_whole]
  exact Rect.mem_set_unit

/-- A piece of one slot of the row buffer, whole on the last two axes, at slot `k`: its elements are that slot's. -/
theorem mem_trSlot (k : ℕ) (off : Fin 3 → ℕ) (hoff : off = ![k, 0, 0]) (inb : ∀ a, off a + S1x128x128.size a ≤ S3x128x128.size a)
    (y : S3x128x128.Idx) :
    y ∈ (((Memref.whole cc0_scratch1 : Memref sig .scVector .vmem S3x128x128 .f32).slice (Rect.unit (s := S3x128x128) off S1x128x128.size inb) (fun _ => rfl)).squeeze S128x128 squeezes_S1x128x128_S128x128).view.set
      ↔ (y 0).val = k := by
  subst hoff
  have h1 : (y 1).val < 128 := (y 1).isLt
  have h2 : (y 2).val < 128 := (y 2).isLt
  rw [mem_trPiece]
  constructor
  · intro h
    have h0 := h 0
    simp at h0
    omega
  · rintro e0 a
    fin_cases a <;> simp <;> omega

/-- The same for the half-row buffer. -/
theorem mem_srSlot (k : ℕ) (off : Fin 3 → ℕ) (hoff : off = ![k, 0, 0]) (inb : ∀ a, off a + S1x64x128.size a ≤ S4x64x128.size a)
    (y : S4x64x128.Idx) :
    y ∈ (((Memref.whole cc0_scratch2 : Memref sig .scVector .vmem S4x64x128 .f32).slice (Rect.unit (s := S4x64x128) off S1x64x128.size inb) (fun _ => rfl)).squeeze S64x128 squeezes_S1x64x128_S64x128).view.set
      ↔ (y 0).val = k := by
  subst hoff
  have h1 : (y 1).val < 64 := (y 1).isLt
  have h2 : (y 2).val < 128 := (y 2).isLt
  rw [mem_srPiece]
  constructor
  · intro h
    have h0 := h 0
    simp at h0
    omega
  · rintro e0 a
    fin_cases a <;> simp <;> omega

/-- Row slot `b` is the elements whose first coordinate is `b`. -/
theorem mem_trK (b : Fin 3) (y : S3x128x128.Idx) : y ∈ trK b ↔ (y 0).val = b.val := by
  match b with
  | ⟨0, _⟩ => exact mem_trSlot 0 _ rfl inb_S3x128x128_S1x128x128_0_0_0 y
  | ⟨1, _⟩ => exact mem_trSlot 1 _ rfl inb_S3x128x128_S1x128x128_1_0_0 y
  | ⟨2, _⟩ => exact mem_trSlot 2 _ rfl inb_S3x128x128_S1x128x128_2_0_0 y

/-- Half-row slot `q` is the elements whose first coordinate is `q`. -/
theorem mem_srK (q : Fin 4) (y : S4x64x128.Idx) : y ∈ srK q ↔ (y 0).val = q.val := by
  match q with
  | ⟨0, _⟩ => exact mem_srSlot 0 _ rfl inb_S4x64x128_S1x64x128_0_0_0 y
  | ⟨1, _⟩ => exact mem_srSlot 1 _ rfl inb_S4x64x128_S1x64x128_1_0_0 y
  | ⟨2, _⟩ => exact mem_srSlot 2 _ rfl inb_S4x64x128_S1x64x128_2_0_0 y
  | ⟨3, _⟩ => exact mem_srSlot 3 _ rfl inb_S4x64x128_S1x64x128_3_0_0 y

/-! ## Each family is disjoint and makes up its buffer -/

theorem trK_disjoint :
    ∀ i ∈ (Finset.univ : Finset (Fin 3)), ∀ j ∈ (Finset.univ : Finset (Fin 3)), i ≠ j → Disjoint (trK i) (trK j) :=
  fun i _ j _ hij => Finset.disjoint_left.mpr fun y hi hj =>
    hij (Fin.ext (((mem_trK i y).mp hi).symm.trans ((mem_trK j y).mp hj)))

theorem trK_cover : (Finset.univ : Finset (Fin 3)).biUnion trK = Finset.univ := by
  ext y
  simp only [Finset.mem_biUnion, Finset.mem_univ, true_and, iff_true]
  exact ⟨⟨(y 0).val, (y 0).isLt⟩, (mem_trK _ y).mpr rfl⟩

theorem srK_disjoint :
    ∀ i ∈ (Finset.univ : Finset (Fin 4)), ∀ j ∈ (Finset.univ : Finset (Fin 4)), i ≠ j → Disjoint (srK i) (srK j) :=
  fun i _ j _ hij => Finset.disjoint_left.mpr fun y hi hj =>
    hij (Fin.ext (((mem_srK i y).mp hi).symm.trans ((mem_srK j y).mp hj)))

theorem srK_cover : (Finset.univ : Finset (Fin 4)).biUnion srK = Finset.univ := by
  ext y
  simp only [Finset.mem_biUnion, Finset.mem_univ, true_and, iff_true]
  exact ⟨⟨(y 0).val, (y 0).isLt⟩, (mem_srK _ y).mpr rfl⟩

/-! ## A buffer held as its slots -/

open Idealize.ShloMosaic.SparseCore.Cfg (HIx)

variable {F : FTy → Type}

local notation "𝕄" => MT nD τ sig (HIx 1) (Elt F) ℕ UU ℕ

/-- The row buffer at `f` is its three slots, each at `f`. -/
theorem tr_split_list (d : Dev nD) (L : grid0.Coords) (f : Buf (Elt F) ((V d ((L 0).castLE hcore0) ((L 1).castLE hsub0)).loc cc0_scratch1)) :
    ((V d ((L 0).castLE hcore0) ((L 1).castLE hsub0)).loc cc0_scratch1 ↦{fullShare} f : sProp 𝕄)
      = iprop(((V d ((L 0).castLE hcore0) ((L 1).castLE hsub0)).loc cc0_scratch1 ↦[trK 0]{fullShare} f) ∗ ((V d ((L 0).castLE hcore0) ((L 1).castLE hsub0)).loc cc0_scratch1 ↦[trK 1]{fullShare} f)
          ∗ (V d ((L 0).castLE hcore0) ((L 1).castLE hsub0)).loc cc0_scratch1 ↦[trK 2]{fullShare} f) := by
  have h : ((V d ((L 0).castLE hcore0) ((L 1).castLE hsub0)).loc cc0_scratch1 ↦[Finset.univ.biUnion trK]{fullShare} f : sProp 𝕄)
      = bigSep Finset.univ fun t => (V d ((L 0).castLE hcore0) ((L 1).castLE hsub0)).loc cc0_scratch1 ↦[trK t]{fullShare} f :=
    pointsTo_biUnion Finset.univ (ℓ := (V d ((L 0).castLE hcore0) ((L 1).castLE hsub0)).loc cc0_scratch1) trK trK_disjoint
  rw [trK_cover] at h
  exact h.trans (bigSep_univ_eq_bigSepL [0, 1, 2] (by decide) (by decide) _)

/-- The three slots, each at contents of its own, are the row buffer at some contents. -/
theorem tr_join (d : Dev nD) (L : grid0.Coords) (f0 f1 f2 : Buf (Elt F) ((V d ((L 0).castLE hcore0) ((L 1).castLE hsub0)).loc cc0_scratch1)) :
    iprop(((V d ((L 0).castLE hcore0) ((L 1).castLE hsub0)).loc cc0_scratch1 ↦[trK 0]{fullShare} f0) ∗ ((V d ((L 0).castLE hcore0) ((L 1).castLE hsub0)).loc cc0_scratch1 ↦[trK 1]{fullShare} f1)
        ∗ (V d ((L 0).castLE hcore0) ((L 1).castLE hsub0)).loc cc0_scratch1 ↦[trK 2]{fullShare} f2)
      ⊢ (iprop(∃ f, (V d ((L 0).castLE hcore0) ((L 1).castLE hsub0)).loc cc0_scratch1 ↦{fullShare} f) : sProp 𝕄) := by
  have e : (bigSep Finset.univ fun b : Fin 3 => ((V d ((L 0).castLE hcore0) ((L 1).castLE hsub0)).loc cc0_scratch1 ↦[trK b]{fullShare} (![f0, f1, f2] b) : sProp 𝕄))
      = iprop(((V d ((L 0).castLE hcore0) ((L 1).castLE hsub0)).loc cc0_scratch1 ↦[trK 0]{fullShare} f0) ∗ ((V d ((L 0).castLE hcore0) ((L 1).castLE hsub0)).loc cc0_scratch1 ↦[trK 1]{fullShare} f1)
        ∗ (V d ((L 0).castLE hcore0) ((L 1).castLE hsub0)).loc cc0_scratch1 ↦[trK 2]{fullShare} f2) :=
    bigSep_univ_eq_bigSepL [0, 1, 2] (by decide) (by decide) _
  rw [← e]
  refine (pointsTo_biUnion_join Finset.univ (ℓ := (V d ((L 0).castLE hcore0) ((L 1).castLE hsub0)).loc cc0_scratch1) trK ![f0, f1, f2] f0 trK_disjoint).trans ?_
  rw [trK_cover]
  iintro ⟨%g, -, Hg⟩
  iexists g; iexact Hg

/-- The half-row buffer at `f` is its four slots, each at `f`. -/
theorem sr_split_list (d : Dev nD) (L : grid0.Coords) (f : Buf (Elt F) ((V d ((L 0).castLE hcore0) ((L 1).castLE hsub0)).loc cc0_scratch2)) :
    ((V d ((L 0).castLE hcore0) ((L 1).castLE hsub0)).loc cc0_scratch2 ↦{fullShare} f : sProp 𝕄)
      = iprop(((V d ((L 0).castLE hcore0) ((L 1).castLE hsub0)).loc cc0_scratch2 ↦[srK 0]{fullShare} f) ∗ ((V d ((L 0).castLE hcore0) ((L 1).castLE hsub0)).loc cc0_scratch2 ↦[srK 1]{fullShare} f)
          ∗ ((V d ((L 0).castLE hcore0) ((L 1).castLE hsub0)).loc cc0_scratch2 ↦[srK 2]{fullShare} f) ∗ (V d ((L 0).castLE hcore0) ((L 1).castLE hsub0)).loc cc0_scratch2 ↦[srK 3]{fullShare} f) := by
  have h : ((V d ((L 0).castLE hcore0) ((L 1).castLE hsub0)).loc cc0_scratch2 ↦[Finset.univ.biUnion srK]{fullShare} f : sProp 𝕄)
      = bigSep Finset.univ fun t => (V d ((L 0).castLE hcore0) ((L 1).castLE hsub0)).loc cc0_scratch2 ↦[srK t]{fullShare} f :=
    pointsTo_biUnion Finset.univ (ℓ := (V d ((L 0).castLE hcore0) ((L 1).castLE hsub0)).loc cc0_scratch2) srK srK_disjoint
  rw [srK_cover] at h
  exact h.trans (bigSep_univ_eq_bigSepL [0, 1, 2, 3] (by decide) (by decide) _)

/-- The four slots, each at contents of its own, are the half-row buffer at some contents. -/
theorem sr_join (d : Dev nD) (L : grid0.Coords) (f0 f1 f2 f3 : Buf (Elt F) ((V d ((L 0).castLE hcore0) ((L 1).castLE hsub0)).loc cc0_scratch2)) :
    iprop(((V d ((L 0).castLE hcore0) ((L 1).castLE hsub0)).loc cc0_scratch2 ↦[srK 0]{fullShare} f0) ∗ ((V d ((L 0).castLE hcore0) ((L 1).castLE hsub0)).loc cc0_scratch2 ↦[srK 1]{fullShare} f1)
        ∗ ((V d ((L 0).castLE hcore0) ((L 1).castLE hsub0)).loc cc0_scratch2 ↦[srK 2]{fullShare} f2) ∗ (V d ((L 0).castLE hcore0) ((L 1).castLE hsub0)).loc cc0_scratch2 ↦[srK 3]{fullShare} f3)
      ⊢ (iprop(∃ f, (V d ((L 0).castLE hcore0) ((L 1).castLE hsub0)).loc cc0_scratch2 ↦{fullShare} f) : sProp 𝕄) := by
  have e : (bigSep Finset.univ fun b : Fin 4 => ((V d ((L 0).castLE hcore0) ((L 1).castLE hsub0)).loc cc0_scratch2 ↦[srK b]{fullShare} (![f0, f1, f2, f3] b) : sProp 𝕄))
      = iprop(((V d ((L 0).castLE hcore0) ((L 1).castLE hsub0)).loc cc0_scratch2 ↦[srK 0]{fullShare} f0) ∗ ((V d ((L 0).castLE hcore0) ((L 1).castLE hsub0)).loc cc0_scratch2 ↦[srK 1]{fullShare} f1)
        ∗ ((V d ((L 0).castLE hcore0) ((L 1).castLE hsub0)).loc cc0_scratch2 ↦[srK 2]{fullShare} f2) ∗ (V d ((L 0).castLE hcore0) ((L 1).castLE hsub0)).loc cc0_scratch2 ↦[srK 3]{fullShare} f3) :=
    bigSep_univ_eq_bigSepL [0, 1, 2, 3] (by decide) (by decide) _
  rw [← e]
  refine (pointsTo_biUnion_join Finset.univ (ℓ := (V d ((L 0).castLE hcore0) ((L 1).castLE hsub0)).loc cc0_scratch2) srK ![f0, f1, f2, f3] f0 srK_disjoint).trans ?_
  rw [srK_cover]
  iintro ⟨%g, -, Hg⟩
  iexists g; iexact Hg

end Cert.Proof.KI

end
-- ==== Proof.KIToks.lean ====
/-
  An array every stage of a tile's task reads, held as ten read tokens and a remainder. A share halved ten times, the right
  half set aside each time, is eleven pieces: the ten right halves (the tokens, numbered from the first cut) and the last
  left half (the remainder). One cut is the points-to at a share as the points-tos at its two halves; ten of them in a row
  split the array, and the same ten read backwards put it together again.
-/
import proofs.«206231_g69020124446782_cont_9to1c4b_129_32_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One cut: the remainder after `k` tokens is the remainder after `k' = k + 1` and token `k`. -/
theorem tok_step {ℓ : Loc nD τ sig} (q : PosShare TreeShare) (f : Buf (Elt F) ℓ) (k k' : ℕ) (hk : k' = k + 1) :
    (ℓ ↦{Transfers.shareDrop q k} f : sProp 𝕄) ⊣⊢ iprop((ℓ ↦{Transfers.shareDrop q k'} f) ∗ ℓ ↦{Transfers.shareTokN q k} f) := by
  subst hk
  exact pointsTo_share (PosShare.mem_left_op_right _)

/-- The first cut, from the share itself. -/
theorem tok_first {ℓ : Loc nD τ sig} (q : PosShare TreeShare) (f : Buf (Elt F) ℓ) :
    (ℓ ↦{q} f : sProp 𝕄) ⊣⊢ iprop((ℓ ↦{Transfers.shareDrop q 1} f) ∗ ℓ ↦{Transfers.shareTokN q 0} f) :=
  tok_step (F := F) q f 0 1 rfl

/-- An array at a share is its remainder after ten tokens and the ten tokens. -/
theorem toks10_split {ℓ : Loc nD τ sig} (q : PosShare TreeShare) (f : Buf (Elt F) ℓ) :
    (ℓ ↦{q} f : sProp 𝕄) ⊢ iprop((ℓ ↦{Transfers.shareDrop q 10} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f) ∗ (ℓ ↦{Transfers.shareTokN q 8} f) ∗ ℓ ↦{Transfers.shareTokN q 9} f) := by
  iintro H
  ihave H := (tok_first (F := F) (ℓ := ℓ) q f).1 $$ H
  icases H with ⟨H, T0⟩
  ihave H := (tok_step (F := F) (ℓ := ℓ) q f 1 2 rfl).1 $$ H
  icases H with ⟨H, T1⟩
  ihave H := (tok_step (F := F) (ℓ := ℓ) q f 2 3 rfl).1 $$ H
  icases H with ⟨H, T2⟩
  ihave H := (tok_step (F := F) (ℓ := ℓ) q f 3 4 rfl).1 $$ H
  icases H with ⟨H, T3⟩
  ihave H := (tok_step (F := F) (ℓ := ℓ) q f 4 5 rfl).1 $$ H
  icases H with ⟨H, T4⟩
  ihave H := (tok_step (F := F) (ℓ := ℓ) q f 5 6 rfl).1 $$ H
  icases H with ⟨H, T5⟩
  ihave H := (tok_step (F := F) (ℓ := ℓ) q f 6 7 rfl).1 $$ H
  icases H with ⟨H, T6⟩
  ihave H := (tok_step (F := F) (ℓ := ℓ) q f 7 8 rfl).1 $$ H
  icases H with ⟨H, T7⟩
  ihave H := (tok_step (F := F) (ℓ := ℓ) q f 8 9 rfl).1 $$ H
  icases H with ⟨H, T8⟩
  ihave H := (tok_step (F := F) (ℓ := ℓ) q f 9 10 rfl).1 $$ H
  icases H with ⟨H, T9⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  iexact T9

/-- The remainder after ten tokens and the ten tokens are the array at the share. -/
theorem toks10_join {ℓ : Loc nD τ sig} (q : PosShare TreeShare) (f : Buf (Elt F) ℓ) :
    iprop((ℓ ↦{Transfers.shareDrop q 10} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)
      ∗ (ℓ ↦{Transfers.shareTokN q 6} f) ∗ (ℓ ↦{Transfers.shareTokN q 7} f) ∗ (ℓ ↦{Transfers.shareTokN q 8} f) ∗ ℓ ↦{Transfers.shareTokN q 9} f)
      ⊢ (ℓ ↦{q} f : sProp 𝕄) := by
  iintro ⟨H, T0, T1, T2, T3, T4, T5, T6, T7, T8, T9⟩
  ihave H := (tok_step (F := F) (ℓ := ℓ) q f 9 10 rfl).2 $$ [H T9]
  · isplitl [H] <;> iassumption
  ihave H := (tok_step (F := F) (ℓ := ℓ) q f 8 9 rfl).2 $$ [H T8]
  · isplitl [H] <;> iassumption
  ihave H := (tok_step (F := F) (ℓ := ℓ) q f 7 8 rfl).2 $$ [H T7]
  · isplitl [H] <;> iassumption
  ihave H := (tok_step (F := F) (ℓ := ℓ) q f 6 7 rfl).2 $$ [H T6]
  · isplitl [H] <;> iassumption
  ihave H := (tok_step (F := F) (ℓ := ℓ) q f 5 6 rfl).2 $$ [H T5]
  · isplitl [H] <;> iassumption
  ihave H := (tok_step (F := F) (ℓ := ℓ) q f 4 5 rfl).2 $$ [H T4]
  · isplitl [H] <;> iassumption
  ihave H := (tok_step (F := F) (ℓ := ℓ) q f 3 4 rfl).2 $$ [H T3]
  · isplitl [H] <;> iassumption
  ihave H := (tok_step (F := F) (ℓ := ℓ) q f 2 3 rfl).2 $$ [H T2]
  · isplitl [H] <;> iassumption
  ihave H := (tok_step (F := F) (ℓ := ℓ) q f 1 2 rfl).2 $$ [H T1]
  · isplitl [H] <;> iassumption
  ihave H := (tok_first (F := F) (ℓ := ℓ) q f).2 $$ [H T0]
  · isplitl [H] <;> iassumption
  iexact H

end Cert.Proof.KI

end
-- ==== Proof.KIVal.lean ====
/-
  The pieces of the flat result, end to end. After the tile's body has run, each of its seventy pieces of the flat
  result holds one whole-piece write of what a copy carried there: for a piece of 128 rows, what an indexed copy left in
  a row buffer; for a piece of 64 rows, what it left in a half-row buffer, moved through a slot of the shared staging
  memory. Reading each buffer back gives the indexed copy's payload, whose entry `(k, j)` is entry `j` of the table's row
  named by the regrouped token at the list's place `k`; and the piece's rows are exactly the flat rows of those tokens.
  So every element of every piece is the flat lookup's.
-/
import proofs.«206231_g69020124446782_cont_9to1c4b_129_32_alg».proof.Proof.KIGather
import proofs.«206231_g69020124446782_cont_9to1c4b_129_32_alg».proof.Proof.KIPieces
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Val

variable (d : Dev nD) (L : grid0.Coords)

omit [FloatOps F] in
/-- A buffer whose last write was of the whole view reads back that write's payload, whatever came before. -/
theorem read_writes_whole {κ : Kind} {sp : Space} {s : Shape} {e : EltTy} (v : View sig κ sp s e) (f : v.ty.Contents (Elt F))
    (w : s.Idx → Elt F e) (Lst : List (View.Piece (Elt F) s e)) :
    View.read (Elt F) v (v.writes (Elt F) f (⟨Rect.whole s, w⟩ :: Lst)) = w := by
  funext x
  have h := View.read_writes_cons_emb v f (Rect.whole s) w Lst x
  rwa [Rect.emb_whole_apply] at h

omit [FloatOps F] in
/-- Two slots of the shared staging memory named by equal offsets are one view. -/
theorem shSlotView_eq (offA offB : Fin 4 → ℕ) (inbA : ∀ a, offA a + S1x1x64x128.size a ≤ S16x4x64x128.size a)
    (inbB : ∀ a, offB a + S1x1x64x128.size a ≤ S16x4x64x128.size a) (h : offA = offB) :
    (((Memref.whole cc0_scratch3 : Memref sig .scVector .shared S16x4x64x128 .f32).slice
        (Rect.unit (s := S16x4x64x128) offA S1x1x64x128.size inbA) (fun _ => rfl)).squeeze S64x128 squeezes_S1x1x64x128_S64x128).view
      = (((Memref.whole cc0_scratch3 : Memref sig .scVector .shared S16x4x64x128 .f32).slice
        (Rect.unit (s := S16x4x64x128) offB S1x1x64x128.size inbB) (fun _ => rfl)).squeeze S64x128 squeezes_S1x1x64x128_S64x128).view := by
  subst h; rfl

omit [FloatOps F] in
/-- The table's row named by entry `(g, l)` of the tile's block, at column `k`, is the flat result at the tile's row
    `128 g + l`, column `k`. -/
theorem tab_eq_flatRes (g : Fin 50) (l : Fin 128) (k : Fin 128) (y : S204800x128.Idx)
    (hy0 : (y 0).val = 12800 * (L 1).val + 6400 * (L 0).val + 128 * g.val + l.val) (hy1 : (y 1).val = k.val) :
    m (tabLoc d) (ValueIdx.ix2 (Spec.rowOf (idxPay m d L (ValueIdx.ix2 g l))) k) = flatRes m d y := by
  have hw := worker_lt L
  have hg := g.isLt
  have hl := l.isLt
  have hy : y = (ValueIdx.ix2 (⟨6400 * (2 * (L 1).val + (L 0).val) + 128 * g.val + l.val, by omega⟩ : Fin 204800) k : S204800x128.Idx) := by
    funext a; apply Fin.ext
    match a with
    | ⟨0, _⟩ => show (y 0).val = 6400 * (2 * (L 1).val + (L 0).val) + 128 * g.val + l.val; omega
    | ⟨1, _⟩ => exact hy1
  rw [hy, idxPay_apply]
  exact (flatRes_row m d ⟨2 * (L 1).val + (L 0).val, worker_lt L⟩ g l k).symm

omit [FloatOps F] in
/-- A piece of `R` rows of the flat result whose last write was of the whole piece, read at the piece's index `x`: the
    payload at `x`. When the payload there is the table's row named by entry `(g, c0 + x 0)` of the tile's block, at column
    `x 1`, and the piece starts at the tile's row `128 g + c0`, that is the flat result. -/
theorem out_piece_val (R : ℕ) (off : Fin 2 → ℕ) (inbO : ∀ a, off a + (⟨2, ![R, 128]⟩ : Shape).size a ≤ S204800x128.size a)
    (g : Fin 50) (c0 : ℕ) (hc : c0 + R ≤ 128)
    (hO0 : off 0 = 12800 * (L 1).val + 6400 * (L 0).val + 128 * g.val + c0) (hO1 : off 1 = 0)
    (f0 : Buf (Elt F) (outLoc d))
    (Lst0 : List (View.Piece (Elt F) (Rect.unit (s := S204800x128) off (⟨2, ![R, 128]⟩ : Shape).size inbO).shape .f32))
    (P : (⟨2, ![R, 128]⟩ : Shape).Idx → Elt F .f32) (x : (⟨2, ![R, 128]⟩ : Shape).Idx)
    (hP : P x = m (tabLoc d) (ValueIdx.ix2
        (Spec.rowOf (idxPay m d L (ValueIdx.ix2 g (⟨c0 + (x 0).val, by have : (x 0).val < R := (x 0).isLt; omega⟩ : Fin 128))))
        (⟨(x 1).val, (x 1).isLt⟩ : Fin 128))) :
    ((Memref.whole main_v1_scv : Memref sig .scVector .hbm S204800x128 .f32).slice
        (Rect.unit (s := S204800x128) off (⟨2, ![R, 128]⟩ : Shape).size inbO) (fun _ => rfl)).view.writes (Elt F) f0
        (⟨Rect.whole (Rect.unit (s := S204800x128) off (⟨2, ![R, 128]⟩ : Shape).size inbO).shape, P⟩ :: Lst0)
        (((Memref.whole main_v1_scv : Memref sig .scVector .hbm S204800x128 .f32).slice
          (Rect.unit (s := S204800x128) off (⟨2, ![R, 128]⟩ : Shape).size inbO) (fun _ => rfl)).view.emb x)
      = flatRes m d (((Memref.whole main_v1_scv : Memref sig .scVector .hbm S204800x128 .f32).slice
          (Rect.unit (s := S204800x128) off (⟨2, ![R, 128]⟩ : Shape).size inbO) (fun _ => rfl)).view.emb x) := by
  have hx0 : (x 0).val < R := (x 0).isLt
  have hw := congrFun (read_writes_whole
    ((Memref.whole main_v1_scv : Memref sig .scVector .hbm S204800x128 .f32).slice
      (Rect.unit (s := S204800x128) off (⟨2, ![R, 128]⟩ : Shape).size inbO) (fun _ => rfl)).view f0 P Lst0) x
  rw [View.read_apply, cast_eq] at hw
  refine hw.trans (hP.trans ?_)
  refine tab_eq_flatRes m d L g _ _ _ ?_ ?_
  · rw [outPiece_emb off _ inbO x 0, hO0]
    show _ = 12800 * (L 1).val + 6400 * (L 0).val + 128 * g.val + (c0 + (x 0).val)
    omega
  · rw [outPiece_emb off _ inbO x 1, hO1, Nat.zero_add]

omit [FloatOps F] in
/-- A piece of 128 rows starting at the tile's row `128 g`, carried from a row buffer that an indexed copy filled with the
    rows named by row `g` of the index scratch. -/
theorem out_val_128 (offO : Fin 2 → ℕ) (g : Fin 50)
    (hO0 : offO 0 = 12800 * (L 1).val + 6400 * (L 0).val + 128 * g.val) (hO1 : offO 1 = 0)
    (inbO : ∀ a, (offO) a + S128x128.size a ≤ S204800x128.size a)
    (f0 : Buf (Elt F) (outLoc d))
    (Lst0 : List (View.Piece (Elt F) (Rect.unit (s := S204800x128) (offO) S128x128.size inbO).shape .f32))
    (v : View sig .scVector .vmem S128x128 .f32) (ft : v.ty.Contents (Elt F)) (Lst : List (View.Piece (Elt F) S128x128 .f32))
    (offL : Fin 2 → ℕ) (inbL : ∀ a, offL a + S1x128.size a ≤ S50x128.size a) (hL0 : offL 0 = g.val) (hL1 : offL 1 = 0)
    (fi : Buf (Elt F) ((V d ((L 0).castLE hcore0) ((L 1).castLE hsub0)).loc cc0_scratch0))
    (hn : S128.numel = S128x128.size (gathers_S1000000x128_S128x128).axis')
    (hin : ∀ x, ((View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ)) x).toNat
          < S1000000x128.size (gathers_S1000000x128_S128x128).axis)
    (x : S128x128.Idx) :
    ((Memref.whole main_v1_scv : Memref sig .scVector .hbm S204800x128 .f32).slice
        (Rect.unit (s := S204800x128) offO S128x128.size inbO) (fun _ => rfl)).view.writes (Elt F) f0
        (⟨Rect.whole (Rect.unit (s := S204800x128) offO S128x128.size inbO).shape,
          ReadAs.same.apply (View.read (Elt F) v (v.writes (Elt F) ft
            (⟨Rect.whole S128x128,
              SparseCore.gatherPayload gathers_S1000000x128_S128x128
                (View.read (Elt F) ((Memref.whole main_arg1_scv : Memref sig .scVector .hbm S1000000x128 .f32).slice
                  (Rect.unit ![0, 0] S1000000x128.size inb_S1000000x128_S1000000x128_0_0) (fun _ => rfl)).view (m (tabLoc d)))
                (SparseCore.rows (View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ))
                  hn hin)⟩ :: Lst)))⟩ :: Lst0)
        (((Memref.whole main_v1_scv : Memref sig .scVector .hbm S204800x128 .f32).slice
        (Rect.unit (s := S204800x128) offO S128x128.size inbO) (fun _ => rfl)).view.emb x)
      = flatRes m d (((Memref.whole main_v1_scv : Memref sig .scVector .hbm S204800x128 .f32).slice
        (Rect.unit (s := S204800x128) offO S128x128.size inbO) (fun _ => rfl)).view.emb x) := by
  refine out_piece_val m d L 128 offO inbO g 0 (by omega) (by rw [hO0, Nat.add_zero]) hO1 f0 Lst0 _ x ?_
  show View.read (Elt F) v (v.writes (Elt F) ft (_ :: Lst)) x = _
  rw [read_writes_whole]
  exact gather_val_gen m d L 128 gathers_S1000000x128_S128x128 squeezes_S1x128_S128 offL inbL g 0 (by omega) hL0 hL1 fi hn hin x

omit [FloatOps F] in
/-- A piece of 64 rows starting at the tile's row `128 g + c0`, carried from a slot of the shared staging memory, filled from
    a half-row buffer that an indexed copy filled with the rows named by the 64 entries of row `g` of the index scratch
    from column `c0` on. The slot is read under one spelling of its offsets and was written under another, equal to it. -/
theorem out_val_64 (offO : Fin 2 → ℕ) (g : Fin 50) (c0 : ℕ) (hc : c0 + 64 ≤ 128)
    (hO0 : offO 0 = 12800 * (L 1).val + 6400 * (L 0).val + 128 * g.val + c0) (hO1 : offO 1 = 0)
    (inbO : ∀ a, (offO) a + S64x128.size a ≤ S204800x128.size a)
    (f0 : Buf (Elt F) (outLoc d))
    (Lst0 : List (View.Piece (Elt F) (Rect.unit (s := S204800x128) (offO) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = g.val) (hL1 : offL 1 = c0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) offO S64x128.size inbO) (fun _ => rfl)).view.writes (Elt F) f0
        (⟨Rect.whole (Rect.unit (s := S204800x128) offO S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) offO S64x128.size inbO) (fun _ => rfl)).view.emb x)
      = flatRes m d (((Memref.whole main_v1_scv : Memref sig .scVector .hbm S204800x128 .f32).slice
        (Rect.unit (s := S204800x128) offO S64x128.size inbO) (fun _ => rfl)).view.emb x) := by
  subst hAB
  refine out_piece_val m d L 64 offO inbO g c0 hc hO0 hO1 f0 Lst0 _ x ?_
  show View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
      ((((Memref.whole cc0_scratch3 : Memref sig .scVector .shared S16x4x64x128 .f32).slice
                (Rect.unit (s := S16x4x64x128) offA S1x1x64x128.size inbA) (fun _ => rfl)).squeeze S64x128 squeezes_S1x1x64x128_S64x128).view.writes (Elt F) gsh (_ :: LstS)) x = _
  rw [read_writes_whole]
  show View.read (Elt F) v (v.writes (Elt F) fs (_ :: Lst)) x = _
  rw [read_writes_whole]
  exact gather_val_gen m d L 64 gathers_S1000000x128_S64x128 squeezes_S1x64_S64 offL inbL g c0 hc hL0 hL1 fi hn hin x

omit [FloatOps F] in
/-- A piece of 128 rows, written in trip `t` as its `r`-th: piece `3 t + r`, its list row `3 t + r` of the index scratch. -/
theorem out_val_off3 (t : Fin k0_t1_loop.trips) (r : Fin 3)
    (inbO : ∀ a, (k0_off3 L t (BitVec.ofNat 32 r.val)) a + S128x128.size a ≤ S204800x128.size a)
    (f0 : Buf (Elt F) (outLoc d))
    (Lst0 : List (View.Piece (Elt F) (Rect.unit (s := S204800x128) (k0_off3 L t (BitVec.ofNat 32 r.val)) S128x128.size inbO).shape .f32))
    (v : View sig .scVector .vmem S128x128 .f32) (ft : v.ty.Contents (Elt F)) (Lst : List (View.Piece (Elt F) S128x128 .f32))
    (offL : Fin 2 → ℕ) (inbL : ∀ a, offL a + S1x128.size a ≤ S50x128.size a) (hL0 : offL 0 = 3 * t.val + r.val) (hL1 : offL 1 = 0)
    (fi : Buf (Elt F) ((V d ((L 0).castLE hcore0) ((L 1).castLE hsub0)).loc cc0_scratch0))
    (hn : S128.numel = S128x128.size (gathers_S1000000x128_S128x128).axis')
    (hin : ∀ x, ((View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ)) x).toNat
          < S1000000x128.size (gathers_S1000000x128_S128x128).axis)
    (x : S128x128.Idx) :
    ((Memref.whole main_v1_scv : Memref sig .scVector .hbm S204800x128 .f32).slice
        (Rect.unit (s := S204800x128) (k0_off3 L t (BitVec.ofNat 32 r.val)) S128x128.size inbO) (fun _ => rfl)).view.writes (Elt F) f0
        (⟨Rect.whole (Rect.unit (s := S204800x128) (k0_off3 L t (BitVec.ofNat 32 r.val)) S128x128.size inbO).shape,
          ReadAs.same.apply (View.read (Elt F) v (v.writes (Elt F) ft
            (⟨Rect.whole S128x128,
              SparseCore.gatherPayload gathers_S1000000x128_S128x128
                (View.read (Elt F) ((Memref.whole main_arg1_scv : Memref sig .scVector .hbm S1000000x128 .f32).slice
                  (Rect.unit ![0, 0] S1000000x128.size inb_S1000000x128_S1000000x128_0_0) (fun _ => rfl)).view (m (tabLoc d)))
                (SparseCore.rows (View.read (Elt F) (((Memref.whole cc0_scratch0 : Memref sig .scVector .vmem S50x128 .i32).slice
                  (Rect.unit (s := S50x128) offL S1x128.size inbL) (fun _ => rfl)).squeeze S128 squeezes_S1x128_S128).view
                  (View.write (Elt F) (Memref.whole cc0_scratch0 : Memref sig .scVector .vmem S50x128 .i32).view fi (idxPay m d L) Finset.univ))
                  hn hin)⟩ :: Lst)))⟩ :: Lst0)
        (((Memref.whole main_v1_scv : Memref sig .scVector .hbm S204800x128 .f32).slice
        (Rect.unit (s := S204800x128) (k0_off3 L t (BitVec.ofNat 32 r.val)) S128x128.size inbO) (fun _ => rfl)).view.emb x)
      = flatRes m d (((Memref.whole main_v1_scv : Memref sig .scVector .hbm S204800x128 .f32).slice
        (Rect.unit (s := S204800x128) (k0_off3 L t (BitVec.ofNat 32 r.val)) S128x128.size inbO) (fun _ => rfl)).view.emb x) := by
  have ht : t.val < 10 := t.isLt
  have hr : r.val < 3 := r.isLt
  refine out_val_128 m d L (k0_off3 L t (BitVec.ofNat 32 r.val)) ⟨3 * t.val + r.val, by omega⟩ ?_ ?_ inbO f0 Lst0 v ft Lst
    offL inbL hL0 hL1 fi hn hin x
  · rw [k0_off3_eq]
    show 12800 * (L 1).val + 6400 * (L 0).val + 384 * t.val + 128 * r.val
      = 12800 * (L 1).val + 6400 * (L 0).val + 128 * (3 * t.val + r.val)
    omega
  · rw [k0_off3_eq]; rfl

omit [FloatOps F] in
/-- The 64-row piece \`4 t\` of the second part: its list the first half of row \`30 + 2 t\` of the index scratch. -/
theorem out_val_off22 (t : Fin k0_t1_loop.trips)
    (inbO : ∀ a, (k0_off22 L t) a + S64x128.size a ≤ S204800x128.size a)
    (f0 : Buf (Elt F) (outLoc d))
    (Lst0 : List (View.Piece (Elt F) (Rect.unit (s := S204800x128) (k0_off22 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 30 + 2 * t.val) (hL1 : offL 1 = 0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off22 L t) S64x128.size inbO) (fun _ => rfl)).view.writes (Elt F) f0
        (⟨Rect.whole (Rect.unit (s := S204800x128) (k0_off22 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off22 L t) S64x128.size inbO) (fun _ => rfl)).view.emb x)
      = flatRes m d (((Memref.whole main_v1_scv : Memref sig .scVector .hbm S204800x128 .f32).slice
        (Rect.unit (s := S204800x128) (k0_off22 L t) S64x128.size inbO) (fun _ => rfl)).view.emb x) := by
  have ht : t.val < 10 := t.isLt
  refine out_val_64 m d L (k0_off22 L t) ⟨30 + 2 * t.val, by omega⟩ 0 (by omega) ?_ ?_ inbO f0 Lst0 offA offB inbA inbB hAB gsh LstS v fs Lst
    offL inbL hL0 hL1 fi hn hin x
  · rw [k0_off22_eq]
    show 12800 * (L 1).val + 6400 * (L 0).val + 256 * t.val + 3840 = 12800 * (L 1).val + 6400 * (L 0).val + 128 * (30 + 2 * t.val) + 0
    omega
  · rw [k0_off22_eq]; rfl

omit [FloatOps F] in
/-- The 64-row piece \`4 t + 1\`: its list the second half of row \`30 + 2 t\`. -/
theorem out_val_off28 (t : Fin k0_t1_loop.trips)
    (inbO : ∀ a, (k0_off28 L t) a + S64x128.size a ≤ S204800x128.size a)
    (f0 : Buf (Elt F) (outLoc d))
    (Lst0 : List (View.Piece (Elt F) (Rect.unit (s := S204800x128) (k0_off28 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 30 + 2 * t.val) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off28 L t) S64x128.size inbO) (fun _ => rfl)).view.writes (Elt F) f0
        (⟨Rect.whole (Rect.unit (s := S204800x128) (k0_off28 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off28 L t) S64x128.size inbO) (fun _ => rfl)).view.emb x)
      = flatRes m d (((Memref.whole main_v1_scv : Memref sig .scVector .hbm S204800x128 .f32).slice
        (Rect.unit (s := S204800x128) (k0_off28 L t) S64x128.size inbO) (fun _ => rfl)).view.emb x) := by
  have ht : t.val < 10 := t.isLt
  refine out_val_64 m d L (k0_off28 L t) ⟨30 + 2 * t.val, by omega⟩ 64 (by omega) ?_ ?_ inbO f0 Lst0 offA offB inbA inbB hAB gsh LstS v fs Lst
    offL inbL hL0 hL1 fi hn hin x
  · rw [k0_off28_eq]
    show 12800 * (L 1).val + 6400 * (L 0).val + 256 * t.val + 3904 = 12800 * (L 1).val + 6400 * (L 0).val + 128 * (30 + 2 * t.val) + 64
    omega
  · rw [k0_off28_eq]; rfl

omit [FloatOps F] in
/-- The 64-row piece \`4 t + 2\`: its list the first half of row \`31 + 2 t\`. -/
theorem out_val_off34 (t : Fin k0_t1_loop.trips)
    (inbO : ∀ a, (k0_off34 L t) a + S64x128.size a ≤ S204800x128.size a)
    (f0 : Buf (Elt F) (outLoc d))
    (Lst0 : List (View.Piece (Elt F) (Rect.unit (s := S204800x128) (k0_off34 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 31 + 2 * t.val) (hL1 : offL 1 = 0)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off34 L t) S64x128.size inbO) (fun _ => rfl)).view.writes (Elt F) f0
        (⟨Rect.whole (Rect.unit (s := S204800x128) (k0_off34 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off34 L t) S64x128.size inbO) (fun _ => rfl)).view.emb x)
      = flatRes m d (((Memref.whole main_v1_scv : Memref sig .scVector .hbm S204800x128 .f32).slice
        (Rect.unit (s := S204800x128) (k0_off34 L t) S64x128.size inbO) (fun _ => rfl)).view.emb x) := by
  have ht : t.val < 10 := t.isLt
  refine out_val_64 m d L (k0_off34 L t) ⟨31 + 2 * t.val, by omega⟩ 0 (by omega) ?_ ?_ inbO f0 Lst0 offA offB inbA inbB hAB gsh LstS v fs Lst
    offL inbL hL0 hL1 fi hn hin x
  · rw [k0_off34_eq]
    show 12800 * (L 1).val + 6400 * (L 0).val + 256 * t.val + 3968 = 12800 * (L 1).val + 6400 * (L 0).val + 128 * (31 + 2 * t.val) + 0
    omega
  · rw [k0_off34_eq]; rfl

omit [FloatOps F] in
/-- The 64-row piece \`4 t - 1\` (from the second trip on): its list the second half of row \`29 + 2 t\`. -/
theorem out_val_off15 (t : Fin k0_t1_loop.trips) (htp : 0 < t.val)
    (inbO : ∀ a, (k0_off15 L t) a + S64x128.size a ≤ S204800x128.size a)
    (f0 : Buf (Elt F) (outLoc d))
    (Lst0 : List (View.Piece (Elt F) (Rect.unit (s := S204800x128) (k0_off15 L t) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 29 + 2 * t.val) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off15 L t) S64x128.size inbO) (fun _ => rfl)).view.writes (Elt F) f0
        (⟨Rect.whole (Rect.unit (s := S204800x128) (k0_off15 L t) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off15 L t) S64x128.size inbO) (fun _ => rfl)).view.emb x)
      = flatRes m d (((Memref.whole main_v1_scv : Memref sig .scVector .hbm S204800x128 .f32).slice
        (Rect.unit (s := S204800x128) (k0_off15 L t) S64x128.size inbO) (fun _ => rfl)).view.emb x) := by
  have ht : t.val < 10 := t.isLt
  refine out_val_64 m d L (k0_off15 L t) ⟨29 + 2 * t.val, by omega⟩ 64 (by omega) ?_ ?_ inbO f0 Lst0 offA offB inbA inbB hAB gsh LstS v fs Lst
    offL inbL hL0 hL1 fi hn hin x
  · rw [k0_off15_eq]
    show 12800 * (L 1).val + 6400 * (L 0).val + 256 * t.val + 3776 = 12800 * (L 1).val + 6400 * (L 0).val + 128 * (29 + 2 * t.val) + 64
    omega
  · rw [k0_off15_eq]; rfl

omit [FloatOps F] in
/-- The last 64-row piece, written after the loop: its list the second half of row 49 of the index scratch. -/
theorem out_val_off38
    (inbO : ∀ a, (k0_off38 L 2496#32) a + S64x128.size a ≤ S204800x128.size a)
    (f0 : Buf (Elt F) (outLoc d))
    (Lst0 : List (View.Piece (Elt F) (Rect.unit (s := S204800x128) (k0_off38 L 2496#32) S64x128.size inbO).shape .f32))
    (offA offB : Fin 4 → ℕ) (inbA : ∀ a, offA a + S1x1x64x128.size a ≤ S16x4x64x128.size a)
    (inbB : ∀ a, offB a + S1x1x64x128.size a ≤ S16x4x64x128.size a) (hAB : offA = offB)
    (gsh : Buf (Elt F) (shLoc d ((L 0).castLE hcore0))) (LstS : List (View.Piece (Elt F) S64x128 .f32))
    (v : View sig .scVector .vmem S64x128 .f32) (fs : v.ty.Contents (Elt F)) (Lst : List (View.Piece (Elt F) S64x128 .f32))
    (offL : Fin 2 → ℕ) (inbL : ∀ a, offL a + S1x64.size a ≤ S50x128.size a) (hL0 : offL 0 = 49) (hL1 : offL 1 = 64)
    (fi : Buf (Elt F) ((V d ((L 0).castLE hcore0) ((L 1).castLE hsub0)).loc cc0_scratch0))
    (hn : S64.numel = S64x128.size (gathers_S1000000x128_S64x128).axis')
    (hin : ∀ x, ((View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ)) x).toNat
          < S1000000x128.size (gathers_S1000000x128_S64x128).axis)
    (x : S64x128.Idx) :
    ((Memref.whole main_v1_scv : Memref sig .scVector .hbm S204800x128 .f32).slice
        (Rect.unit (s := S204800x128) (k0_off38 L 2496#32) S64x128.size inbO) (fun _ => rfl)).view.writes (Elt F) f0
        (⟨Rect.whole (Rect.unit (s := S204800x128) (k0_off38 L 2496#32) S64x128.size inbO).shape,
          ReadAs.same.apply (View.read (Elt F) (((Memref.whole cc0_scratch3 : Memref sig .scVector .shared S16x4x64x128 .f32).slice
                (Rect.unit (s := S16x4x64x128) offA S1x1x64x128.size inbA) (fun _ => rfl)).squeeze S64x128 squeezes_S1x1x64x128_S64x128).view
            ((((Memref.whole cc0_scratch3 : Memref sig .scVector .shared S16x4x64x128 .f32).slice
                (Rect.unit (s := S16x4x64x128) offB S1x1x64x128.size inbB) (fun _ => rfl)).squeeze S64x128 squeezes_S1x1x64x128_S64x128).view.writes (Elt F) gsh
              (⟨Rect.whole S64x128,
                ReadAs.same.apply (View.read (Elt F) v (v.writes (Elt F) fs
                  (⟨Rect.whole S64x128,
                    SparseCore.gatherPayload gathers_S1000000x128_S64x128
                      (View.read (Elt F) ((Memref.whole main_arg1_scv : Memref sig .scVector .hbm S1000000x128 .f32).slice
                  (Rect.unit ![0, 0] S1000000x128.size inb_S1000000x128_S1000000x128_0_0) (fun _ => rfl)).view (m (tabLoc d)))
                      (SparseCore.rows (View.read (Elt F) (((Memref.whole cc0_scratch0 : Memref sig .scVector .vmem S50x128 .i32).slice
                  (Rect.unit (s := S50x128) offL S1x64.size inbL) (fun _ => rfl)).squeeze S64 squeezes_S1x64_S64).view
                  (View.write (Elt F) (Memref.whole cc0_scratch0 : Memref sig .scVector .vmem S50x128 .i32).view fi (idxPay m d L) Finset.univ))
                        hn hin)⟩ :: Lst)))⟩ :: LstS)))⟩ :: Lst0)
        (((Memref.whole main_v1_scv : Memref sig .scVector .hbm S204800x128 .f32).slice
        (Rect.unit (s := S204800x128) (k0_off38 L 2496#32) S64x128.size inbO) (fun _ => rfl)).view.emb x)
      = flatRes m d (((Memref.whole main_v1_scv : Memref sig .scVector .hbm S204800x128 .f32).slice
        (Rect.unit (s := S204800x128) (k0_off38 L 2496#32) S64x128.size inbO) (fun _ => rfl)).view.emb x) := by
  have e38 : k0_off38 L 2496#32 = ![12800 * (L 1).val + 6400 * (L 0).val + 64 * 3 + 6144, 0] := k0_off38_eq L ⟨3, by omega⟩
  refine out_val_64 m d L (k0_off38 L 2496#32) ⟨49, by omega⟩ 64 (by omega) ?_ ?_ inbO f0 Lst0 offA offB inbA inbB hAB gsh LstS v fs Lst
    offL inbL hL0 hL1 fi hn hin x
  · rw [e38]
    show 12800 * (L 1).val + 6400 * (L 0).val + 64 * 3 + 6144 = 12800 * (L 1).val + 6400 * (L 0).val + 128 * 49 + 64
    omega
  · rw [e38]; rfl

end Val

end Cert.Proof.KI

end
-- ==== Proof.KITile.lean ====
/-
  One tile's task of the lookup kernel, at a symbolic place: from its read shares of the regrouped tokens and of the
  table, its block of the flat result and its row of the shared staging memory, to the same with every row of the block
  at the table's row its regrouped token names.

  The task first copies its 50 × 128 block of regrouped tokens into its index scratch, then moves 30 groups of 128
  rows through three row slots (gather a group's rows from the table into a slot, write the slot out to the group's
  128 rows of the block) and 40 half-groups of 64 rows through four slots and the shared staging memory (gather, copy
  to the tile's staging slot, write out to the half-group's 64 rows). Every copy completes on a semaphore of its own
  slot and is waited for before its slot is touched again, so each piece of the block ends at the rows gathered for
  it; the ten trips of the kernel's loop are run in sequence.
-/
import proofs.«206231_g69020124446782_cont_9to1c4b_129_32_alg».proof.Proof.KICommon
import proofs.«206231_g69020124446782_cont_9to1c4b_129_32_alg».proof.Proof.KIOwn
import proofs.«206231_g69020124446782_cont_9to1c4b_129_32_alg».proof.Proof.KIFacts
import proofs.«206231_g69020124446782_cont_9to1c4b_129_32_alg».proof.Proof.KIGather
import proofs.«206231_g69020124446782_cont_9to1c4b_129_32_alg».proof.Proof.KIOut
import proofs.«206231_g69020124446782_cont_9to1c4b_129_32_alg».proof.Proof.KISh
import proofs.«206231_g69020124446782_cont_9to1c4b_129_32_alg».proof.Proof.KISlots
import proofs.«206231_g69020124446782_cont_9to1c4b_129_32_alg».proof.Proof.KIToks
import proofs.«206231_g69020124446782_cont_9to1c4b_129_32_alg».proof.Proof.KIVal
import proofs.«206231_g69020124446782_cont_9to1c4b_129_32_alg».proof.Proof.Gen.KernelIdeal.Skeleton
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The kernel's function at place `L`, on the whole arrays, the tile's scratch and its semaphores. -/
abbrev tileProg (L : grid0.Coords) : Prog (TpuEff nD τ sig (Elt F) Λ₀ (.scVector ((L 0).castLE hcore0) ((L 1).castLE hsub0))) PUnit :=
  cc0_emb L (Memref.whole main_v0_scv) (Memref.isWhole_whole _) (Memref.whole main_arg1_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    cc0_scratch10 cc0_scratch11 cc0_scratch12 cc0_scratch13 cc0_scratch14 cc0_scratch15 cc0_scratch16 cc0_scratch17 cc0_scratch18
    cc0_scratch19 cc0_scratch20 cc0_scratch21 cc0_scoped0

abbrev thrV (d : Dev nD) (L : grid0.Coords) : Thread nD τ := V d (cV L) (jV L)
abbrev tokM : Memref sig .scVector .hbm S32x50x128 .i32 := Memref.whole main_v0_scv
abbrev tabM : Memref sig .scVector .hbm S1000000x128 .f32 := Memref.whole main_arg1_scv
abbrev outM : Memref sig .scVector .hbm S204800x128 .f32 := Memref.whole main_v1_scv
abbrev ivM : Memref sig .scVector .vmem S50x128 .i32 := Memref.whole cc0_scratch0
abbrev trM : Memref sig .scVector .vmem S3x128x128 .f32 := Memref.whole cc0_scratch1
abbrev srM : Memref sig .scVector .vmem S4x64x128 .f32 := Memref.whole cc0_scratch2
abbrev shM : Memref sig .scVector .shared S16x4x64x128 .f32 := Memref.whole cc0_scratch3
omit [FloatOps F] in
theorem pts_tok (q : PosShare TreeShare) (f : Buf (Elt F) (tokLoc d)) :
    ((tokM).view.loc (thrV d L) ↦{q} f : sProp 𝕄) = tokLoc d ↦{q} f := rfl
omit [FloatOps F] in
theorem pts_tab (q : PosShare TreeShare) (f : Buf (Elt F) (tabLoc d)) :
    ((tabM).view.loc (thrV d L) ↦{q} f : sProp 𝕄) = tabLoc d ↦{q} f := rfl
omit [FloatOps F] in
theorem pts_iv (f : Buf (Elt F) ((thrV d L).loc cc0_scratch0)) :
    ((ivM).view.loc (thrV d L) ↦{fullShare} f : sProp 𝕄) = (thrV d L).loc cc0_scratch0 ↦{fullShare} f := rfl
omit [FloatOps F] in
/-- A wait recorded at the kernel's own index keeps the recorded waits within what the launch allows. -/
theorem waits_ok_insert {thr : Thread nD τ} {W W' : Waits sig (HIx 1)} {a : SemLoc sig × HIx 1}
    (h : ∀ p ∈ W', p ∈ W ∨ p.2 = none) (ha : a.2 = none) : ∀ p ∈ insert a W', p ∈ W ∨ p.2 = none := by
  intro p hp
  rcases Finset.mem_insert.mp hp with rfl | hp
  · exact Or.inr ha
  · exact h p hp

set_option sl_exec.unrollTrips 10 in
set_option maxHeartbeats 16000000 in
/-- The task on vector subcore `(L 0, L 1)` of device `d`. -/
theorem tile_body (hF : (K (F := F)).Facts) (hin : ∀ j, (idx3 m d j).toNat < 1000000)
    (O : CellTallies nD τ sig (HIx 1)) (W : Waits sig (HIx 1)) (hO : ∀ g, O g none = 0) :
    iprop(levAts (K (F := F)).L (K (F := F)).lev ∗ emp
        ∗ (taskArrays m d (wid (cL L) (jL L)) (m (outLoc d)) ∗ taskShared d (cV L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((taskArrays m d (wid (cL L) (jL L)) (flatRes m d) ∗ taskShared d (cV L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  simp only [cc0_emb_eq_skeleton]; unfold cc0_emb_skel
  rw [(K (F := F)).scopedBufs_V hF d (cV L) (jV L), SparseCore.Cfg.scopedSems0_V (Val := Elt F) d (cV L) (jV L), ownSems0_V', ownBufs_V']
  unfold taskArrays taskShared
  iintro ⟨#Hlv, -, ⟨⟨Htok, Htab, Hout⟩, ⟨%gsh, Hsh⟩⟩, ⟨⟨%fi, Hiv⟩, ⟨%ft, Htr⟩, ⟨%fs, Hsr⟩⟩, ⟨Hs0, Hs1, Hs2, Hs3, Hs4, Hs5, Hs6, Hs7, Hs8, Hs9, Hs10, Hs11, Hs12, Hs13, Hs14, Hs15, Hs16, Hs17, Hs18⟩, HO⟩
  ihave Hmw := ((K (F := F)).mayWaits_none (thr := V d (cV L) (jV L)) hO) $$ Hlv
  -- the arrays, as the tile's memrefs address them
  ihave Htok' := (Entails.of_eq (pts_tok (F := F) d L _ _).symm) $$ Htok
  ihave Htab' := (Entails.of_eq (pts_tab (F := F) d L _ _).symm) $$ Htab
  ihave Hiv' := (Entails.of_eq (pts_iv (F := F) d L _).symm) $$ Hiv
  -- the block of the flat result, piece by piece
  ihave Hx := (Entails.of_eq (out_split_list (F := F) d L (m (outLoc d)))) $$ Hout
  icases Hx with ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39, Hp40, Hp41, Hp42, Hp43, Hp44, Hp45, Hp46, Hp47, Hp48, Hp49, Hp50, Hp51, Hp52, Hp53, Hp54, Hp55, Hp56, Hp57, Hp58, Hp59, Hp60, Hp61, Hp62, Hp63, Hp64, Hp65, Hp66, Hp67, Hp68, Hp69, -⟩
  have e_Hp0 : ((((outM).slice (Rect.unit (s := S204800x128) (k0_off3 L ⟨0, (of_decide_eq_true rfl)⟩ 0#32) S128x128.size (k0_off3_inb L ⟨0, (of_decide_eq_true rfl)⟩ 0)) (fun _ => rfl))).view.loc (thrV d L) ↦[(((outM).slice (Rect.unit (s := S204800x128) (k0_off3 L ⟨0, (of_decide_eq_true rfl)⟩ 0#32) S128x128.size (k0_off3_inb L ⟨0, (of_decide_eq_true rfl)⟩ 0)) (fun _ => rfl))).view.set]{fullShare} (m (outLoc d)) : sProp 𝕄) = (outLoc d ↦[outK L ⟨0, (of_decide_eq_true rfl)⟩]{fullShare} m (outLoc d)) := rfl
  ihave Hp0' := (Entails.of_eq e_Hp0.symm) $$ Hp0
  have e_Hp1 : ((((outM).slice (Rect.unit (s := S204800x128) (k0_off3 L ⟨0, (of_decide_eq_true rfl)⟩ 1#32) S128x128.size (k0_off3_inb L ⟨0, (of_decide_eq_true rfl)⟩ 1)) (fun _ => rfl))).view.loc (thrV d L) ↦[(((outM).slice (Rect.unit (s := S204800x128) (k0_off3 L ⟨0, (of_decide_eq_true rfl)⟩ 1#32) S128x128.size (k0_off3_inb L ⟨0, (of_decide_eq_true rfl)⟩ 1)) (fun _ => rfl))).view.set]{fullShare} (m (outLoc d)) : sProp 𝕄) = (outLoc d ↦[outK L ⟨1, (of_decide_eq_true rfl)⟩]{fullShare} m (outLoc d)) := rfl
  ihave Hp1' := (Entails.of_eq e_Hp1.symm) $$ Hp1
  have e_Hp2 : ((((outM).slice (Rect.unit (s := S204800x128) (k0_off3 L ⟨0, (of_decide_eq_true rfl)⟩ 2#32) S128x128.size (k0_off3_inb L ⟨0, (of_decide_eq_true rfl)⟩ 2)) (fun _ => rfl))).view.loc (thrV d L) ↦[(((outM).slice (Rect.unit (s := S204800x128) (k0_off3 L ⟨0, (of_decide_eq_true rfl)⟩ 2#32) S128x128.size (k0_off3_inb L ⟨0, (of_decide_eq_true rfl)⟩ 2)) (fun _ => rfl))).view.set]{fullShare} (m (outLoc d)) : sProp 𝕄) = (outLoc d ↦[outK L ⟨2, (of_decide_eq_true rfl)⟩]{fullShare} m (outLoc d)) := rfl
  ihave Hp2' := (Entails.of_eq e_Hp2.symm) $$ Hp2
  have e_Hp3 : ((((outM).slice (Rect.unit (s := S204800x128) (k0_off3 L ⟨1, (of_decide_eq_true rfl)⟩ 0#32) S128x128.size (k0_off3_inb L ⟨1, (of_decide_eq_true rfl)⟩ 0)) (fun _ => rfl))).view.loc (thrV d L) ↦[(((outM).slice (Rect.unit (s := S204800x128) (k0_off3 L ⟨1, (of_decide_eq_true rfl)⟩ 0#32) S128x128.size (k0_off3_inb L ⟨1, (of_decide_eq_true rfl)⟩ 0)) (fun _ => rfl))).view.set]{fullShare} (m (outLoc d)) : sProp 𝕄) = (outLoc d ↦[outK L ⟨3, (of_decide_eq_true rfl)⟩]{fullShare} m (outLoc d)) := rfl
  ihave Hp3' := (Entails.of_eq e_Hp3.symm) $$ Hp3
  have e_Hp4 : ((((outM).slice (Rect.unit (s := S204800x128) (k0_off3 L ⟨1, (of_decide_eq_true rfl)⟩ 1#32) S128x128.size (k0_off3_inb L ⟨1, (of_decide_eq_true rfl)⟩ 1)) (fun _ => rfl))).view.loc (thrV d L) ↦[(((outM).slice (Rect.unit (s := S204800x128) (k0_off3 L ⟨1, (of_decide_eq_true rfl)⟩ 1#32) S128x128.size (k0_off3_inb L ⟨1, (of_decide_eq_true rfl)⟩ 1)) (fun _ => rfl))).view.set]{fullShare} (m (outLoc d)) : sProp 𝕄) = (outLoc d ↦[outK L ⟨4, (of_decide_eq_true rfl)⟩]{fullShare} m (outLoc d)) := rfl
  ihave Hp4' := (Entails.of_eq e_Hp4.symm) $$ Hp4
  have e_Hp5 : ((((outM).slice (Rect.unit (s := S204800x128) (k0_off3 L ⟨1, (of_decide_eq_true rfl)⟩ 2#32) S128x128.size (k0_off3_inb L ⟨1, (of_decide_eq_true rfl)⟩ 2)) (fun _ => rfl))).view.loc (thrV d L) ↦[(((outM).slice (Rect.unit (s := S204800x128) (k0_off3 L ⟨1, (of_decide_eq_true rfl)⟩ 2#32) S128x128.size (k0_off3_inb L ⟨1, (of_decide_eq_true rfl)⟩ 2)) (fun _ => rfl))).view.set]{fullShare} (m (outLoc d)) : sProp 𝕄) = (outLoc d ↦[outK L ⟨5, (of_decide_eq_true rfl)⟩]{fullShare} m (outLoc d)) := rfl
  ihave Hp5' := (Entails.of_eq e_Hp5.symm) $$ Hp5
  have e_Hp6 : ((((outM).slice (Rect.unit (s := S204800x128) (k0_off3 L ⟨2, (of_decide_eq_true rfl)⟩ 0#32) S128x128.size (k0_off3_inb L ⟨2, (of_decide_eq_true rfl)⟩ 0)) (fun _ => rfl))).view.loc (thrV d L) ↦[(((outM).slice (Rect.unit (s := S204800x128) (k0_off3 L ⟨2, (of_decide_eq_true rfl)⟩ 0#32) S128x128.size (k0_off3_inb L ⟨2, (of_decide_eq_true rfl)⟩ 0)) (fun _ => rfl))).view.set]{fullShare} (m (outLoc d)) : sProp 𝕄) = (outLoc d ↦[outK L ⟨6, (of_decide_eq_true rfl)⟩]{fullShare} m (outLoc d)) := rfl
  ihave Hp6' := (Entails.of_eq e_Hp6.symm) $$ Hp6
  have e_Hp7 : ((((outM).slice (Rect.unit (s := S204800x128) (k0_off3 L ⟨2, (of_decide_eq_true rfl)⟩ 1#32) S128x128.size (k0_off3_inb L ⟨2, (of_decide_eq_true rfl)⟩ 1)) (fun _ => rfl))).view.loc (thrV d L) ↦[(((outM).slice (Rect.unit (s := S204800x128) (k0_off3 L ⟨2, (of_decide_eq_true rfl)⟩ 1#32) S128x128.size (k0_off3_inb L ⟨2, (of_decide_eq_true rfl)⟩ 1)) (fun _ => rfl))).view.set]{fullShare} (m (outLoc d)) : sProp 𝕄) = (outLoc d ↦[outK L ⟨7, (of_decide_eq_true rfl)⟩]{fullShare} m (outLoc d)) := rfl
  ihave Hp7' := (Entails.of_eq e_Hp7.symm) $$ Hp7
  have e_Hp8 : ((((outM).slice (Rect.unit (s := S204800x128) (k0_off3 L ⟨2, (of_decide_eq_true rfl)⟩ 2#32) S128x128.size (k0_off3_inb L ⟨2, (of_decide_eq_true rfl)⟩ 2)) (fun _ => rfl))).view.loc (thrV d L) ↦[(((outM).slice (Rect.unit (s := S204800x128) (k0_off3 L ⟨2, (of_decide_eq_true rfl)⟩ 2#32) S128x128.size (k0_off3_inb L ⟨2, (of_decide_eq_true rfl)⟩ 2)) (fun _ => rfl))).view.set]{fullShare} (m (outLoc d)) : sProp 𝕄) = (outLoc d ↦[outK L ⟨8, (of_decide_eq_true rfl)⟩]{fullShare} m (outLoc d)) := rfl
  ihave Hp8' := (Entails.of_eq e_Hp8.symm) $$ Hp8
  have e_Hp9 : ((((outM).slice (Rect.unit (s := S204800x128) (k0_off3 L ⟨3, (of_decide_eq_true rfl)⟩ 0#32) S128x128.size (k0_off3_inb L ⟨3, (of_decide_eq_true rfl)⟩ 0)) (fun _ => rfl))).view.loc (thrV d L) ↦[(((outM).slice (Rect.unit (s := S204800x128) (k0_off3 L ⟨3, (of_decide_eq_true rfl)⟩ 0#32) S128x128.size (k0_off3_inb L ⟨3, (of_decide_eq_true rfl)⟩ 0)) (fun _ => rfl))).view.set]{fullShare} (m (outLoc d)) : sProp 𝕄) = (outLoc d ↦[outK L ⟨9, (of_decide_eq_true rfl)⟩]{fullShare} m (outLoc d)) := rfl
  ihave Hp9' := (Entails.of_eq e_Hp9.symm) $$ Hp9
  have e_Hp10 : ((((outM).slice (Rect.unit (s := S204800x128) (k0_off3 L ⟨3, (of_decide_eq_true rfl)⟩ 1#32) S128x128.size (k0_off3_inb L ⟨3, (of_decide_eq_true rfl)⟩ 1)) (fun _ => rfl))).view.loc (thrV d L) ↦[(((outM).slice (Rect.unit (s := S204800x128) (k0_off3 L ⟨3, (of_decide_eq_true rfl)⟩ 1#32) S128x128.size (k0_off3_inb L ⟨3, (of_decide_eq_true rfl)⟩ 1)) (fun _ => rfl))).view.set]{fullShare} (m (outLoc d)) : sProp 𝕄) = (outLoc d ↦[outK L ⟨10, (of_decide_eq_true rfl)⟩]{fullShare} m (outLoc d)) := rfl
  ihave Hp10' := (Entails.of_eq e_Hp10.symm) $$ Hp10
  have e_Hp11 : ((((outM).slice (Rect.unit (s := S204800x128) (k0_off3 L ⟨3, (of_decide_eq_true rfl)⟩ 2#32) S128x128.size (k0_off3_inb L ⟨3, (of_decide_eq_true rfl)⟩ 2)) (fun _ => rfl))).view.loc (thrV d L) ↦[(((outM).slice (Rect.unit (s := S204800x128) (k0_off3 L ⟨3, (of_decide_eq_true rfl)⟩ 2#32) S128x128.size (k0_off3_inb L ⟨3, (of_decide_eq_true rfl)⟩ 2)) (fun _ => rfl))).view.set]{fullShare} (m (outLoc d)) : sProp 𝕄) = (outLoc d ↦[outK L ⟨11, (of_decide_eq_true rfl)⟩]{fullShare} m (outLoc d)) := rfl
  ihave Hp11' := (Entails.of_eq e_Hp11.symm) $$ Hp11
  have e_Hp12 : ((((outM).slice (Rect.unit (s := S204800x128) (k0_off3 L ⟨4, (of_decide_eq_true rfl)⟩ 0#32) S128x128.size (k0_off3_inb L ⟨4, (of_decide_eq_true rfl)⟩ 0)) (fun _ => rfl))).view.loc (thrV d L) ↦[(((outM).slice (Rect.unit (s := S204800x128) (k0_off3 L ⟨4, (of_decide_eq_true rfl)⟩ 0#32) S128x128.size (k0_off3_inb L ⟨4, (of_decide_eq_true rfl)⟩ 0)) (fun _ => rfl))).view.set]{fullShare} (m (outLoc d)) : sProp 𝕄) = (outLoc d ↦[outK L ⟨12, (of_decide_eq_true rfl)⟩]{fullShare} m (outLoc d)) := rfl
  ihave Hp12' := (Entails.of_eq e_Hp12.symm) $$ Hp12
  have e_Hp13 : ((((outM).slice (Rect.unit (s := S204800x128) (k0_off3 L ⟨4, (of_decide_eq_true rfl)⟩ 1#32) S128x128.size (k0_off3_inb L ⟨4, (of_decide_eq_true rfl)⟩ 1)) (fun _ => rfl))).view.loc (thrV d L) ↦[(((outM).slice (Rect.unit (s := S204800x128) (k0_off3 L ⟨4, (of_decide_eq_true rfl)⟩ 1#32) S128x128.size (k0_off3_inb L ⟨4, (of_decide_eq_true rfl)⟩ 1)) (fun _ => rfl))).view.set]{fullShare} (m (outLoc d)) : sProp 𝕄) = (outLoc d ↦[outK L ⟨13, (of_decide_eq_true rfl)⟩]{fullShare} m (outLoc d)) := rfl
  ihave Hp13' := (Entails.of_eq e_Hp13.symm) $$ Hp13
  have e_Hp14 : ((((outM).slice (Rect.unit (s := S204800x128) (k0_off3 L ⟨4, (of_decide_eq_true rfl)⟩ 2#32) S128x128.size (k0_off3_inb L ⟨4, (of_decide_eq_true rfl)⟩ 2)) (fun _ => rfl))).view.loc (thrV d L) ↦[(((outM).slice (Rect.unit (s := S204800x128) (k0_off3 L ⟨4, (of_decide_eq_true rfl)⟩ 2#32) S128x128.size (k0_off3_inb L ⟨4, (of_decide_eq_true rfl)⟩ 2)) (fun _ => rfl))).view.set]{fullShare} (m (outLoc d)) : sProp 𝕄) = (outLoc d ↦[outK L ⟨14, (of_decide_eq_true rfl)⟩]{fullShare} m (outLoc d)) := rfl
  ihave Hp14' := (Entails.of_eq e_Hp14.symm) $$ Hp14
  have e_Hp15 : ((((outM).slice (Rect.unit (s := S204800x128) (k0_off3 L ⟨5, (of_decide_eq_true rfl)⟩ 0#32) S128x128.size (k0_off3_inb L ⟨5, (of_decide_eq_true rfl)⟩ 0)) (fun _ => rfl))).view.loc (thrV d L) ↦[(((outM).slice (Rect.unit (s := S204800x128) (k0_off3 L ⟨5, (of_decide_eq_true rfl)⟩ 0#32) S128x128.size (k0_off3_inb L ⟨5, (of_decide_eq_true rfl)⟩ 0)) (fun _ => rfl))).view.set]{fullShare} (m (outLoc d)) : sProp 𝕄) = (outLoc d ↦[outK L ⟨15, (of_decide_eq_true rfl)⟩]{fullShare} m (outLoc d)) := rfl
  ihave Hp15' := (Entails.of_eq e_Hp15.symm) $$ Hp15
  have e_Hp16 : ((((outM).slice (Rect.unit (s := S204800x128) (k0_off3 L ⟨5, (of_decide_eq_true rfl)⟩ 1#32) S128x128.size (k0_off3_inb L ⟨5, (of_decide_eq_true rfl)⟩ 1)) (fun _ => rfl))).view.loc (thrV d L) ↦[(((outM).slice (Rect.unit (s := S204800x128) (k0_off3 L ⟨5, (of_decide_eq_true rfl)⟩ 1#32) S128x128.size (k0_off3_inb L ⟨5, (of_decide_eq_true rfl)⟩ 1)) (fun _ => rfl))).view.set]{fullShare} (m (outLoc d)) : sProp 𝕄) = (outLoc d ↦[outK L ⟨16, (of_decide_eq_true rfl)⟩]{fullShare} m (outLoc d)) := rfl
  ihave Hp16' := (Entails.of_eq e_Hp16.symm) $$ Hp16
  have e_Hp17 : ((((outM).slice (Rect.unit (s := S204800x128) (k0_off3 L ⟨5, (of_decide_eq_true rfl)⟩ 2#32) S128x128.size (k0_off3_inb L ⟨5, (of_decide_eq_true rfl)⟩ 2)) (fun _ => rfl))).view.loc (thrV d L) ↦[(((outM).slice (Rect.unit (s := S204800x128) (k0_off3 L ⟨5, (of_decide_eq_true rfl)⟩ 2#32) S128x128.size (k0_off3_inb L ⟨5, (of_decide_eq_true rfl)⟩ 2)) (fun _ => rfl))).view.set]{fullShare} (m (outLoc d)) : sProp 𝕄) = (outLoc d ↦[outK L ⟨17, (of_decide_eq_true rfl)⟩]{fullShare} m (outLoc d)) := rfl
  ihave Hp17' := (Entails.of_eq e_Hp17.symm) $$ Hp17
  have e_Hp18 : ((((outM).slice (Rect.unit (s := S204800x128) (k0_off3 L ⟨6, (of_decide_eq_true rfl)⟩ 0#32) S128x128.size (k0_off3_inb L ⟨6, (of_decide_eq_true rfl)⟩ 0)) (fun _ => rfl))).view.loc (thrV d L) ↦[(((outM).slice (Rect.unit (s := S204800x128) (k0_off3 L ⟨6, (of_decide_eq_true rfl)⟩ 0#32) S128x128.size (k0_off3_inb L ⟨6, (of_decide_eq_true rfl)⟩ 0)) (fun _ => rfl))).view.set]{fullShare} (m (outLoc d)) : sProp 𝕄) = (outLoc d ↦[outK L ⟨18, (of_decide_eq_true rfl)⟩]{fullShare} m (outLoc d)) := rfl
  ihave Hp18' := (Entails.of_eq e_Hp18.symm) $$ Hp18
  have e_Hp19 : ((((outM).slice (Rect.unit (s := S204800x128) (k0_off3 L ⟨6, (of_decide_eq_true rfl)⟩ 1#32) S128x128.size (k0_off3_inb L ⟨6, (of_decide_eq_true rfl)⟩ 1)) (fun _ => rfl))).view.loc (thrV d L) ↦[(((outM).slice (Rect.unit (s := S204800x128) (k0_off3 L ⟨6, (of_decide_eq_true rfl)⟩ 1#32) S128x128.size (k0_off3_inb L ⟨6, (of_decide_eq_true rfl)⟩ 1)) (fun _ => rfl))).view.set]{fullShare} (m (outLoc d)) : sProp 𝕄) = (outLoc d ↦[outK L ⟨19, (of_decide_eq_true rfl)⟩]{fullShare} m (outLoc d)) := rfl
  ihave Hp19' := (Entails.of_eq e_Hp19.symm) $$ Hp19
  have e_Hp20 : ((((outM).slice (Rect.unit (s := S204800x128) (k0_off3 L ⟨6, (of_decide_eq_true rfl)⟩ 2#32) S128x128.size (k0_off3_inb L ⟨6, (of_decide_eq_true rfl)⟩ 2)) (fun _ => rfl))).view.loc (thrV d L) ↦[(((outM).slice (Rect.unit (s := S204800x128) (k0_off3 L ⟨6, (of_decide_eq_true rfl)⟩ 2#32) S128x128.size (k0_off3_inb L ⟨6, (of_decide_eq_true rfl)⟩ 2)) (fun _ => rfl))).view.set]{fullShare} (m (outLoc d)) : sProp 𝕄) = (outLoc d ↦[outK L ⟨20, (of_decide_eq_true rfl)⟩]{fullShare} m (outLoc d)) := rfl
  ihave Hp20' := (Entails.of_eq e_Hp20.symm) $$ Hp20
  have e_Hp21 : ((((outM).slice (Rect.unit (s := S204800x128) (k0_off3 L ⟨7, (of_decide_eq_true rfl)⟩ 0#32) S128x128.size (k0_off3_inb L ⟨7, (of_decide_eq_true rfl)⟩ 0)) (fun _ => rfl))).view.loc (thrV d L) ↦[(((outM).slice (Rect.unit (s := S204800x128) (k0_off3 L ⟨7, (of_decide_eq_true rfl)⟩ 0#32) S128x128.size (k0_off3_inb L ⟨7, (of_decide_eq_true rfl)⟩ 0)) (fun _ => rfl))).view.set]{fullShare} (m (outLoc d)) : sProp 𝕄) = (outLoc d ↦[outK L ⟨21, (of_decide_eq_true rfl)⟩]{fullShare} m (outLoc d)) := rfl
  ihave Hp21' := (Entails.of_eq e_Hp21.symm) $$ Hp21
  have e_Hp22 : ((((outM).slice (Rect.unit (s := S204800x128) (k0_off3 L ⟨7, (of_decide_eq_true rfl)⟩ 1#32) S128x128.size (k0_off3_inb L ⟨7, (of_decide_eq_true rfl)⟩ 1)) (fun _ => rfl))).view.loc (thrV d L) ↦[(((outM).slice (Rect.unit (s := S204800x128) (k0_off3 L ⟨7, (of_decide_eq_true rfl)⟩ 1#32) S128x128.size (k0_off3_inb L ⟨7, (of_decide_eq_true rfl)⟩ 1)) (fun _ => rfl))).view.set]{fullShare} (m (outLoc d)) : sProp 𝕄) = (outLoc d ↦[outK L ⟨22, (of_decide_eq_true rfl)⟩]{fullShare} m (outLoc d)) := rfl
  ihave Hp22' := (Entails.of_eq e_Hp22.symm) $$ Hp22
  have e_Hp23 : ((((outM).slice (Rect.unit (s := S204800x128) (k0_off3 L ⟨7, (of_decide_eq_true rfl)⟩ 2#32) S128x128.size (k0_off3_inb L ⟨7, (of_decide_eq_true rfl)⟩ 2)) (fun _ => rfl))).view.loc (thrV d L) ↦[(((outM).slice (Rect.unit (s := S204800x128) (k0_off3 L ⟨7, (of_decide_eq_true rfl)⟩ 2#32) S128x128.size (k0_off3_inb L ⟨7, (of_decide_eq_true rfl)⟩ 2)) (fun _ => rfl))).view.set]{fullShare} (m (outLoc d)) : sProp 𝕄) = (outLoc d ↦[outK L ⟨23, (of_decide_eq_true rfl)⟩]{fullShare} m (outLoc d)) := rfl
  ihave Hp23' := (Entails.of_eq e_Hp23.symm) $$ Hp23
  have e_Hp24 : ((((outM).slice (Rect.unit (s := S204800x128) (k0_off3 L ⟨8, (of_decide_eq_true rfl)⟩ 0#32) S128x128.size (k0_off3_inb L ⟨8, (of_decide_eq_true rfl)⟩ 0)) (fun _ => rfl))).view.loc (thrV d L) ↦[(((outM).slice (Rect.unit (s := S204800x128) (k0_off3 L ⟨8, (of_decide_eq_true rfl)⟩ 0#32) S128x128.size (k0_off3_inb L ⟨8, (of_decide_eq_true rfl)⟩ 0)) (fun _ => rfl))).view.set]{fullShare} (m (outLoc d)) : sProp 𝕄) = (outLoc d ↦[outK L ⟨24, (of_decide_eq_true rfl)⟩]{fullShare} m (outLoc d)) := rfl
  ihave Hp24' := (Entails.of_eq e_Hp24.symm) $$ Hp24
  have e_Hp25 : ((((outM).slice (Rect.unit (s := S204800x128) (k0_off3 L ⟨8, (of_decide_eq_true rfl)⟩ 1#32) S128x128.size (k0_off3_inb L ⟨8, (of_decide_eq_true rfl)⟩ 1)) (fun _ => rfl))).view.loc (thrV d L) ↦[(((outM).slice (Rect.unit (s := S204800x128) (k0_off3 L ⟨8, (of_decide_eq_true rfl)⟩ 1#32) S128x128.size (k0_off3_inb L ⟨8, (of_decide_eq_true rfl)⟩ 1)) (fun _ => rfl))).view.set]{fullShare} (m (outLoc d)) : sProp 𝕄) = (outLoc d ↦[outK L ⟨25, (of_decide_eq_true rfl)⟩]{fullShare} m (outLoc d)) := rfl
  ihave Hp25' := (Entails.of_eq e_Hp25.symm) $$ Hp25
  have e_Hp26 : ((((outM).slice (Rect.unit (s := S204800x128) (k0_off3 L ⟨8, (of_decide_eq_true rfl)⟩ 2#32) S128x128.size (k0_off3_inb L ⟨8, (of_decide_eq_true rfl)⟩ 2)) (fun _ => rfl))).view.loc (thrV d L) ↦[(((outM).slice (Rect.unit (s := S204800x128) (k0_off3 L ⟨8, (of_decide_eq_true rfl)⟩ 2#32) S128x128.size (k0_off3_inb L ⟨8, (of_decide_eq_true rfl)⟩ 2)) (fun _ => rfl))).view.set]{fullShare} (m (outLoc d)) : sProp 𝕄) = (outLoc d ↦[outK L ⟨26, (of_decide_eq_true rfl)⟩]{fullShare} m (outLoc d)) := rfl
  ihave Hp26' := (Entails.of_eq e_Hp26.symm) $$ Hp26
  have e_Hp27 : ((((outM).slice (Rect.unit (s := S204800x128) (k0_off3 L ⟨9, (of_decide_eq_true rfl)⟩ 0#32) S128x128.size (k0_off3_inb L ⟨9, (of_decide_eq_true rfl)⟩ 0)) (fun _ => rfl))).view.loc (thrV d L) ↦[(((outM).slice (Rect.unit (s := S204800x128) (k0_off3 L ⟨9, (of_decide_eq_true rfl)⟩ 0#32) S128x128.size (k0_off3_inb L ⟨9, (of_decide_eq_true rfl)⟩ 0)) (fun _ => rfl))).view.set]{fullShare} (m (outLoc d)) : sProp 𝕄) = (outLoc d ↦[outK L ⟨27, (of_decide_eq_true rfl)⟩]{fullShare} m (outLoc d)) := rfl
  ihave Hp27' := (Entails.of_eq e_Hp27.symm) $$ Hp27
  have e_Hp28 : ((((outM).slice (Rect.unit (s := S204800x128) (k0_off3 L ⟨9, (of_decide_eq_true rfl)⟩ 1#32) S128x128.size (k0_off3_inb L ⟨9, (of_decide_eq_true rfl)⟩ 1)) (fun _ => rfl))).view.loc (thrV d L) ↦[(((outM).slice (Rect.unit (s := S204800x128) (k0_off3 L ⟨9, (of_decide_eq_true rfl)⟩ 1#32) S128x128.size (k0_off3_inb L ⟨9, (of_decide_eq_true rfl)⟩ 1)) (fun _ => rfl))).view.set]{fullShare} (m (outLoc d)) : sProp 𝕄) = (outLoc d ↦[outK L ⟨28, (of_decide_eq_true rfl)⟩]{fullShare} m (outLoc d)) := rfl
  ihave Hp28' := (Entails.of_eq e_Hp28.symm) $$ Hp28
  have e_Hp29 : ((((outM).slice (Rect.unit (s := S204800x128) (k0_off3 L ⟨9, (of_decide_eq_true rfl)⟩ 2#32) S128x128.size (k0_off3_inb L ⟨9, (of_decide_eq_true rfl)⟩ 2)) (fun _ => rfl))).view.loc (thrV d L) ↦[(((outM).slice (Rect.unit (s := S204800x128) (k0_off3 L ⟨9, (of_decide_eq_true rfl)⟩ 2#32) S128x128.size (k0_off3_inb L ⟨9, (of_decide_eq_true rfl)⟩ 2)) (fun _ => rfl))).view.set]{fullShare} (m (outLoc d)) : sProp 𝕄) = (outLoc d ↦[outK L ⟨29, (of_decide_eq_true rfl)⟩]{fullShare} m (outLoc d)) := rfl
  ihave Hp29' := (Entails.of_eq e_Hp29.symm) $$ Hp29
  have e_Hp30 : ((((outM).slice (Rect.unit (s := S204800x128) (k0_off22 L ⟨0, (of_decide_eq_true rfl)⟩) S64x128.size (k0_off22_inb L ⟨0, (of_decide_eq_true rfl)⟩ (of_decide_eq_true rfl))) (fun _ => rfl))).view.loc (thrV d L) ↦[(((outM).slice (Rect.unit (s := S204800x128) (k0_off22 L ⟨0, (of_decide_eq_true rfl)⟩) S64x128.size (k0_off22_inb L ⟨0, (of_decide_eq_true rfl)⟩ (of_decide_eq_true rfl))) (fun _ => rfl))).view.set]{fullShare} (m (outLoc d)) : sProp 𝕄) = (outLoc d ↦[outK L ⟨30, (of_decide_eq_true rfl)⟩]{fullShare} m (outLoc d)) := rfl
  ihave Hp30' := (Entails.of_eq e_Hp30.symm) $$ Hp30
  have e_Hp31 : ((((outM).slice (Rect.unit (s := S204800x128) (k0_off28 L ⟨0, (of_decide_eq_true rfl)⟩) S64x128.size (k0_off28_inb L ⟨0, (of_decide_eq_true rfl)⟩ (of_decide_eq_true rfl))) (fun _ => rfl))).view.loc (thrV d L) ↦[(((outM).slice (Rect.unit (s := S204800x128) (k0_off28 L ⟨0, (of_decide_eq_true rfl)⟩) S64x128.size (k0_off28_inb L ⟨0, (of_decide_eq_true rfl)⟩ (of_decide_eq_true rfl))) (fun _ => rfl))).view.set]{fullShare} (m (outLoc d)) : sProp 𝕄) = (outLoc d ↦[outK L ⟨31, (of_decide_eq_true rfl)⟩]{fullShare} m (outLoc d)) := rfl
  ihave Hp31' := (Entails.of_eq e_Hp31.symm) $$ Hp31
  have e_Hp32 : ((((outM).slice (Rect.unit (s := S204800x128) (k0_off34 L ⟨0, (of_decide_eq_true rfl)⟩) S64x128.size (k0_off34_inb L ⟨0, (of_decide_eq_true rfl)⟩ (of_decide_eq_true rfl))) (fun _ => rfl))).view.loc (thrV d L) ↦[(((outM).slice (Rect.unit (s := S204800x128) (k0_off34 L ⟨0, (of_decide_eq_true rfl)⟩) S64x128.size (k0_off34_inb L ⟨0, (of_decide_eq_true rfl)⟩ (of_decide_eq_true rfl))) (fun _ => rfl))).view.set]{fullShare} (m (outLoc d)) : sProp 𝕄) = (outLoc d ↦[outK L ⟨32, (of_decide_eq_true rfl)⟩]{fullShare} m (outLoc d)) := rfl
  ihave Hp32' := (Entails.of_eq e_Hp32.symm) $$ Hp32
  have e_Hp33 : ((((outM).slice (Rect.unit (s := S204800x128) (k0_off15 L ⟨1, (of_decide_eq_true rfl)⟩) S64x128.size (k0_off15_inb L ⟨1, (of_decide_eq_true rfl)⟩ (of_decide_eq_true rfl))) (fun _ => rfl))).view.loc (thrV d L) ↦[(((outM).slice (Rect.unit (s := S204800x128) (k0_off15 L ⟨1, (of_decide_eq_true rfl)⟩) S64x128.size (k0_off15_inb L ⟨1, (of_decide_eq_true rfl)⟩ (of_decide_eq_true rfl))) (fun _ => rfl))).view.set]{fullShare} (m (outLoc d)) : sProp 𝕄) = (outLoc d ↦[outK L ⟨33, (of_decide_eq_true rfl)⟩]{fullShare} m (outLoc d)) := rfl
  ihave Hp33' := (Entails.of_eq e_Hp33.symm) $$ Hp33
  have e_Hp34 : ((((outM).slice (Rect.unit (s := S204800x128) (k0_off22 L ⟨1, (of_decide_eq_true rfl)⟩) S64x128.size (k0_off22_inb L ⟨1, (of_decide_eq_true rfl)⟩ (of_decide_eq_true rfl))) (fun _ => rfl))).view.loc (thrV d L) ↦[(((outM).slice (Rect.unit (s := S204800x128) (k0_off22 L ⟨1, (of_decide_eq_true rfl)⟩) S64x128.size (k0_off22_inb L ⟨1, (of_decide_eq_true rfl)⟩ (of_decide_eq_true rfl))) (fun _ => rfl))).view.set]{fullShare} (m (outLoc d)) : sProp 𝕄) = (outLoc d ↦[outK L ⟨34, (of_decide_eq_true rfl)⟩]{fullShare} m (outLoc d)) := rfl
  ihave Hp34' := (Entails.of_eq e_Hp34.symm) $$ Hp34
  have e_Hp35 : ((((outM).slice (Rect.unit (s := S204800x128) (k0_off28 L ⟨1, (of_decide_eq_true rfl)⟩) S64x128.size (k0_off28_inb L ⟨1, (of_decide_eq_true rfl)⟩ (of_decide_eq_true rfl))) (fun _ => rfl))).view.loc (thrV d L) ↦[(((outM).slice (Rect.unit (s := S204800x128) (k0_off28 L ⟨1, (of_decide_eq_true rfl)⟩) S64x128.size (k0_off28_inb L ⟨1, (of_decide_eq_true rfl)⟩ (of_decide_eq_true rfl))) (fun _ => rfl))).view.set]{fullShare} (m (outLoc d)) : sProp 𝕄) = (outLoc d ↦[outK L ⟨35, (of_decide_eq_true rfl)⟩]{fullShare} m (outLoc d)) := rfl
  ihave Hp35' := (Entails.of_eq e_Hp35.symm) $$ Hp35
  have e_Hp36 : ((((outM).slice (Rect.unit (s := S204800x128) (k0_off34 L ⟨1, (of_decide_eq_true rfl)⟩) S64x128.size (k0_off34_inb L ⟨1, (of_decide_eq_true rfl)⟩ (of_decide_eq_true rfl))) (fun _ => rfl))).view.loc (thrV d L) ↦[(((outM).slice (Rect.unit (s := S204800x128) (k0_off34 L ⟨1, (of_decide_eq_true rfl)⟩) S64x128.size (k0_off34_inb L ⟨1, (of_decide_eq_true rfl)⟩ (of_decide_eq_true rfl))) (fun _ => rfl))).view.set]{fullShare} (m (outLoc d)) : sProp 𝕄) = (outLoc d ↦[outK L ⟨36, (of_decide_eq_true rfl)⟩]{fullShare} m (outLoc d)) := rfl
  ihave Hp36' := (Entails.of_eq e_Hp36.symm) $$ Hp36
  have e_Hp37 : ((((outM).slice (Rect.unit (s := S204800x128) (k0_off15 L ⟨2, (of_decide_eq_true rfl)⟩) S64x128.size (k0_off15_inb L ⟨2, (of_decide_eq_true rfl)⟩ (of_decide_eq_true rfl))) (fun _ => rfl))).view.loc (thrV d L) ↦[(((outM).slice (Rect.unit (s := S204800x128) (k0_off15 L ⟨2, (of_decide_eq_true rfl)⟩) S64x128.size (k0_off15_inb L ⟨2, (of_decide_eq_true rfl)⟩ (of_decide_eq_true rfl))) (fun _ => rfl))).view.set]{fullShare} (m (outLoc d)) : sProp 𝕄) = (outLoc d ↦[outK L ⟨37, (of_decide_eq_true rfl)⟩]{fullShare} m (outLoc d)) := rfl
  ihave Hp37' := (Entails.of_eq e_Hp37.symm) $$ Hp37
  have e_Hp38 : ((((outM).slice (Rect.unit (s := S204800x128) (k0_off22 L ⟨2, (of_decide_eq_true rfl)⟩) S64x128.size (k0_off22_inb L ⟨2, (of_decide_eq_true rfl)⟩ (of_decide_eq_true rfl))) (fun _ => rfl))).view.loc (thrV d L) ↦[(((outM).slice (Rect.unit (s := S204800x128) (k0_off22 L ⟨2, (of_decide_eq_true rfl)⟩) S64x128.size (k0_off22_inb L ⟨2, (of_decide_eq_true rfl)⟩ (of_decide_eq_true rfl))) (fun _ => rfl))).view.set]{fullShare} (m (outLoc d)) : sProp 𝕄) = (outLoc d ↦[outK L ⟨38, (of_decide_eq_true rfl)⟩]{fullShare} m (outLoc d)) := rfl
  ihave Hp38' := (Entails.of_eq e_Hp38.symm) $$ Hp38
  have e_Hp39 : ((((outM).slice (Rect.unit (s := S204800x128) (k0_off28 L ⟨2, (of_decide_eq_true rfl)⟩) S64x128.size (k0_off28_inb L ⟨2, (of_decide_eq_true rfl)⟩ (of_decide_eq_true rfl))) (fun _ => rfl))).view.loc (thrV d L) ↦[(((outM).slice (Rect.unit (s := S204800x128) (k0_off28 L ⟨2, (of_decide_eq_true rfl)⟩) S64x128.size (k0_off28_inb L ⟨2, (of_decide_eq_true rfl)⟩ (of_decide_eq_true rfl))) (fun _ => rfl))).view.set]{fullShare} (m (outLoc d)) : sProp 𝕄) = (outLoc d ↦[outK L ⟨39, (of_decide_eq_true rfl)⟩]{fullShare} m (outLoc d)) := rfl
  ihave Hp39' := (Entails.of_eq e_Hp39.symm) $$ Hp39
  have e_Hp40 : ((((outM).slice (Rect.unit (s := S204800x128) (k0_off34 L ⟨2, (of_decide_eq_true rfl)⟩) S64x128.size (k0_off34_inb L ⟨2, (of_decide_eq_true rfl)⟩ (of_decide_eq_true rfl))) (fun _ => rfl))).view.loc (thrV d L) ↦[(((outM).slice (Rect.unit (s := S204800x128) (k0_off34 L ⟨2, (of_decide_eq_true rfl)⟩) S64x128.size (k0_off34_inb L ⟨2, (of_decide_eq_true rfl)⟩ (of_decide_eq_true rfl))) (fun _ => rfl))).view.set]{fullShare} (m (outLoc d)) : sProp 𝕄) = (outLoc d ↦[outK L ⟨40, (of_decide_eq_true rfl)⟩]{fullShare} m (outLoc d)) := rfl
  ihave Hp40' := (Entails.of_eq e_Hp40.symm) $$ Hp40
  have e_Hp41 : ((((outM).slice (Rect.unit (s := S204800x128) (k0_off15 L ⟨3, (of_decide_eq_true rfl)⟩) S64x128.size (k0_off15_inb L ⟨3, (of_decide_eq_true rfl)⟩ (of_decide_eq_true rfl))) (fun _ => rfl))).view.loc (thrV d L) ↦[(((outM).slice (Rect.unit (s := S204800x128) (k0_off15 L ⟨3, (of_decide_eq_true rfl)⟩) S64x128.size (k0_off15_inb L ⟨3, (of_decide_eq_true rfl)⟩ (of_decide_eq_true rfl))) (fun _ => rfl))).view.set]{fullShare} (m (outLoc d)) : sProp 𝕄) = (outLoc d ↦[outK L ⟨41, (of_decide_eq_true rfl)⟩]{fullShare} m (outLoc d)) := rfl
  ihave Hp41' := (Entails.of_eq e_Hp41.symm) $$ Hp41
  have e_Hp42 : ((((outM).slice (Rect.unit (s := S204800x128) (k0_off22 L ⟨3, (of_decide_eq_true rfl)⟩) S64x128.size (k0_off22_inb L ⟨3, (of_decide_eq_true rfl)⟩ (of_decide_eq_true rfl))) (fun _ => rfl))).view.loc (thrV d L) ↦[(((outM).slice (Rect.unit (s := S204800x128) (k0_off22 L ⟨3, (of_decide_eq_true rfl)⟩) S64x128.size (k0_off22_inb L ⟨3, (of_decide_eq_true rfl)⟩ (of_decide_eq_true rfl))) (fun _ => rfl))).view.set]{fullShare} (m (outLoc d)) : sProp 𝕄) = (outLoc d ↦[outK L ⟨42, (of_decide_eq_true rfl)⟩]{fullShare} m (outLoc d)) := rfl
  ihave Hp42' := (Entails.of_eq e_Hp42.symm) $$ Hp42
  have e_Hp43 : ((((outM).slice (Rect.unit (s := S204800x128) (k0_off28 L ⟨3, (of_decide_eq_true rfl)⟩) S64x128.size (k0_off28_inb L ⟨3, (of_decide_eq_true rfl)⟩ (of_decide_eq_true rfl))) (fun _ => rfl))).view.loc (thrV d L) ↦[(((outM).slice (Rect.unit (s := S204800x128) (k0_off28 L ⟨3, (of_decide_eq_true rfl)⟩) S64x128.size (k0_off28_inb L ⟨3, (of_decide_eq_true rfl)⟩ (of_decide_eq_true rfl))) (fun _ => rfl))).view.set]{fullShare} (m (outLoc d)) : sProp 𝕄) = (outLoc d ↦[outK L ⟨43, (of_decide_eq_true rfl)⟩]{fullShare} m (outLoc d)) := rfl
  ihave Hp43' := (Entails.of_eq e_Hp43.symm) $$ Hp43
  have e_Hp44 : ((((outM).slice (Rect.unit (s := S204800x128) (k0_off34 L ⟨3, (of_decide_eq_true rfl)⟩) S64x128.size (k0_off34_inb L ⟨3, (of_decide_eq_true rfl)⟩ (of_decide_eq_true rfl))) (fun _ => rfl))).view.loc (thrV d L) ↦[(((outM).slice (Rect.unit (s := S204800x128) (k0_off34 L ⟨3, (of_decide_eq_true rfl)⟩) S64x128.size (k0_off34_inb L ⟨3, (of_decide_eq_true rfl)⟩ (of_decide_eq_true rfl))) (fun _ => rfl))).view.set]{fullShare} (m (outLoc d)) : sProp 𝕄) = (outLoc d ↦[outK L ⟨44, (of_decide_eq_true rfl)⟩]{fullShare} m (outLoc d)) := rfl
  ihave Hp44' := (Entails.of_eq e_Hp44.symm) $$ Hp44
  have e_Hp45 : ((((outM).slice (Rect.unit (s := S204800x128) (k0_off15 L ⟨4, (of_decide_eq_true rfl)⟩) S64x128.size (k0_off15_inb L ⟨4, (of_decide_eq_true rfl)⟩ (of_decide_eq_true rfl))) (fun _ => rfl))).view.loc (thrV d L) ↦[(((outM).slice (Rect.unit (s := S204800x128) (k0_off15 L ⟨4, (of_decide_eq_true rfl)⟩) S64x128.size (k0_off15_inb L ⟨4, (of_decide_eq_true rfl)⟩ (of_decide_eq_true rfl))) (fun _ => rfl))).view.set]{fullShare} (m (outLoc d)) : sProp 𝕄) = (outLoc d ↦[outK L ⟨45, (of_decide_eq_true rfl)⟩]{fullShare} m (outLoc d)) := rfl
  ihave Hp45' := (Entails.of_eq e_Hp45.symm) $$ Hp45
  have e_Hp46 : ((((outM).slice (Rect.unit (s := S204800x128) (k0_off22 L ⟨4, (of_decide_eq_true rfl)⟩) S64x128.size (k0_off22_inb L ⟨4, (of_decide_eq_true rfl)⟩ (of_decide_eq_true rfl))) (fun _ => rfl))).view.loc (thrV d L) ↦[(((outM).slice (Rect.unit (s := S204800x128) (k0_off22 L ⟨4, (of_decide_eq_true rfl)⟩) S64x128.size (k0_off22_inb L ⟨4, (of_decide_eq_true rfl)⟩ (of_decide_eq_true rfl))) (fun _ => rfl))).view.set]{fullShare} (m (outLoc d)) : sProp 𝕄) = (outLoc d ↦[outK L ⟨46, (of_decide_eq_true rfl)⟩]{fullShare} m (outLoc d)) := rfl
  ihave Hp46' := (Entails.of_eq e_Hp46.symm) $$ Hp46
  have e_Hp47 : ((((outM).slice (Rect.unit (s := S204800x128) (k0_off28 L ⟨4, (of_decide_eq_true rfl)⟩) S64x128.size (k0_off28_inb L ⟨4, (of_decide_eq_true rfl)⟩ (of_decide_eq_true rfl))) (fun _ => rfl))).view.loc (thrV d L) ↦[(((outM).slice (Rect.unit (s := S204800x128) (k0_off28 L ⟨4, (of_decide_eq_true rfl)⟩) S64x128.size (k0_off28_inb L ⟨4, (of_decide_eq_true rfl)⟩ (of_decide_eq_true rfl))) (fun _ => rfl))).view.set]{fullShare} (m (outLoc d)) : sProp 𝕄) = (outLoc d ↦[outK L ⟨47, (of_decide_eq_true rfl)⟩]{fullShare} m (outLoc d)) := rfl
  ihave Hp47' := (Entails.of_eq e_Hp47.symm) $$ Hp47
  have e_Hp48 : ((((outM).slice (Rect.unit (s := S204800x128) (k0_off34 L ⟨4, (of_decide_eq_true rfl)⟩) S64x128.size (k0_off34_inb L ⟨4, (of_decide_eq_true rfl)⟩ (of_decide_eq_true rfl))) (fun _ => rfl))).view.loc (thrV d L) ↦[(((outM).slice (Rect.unit (s := S204800x128) (k0_off34 L ⟨4, (of_decide_eq_true rfl)⟩) S64x128.size (k0_off34_inb L ⟨4, (of_decide_eq_true rfl)⟩ (of_decide_eq_true rfl))) (fun _ => rfl))).view.set]{fullShare} (m (outLoc d)) : sProp 𝕄) = (outLoc d ↦[outK L ⟨48, (of_decide_eq_true rfl)⟩]{fullShare} m (outLoc d)) := rfl
  ihave Hp48' := (Entails.of_eq e_Hp48.symm) $$ Hp48
  have e_Hp49 : ((((outM).slice (Rect.unit (s := S204800x128) (k0_off15 L ⟨5, (of_decide_eq_true rfl)⟩) S64x128.size (k0_off15_inb L ⟨5, (of_decide_eq_true rfl)⟩ (of_decide_eq_true rfl))) (fun _ => rfl))).view.loc (thrV d L) ↦[(((outM).slice (Rect.unit (s := S204800x128) (k0_off15 L ⟨5, (of_decide_eq_true rfl)⟩) S64x128.size (k0_off15_inb L ⟨5, (of_decide_eq_true rfl)⟩ (of_decide_eq_true rfl))) (fun _ => rfl))).view.set]{fullShare} (m (outLoc d)) : sProp 𝕄) = (outLoc d ↦[outK L ⟨49, (of_decide_eq_true rfl)⟩]{fullShare} m (outLoc d)) := rfl
  ihave Hp49' := (Entails.of_eq e_Hp49.symm) $$ Hp49
  have e_Hp50 : ((((outM).slice (Rect.unit (s := S204800x128) (k0_off22 L ⟨5, (of_decide_eq_true rfl)⟩) S64x128.size (k0_off22_inb L ⟨5, (of_decide_eq_true rfl)⟩ (of_decide_eq_true rfl))) (fun _ => rfl))).view.loc (thrV d L) ↦[(((outM).slice (Rect.unit (s := S204800x128) (k0_off22 L ⟨5, (of_decide_eq_true rfl)⟩) S64x128.size (k0_off22_inb L ⟨5, (of_decide_eq_true rfl)⟩ (of_decide_eq_true rfl))) (fun _ => rfl))).view.set]{fullShare} (m (outLoc d)) : sProp 𝕄) = (outLoc d ↦[outK L ⟨50, (of_decide_eq_true rfl)⟩]{fullShare} m (outLoc d)) := rfl
  ihave Hp50' := (Entails.of_eq e_Hp50.symm) $$ Hp50
  have e_Hp51 : ((((outM).slice (Rect.unit (s := S204800x128) (k0_off28 L ⟨5, (of_decide_eq_true rfl)⟩) S64x128.size (k0_off28_inb L ⟨5, (of_decide_eq_true rfl)⟩ (of_decide_eq_true rfl))) (fun _ => rfl))).view.loc (thrV d L) ↦[(((outM).slice (Rect.unit (s := S204800x128) (k0_off28 L ⟨5, (of_decide_eq_true rfl)⟩) S64x128.size (k0_off28_inb L ⟨5, (of_decide_eq_true rfl)⟩ (of_decide_eq_true rfl))) (fun _ => rfl))).view.set]{fullShare} (m (outLoc d)) : sProp 𝕄) = (outLoc d ↦[outK L ⟨51, (of_decide_eq_true rfl)⟩]{fullShare} m (outLoc d)) := rfl
  ihave Hp51' := (Entails.of_eq e_Hp51.symm) $$ Hp51
  have e_Hp52 : ((((outM).slice (Rect.unit (s := S204800x128) (k0_off34 L ⟨5, (of_decide_eq_true rfl)⟩) S64x128.size (k0_off34_inb L ⟨5, (of_decide_eq_true rfl)⟩ (of_decide_eq_true rfl))) (fun _ => rfl))).view.loc (thrV d L) ↦[(((outM).slice (Rect.unit (s := S204800x128) (k0_off34 L ⟨5, (of_decide_eq_true rfl)⟩) S64x128.size (k0_off34_inb L ⟨5, (of_decide_eq_true rfl)⟩ (of_decide_eq_true rfl))) (fun _ => rfl))).view.set]{fullShare} (m (outLoc d)) : sProp 𝕄) = (outLoc d ↦[outK L ⟨52, (of_decide_eq_true rfl)⟩]{fullShare} m (outLoc d)) := rfl
  ihave Hp52' := (Entails.of_eq e_Hp52.symm) $$ Hp52
  have e_Hp53 : ((((outM).slice (Rect.unit (s := S204800x128) (k0_off15 L ⟨6, (of_decide_eq_true rfl)⟩) S64x128.size (k0_off15_inb L ⟨6, (of_decide_eq_true rfl)⟩ (of_decide_eq_true rfl))) (fun _ => rfl))).view.loc (thrV d L) ↦[(((outM).slice (Rect.unit (s := S204800x128) (k0_off15 L ⟨6, (of_decide_eq_true rfl)⟩) S64x128.size (k0_off15_inb L ⟨6, (of_decide_eq_true rfl)⟩ (of_decide_eq_true rfl))) (fun _ => rfl))).view.set]{fullShare} (m (outLoc d)) : sProp 𝕄) = (outLoc d ↦[outK L ⟨53, (of_decide_eq_true rfl)⟩]{fullShare} m (outLoc d)) := rfl
  ihave Hp53' := (Entails.of_eq e_Hp53.symm) $$ Hp53
  have e_Hp54 : ((((outM).slice (Rect.unit (s := S204800x128) (k0_off22 L ⟨6, (of_decide_eq_true rfl)⟩) S64x128.size (k0_off22_inb L ⟨6, (of_decide_eq_true rfl)⟩ (of_decide_eq_true rfl))) (fun _ => rfl))).view.loc (thrV d L) ↦[(((outM).slice (Rect.unit (s := S204800x128) (k0_off22 L ⟨6, (of_decide_eq_true rfl)⟩) S64x128.size (k0_off22_inb L ⟨6, (of_decide_eq_true rfl)⟩ (of_decide_eq_true rfl))) (fun _ => rfl))).view.set]{fullShare} (m (outLoc d)) : sProp 𝕄) = (outLoc d ↦[outK L ⟨54, (of_decide_eq_true rfl)⟩]{fullShare} m (outLoc d)) := rfl
  ihave Hp54' := (Entails.of_eq e_Hp54.symm) $$ Hp54
  have e_Hp55 : ((((outM).slice (Rect.unit (s := S204800x128) (k0_off28 L ⟨6, (of_decide_eq_true rfl)⟩) S64x128.size (k0_off28_inb L ⟨6, (of_decide_eq_true rfl)⟩ (of_decide_eq_true rfl))) (fun _ => rfl))).view.loc (thrV d L) ↦[(((outM).slice (Rect.unit (s := S204800x128) (k0_off28 L ⟨6, (of_decide_eq_true rfl)⟩) S64x128.size (k0_off28_inb L ⟨6, (of_decide_eq_true rfl)⟩ (of_decide_eq_true rfl))) (fun _ => rfl))).view.set]{fullShare} (m (outLoc d)) : sProp 𝕄) = (outLoc d ↦[outK L ⟨55, (of_decide_eq_true rfl)⟩]{fullShare} m (outLoc d)) := rfl
  ihave Hp55' := (Entails.of_eq e_Hp55.symm) $$ Hp55
  have e_Hp56 : ((((outM).slice (Rect.unit (s := S204800x128) (k0_off34 L ⟨6, (of_decide_eq_true rfl)⟩) S64x128.size (k0_off34_inb L ⟨6, (of_decide_eq_true rfl)⟩ (of_decide_eq_true rfl))) (fun _ => rfl))).view.loc (thrV d L) ↦[(((outM).slice (Rect.unit (s := S204800x128) (k0_off34 L ⟨6, (of_decide_eq_true rfl)⟩) S64x128.size (k0_off34_inb L ⟨6, (of_decide_eq_true rfl)⟩ (of_decide_eq_true rfl))) (fun _ => rfl))).view.set]{fullShare} (m (outLoc d)) : sProp 𝕄) = (outLoc d ↦[outK L ⟨56, (of_decide_eq_true rfl)⟩]{fullShare} m (outLoc d)) := rfl
  ihave Hp56' := (Entails.of_eq e_Hp56.symm) $$ Hp56
  have e_Hp57 : ((((outM).slice (Rect.unit (s := S204800x128) (k0_off15 L ⟨7, (of_decide_eq_true rfl)⟩) S64x128.size (k0_off15_inb L ⟨7, (of_decide_eq_true rfl)⟩ (of_decide_eq_true rfl))) (fun _ => rfl))).view.loc (thrV d L) ↦[(((outM).slice (Rect.unit (s := S204800x128) (k0_off15 L ⟨7, (of_decide_eq_true rfl)⟩) S64x128.size (k0_off15_inb L ⟨7, (of_decide_eq_true rfl)⟩ (of_decide_eq_true rfl))) (fun _ => rfl))).view.set]{fullShare} (m (outLoc d)) : sProp 𝕄) = (outLoc d ↦[outK L ⟨57, (of_decide_eq_true rfl)⟩]{fullShare} m (outLoc d)) := rfl
  ihave Hp57' := (Entails.of_eq e_Hp57.symm) $$ Hp57
  have e_Hp58 : ((((outM).slice (Rect.unit (s := S204800x128) (k0_off22 L ⟨7, (of_decide_eq_true rfl)⟩) S64x128.size (k0_off22_inb L ⟨7, (of_decide_eq_true rfl)⟩ (of_decide_eq_true rfl))) (fun _ => rfl))).view.loc (thrV d L) ↦[(((outM).slice (Rect.unit (s := S204800x128) (k0_off22 L ⟨7, (of_decide_eq_true rfl)⟩) S64x128.size (k0_off22_inb L ⟨7, (of_decide_eq_true rfl)⟩ (of_decide_eq_true rfl))) (fun _ => rfl))).view.set]{fullShare} (m (outLoc d)) : sProp 𝕄) = (outLoc d ↦[outK L ⟨58, (of_decide_eq_true rfl)⟩]{fullShare} m (outLoc d)) := rfl
  ihave Hp58' := (Entails.of_eq e_Hp58.symm) $$ Hp58
  have e_Hp59 : ((((outM).slice (Rect.unit (s := S204800x128) (k0_off28 L ⟨7, (of_decide_eq_true rfl)⟩) S64x128.size (k0_off28_inb L ⟨7, (of_decide_eq_true rfl)⟩ (of_decide_eq_true rfl))) (fun _ => rfl))).view.loc (thrV d L) ↦[(((outM).slice (Rect.unit (s := S204800x128) (k0_off28 L ⟨7, (of_decide_eq_true rfl)⟩) S64x128.size (k0_off28_inb L ⟨7, (of_decide_eq_true rfl)⟩ (of_decide_eq_true rfl))) (fun _ => rfl))).view.set]{fullShare} (m (outLoc d)) : sProp 𝕄) = (outLoc d ↦[outK L ⟨59, (of_decide_eq_true rfl)⟩]{fullShare} m (outLoc d)) := rfl
  ihave Hp59' := (Entails.of_eq e_Hp59.symm) $$ Hp59
  have e_Hp60 : ((((outM).slice (Rect.unit (s := S204800x128) (k0_off34 L ⟨7, (of_decide_eq_true rfl)⟩) S64x128.size (k0_off34_inb L ⟨7, (of_decide_eq_true rfl)⟩ (of_decide_eq_true rfl))) (fun _ => rfl))).view.loc (thrV d L) ↦[(((outM).slice (Rect.unit (s := S204800x128) (k0_off34 L ⟨7, (of_decide_eq_true rfl)⟩) S64x128.size (k0_off34_inb L ⟨7, (of_decide_eq_true rfl)⟩ (of_decide_eq_true rfl))) (fun _ => rfl))).view.set]{fullShare} (m (outLoc d)) : sProp 𝕄) = (outLoc d ↦[outK L ⟨60, (of_decide_eq_true rfl)⟩]{fullShare} m (outLoc d)) := rfl
  ihave Hp60' := (Entails.of_eq e_Hp60.symm) $$ Hp60
  have e_Hp61 : ((((outM).slice (Rect.unit (s := S204800x128) (k0_off15 L ⟨8, (of_decide_eq_true rfl)⟩) S64x128.size (k0_off15_inb L ⟨8, (of_decide_eq_true rfl)⟩ (of_decide_eq_true rfl))) (fun _ => rfl))).view.loc (thrV d L) ↦[(((outM).slice (Rect.unit (s := S204800x128) (k0_off15 L ⟨8, (of_decide_eq_true rfl)⟩) S64x128.size (k0_off15_inb L ⟨8, (of_decide_eq_true rfl)⟩ (of_decide_eq_true rfl))) (fun _ => rfl))).view.set]{fullShare} (m (outLoc d)) : sProp 𝕄) = (outLoc d ↦[outK L ⟨61, (of_decide_eq_true rfl)⟩]{fullShare} m (outLoc d)) := rfl
  ihave Hp61' := (Entails.of_eq e_Hp61.symm) $$ Hp61
  have e_Hp62 : ((((outM).slice (Rect.unit (s := S204800x128) (k0_off22 L ⟨8, (of_decide_eq_true rfl)⟩) S64x128.size (k0_off22_inb L ⟨8, (of_decide_eq_true rfl)⟩ (of_decide_eq_true rfl))) (fun _ => rfl))).view.loc (thrV d L) ↦[(((outM).slice (Rect.unit (s := S204800x128) (k0_off22 L ⟨8, (of_decide_eq_true rfl)⟩) S64x128.size (k0_off22_inb L ⟨8, (of_decide_eq_true rfl)⟩ (of_decide_eq_true rfl))) (fun _ => rfl))).view.set]{fullShare} (m (outLoc d)) : sProp 𝕄) = (outLoc d ↦[outK L ⟨62, (of_decide_eq_true rfl)⟩]{fullShare} m (outLoc d)) := rfl
  ihave Hp62' := (Entails.of_eq e_Hp62.symm) $$ Hp62
  have e_Hp63 : ((((outM).slice (Rect.unit (s := S204800x128) (k0_off28 L ⟨8, (of_decide_eq_true rfl)⟩) S64x128.size (k0_off28_inb L ⟨8, (of_decide_eq_true rfl)⟩ (of_decide_eq_true rfl))) (fun _ => rfl))).view.loc (thrV d L) ↦[(((outM).slice (Rect.unit (s := S204800x128) (k0_off28 L ⟨8, (of_decide_eq_true rfl)⟩) S64x128.size (k0_off28_inb L ⟨8, (of_decide_eq_true rfl)⟩ (of_decide_eq_true rfl))) (fun _ => rfl))).view.set]{fullShare} (m (outLoc d)) : sProp 𝕄) = (outLoc d ↦[outK L ⟨63, (of_decide_eq_true rfl)⟩]{fullShare} m (outLoc d)) := rfl
  ihave Hp63' := (Entails.of_eq e_Hp63.symm) $$ Hp63
  have e_Hp64 : ((((outM).slice (Rect.unit (s := S204800x128) (k0_off34 L ⟨8, (of_decide_eq_true rfl)⟩) S64x128.size (k0_off34_inb L ⟨8, (of_decide_eq_true rfl)⟩ (of_decide_eq_true rfl))) (fun _ => rfl))).view.loc (thrV d L) ↦[(((outM).slice (Rect.unit (s := S204800x128) (k0_off34 L ⟨8, (of_decide_eq_true rfl)⟩) S64x128.size (k0_off34_inb L ⟨8, (of_decide_eq_true rfl)⟩ (of_decide_eq_true rfl))) (fun _ => rfl))).view.set]{fullShare} (m (outLoc d)) : sProp 𝕄) = (outLoc d ↦[outK L ⟨64, (of_decide_eq_true rfl)⟩]{fullShare} m (outLoc d)) := rfl
  ihave Hp64' := (Entails.of_eq e_Hp64.symm) $$ Hp64
  have e_Hp65 : ((((outM).slice (Rect.unit (s := S204800x128) (k0_off15 L ⟨9, (of_decide_eq_true rfl)⟩) S64x128.size (k0_off15_inb L ⟨9, (of_decide_eq_true rfl)⟩ (of_decide_eq_true rfl))) (fun _ => rfl))).view.loc (thrV d L) ↦[(((outM).slice (Rect.unit (s := S204800x128) (k0_off15 L ⟨9, (of_decide_eq_true rfl)⟩) S64x128.size (k0_off15_inb L ⟨9, (of_decide_eq_true rfl)⟩ (of_decide_eq_true rfl))) (fun _ => rfl))).view.set]{fullShare} (m (outLoc d)) : sProp 𝕄) = (outLoc d ↦[outK L ⟨65, (of_decide_eq_true rfl)⟩]{fullShare} m (outLoc d)) := rfl
  ihave Hp65' := (Entails.of_eq e_Hp65.symm) $$ Hp65
  have e_Hp66 : ((((outM).slice (Rect.unit (s := S204800x128) (k0_off22 L ⟨9, (of_decide_eq_true rfl)⟩) S64x128.size (k0_off22_inb L ⟨9, (of_decide_eq_true rfl)⟩ (of_decide_eq_true rfl))) (fun _ => rfl))).view.loc (thrV d L) ↦[(((outM).slice (Rect.unit (s := S204800x128) (k0_off22 L ⟨9, (of_decide_eq_true rfl)⟩) S64x128.size (k0_off22_inb L ⟨9, (of_decide_eq_true rfl)⟩ (of_decide_eq_true rfl))) (fun _ => rfl))).view.set]{fullShare} (m (outLoc d)) : sProp 𝕄) = (outLoc d ↦[outK L ⟨66, (of_decide_eq_true rfl)⟩]{fullShare} m (outLoc d)) := rfl
  ihave Hp66' := (Entails.of_eq e_Hp66.symm) $$ Hp66
  have e_Hp67 : ((((outM).slice (Rect.unit (s := S204800x128) (k0_off28 L ⟨9, (of_decide_eq_true rfl)⟩) S64x128.size (k0_off28_inb L ⟨9, (of_decide_eq_true rfl)⟩ (of_decide_eq_true rfl))) (fun _ => rfl))).view.loc (thrV d L) ↦[(((outM).slice (Rect.unit (s := S204800x128) (k0_off28 L ⟨9, (of_decide_eq_true rfl)⟩) S64x128.size (k0_off28_inb L ⟨9, (of_decide_eq_true rfl)⟩ (of_decide_eq_true rfl))) (fun _ => rfl))).view.set]{fullShare} (m (outLoc d)) : sProp 𝕄) = (outLoc d ↦[outK L ⟨67, (of_decide_eq_true rfl)⟩]{fullShare} m (outLoc d)) := rfl
  ihave Hp67' := (Entails.of_eq e_Hp67.symm) $$ Hp67
  have e_Hp68 : ((((outM).slice (Rect.unit (s := S204800x128) (k0_off34 L ⟨9, (of_decide_eq_true rfl)⟩) S64x128.size (k0_off34_inb L ⟨9, (of_decide_eq_true rfl)⟩ (of_decide_eq_true rfl))) (fun _ => rfl))).view.loc (thrV d L) ↦[(((outM).slice (Rect.unit (s := S204800x128) (k0_off34 L ⟨9, (of_decide_eq_true rfl)⟩) S64x128.size (k0_off34_inb L ⟨9, (of_decide_eq_true rfl)⟩ (of_decide_eq_true rfl))) (fun _ => rfl))).view.set]{fullShare} (m (outLoc d)) : sProp 𝕄) = (outLoc d ↦[outK L ⟨68, (of_decide_eq_true rfl)⟩]{fullShare} m (outLoc d)) := rfl
  ihave Hp68' := (Entails.of_eq e_Hp68.symm) $$ Hp68
  have e_Hp69 : ((((outM).slice (Rect.unit (s := S204800x128) (k0_off38 L 2496#32) S64x128.size (k0_off38_inb L 3)) (fun _ => rfl))).view.loc (thrV d L) ↦[(((outM).slice (Rect.unit (s := S204800x128) (k0_off38 L 2496#32) S64x128.size (k0_off38_inb L 3)) (fun _ => rfl))).view.set]{fullShare} (m (outLoc d)) : sProp 𝕄) = (outLoc d ↦[outK L ⟨69, (of_decide_eq_true rfl)⟩]{fullShare} m (outLoc d)) := rfl
  ihave Hp69' := (Entails.of_eq e_Hp69.symm) $$ Hp69
  -- the staging slots, the row slots and the half-row slots
  ihave Hx := (Entails.of_eq (sh_split_list (F := F) d L gsh)) $$ Hsh
  icases Hx with ⟨Hsl0, Hsl1, Hsl2, Hsl3⟩
  have e_Hsl0 : (((((shM).slice (Rect.unit (s := S16x4x64x128) (k0_off13 L) S1x1x64x128.size (k0_off13_inb L)) (fun _ => rfl)).squeeze S64x128 squeezes_S1x1x64x128_S64x128)).view.loc (thrV d L) ↦[((((shM).slice (Rect.unit (s := S16x4x64x128) (k0_off13 L) S1x1x64x128.size (k0_off13_inb L)) (fun _ => rfl)).squeeze S64x128 squeezes_S1x1x64x128_S64x128)).view.set]{fullShare} gsh : sProp 𝕄) = (shLoc d (cV L) ↦[shK L 0]{fullShare} gsh) := rfl
  ihave Hsl0' := (Entails.of_eq e_Hsl0.symm) $$ Hsl0
  have e_Hsl1 : (((((shM).slice (Rect.unit (s := S16x4x64x128) (k0_off20 L) S1x1x64x128.size (k0_off20_inb L)) (fun _ => rfl)).squeeze S64x128 squeezes_S1x1x64x128_S64x128)).view.loc (thrV d L) ↦[((((shM).slice (Rect.unit (s := S16x4x64x128) (k0_off20 L) S1x1x64x128.size (k0_off20_inb L)) (fun _ => rfl)).squeeze S64x128 squeezes_S1x1x64x128_S64x128)).view.set]{fullShare} gsh : sProp 𝕄) = (shLoc d (cV L) ↦[shK L 1]{fullShare} gsh) := rfl
  ihave Hsl1' := (Entails.of_eq e_Hsl1.symm) $$ Hsl1
  have e_Hsl2 : (((((shM).slice (Rect.unit (s := S16x4x64x128) (k0_off26 L) S1x1x64x128.size (k0_off26_inb L)) (fun _ => rfl)).squeeze S64x128 squeezes_S1x1x64x128_S64x128)).view.loc (thrV d L) ↦[((((shM).slice (Rect.unit (s := S16x4x64x128) (k0_off26 L) S1x1x64x128.size (k0_off26_inb L)) (fun _ => rfl)).squeeze S64x128 squeezes_S1x1x64x128_S64x128)).view.set]{fullShare} gsh : sProp 𝕄) = (shLoc d (cV L) ↦[shK L 2]{fullShare} gsh) := rfl
  ihave Hsl2' := (Entails.of_eq e_Hsl2.symm) $$ Hsl2
  have e_Hsl3 : (((((shM).slice (Rect.unit (s := S16x4x64x128) (k0_off32 L) S1x1x64x128.size (k0_off32_inb L)) (fun _ => rfl)).squeeze S64x128 squeezes_S1x1x64x128_S64x128)).view.loc (thrV d L) ↦[((((shM).slice (Rect.unit (s := S16x4x64x128) (k0_off32 L) S1x1x64x128.size (k0_off32_inb L)) (fun _ => rfl)).squeeze S64x128 squeezes_S1x1x64x128_S64x128)).view.set]{fullShare} gsh : sProp 𝕄) = (shLoc d (cV L) ↦[shK L 3]{fullShare} gsh) := rfl
  ihave Hsl3' := (Entails.of_eq e_Hsl3.symm) $$ Hsl3
  ihave Hx := (Entails.of_eq (tr_split_list (F := F) d L ft)) $$ Htr
  icases Hx with ⟨Htr0, Htr1, Htr2⟩
  have e_Htr0 : (((((trM).slice (Rect.unit (s := S3x128x128) ![0, 0, 0] S1x128x128.size inb_S3x128x128_S1x128x128_0_0_0) (fun _ => rfl)).squeeze S128x128 squeezes_S1x128x128_S128x128)).view.loc (thrV d L) ↦[((((trM).slice (Rect.unit (s := S3x128x128) ![0, 0, 0] S1x128x128.size inb_S3x128x128_S1x128x128_0_0_0) (fun _ => rfl)).squeeze S128x128 squeezes_S1x128x128_S128x128)).view.set]{fullShare} ft : sProp 𝕄) = ((thrV d L).loc cc0_scratch1 ↦[trK 0]{fullShare} ft) := rfl
  ihave Htr0' := (Entails.of_eq e_Htr0.symm) $$ Htr0
  have e_Htr1 : (((((trM).slice (Rect.unit (s := S3x128x128) ![1, 0, 0] S1x128x128.size inb_S3x128x128_S1x128x128_1_0_0) (fun _ => rfl)).squeeze S128x128 squeezes_S1x128x128_S128x128)).view.loc (thrV d L) ↦[((((trM).slice (Rect.unit (s := S3x128x128) ![1, 0, 0] S1x128x128.size inb_S3x128x128_S1x128x128_1_0_0) (fun _ => rfl)).squeeze S128x128 squeezes_S1x128x128_S128x128)).view.set]{fullShare} ft : sProp 𝕄) = ((thrV d L).loc cc0_scratch1 ↦[trK 1]{fullShare} ft) := rfl
  ihave Htr1' := (Entails.of_eq e_Htr1.symm) $$ Htr1
  have e_Htr2 : (((((trM).slice (Rect.unit (s := S3x128x128) ![2, 0, 0] S1x128x128.size inb_S3x128x128_S1x128x128_2_0_0) (fun _ => rfl)).squeeze S128x128 squeezes_S1x128x128_S128x128)).view.loc (thrV d L) ↦[((((trM).slice (Rect.unit (s := S3x128x128) ![2, 0, 0] S1x128x128.size inb_S3x128x128_S1x128x128_2_0_0) (fun _ => rfl)).squeeze S128x128 squeezes_S1x128x128_S128x128)).view.set]{fullShare} ft : sProp 𝕄) = ((thrV d L).loc cc0_scratch1 ↦[trK 2]{fullShare} ft) := rfl
  ihave Htr2' := (Entails.of_eq e_Htr2.symm) $$ Htr2
  ihave Hx := (Entails.of_eq (sr_split_list (F := F) d L fs)) $$ Hsr
  icases Hx with ⟨Hsr0, Hsr1, Hsr2, Hsr3⟩
  have e_Hsr0 : (((((srM).slice (Rect.unit (s := S4x64x128) ![0, 0, 0] S1x64x128.size inb_S4x64x128_S1x64x128_0_0_0) (fun _ => rfl)).squeeze S64x128 squeezes_S1x64x128_S64x128)).view.loc (thrV d L) ↦[((((srM).slice (Rect.unit (s := S4x64x128) ![0, 0, 0] S1x64x128.size inb_S4x64x128_S1x64x128_0_0_0) (fun _ => rfl)).squeeze S64x128 squeezes_S1x64x128_S64x128)).view.set]{fullShare} fs : sProp 𝕄) = ((thrV d L).loc cc0_scratch2 ↦[srK 0]{fullShare} fs) := rfl
  ihave Hsr0' := (Entails.of_eq e_Hsr0.symm) $$ Hsr0
  have e_Hsr1 : (((((srM).slice (Rect.unit (s := S4x64x128) ![1, 0, 0] S1x64x128.size inb_S4x64x128_S1x64x128_1_0_0) (fun _ => rfl)).squeeze S64x128 squeezes_S1x64x128_S64x128)).view.loc (thrV d L) ↦[((((srM).slice (Rect.unit (s := S4x64x128) ![1, 0, 0] S1x64x128.size inb_S4x64x128_S1x64x128_1_0_0) (fun _ => rfl)).squeeze S64x128 squeezes_S1x64x128_S64x128)).view.set]{fullShare} fs : sProp 𝕄) = ((thrV d L).loc cc0_scratch2 ↦[srK 1]{fullShare} fs) := rfl
  ihave Hsr1' := (Entails.of_eq e_Hsr1.symm) $$ Hsr1
  have e_Hsr2 : (((((srM).slice (Rect.unit (s := S4x64x128) ![2, 0, 0] S1x64x128.size inb_S4x64x128_S1x64x128_2_0_0) (fun _ => rfl)).squeeze S64x128 squeezes_S1x64x128_S64x128)).view.loc (thrV d L) ↦[((((srM).slice (Rect.unit (s := S4x64x128) ![2, 0, 0] S1x64x128.size inb_S4x64x128_S1x64x128_2_0_0) (fun _ => rfl)).squeeze S64x128 squeezes_S1x64x128_S64x128)).view.set]{fullShare} fs : sProp 𝕄) = ((thrV d L).loc cc0_scratch2 ↦[srK 2]{fullShare} fs) := rfl
  ihave Hsr2' := (Entails.of_eq e_Hsr2.symm) $$ Hsr2
  have e_Hsr3 : (((((srM).slice (Rect.unit (s := S4x64x128) ![3, 0, 0] S1x64x128.size inb_S4x64x128_S1x64x128_3_0_0) (fun _ => rfl)).squeeze S64x128 squeezes_S1x64x128_S64x128)).view.loc (thrV d L) ↦[((((srM).slice (Rect.unit (s := S4x64x128) ![3, 0, 0] S1x64x128.size inb_S4x64x128_S1x64x128_3_0_0) (fun _ => rfl)).squeeze S64x128 squeezes_S1x64x128_S64x128)).view.set]{fullShare} fs : sProp 𝕄) = ((thrV d L).loc cc0_scratch2 ↦[srK 3]{fullShare} fs) := rfl
  ihave Hsr3' := (Entails.of_eq e_Hsr3.symm) $$ Hsr3
  -- the table, one read token per gather semaphore
  ihave Hx := (toks10_split (F := F) (ℓ := (tabM).view.loc (thrV d L)) (rshare (wid (cL L) (jL L))) (m (tabLoc d))) $$ Htab'
  icases Hx with ⟨Htab', Htb0, Htb1, Htb2, Htb3, Htb4, Htb5, Htb6, Htb7, Htb8, Htb9⟩
  -- the tile's block of regrouped tokens lands in its index scratch
  sl_exec
  ihave Hx := (toks10_split (F := F) (ℓ := (ivM).view.loc (thrV d L)) fullShare _) $$ Hiv'
  icases Hx with ⟨Hiv', Hiq0, Hiq1, Hiq2, Hiq3, Hiq4, Hiq5, Hiq6, Hiq7, Hiq8, Hiq9⟩
  -- every list of offsets the gathers read names rows of the table
  have hlist : ∀ (si : Shape) (r : Rect S50x128) (hr : ∀ a, r.stride a = 1) (sq : r.shape.Squeezes si)
      (g : Buf (Elt F) ((thrV d L).loc cc0_scratch0)) (x : si.Idx),
      ((((ivM).slice r hr).squeeze si sq).view.read (Elt F) ((Memref.whole cc0_scratch0 : Memref sig .scVector .vmem S50x128 .i32).view.write (Elt F) g
        (ReadAs.same.apply (View.read (Elt F) (((Memref.whole main_v0_scv : Memref sig .scVector .hbm S32x50x128 .i32).slice (Rect.unit (s := S32x50x128) (k0_off1 L) S1x50x128.size (k0_off1_inb L)) (fun _ => rfl)).squeeze S50x128 squeezes_S1x50x128_S50x128).view (idx3 m d))) Finset.univ) x).toNat < 1000000 := list_inRange m d L hin
  -- the gathers, the copies and their waits, the ten trips in sequence
  sl_exec
  -- every piece of the block holds the rows gathered for it
  ihave Hq0 : (outLoc d ↦[outK L ⟨0, (of_decide_eq_true rfl)⟩]{fullShare} flatRes m d) $$ [Hp0']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 0 _ _ _ _ _ _ _ _ rfl rfl _ _ _ x
  ihave Hq1 : (outLoc d ↦[outK L ⟨1, (of_decide_eq_true rfl)⟩]{fullShare} flatRes m d) $$ [Hp1']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 1 _ _ _ _ _ _ _ _ rfl rfl _ _ _ x
  ihave Hq2 : (outLoc d ↦[outK L ⟨2, (of_decide_eq_true rfl)⟩]{fullShare} flatRes m d) $$ [Hp2']
  · istop
    refine sep_elim_right.trans (Entails.of_eq (pointsTo_congr (fun y hy => ?_)))
    obtain ⟨x, rfl⟩ := exists_of_mem_outPiece128 _ _ y hy
    sl_unfold_run_names
    exact out_val_off3 m d L ⟨0, (of_decide_eq_true rfl)⟩ 2 _ _ _ _ _ _ _ _ rfl rfl _ _ _ x
  ihave Hq3 : (outLoc d ↦[outK L ⟨3, (of_decide_eq_true rfl)⟩]{fullShare} flatRes m d) $$ [Hp3']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 0 _ _ _ _ _ _ _ _ rfl rfl _ _ _ x
  ihave Hq4 : (outLoc d ↦[outK L ⟨4, (of_decide_eq_true rfl)⟩]{fullShare} flatRes m d) $$ [Hp4']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 1 _ _ _ _ _ _ _ _ rfl rfl _ _ _ x
  ihave Hq5 : (outLoc d ↦[outK L ⟨5, (of_decide_eq_true rfl)⟩]{fullShare} flatRes m d) $$ [Hp5']
  · istop
    refine sep_elim_right.trans (Entails.of_eq (pointsTo_congr (fun y hy => ?_)))
    obtain ⟨x, rfl⟩ := exists_of_mem_outPiece128 _ _ y hy
    sl_unfold_run_names
    exact out_val_off3 m d L ⟨1, (of_decide_eq_true rfl)⟩ 2 _ _ _ _ _ _ _ _ rfl rfl _ _ _ x
  ihave Hq6 : (outLoc d ↦[outK L ⟨6, (of_decide_eq_true rfl)⟩]{fullShare} flatRes m d) $$ [Hp6']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 0 _ _ _ _ _ _ _ _ rfl rfl _ _ _ x
  ihave Hq7 : (outLoc d ↦[outK L ⟨7, (of_decide_eq_true rfl)⟩]{fullShare} flatRes m d) $$ [Hp7']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 1 _ _ _ _ _ _ _ _ rfl rfl _ _ _ x
  ihave Hq8 : (outLoc d ↦[outK L ⟨8, (of_decide_eq_true rfl)⟩]{fullShare} flatRes m d) $$ [Hp8']
  · istop
    refine sep_elim_right.trans (Entails.of_eq (pointsTo_congr (fun y hy => ?_)))
    obtain ⟨x, rfl⟩ := exists_of_mem_outPiece128 _ _ y hy
    sl_unfold_run_names
    exact out_val_off3 m d L ⟨2, (of_decide_eq_true rfl)⟩ 2 _ _ _ _ _ _ _ _ rfl rfl _ _ _ x
  ihave Hq9 : (outLoc d ↦[outK L ⟨9, (of_decide_eq_true rfl)⟩]{fullShare} flatRes m d) $$ [Hp9']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 0 _ _ _ _ _ _ _ _ rfl rfl _ _ _ x
  ihave Hq10 : (outLoc d ↦[outK L ⟨10, (of_decide_eq_true rfl)⟩]{fullShare} flatRes m d) $$ [Hp10']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 1 _ _ _ _ _ _ _ _ rfl rfl _ _ _ x
  ihave Hq11 : (outLoc d ↦[outK L ⟨11, (of_decide_eq_true rfl)⟩]{fullShare} flatRes m d) $$ [Hp11']
  · istop
    refine sep_elim_right.trans (Entails.of_eq (pointsTo_congr (fun y hy => ?_)))
    obtain ⟨x, rfl⟩ := exists_of_mem_outPiece128 _ _ y hy
    sl_unfold_run_names
    exact out_val_off3 m d L ⟨3, (of_decide_eq_true rfl)⟩ 2 _ _ _ _ _ _ _ _ rfl rfl _ _ _ x
  ihave Hq12 : (outLoc d ↦[outK L ⟨12, (of_decide_eq_true rfl)⟩]{fullShare} flatRes m d) $$ [Hp12']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 0 _ _ _ _ _ _ _ _ rfl rfl _ _ _ x
  ihave Hq13 : (outLoc d ↦[outK L ⟨13, (of_decide_eq_true rfl)⟩]{fullShare} flatRes m d) $$ [Hp13']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 1 _ _ _ _ _ _ _ _ rfl rfl _ _ _ x
  ihave Hq14 : (outLoc d ↦[outK L ⟨14, (of_decide_eq_true rfl)⟩]{fullShare} flatRes m d) $$ [Hp14']
  · istop
    refine sep_elim_right.trans (Entails.of_eq (pointsTo_congr (fun y hy => ?_)))
    obtain ⟨x, rfl⟩ := exists_of_mem_outPiece128 _ _ y hy
    sl_unfold_run_names
    exact out_val_off3 m d L ⟨4, (of_decide_eq_true rfl)⟩ 2 _ _ _ _ _ _ _ _ rfl rfl _ _ _ x
  ihave Hq15 : (outLoc d ↦[outK L ⟨15, (of_decide_eq_true rfl)⟩]{fullShare} flatRes m d) $$ [Hp15']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 0 _ _ _ _ _ _ _ _ rfl rfl _ _ _ x
  ihave Hq16 : (outLoc d ↦[outK L ⟨16, (of_decide_eq_true rfl)⟩]{fullShare} flatRes m d) $$ [Hp16']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 1 _ _ _ _ _ _ _ _ rfl rfl _ _ _ x
  ihave Hq17 : (outLoc d ↦[outK L ⟨17, (of_decide_eq_true rfl)⟩]{fullShare} flatRes m d) $$ [Hp17']
  · istop
    refine sep_elim_right.trans (Entails.of_eq (pointsTo_congr (fun y hy => ?_)))
    obtain ⟨x, rfl⟩ := exists_of_mem_outPiece128 _ _ y hy
    sl_unfold_run_names
    exact out_val_off3 m d L ⟨5, (of_decide_eq_true rfl)⟩ 2 _ _ _ _ _ _ _ _ rfl rfl _ _ _ x
  ihave Hq18 : (outLoc d ↦[outK L ⟨18, (of_decide_eq_true rfl)⟩]{fullShare} flatRes m d) $$ [Hp18']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 0 _ _ _ _ _ _ _ _ rfl rfl _ _ _ x
  ihave Hq19 : (outLoc d ↦[outK L ⟨19, (of_decide_eq_true rfl)⟩]{fullShare} flatRes m d) $$ [Hp19']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 1 _ _ _ _ _ _ _ _ rfl rfl _ _ _ x
  ihave Hq20 : (outLoc d ↦[outK L ⟨20, (of_decide_eq_true rfl)⟩]{fullShare} flatRes m d) $$ [Hp20']
  · istop
    refine sep_elim_right.trans (Entails.of_eq (pointsTo_congr (fun y hy => ?_)))
    obtain ⟨x, rfl⟩ := exists_of_mem_outPiece128 _ _ y hy
    sl_unfold_run_names
    exact out_val_off3 m d L ⟨6, (of_decide_eq_true rfl)⟩ 2 _ _ _ _ _ _ _ _ rfl rfl _ _ _ x
  ihave Hq21 : (outLoc d ↦[outK L ⟨21, (of_decide_eq_true rfl)⟩]{fullShare} flatRes m d) $$ [Hp21']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 0 _ _ _ _ _ _ _ _ rfl rfl _ _ _ x
  ihave Hq22 : (outLoc d ↦[outK L ⟨22, (of_decide_eq_true rfl)⟩]{fullShare} flatRes m d) $$ [Hp22']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 1 _ _ _ _ _ _ _ _ rfl rfl _ _ _ x
  ihave Hq23 : (outLoc d ↦[outK L ⟨23, (of_decide_eq_true rfl)⟩]{fullShare} flatRes m d) $$ [Hp23']
  · istop
    refine sep_elim_right.trans (Entails.of_eq (pointsTo_congr (fun y hy => ?_)))
    obtain ⟨x, rfl⟩ := exists_of_mem_outPiece128 _ _ y hy
    sl_unfold_run_names
    exact out_val_off3 m d L ⟨7, (of_decide_eq_true rfl)⟩ 2 _ _ _ _ _ _ _ _ rfl rfl _ _ _ x
  ihave Hq24 : (outLoc d ↦[outK L ⟨24, (of_decide_eq_true rfl)⟩]{fullShare} flatRes m d) $$ [Hp24']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 0 _ _ _ _ _ _ _ _ rfl rfl _ _ _ x
  ihave Hq25 : (outLoc d ↦[outK L ⟨25, (of_decide_eq_true rfl)⟩]{fullShare} flatRes m d) $$ [Hp25']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 1 _ _ _ _ _ _ _ _ rfl rfl _ _ _ x
  ihave Hq26 : (outLoc d ↦[outK L ⟨26, (of_decide_eq_true rfl)⟩]{fullShare} flatRes m d) $$ [Hp26']
  · istop
    refine sep_elim_right.trans (Entails.of_eq (pointsTo_congr (fun y hy => ?_)))
    obtain ⟨x, rfl⟩ := exists_of_mem_outPiece128 _ _ y hy
    sl_unfold_run_names
    exact out_val_off3 m d L ⟨8, (of_decide_eq_true rfl)⟩ 2 _ _ _ _ _ _ _ _ rfl rfl _ _ _ x
  ihave Hq27 : (outLoc d ↦[outK L ⟨27, (of_decide_eq_true rfl)⟩]{fullShare} flatRes m d) $$ [Hp27']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 0 _ _ _ _ _ _ _ _ rfl rfl _ _ _ x
  ihave Hq28 : (outLoc d ↦[outK L ⟨28, (of_decide_eq_true rfl)⟩]{fullShare} flatRes m d) $$ [Hp28']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 1 _ _ _ _ _ _ _ _ rfl rfl _ _ _ x
  ihave Hq29 : (outLoc d ↦[outK L ⟨29, (of_decide_eq_true rfl)⟩]{fullShare} flatRes m d) $$ [Hp29']
  · istop
    refine sep_elim_right.trans (Entails.of_eq (pointsTo_congr (fun y hy => ?_)))
    obtain ⟨x, rfl⟩ := exists_of_mem_outPiece128 _ _ y hy
    sl_unfold_run_names
    exact out_val_off3 m d L ⟨9, (of_decide_eq_true rfl)⟩ 2 _ _ _ _ _ _ _ _ rfl rfl _ _ _ x
  ihave Hq30 : (outLoc d ↦[outK L ⟨30, (of_decide_eq_true rfl)⟩]{fullShare} flatRes m d) $$ [Hp30']
  · istop
    refine sep_elim_right.trans (Entails.of_eq (pointsTo_congr (fun y hy => ?_)))
    obtain ⟨x, rfl⟩ := exists_of_mem_outPiece64 _ _ y hy
    sl_unfold_run_names
    exact out_val_off22 m d L ⟨0, (of_decide_eq_true rfl)⟩ _ _ _ _ _ _ _ ((k0_off21_eq L).trans (k0_off13_eq L).symm) _ _ _ _ _ _ _ rfl rfl _ _ _ x
  ihave Hq31 : (outLoc d ↦[outK L ⟨31, (of_decide_eq_true rfl)⟩]{fullShare} flatRes m d) $$ [Hp31']
  · istop
    refine sep_elim_right.trans (Entails.of_eq (pointsTo_congr (fun y hy => ?_)))
    obtain ⟨x, rfl⟩ := exists_of_mem_outPiece64 _ _ y hy
    sl_unfold_run_names
    exact out_val_off28 m d L ⟨0, (of_decide_eq_true rfl)⟩ _ _ _ _ _ _ _ ((k0_off27_eq L).trans (k0_off20_eq L).symm) _ _ _ _ _ _ _ rfl rfl _ _ _ x
  ihave Hq32 : (outLoc d ↦[outK L ⟨32, (of_decide_eq_true rfl)⟩]{fullShare} flatRes m d) $$ [Hp32']
  · istop
    refine sep_elim_right.trans (Entails.of_eq (pointsTo_congr (fun y hy => ?_)))
    obtain ⟨x, rfl⟩ := exists_of_mem_outPiece64 _ _ y hy
    sl_unfold_run_names
    exact out_val_off34 m d L ⟨0, (of_decide_eq_true rfl)⟩ _ _ _ _ _ _ _ ((k0_off33_eq L).trans (k0_off26_eq L).symm) _ _ _ _ _ _ _ rfl rfl _ _ _ x
  ihave Hq33 : (outLoc d ↦[outK L ⟨33, (of_decide_eq_true rfl)⟩]{fullShare} flatRes m d) $$ [Hp33']
  · istop
    refine sep_elim_right.trans (Entails.of_eq (pointsTo_congr (fun y hy => ?_)))
    obtain ⟨x, rfl⟩ := exists_of_mem_outPiece64 _ _ y hy
    sl_unfold_run_names
    exact out_val_off15 m d L ⟨1, (of_decide_eq_true rfl)⟩ (of_decide_eq_true rfl) _ _ _ _ _ _ _ ((k0_off14_eq L).trans (k0_off32_eq L).symm) _ _ _ _ _ _ _ rfl rfl _ _ _ x
  ihave Hq34 : (outLoc d ↦[outK L ⟨34, (of_decide_eq_true rfl)⟩]{fullShare} flatRes m d) $$ [Hp34']
  · istop
    refine sep_elim_right.trans (Entails.of_eq (pointsTo_congr (fun y hy => ?_)))
    obtain ⟨x, rfl⟩ := exists_of_mem_outPiece64 _ _ y hy
    sl_unfold_run_names
    exact out_val_off22 m d L ⟨1, (of_decide_eq_true rfl)⟩ _ _ _ _ _ _ _ ((k0_off21_eq L).trans (k0_off13_eq L).symm) _ _ _ _ _ _ _ rfl rfl _ _ _ x
  ihave Hq35 : (outLoc d ↦[outK L ⟨35, (of_decide_eq_true rfl)⟩]{fullShare} flatRes m d) $$ [Hp35']
  · istop
    refine sep_elim_right.trans (Entails.of_eq (pointsTo_congr (fun y hy => ?_)))
    obtain ⟨x, rfl⟩ := exists_of_mem_outPiece64 _ _ y hy
    sl_unfold_run_names
    exact out_val_off28 m d L ⟨1, (of_decide_eq_true rfl)⟩ _ _ _ _ _ _ _ ((k0_off27_eq L).trans (k0_off20_eq L).symm) _ _ _ _ _ _ _ rfl rfl _ _ _ x
  ihave Hq36 : (outLoc d ↦[outK L ⟨36, (of_decide_eq_true rfl)⟩]{fullShare} flatRes m d) $$ [Hp36']
  · istop
    refine sep_elim_right.trans (Entails.of_eq (pointsTo_congr (fun y hy => ?_)))
    obtain ⟨x, rfl⟩ := exists_of_mem_outPiece64 _ _ y hy
    sl_unfold_run_names
    exact out_val_off34 m d L ⟨1, (of_decide_eq_true rfl)⟩ _ _ _ _ _ _ _ ((k0_off33_eq L).trans (k0_off26_eq L).symm) _ _ _ _ _ _ _ rfl rfl _ _ _ x
  ihave Hq37 : (outLoc d ↦[outK L ⟨37, (of_decide_eq_true rfl)⟩]{fullShare} flatRes m d) $$ [Hp37']
  · istop
    refine sep_elim_right.trans (Entails.of_eq (pointsTo_congr (fun y hy => ?_)))
    obtain ⟨x, rfl⟩ := exists_of_mem_outPiece64 _ _ y hy
    sl_unfold_run_names
    exact out_val_off15 m d L ⟨2, (of_decide_eq_true rfl)⟩ (of_decide_eq_true rfl) _ _ _ _ _ _ _ ((k0_off14_eq L).trans (k0_off32_eq L).symm) _ _ _ _ _ _ _ rfl rfl _ _ _ x
  ihave Hq38 : (outLoc d ↦[outK L ⟨38, (of_decide_eq_true rfl)⟩]{fullShare} flatRes m d) $$ [Hp38']
  · istop
    refine sep_elim_right.trans (Entails.of_eq (pointsTo_congr (fun y hy => ?_)))
    obtain ⟨x, rfl⟩ := exists_of_mem_outPiece64 _ _ y hy
    sl_unfold_run_names
    exact out_val_off22 m d L ⟨2, (of_decide_eq_true rfl)⟩ _ _ _ _ _ _ _ ((k0_off21_eq L).trans (k0_off13_eq L).symm) _ _ _ _ _ _ _ rfl rfl _ _ _ x
  ihave Hq39 : (outLoc d ↦[outK L ⟨39, (of_decide_eq_true rfl)⟩]{fullShare} flatRes m d) $$ [Hp39']
  · istop
    refine sep_elim_right.trans (Entails.of_eq (pointsTo_congr (fun y hy => ?_)))
    obtain ⟨x, rfl⟩ := exists_of_mem_outPiece64 _ _ y hy
    sl_unfold_run_names
    exact out_val_off28 m d L ⟨2, (of_decide_eq_true rfl)⟩ _ _ _ _ _ _ _ ((k0_off27_eq L).trans (k0_off20_eq L).symm) _ _ _ _ _ _ _ rfl rfl _ _ _ x
  ihave Hq40 : (outLoc d ↦[outK L ⟨40, (of_decide_eq_true rfl)⟩]{fullShare} flatRes m d) $$ [Hp40']
  · istop
    refine sep_elim_right.trans (Entails.of_eq (pointsTo_congr (fun y hy => ?_)))
    obtain ⟨x, rfl⟩ := exists_of_mem_outPiece64 _ _ y hy
    sl_unfold_run_names
    exact out_val_off34 m d L ⟨2, (of_decide_eq_true rfl)⟩ _ _ _ _ _ _ _ ((k0_off33_eq L).trans (k0_off26_eq L).symm) _ _ _ _ _ _ _ rfl rfl _ _ _ x
  ihave Hq41 : (outLoc d ↦[outK L ⟨41, (of_decide_eq_true rfl)⟩]{fullShare} flatRes m d) $$ [Hp41']
  · istop
    refine sep_elim_right.trans (Entails.of_eq (pointsTo_congr (fun y hy => ?_)))
    obtain ⟨x, rfl⟩ := exists_of_mem_outPiece64 _ _ y hy
    sl_unfold_run_names
    exact out_val_off15 m d L ⟨3, (of_decide_eq_true rfl)⟩ (of_decide_eq_true rfl) _ _ _ _ _ _ _ ((k0_off14_eq L).trans (k0_off32_eq L).symm) _ _ _ _ _ _ _ rfl rfl _ _ _ x
  ihave Hq42 : (outLoc d ↦[outK L ⟨42, (of_decide_eq_true rfl)⟩]{fullShare} flatRes m d) $$ [Hp42']
  · istop
    refine sep_elim_right.trans (Entails.of_eq (pointsTo_congr (fun y hy => ?_)))
    obtain ⟨x, rfl⟩ := exists_of_mem_outPiece64 _ _ y hy
    sl_unfold_run_names
    exact out_val_off22 m d L ⟨3, (of_decide_eq_true rfl)⟩ _ _ _ _ _ _ _ ((k0_off21_eq L).trans (k0_off13_eq L).symm) _ _ _ _ _ _ _ rfl rfl _ _ _ x
  ihave Hq43 : (outLoc d ↦[outK L ⟨43, (of_decide_eq_true rfl)⟩]{fullShare} flatRes m d) $$ [Hp43']
  · istop
    refine sep_elim_right.trans (Entails.of_eq (pointsTo_congr (fun y hy => ?_)))
    obtain ⟨x, rfl⟩ := exists_of_mem_outPiece64 _ _ y hy
    sl_unfold_run_names
    exact out_val_off28 m d L ⟨3, (of_decide_eq_true rfl)⟩ _ _ _ _ _ _ _ ((k0_off27_eq L).trans (k0_off20_eq L).symm) _ _ _ _ _ _ _ rfl rfl _ _ _ x
  ihave Hq44 : (outLoc d ↦[outK L ⟨44, (of_decide_eq_true rfl)⟩]{fullShare} flatRes m d) $$ [Hp44']
  · istop
    refine sep_elim_right.trans (Entails.of_eq (pointsTo_congr (fun y hy => ?_)))
    obtain ⟨x, rfl⟩ := exists_of_mem_outPiece64 _ _ y hy
    sl_unfold_run_names
    exact out_val_off34 m d L ⟨3, (of_decide_eq_true rfl)⟩ _ _ _ _ _ _ _ ((k0_off33_eq L).trans (k0_off26_eq L).symm) _ _ _ _ _ _ _ rfl rfl _ _ _ x
  ihave Hq45 : (outLoc d ↦[outK L ⟨45, (of_decide_eq_true rfl)⟩]{fullShare} flatRes m d) $$ [Hp45']
  · istop
    refine sep_elim_right.trans (Entails.of_eq (pointsTo_congr (fun y hy => ?_)))
    obtain ⟨x, rfl⟩ := exists_of_mem_outPiece64 _ _ y hy
    sl_unfold_run_names
    exact out_val_off15 m d L ⟨4, (of_decide_eq_true rfl)⟩ (of_decide_eq_true rfl) _ _ _ _ _ _ _ ((k0_off14_eq L).trans (k0_off32_eq L).symm) _ _ _ _ _ _ _ rfl rfl _ _ _ x
  ihave Hq46 : (outLoc d ↦[outK L ⟨46, (of_decide_eq_true rfl)⟩]{fullShare} flatRes m d) $$ [Hp46']
  · istop
    refine sep_elim_right.trans (Entails.of_eq (pointsTo_congr (fun y hy => ?_)))
    obtain ⟨x, rfl⟩ := exists_of_mem_outPiece64 _ _ y hy
    sl_unfold_run_names
    exact out_val_off22 m d L ⟨4, (of_decide_eq_true rfl)⟩ _ _ _ _ _ _ _ ((k0_off21_eq L).trans (k0_off13_eq L).symm) _ _ _ _ _ _ _ rfl rfl _ _ _ x
  ihave Hq47 : (outLoc d ↦[outK L ⟨47, (of_decide_eq_true rfl)⟩]{fullShare} flatRes m d) $$ [Hp47']
  · istop
    refine sep_elim_right.trans (Entails.of_eq (pointsTo_congr (fun y hy => ?_)))
    obtain ⟨x, rfl⟩ := exists_of_mem_outPiece64 _ _ y hy
    sl_unfold_run_names
    exact out_val_off28 m d L ⟨4, (of_decide_eq_true rfl)⟩ _ _ _ _ _ _ _ ((k0_off27_eq L).trans (k0_off20_eq L).symm) _ _ _ _ _ _ _ rfl rfl _ _ _ x
  ihave Hq48 : (outLoc d ↦[outK L ⟨48, (of_decide_eq_true rfl)⟩]{fullShare} flatRes m d) $$ [Hp48']
  · istop
    refine sep_elim_right.trans (Entails.of_eq (pointsTo_congr (fun y hy => ?_)))
    obtain ⟨x, rfl⟩ := exists_of_mem_outPiece64 _ _ y hy
    sl_unfold_run_names
    exact out_val_off34 m d L ⟨4, (of_decide_eq_true rfl)⟩ _ _ _ _ _ _ _ ((k0_off33_eq L).trans (k0_off26_eq L).symm) _ _ _ _ _ _ _ rfl rfl _ _ _ x
  ihave Hq49 : (outLoc d ↦[outK L ⟨49, (of_decide_eq_true rfl)⟩]{fullShare} flatRes m d) $$ [Hp49']
  · istop
    refine sep_elim_right.trans (Entails.of_eq (pointsTo_congr (fun y hy => ?_)))
    obtain ⟨x, rfl⟩ := exists_of_mem_outPiece64 _ _ y hy
    sl_unfold_run_names
    exact out_val_off15 m d L ⟨5, (of_decide_eq_true rfl)⟩ (of_decide_eq_true rfl) _ _ _ _ _ _ _ ((k0_off14_eq L).trans (k0_off32_eq L).symm) _ _ _ _ _ _ _ rfl rfl _ _ _ x
  ihave Hq50 : (outLoc d ↦[outK L ⟨50, (of_decide_eq_true rfl)⟩]{fullShare} flatRes m d) $$ [Hp50']
  · istop
    refine sep_elim_right.trans (Entails.of_eq (pointsTo_congr (fun y hy => ?_)))
    obtain ⟨x, rfl⟩ := exists_of_mem_outPiece64 _ _ y hy
    sl_unfold_run_names
    exact out_val_off22 m d L ⟨5, (of_decide_eq_true rfl)⟩ _ _ _ _ _ _ _ ((k0_off21_eq L).trans (k0_off13_eq L).symm) _ _ _ _ _ _ _ rfl rfl _ _ _ x
  ihave Hq51 : (outLoc d ↦[outK L ⟨51, (of_decide_eq_true rfl)⟩]{fullShare} flatRes m d) $$ [Hp51']
  · istop
    refine sep_elim_right.trans (Entails.of_eq (pointsTo_congr (fun y hy => ?_)))
    obtain ⟨x, rfl⟩ := exists_of_mem_outPiece64 _ _ y hy
    sl_unfold_run_names
    exact out_val_off28 m d L ⟨5, (of_decide_eq_true rfl)⟩ _ _ _ _ _ _ _ ((k0_off27_eq L).trans (k0_off20_eq L).symm) _ _ _ _ _ _ _ rfl rfl _ _ _ x
  ihave Hq52 : (outLoc d ↦[outK L ⟨52, (of_decide_eq_true rfl)⟩]{fullShare} flatRes m d) $$ [Hp52']
  · istop
    refine sep_elim_right.trans (Entails.of_eq (pointsTo_congr (fun y hy => ?_)))
    obtain ⟨x, rfl⟩ := exists_of_mem_outPiece64 _ _ y hy
    sl_unfold_run_names
    exact out_val_off34 m d L ⟨5, (of_decide_eq_true rfl)⟩ _ _ _ _ _ _ _ ((k0_off33_eq L).trans (k0_off26_eq L).symm) _ _ _ _ _ _ _ rfl rfl _ _ _ x
  ihave Hq53 : (outLoc d ↦[outK L ⟨53, (of_decide_eq_true rfl)⟩]{fullShare} flatRes m d) $$ [Hp53']
  · istop
    refine sep_elim_right.trans (Entails.of_eq (pointsTo_congr (fun y hy => ?_)))
    obtain ⟨x, rfl⟩ := exists_of_mem_outPiece64 _ _ y hy
    sl_unfold_run_names
    exact out_val_off15 m d L ⟨6, (of_decide_eq_true rfl)⟩ (of_decide_eq_true rfl) _ _ _ _ _ _ _ ((k0_off14_eq L).trans (k0_off32_eq L).symm) _ _ _ _ _ _ _ rfl rfl _ _ _ x
  ihave Hq54 : (outLoc d ↦[outK L ⟨54, (of_decide_eq_true rfl)⟩]{fullShare} flatRes m d) $$ [Hp54']
  · istop
    refine sep_elim_right.trans (Entails.of_eq (pointsTo_congr (fun y hy => ?_)))
    obtain ⟨x, rfl⟩ := exists_of_mem_outPiece64 _ _ y hy
    sl_unfold_run_names
    exact out_val_off22 m d L ⟨6, (of_decide_eq_true rfl)⟩ _ _ _ _ _ _ _ ((k0_off21_eq L).trans (k0_off13_eq L).symm) _ _ _ _ _ _ _ rfl rfl _ _ _ x
  ihave Hq55 : (outLoc d ↦[outK L ⟨55, (of_decide_eq_true rfl)⟩]{fullShare} flatRes m d) $$ [Hp55']
  · istop
    refine sep_elim_right.trans (Entails.of_eq (pointsTo_congr (fun y hy => ?_)))
    obtain ⟨x, rfl⟩ := exists_of_mem_outPiece64 _ _ y hy
    sl_unfold_run_names
    exact out_val_off28 m d L ⟨6, (of_decide_eq_true rfl)⟩ _ _ _ _ _ _ _ ((k0_off27_eq L).trans (k0_off20_eq L).symm) _ _ _ _ _ _ _ rfl rfl _ _ _ x
  ihave Hq56 : (outLoc d ↦[outK L ⟨56, (of_decide_eq_true rfl)⟩]{fullShare} flatRes m d) $$ [Hp56']
  · istop
    refine sep_elim_right.trans (Entails.of_eq (pointsTo_congr (fun y hy => ?_)))
    obtain ⟨x, rfl⟩ := exists_of_mem_outPiece64 _ _ y hy
    sl_unfold_run_names
    exact out_val_off34 m d L ⟨6, (of_decide_eq_true rfl)⟩ _ _ _ _ _ _ _ ((k0_off33_eq L).trans (k0_off26_eq L).symm) _ _ _ _ _ _ _ rfl rfl _ _ _ x
  ihave Hq57 : (outLoc d ↦[outK L ⟨57, (of_decide_eq_true rfl)⟩]{fullShare} flatRes m d) $$ [Hp57']
  · istop
    refine sep_elim_right.trans (Entails.of_eq (pointsTo_congr (fun y hy => ?_)))
    obtain ⟨x, rfl⟩ := exists_of_mem_outPiece64 _ _ y hy
    sl_unfold_run_names
    exact out_val_off15 m d L ⟨7, (of_decide_eq_true rfl)⟩ (of_decide_eq_true rfl) _ _ _ _ _ _ _ ((k0_off14_eq L).trans (k0_off32_eq L).symm) _ _ _ _ _ _ _ rfl rfl _ _ _ x
  ihave Hq58 : (outLoc d ↦[outK L ⟨58, (of_decide_eq_true rfl)⟩]{fullShare} flatRes m d) $$ [Hp58']
  · istop
    refine sep_elim_right.trans (Entails.of_eq (pointsTo_congr (fun y hy => ?_)))
    obtain ⟨x, rfl⟩ := exists_of_mem_outPiece64 _ _ y hy
    sl_unfold_run_names
    exact out_val_off22 m d L ⟨7, (of_decide_eq_true rfl)⟩ _ _ _ _ _ _ _ ((k0_off21_eq L).trans (k0_off13_eq L).symm) _ _ _ _ _ _ _ rfl rfl _ _ _ x
  ihave Hq59 : (outLoc d ↦[outK L ⟨59, (of_decide_eq_true rfl)⟩]{fullShare} flatRes m d) $$ [Hp59']
  · istop
    refine sep_elim_right.trans (Entails.of_eq (pointsTo_congr (fun y hy => ?_)))
    obtain ⟨x, rfl⟩ := exists_of_mem_outPiece64 _ _ y hy
    sl_unfold_run_names
    exact out_val_off28 m d L ⟨7, (of_decide_eq_true rfl)⟩ _ _ _ _ _ _ _ ((k0_off27_eq L).trans (k0_off20_eq L).symm) _ _ _ _ _ _ _ rfl rfl _ _ _ x
  ihave Hq60 : (outLoc d ↦[outK L ⟨60, (of_decide_eq_true rfl)⟩]{fullShare} flatRes m d) $$ [Hp60']
  · istop
    refine sep_elim_right.trans (Entails.of_eq (pointsTo_congr (fun y hy => ?_)))
    obtain ⟨x, rfl⟩ := exists_of_mem_outPiece64 _ _ y hy
    sl_unfold_run_names
    exact out_val_off34 m d L ⟨7, (of_decide_eq_true rfl)⟩ _ _ _ _ _ _ _ ((k0_off33_eq L).trans (k0_off26_eq L).symm) _ _ _ _ _ _ _ rfl rfl _ _ _ x
  ihave Hq61 : (outLoc d ↦[outK L ⟨61, (of_decide_eq_true rfl)⟩]{fullShare} flatRes m d) $$ [Hp61']
  · istop
    refine sep_elim_right.trans (Entails.of_eq (pointsTo_congr (fun y hy => ?_)))
    obtain ⟨x, rfl⟩ := exists_of_mem_outPiece64 _ _ y hy
    sl_unfold_run_names
    exact out_val_off15 m d L ⟨8, (of_decide_eq_true rfl)⟩ (of_decide_eq_true rfl) _ _ _ _ _ _ _ ((k0_off14_eq L).trans (k0_off32_eq L).symm) _ _ _ _ _ _ _ rfl rfl _ _ _ x
  ihave Hq62 : (outLoc d ↦[outK L ⟨62, (of_decide_eq_true rfl)⟩]{fullShare} flatRes m d) $$ [Hp62']
  · istop
    refine sep_elim_right.trans (Entails.of_eq (pointsTo_congr (fun y hy => ?_)))
    obtain ⟨x, rfl⟩ := exists_of_mem_outPiece64 _ _ y hy
    sl_unfold_run_names
    exact out_val_off22 m d L ⟨8, (of_decide_eq_true rfl)⟩ _ _ _ _ _ _ _ ((k0_off21_eq L).trans (k0_off13_eq L).symm) _ _ _ _ _ _ _ rfl rfl _ _ _ x
  ihave Hq63 : (outLoc d ↦[outK L ⟨63, (of_decide_eq_true rfl)⟩]{fullShare} flatRes m d) $$ [Hp63']
  · istop
    refine sep_elim_right.trans (Entails.of_eq (pointsTo_congr (fun y hy => ?_)))
    obtain ⟨x, rfl⟩ := exists_of_mem_outPiece64 _ _ y hy
    sl_unfold_run_names
    exact out_val_off28 m d L ⟨8, (of_decide_eq_true rfl)⟩ _ _ _ _ _ _ _ ((k0_off27_eq L).trans (k0_off20_eq L).symm) _ _ _ _ _ _ _ rfl rfl _ _ _ x
  ihave Hq64 : (outLoc d ↦[outK L ⟨64, (of_decide_eq_true rfl)⟩]{fullShare} flatRes m d) $$ [Hp64']
  · istop
    refine sep_elim_right.trans (Entails.of_eq (pointsTo_congr (fun y hy => ?_)))
    obtain ⟨x, rfl⟩ := exists_of_mem_outPiece64 _ _ y hy
    sl_unfold_run_names
    exact out_val_off34 m d L ⟨8, (of_decide_eq_true rfl)⟩ _ _ _ _ _ _ _ ((k0_off33_eq L).trans (k0_off26_eq L).symm) _ _ _ _ _ _ _ rfl rfl _ _ _ x
  ihave Hq65 : (outLoc d ↦[outK L ⟨65, (of_decide_eq_true rfl)⟩]{fullShare} flatRes m d) $$ [Hp65']
  · istop
    refine sep_elim_right.trans (Entails.of_eq (pointsTo_congr (fun y hy => ?_)))
    obtain ⟨x, rfl⟩ := exists_of_mem_outPiece64 _ _ y hy
    sl_unfold_run_names
    exact out_val_off15 m d L ⟨9, (of_decide_eq_true rfl)⟩ (of_decide_eq_true rfl) _ _ _ _ _ _ _ ((k0_off14_eq L).trans (k0_off32_eq L).symm) _ _ _ _ _ _ _ rfl rfl _ _ _ x
  ihave Hq66 : (outLoc d ↦[outK L ⟨66, (of_decide_eq_true rfl)⟩]{fullShare} flatRes m d) $$ [Hp66']
  · istop
    refine sep_elim_right.trans (Entails.of_eq (pointsTo_congr (fun y hy => ?_)))
    obtain ⟨x, rfl⟩ := exists_of_mem_outPiece64 _ _ y hy
    sl_unfold_run_names
    exact out_val_off22 m d L ⟨9, (of_decide_eq_true rfl)⟩ _ _ _ _ _ _ _ ((k0_off21_eq L).trans (k0_off13_eq L).symm) _ _ _ _ _ _ _ rfl rfl _ _ _ x
  ihave Hq67 : (outLoc d ↦[outK L ⟨67, (of_decide_eq_true rfl)⟩]{fullShare} flatRes m d) $$ [Hp67']
  · istop
    refine sep_elim_right.trans (Entails.of_eq (pointsTo_congr (fun y hy => ?_)))
    obtain ⟨x, rfl⟩ := exists_of_mem_outPiece64 _ _ y hy
    sl_unfold_run_names
    exact out_val_off28 m d L ⟨9, (of_decide_eq_true rfl)⟩ _ _ _ _ _ _ _ ((k0_off27_eq L).trans (k0_off20_eq L).symm) _ _ _ _ _ _ _ rfl rfl _ _ _ x
  ihave Hq68 : (outLoc d ↦[outK L ⟨68, (of_decide_eq_true rfl)⟩]{fullShare} flatRes m d) $$ [Hp68']
  · istop
    refine sep_elim_right.trans (Entails.of_eq (pointsTo_congr (fun y hy => ?_)))
    obtain ⟨x, rfl⟩ := exists_of_mem_outPiece64 _ _ y hy
    sl_unfold_run_names
    exact out_val_off34 m d L ⟨9, (of_decide_eq_true rfl)⟩ _ _ _ _ _ _ _ ((k0_off33_eq L).trans (k0_off26_eq L).symm) _ _ _ _ _ _ _ rfl rfl _ _ _ x
  ihave Hq69 : (outLoc d ↦[outK L ⟨69, (of_decide_eq_true rfl)⟩]{fullShare} flatRes m d) $$ [Hp69']
  · istop
    refine sep_elim_right.trans (Entails.of_eq (pointsTo_congr (fun y hy => ?_)))
    obtain ⟨x, rfl⟩ := exists_of_mem_outPiece64 _ _ y hy
    sl_unfold_run_names
    exact out_val_off38 m d L _ _ _ _ _ _ _ ((k0_off37_eq L).trans (k0_off32_eq L).symm) _ _ _ _ _ _ _ rfl rfl _ _ _ x
  -- the pieces, the tokens and the slots joined again
  ihave Hout2 : (outLoc d ↦[blkSet (wid (cL L) (jL L))]{fullShare} flatRes m d) $$ [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69]
  · rw [out_split_list (F := F) d L (flatRes m d)]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    iempintro
  ihave HtabJ := (toks10_join (F := F) (ℓ := (tabM).view.loc (thrV d L)) (rshare (wid (cL L) (jL L))) (m (tabLoc d))) $$ [Htab' Htb0 Htb1 Htb2 Htb3 Htb4 Htb5 Htb6 Htb7 Htb8 Htb9]
  · isplitl [Htab']; · iexact Htab'
    isplitl [Htb0]; · iexact Htb0
    isplitl [Htb1]; · iexact Htb1
    isplitl [Htb2]; · iexact Htb2
    isplitl [Htb3]; · iexact Htb3
    isplitl [Htb4]; · iexact Htb4
    isplitl [Htb5]; · iexact Htb5
    isplitl [Htb6]; · iexact Htb6
    isplitl [Htb7]; · iexact Htb7
    isplitl [Htb8]; · iexact Htb8
    iexact Htb9
  ihave HivJ := (toks10_join (F := F) (ℓ := (ivM).view.loc (thrV d L)) fullShare _) $$ [Hiv' Hiq0 Hiq1 Hiq2 Hiq3 Hiq4 Hiq5 Hiq6 Hiq7 Hiq8 Hiq9]
  · isplitl [Hiv']; · iexact Hiv'
    isplitl [Hiq0]; · iexact Hiq0
    isplitl [Hiq1]; · iexact Hiq1
    isplitl [Hiq2]; · iexact Hiq2
    isplitl [Hiq3]; · iexact Hiq3
    isplitl [Hiq4]; · iexact Hiq4
    isplitl [Hiq5]; · iexact Hiq5
    isplitl [Hiq6]; · iexact Hiq6
    isplitl [Hiq7]; · iexact Hiq7
    isplitl [Hiq8]; · iexact Hiq8
    iexact Hiq9
  ihave HtrJ := (tr_join (F := F) d L _ _ _) $$ [Htr0' Htr1' Htr2']
  · isplitl [Htr0']; · iexact Htr0'
    isplitl [Htr1']; · iexact Htr1'
    iexact Htr2'
  ihave HsrJ := (sr_join (F := F) d L _ _ _ _) $$ [Hsr0' Hsr1' Hsr2' Hsr3']
  · isplitl [Hsr0']; · iexact Hsr0'
    isplitl [Hsr1']; · iexact Hsr1'
    isplitl [Hsr2']; · iexact Hsr2'
    iexact Hsr3'
  ihave HshJ := (sh_join (F := F) d L _ _ _ _) $$ [Hsl0' Hsl1' Hsl2' Hsl3']
  · isplitl [Hsl0']; · iexact Hsl0'
    isplitl [Hsl1']; · iexact Hsl1'
    isplitl [Hsl2']; · iexact Hsl2'
    iexact Hsl3'
  sl_step
  isplitl [Htok' HtabJ Hout2 HshJ]
  · isplitl [Htok' HtabJ Hout2]
    · isplitl [Htok']; · iexact Htok'
      isplitl [HtabJ]; · iexact HtabJ
      iexact Hout2
    · iexact HshJ
  isplitl [HivJ HtrJ HsrJ]
  · isplitl [HivJ]; · iexists _; iexact HivJ
    isplitl [HtrJ]; · iexact HtrJ
    iexact HsrJ
  isplitl [Hs0 Hs1 Hs2 Hs3 Hs4 Hs5 Hs6 Hs7 Hs8 Hs9 Hs10 Hs11 Hs12 Hs13 Hs14 Hs15 Hs16 Hs17 Hs18]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    iexact Hs18
  iexists _; isplitr
  on_goal 2 => iexact HO
  ipureintro
  repeat (refine waits_ok_insert (thr := V d (cV L) (jV L)) ?_ rfl)
  exact fun p hp => Or.inl hp

end Tile

end Cert.Proof.KI

end
-- ==== Proof.KISplit.lean ====
/-
  The tile side of the lookup kernel's launch: each tile's task as the launch theorem asks for it, how a SparseCore's
  sixteen tasks are handed their shares and hand them back, and the launch element of the ghost state.

  A SparseCore's operands are already stated per task (one read share of the regrouped tokens and of the table, and one
  block of the flat result, per tile), so the split moves only the SparseCore's shared staging memory: it is taken out of
  the sequencer's own buffers, cut into its sixteen rows, one per tile, each handed at some contents; afterwards the
  sixteen rows, each at contents of its own, join into the whole at some contents and go back.
-/
import proofs.«206231_g69020124446782_cont_9to1c4b_129_32_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Each tile's task -/

/-- The place of vector subcore `s` of SparseCore `c` in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel's function at that subcore's place. -/
theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
/-- The waits a task leaves behind, as the launch theorem counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile of the call, from the body at a symbolic place. -/
theorem tileObl (hF : (K (F := F)).Facts) (hin : ∀ d j, (idx3 m d j).toNat < 1000000) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hin d) O W hO).trans (wp_mono frame _ _ fun _ => obl_post)

/-! ## The shared staging memory: its sixteen rows split and join -/

omit [FloatOps F] in
/-- A tile's row of the shared staging memory, as a set of indices: the sixteenth part of the whole along the first axis. -/
theorem shRowSet_eq (i : Fin 16) : shRowSet i = (shRow i).set := by
  show ((View.whole (cc0_scratch3 : Ref sig .scVector)).slice (shRow i)).set = _
  rw [View.set_slice]; exact Finset.map_refl

omit [FloatOps F] in
theorem shRows_disjoint :
    ∀ i ∈ (Finset.univ : Finset (Fin 16)), ∀ j ∈ (Finset.univ : Finset (Fin 16)), i ≠ j → Disjoint (shRowSet i) (shRowSet j) :=
  fun i _ j _ h => by rw [shRowSet_eq, shRowSet_eq]; exact Rect.part_disjoint hdivSh h

omit [FloatOps F] in
theorem shRows_cover : (Finset.univ : Finset (Fin 16)).biUnion shRowSet = Finset.univ :=
  (Finset.biUnion_congr rfl fun i _ => shRowSet_eq i).trans (Rect.biUnion_part hdivSh)

omit [FloatOps F] in
/-- The whole staging memory at `f` is its sixteen rows, each at `f`. -/
theorem shPts_rows (d : Dev nD) (c : Fin τ.nSC) (f : Buf (Elt F) (shLoc d c)) :
    (shLoc d c ↦{fullShare} f : sProp 𝕄) = bigSep Finset.univ fun i : Fin 16 => shLoc d c ↦[shRowSet i]{fullShare} f := by
  rw [← pointsTo_biUnion Finset.univ (ℓ := shLoc d c) shRowSet shRows_disjoint, shRows_cover]; try rfl

omit [FloatOps F] in
/-- so each tile can be handed its row, at some contents; -/
theorem shRows_split (d : Dev nD) (c : Fin τ.nSC) (f : Buf (Elt F) (shLoc d c)) :
    (shLoc d c ↦{fullShare} f : sProp 𝕄) ⊢ bigSep Finset.univ fun i : Fin 16 => taskShared (F := F) d c i := by
  rw [shPts_rows]
  unfold taskShared
  exact SparseCore.ent (bigSep_mono (Φ := fun i : Fin 16 => (shLoc d c ↦[shRowSet i]{fullShare} f : sProp 𝕄))
    (Ψ := fun i : Fin 16 => (iprop(∃ g, shLoc d c ↦[shRowSet i]{fullShare} g) : sProp 𝕄))
    fun i _ => BI.BIClass.exists_intro (Φ := fun g => (shLoc d c ↦[shRowSet i]{fullShare} g : sProp 𝕄)) f)

/-- and the sixteen rows, each at contents of its own, are the whole at some contents. -/
theorem shRows_join (d : Dev nD) (c : Fin τ.nSC) :
    (bigSep Finset.univ fun i : Fin 16 => taskShared (F := F) d c i) ⊢ (iprop(∃ f, shLoc d c ↦{fullShare} f) : sProp 𝕄) := by
  unfold taskShared
  refine (bigSep_exists_pi Finset.univ (fun i (g : Buf (Elt F) (shLoc d c)) => (shLoc d c ↦[shRowSet i]{fullShare} g : sProp 𝕄))).trans ?_
  iintro ⟨%fs, H⟩
  ihave H' := (pointsTo_biUnion_join Finset.univ shRowSet fs (fs 0) shRows_disjoint) $$ H
  icases H' with ⟨%g, -, Hg⟩
  rw [shRows_cover]
  iexists g; iexact Hg

omit [FloatOps F] in
/-- The staging memory is one of the sequencer's own buffers: those are it, at some contents, and the others. -/
theorem ownBufs_S (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## How a SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call's handshakes carry, spelt out. -/
theorem P_st (d : Dev nD) (c : Fin ((K (F := F)).nCore 0)) :
    (P m).st 0 d c = bigSep Finset.univ fun i : Fin 16 => taskArrays m d (wid (Fin.cast nCore_zero c) i) (m (outLoc d)) := rfl
theorem P_dn (d : Dev nD) (c : Fin ((K (F := F)).nCore 0)) :
    (P m).dn 0 d c = bigSep Finset.univ fun i : Fin 16 => taskArrays m d (wid (Fin.cast nCore_zero c) i) (flatRes m d) := rfl
theorem P_go (d : Dev nD) (c : Fin ((K (F := F)).nCore 0)) (i : Fin ((K (F := F)).nSub 0)) :
    (P m).go 0 d c i = iprop(taskArrays m d (wid (Fin.cast nCore_zero c) (Fin.cast nSub_zero i)) (m (outLoc d))
        ∗ taskShared d ((K (F := F)).core 0 c) (Fin.cast nSub_zero i)) := rfl
theorem P_td (d : Dev nD) (c : Fin ((K (F := F)).nCore 0)) (i : Fin ((K (F := F)).nSub 0)) :
    (P m).td 0 d c i = iprop(taskArrays m d (wid (Fin.cast nCore_zero c) (Fin.cast nSub_zero i)) (flatRes m d)
        ∗ taskShared d ((K (F := F)).core 0 c) (Fin.cast nSub_zero i)) := rfl

/-- The split: a SparseCore's operands are already its tasks'; the staging memory leaves the sequencer's own buffers as
    sixteen rows and comes back joined. -/
theorem vecSplit : (K (F := F)).VecSplit (P m) 0 := by
  intro d c
  simp only [P_st, P_dn, P_go, P_td]
  rw [bigSep_tasks (F := F) (fun i => iprop(taskArrays m d (wid (Fin.cast nCore_zero c) i) (m (outLoc d)) ∗ taskShared d ((K (F := F)).core 0 c) i)),
    bigSep_tasks (F := F) (fun i => iprop(taskArrays m d (wid (Fin.cast nCore_zero c) i) (flatRes m d) ∗ taskShared d ((K (F := F)).core 0 c) i)),
    bigSep_sep', bigSep_sep', ownBufs_S]
  iintro ⟨Hst, ⟨%fsh, Hsh⟩, Hrest⟩; imodintro
  isplitl [Hst Hsh]
  · isplitl [Hst]; · iexact Hst
    iapply (shRows_split d _ fsh); iexact Hsh
  iintro ⟨Htd, Hsh⟩
  isplitl [Htd]; · iexact Htd
  isplitl [Hsh]; · iapply (shRows_join d _); iexact Hsh
  iexact Hrest

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KIMain.lean ====
/-
  @main of the lookup kernel on the TensorCore, and what its final memory says.

  @main regroups the tokens [1024, 200] as [32, 50, 128], calls the SparseCores, and regroups the flat result
  [204800, 128] as [1024, 200, 128]. Before the call the regrouped tokens and the table are cut into one read share per
  worker (and a share the TensorCore keeps), and the flat result into the workers' 32 blocks of 6400 rows; worker
  `2 i + c` is tile `i` of SparseCore `c`, so the 32 workers are the 2 × 16 tiles, each once. After the call every
  block holds the flat lookup, the blocks join to the whole flat result and the shares to the whole arrays; the flat
  lookup over the regrouped tokens, regrouped, is the lookup.
-/
import proofs.«206231_g69020124446782_cont_9to1c4b_129_32_alg».proof.Proof.KICommon
import proofs.«206231_g69020124446782_cont_9to1c4b_129_32_alg».proof.Proof.Reshape
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The workers are the tiles -/

/-- Worker `2 i + c` is tile `i` of SparseCore `c`: the 32 workers are the 2 × 16 tiles. -/
def widEquiv : Fin 2 × Fin 16 ≃ Fin 32 where
  toFun p := wid p.1 p.2
  invFun t := (⟨t.val % 2, Nat.mod_lt _ (by decide)⟩, ⟨t.val / 2, by have := t.isLt; omega⟩)
  left_inv p := by
    obtain ⟨c, i⟩ := p
    refine Prod.ext (Fin.ext ?_) (Fin.ext ?_)
    · show (2 * i.val + c.val) % 2 = c.val
      have := c.isLt; omega
    · show (2 * i.val + c.val) / 2 = i.val
      have := c.isLt; omega
  right_inv t := by
    refine Fin.ext ?_
    show 2 * (t.val / 2) + t.val % 2 = t.val
    omega

/-- Over the workers is over the SparseCores and, of each, the tiles. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  exact bigSep_congr fun _ _ => rfl

/-! ## The flat result's blocks -/

theorem blkSet_eq (t : Fin 32) : blkSet t = (blk t).set := by
  show ((View.whole (main_v1_scv : Ref sig .scVector)).slice (blk t)).set = _
  rw [View.set_slice]; exact Finset.map_refl
theorem blks_disjoint : ∀ t ∈ (Finset.univ : Finset (Fin 32)), ∀ u ∈ (Finset.univ : Finset (Fin 32)), t ≠ u → Disjoint (blkSet t) (blkSet u) :=
  fun t _ u _ h => by rw [blkSet_eq, blkSet_eq]; exact Rect.part_disjoint hdivOut h
theorem blks_cover : (Finset.univ : Finset (Fin 32)).biUnion blkSet = Finset.univ :=
  (Finset.biUnion_congr rfl fun t _ => blkSet_eq t).trans (Rect.biUnion_part hdivOut)

/-- The flat result whole is its 32 blocks. -/
theorem outPts_blks (d : Dev nD) (f : Buf (Elt F) (outLoc d)) :
    (outLoc d ↦{fullShare} f : sProp 𝕄) = bigSep Finset.univ fun t : Fin 32 => outLoc d ↦[blkSet t]{fullShare} f := by
  rw [← pointsTo_biUnion Finset.univ (ℓ := outLoc d) blkSet blks_disjoint, blks_cover]; try rfl

variable [FloatOps F]

/-- What the call takes, and what it brings back, for all the tiles at once: every worker's read shares and every block
    of the flat result at `f`. -/
theorem tasks_eq (d : Dev nD) (f : Buf (Elt F) (outLoc d)) :
    (bigSep Finset.univ fun c : Fin ((K (F := F)).nCore 0) => bigSep Finset.univ fun i : Fin 16 => taskArrays m d (wid (Fin.cast nCore_zero c) i) f)
      = iprop((bigSep Finset.univ fun t : Fin 32 => tokLoc d ↦{rshare t} idx3 m d)
          ∗ (bigSep Finset.univ fun t : Fin 32 => tabLoc d ↦{rshare t} m (tabLoc d))
          ∗ bigSep Finset.univ fun t : Fin 32 => outLoc d ↦[blkSet t]{fullShare} f) := by
  rw [bigSep_workers (F := F) (fun t => taskArrays m d t f)]
  unfold taskArrays
  rw [bigSep_sep', bigSep_sep']

theorem st0_eq (d : Dev nD) :
    (bigSep Finset.univ fun c : Fin ((K (F := F)).nCore 0) => (P m).st 0 d c)
      = bigSep Finset.univ fun c : Fin ((K (F := F)).nCore 0) => bigSep Finset.univ fun i : Fin 16 => taskArrays m d (wid (Fin.cast nCore_zero c) i) (m (outLoc d)) := rfl
theorem dn0_eq (d : Dev nD) :
    (bigSep Finset.univ fun c : Fin ((K (F := F)).nCore 0) => (P m).dn 0 d c)
      = bigSep Finset.univ fun c : Fin ((K (F := F)).nCore 0) => bigSep Finset.univ fun i : Fin 16 => taskArrays m d (wid (Fin.cast nCore_zero c) i) (flatRes m d) := rfl

/-! ## What the final memory says -/

/-- What @main leaves the claim. -/
abbrev FIN (d : Dev nD) : sProp 𝕄 :=
  iprop((argLoc d ↦{fullShare} m (argLoc d)) ∗ (tabLoc d ↦{fullShare} m (tabLoc d))
    ∗ resLoc d ↦{fullShare} (Spec.lookup (m (argLoc d)) (m (tabLoc d)) : Buf (Elt F) (resLoc d)))

def fq (d : Dev nD) (s' : Phys nD τ sig (Elt F)) : Prop :=
  s'.mem.mem (resLoc d) = Spec.lookup (m (argLoc d)) (m (tabLoc d)) ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Hw, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Hw]
  · isplitl [HSI] <;> iassumption
  icases H with ⟨%h2, HSI, -⟩
  ihave H := (SI_pointsTo_agree (st := s') (ℓ := resLoc d) (I := Finset.univ) (q := fullShare)
    (f := (Spec.lookup (m (argLoc d)) (m (tabLoc d)) : Buf (Elt F) (resLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## @main on the TensorCore -/

abbrev rArg : DevRef τ sig := Proc.devRef .tc (main_arg0 : Ref sig .tc)
abbrev rTab : DevRef τ sig := Proc.devRef .tc (main_arg1 : Ref sig .tc)
abbrev rTok : DevRef τ sig := Proc.devRef .tc (main_v0 : Ref sig .tc)
abbrev rOut : DevRef τ sig := Proc.devRef .tc (main_v1 : Ref sig .tc)
abbrev rRes : DevRef τ sig := Proc.devRef .tc (main_v2 : Ref sig .tc)

/-- The two regroupings: of the tokens before the call, of the flat result after it. -/
abbrev opTok : HloOp τ sig (Elt F) := StableHlo.reshape main_arg0 main_v0 rfl shapeCasts_S1024x200_S32x50x128
abbrev opRes : HloOp τ sig (Elt F) := StableHlo.reshape main_v1 main_v2 rfl shapeCasts_S204800x128_S1024x200x128

/-- The TensorCore's arrays, all unscoped: the tokens, the table, the regrouped tokens, the flat result, the result. -/
abbrev S5 : Finset (DevRef τ sig) := {rArg, rTab, rTok, rOut, rRes}

omit [FloatOps F] in
theorem held_S5 (d : Dev nD) (W : Valuation τ sig (Elt F)) :
    (held (T d) S5 W : sProp 𝕄) = iprop((argLoc d ↦{fullShare} W rArg) ∗ (tabLoc d ↦{fullShare} W rTab) ∗ (tokLoc d ↦{fullShare} W rTok)
      ∗ (outLoc d ↦{fullShare} W rOut) ∗ resLoc d ↦{fullShare} W rRes) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ (tabLoc d ↦{fullShare} W main_arg1) ∗ (tokLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the regrouped tokens and the flat lookup in their arrays. -/
def V0 (d : Dev nD) : Valuation τ sig (Elt F) := fun b => m (d, b)
def V1 (d : Dev nD) : Valuation τ sig (Elt F) :=
  Function.update (Function.update (V0 m d) rTok (idx3 m d : Buf (Elt F) (tokLoc d))) rOut (flatRes m d)

omit [FloatOps F] in
theorem unscoped_held (d : Dev nD) : (unscopedBufs d (fun b => m ((SparseCore.T d).loc b)) : sProp 𝕄) = held (T d) S5 (V0 m d) := by
  rw [unscopedBufs_eq, held_S5]; rfl

theorem hTok : (opTok (F := F)).bufs ⊆ S5 := show ({rArg, rTok} : Finset (DevRef τ sig)) ⊆ S5 by decide
theorem hRes : (opRes (F := F)).bufs ⊆ S5 := show ({rOut, rRes} : Finset (DevRef τ sig)) ⊆ S5 by decide

/-- After the first regrouping: the regrouped tokens in their array, the rest as launched. -/
theorem tok_arg (d : Dev nD) : (opTok (F := F)).result (V0 m d) rArg = m (argLoc d) :=
  (opTok (F := F)).result_of_not_mem (V0 m d) (b := rArg) (show rArg ∉ ({rTok} : Finset (DevRef τ sig)) by decide)
theorem tok_tab (d : Dev nD) : (opTok (F := F)).result (V0 m d) rTab = m (tabLoc d) :=
  (opTok (F := F)).result_of_not_mem (V0 m d) (b := rTab) (show rTab ∉ ({rTok} : Finset (DevRef τ sig)) by decide)
theorem tok_out (d : Dev nD) : (opTok (F := F)).result (V0 m d) rOut = m (outLoc d) :=
  (opTok (F := F)).result_of_not_mem (V0 m d) (b := rOut) (show rOut ∉ ({rTok} : Finset (DevRef τ sig)) by decide)
theorem tok_res (d : Dev nD) : (opTok (F := F)).result (V0 m d) rRes = m (resLoc d) :=
  (opTok (F := F)).result_of_not_mem (V0 m d) (b := rRes) (show rRes ∉ ({rTok} : Finset (DevRef τ sig)) by decide)
theorem tok_tok (d : Dev nD) : (opTok (F := F)).result (V0 m d) rTok = (idx3 m d : Buf (Elt F) (tokLoc d)) :=
  (StableHlo.reshape_result main_arg0 main_v0 rfl shapeCasts_S1024x200_S32x50x128 ⟨by decide, rfl⟩ ⟨by decide, rfl⟩ (V0 m d)).trans rfl

theorem held_tok (d : Dev nD) :
    (held (T d) S5 ((opTok (F := F)).result (V0 m d)) : sProp 𝕄)
      = iprop((argLoc d ↦{fullShare} m (argLoc d)) ∗ (tabLoc d ↦{fullShare} m (tabLoc d)) ∗ (tokLoc d ↦{fullShare} idx3 m d)
        ∗ (outLoc d ↦{fullShare} m (outLoc d)) ∗ resLoc d ↦{fullShare} m (resLoc d)) := by
  rw [held_S5, tok_arg, tok_tab, tok_tok, tok_out, tok_res]

theorem V1_arg (d : Dev nD) : V1 m d rArg = m (argLoc d) :=
  (Function.update_of_ne (show rArg ≠ rOut by decide) _ _).trans (Function.update_of_ne (show rArg ≠ rTok by decide) _ _)
theorem V1_tab (d : Dev nD) : V1 m d rTab = m (tabLoc d) :=
  (Function.update_of_ne (show rTab ≠ rOut by decide) _ _).trans (Function.update_of_ne (show rTab ≠ rTok by decide) _ _)
theorem V1_res (d : Dev nD) : V1 m d rRes = m (resLoc d) :=
  (Function.update_of_ne (show rRes ≠ rOut by decide) _ _).trans (Function.update_of_ne (show rRes ≠ rTok by decide) _ _)
theorem V1_tok (d : Dev nD) : V1 m d rTok = (idx3 m d : Buf (Elt F) (tokLoc d)) :=
  (Function.update_of_ne (show rTok ≠ rOut by decide) _ _).trans (Function.update_self _ _ _)
theorem V1_out (d : Dev nD) : V1 m d rOut = flatRes m d := Function.update_self _ _ _

/-- After the second regrouping: the lookup in the result, the tokens and the table as launched. -/
theorem res_arg (d : Dev nD) : (opRes (F := F)).result (V1 m d) rArg = m (argLoc d) :=
  ((opRes (F := F)).result_of_not_mem (V1 m d) (b := rArg) (show rArg ∉ ({rRes} : Finset (DevRef τ sig)) by decide)).trans (V1_arg m d)
theorem res_tab (d : Dev nD) : (opRes (F := F)).result (V1 m d) rTab = m (tabLoc d) :=
  ((opRes (F := F)).result_of_not_mem (V1 m d) (b := rTab) (show rTab ∉ ({rRes} : Finset (DevRef τ sig)) by decide)).trans (V1_tab m d)
theorem res_res (d : Dev nD) :
    (opRes (F := F)).result (V1 m d) rRes = (Spec.lookup (m (argLoc d)) (m (tabLoc d)) : Buf (Elt F) (resLoc d)) := by
  refine (StableHlo.reshape_result main_v1 main_v2 rfl shapeCasts_S204800x128_S1024x200x128 ⟨by decide, rfl⟩ ⟨by decide, rfl⟩ (V1 m d)).trans ?_
  show shapeCast S1024x200x128 (V1 m d rOut) shapeCasts_S204800x128_S1024x200x128 = _
  rw [V1_out]
  exact Spec.lookup_eq_reshape (m (argLoc d)) (m (tabLoc d)) shapeCasts_S1024x200_S32x50x128 shapeCasts_S204800x128_S1024x200x128

theorem held_res (d : Dev nD) :
    (held (T d) S5 ((opRes (F := F)).result (V1 m d)) : sProp 𝕄)
      = iprop((argLoc d ↦{fullShare} m (argLoc d)) ∗ (tabLoc d ↦{fullShare} m (tabLoc d)) ∗ (tokLoc d ↦{fullShare} (opRes (F := F)).result (V1 m d) rTok)
        ∗ (outLoc d ↦{fullShare} (opRes (F := F)).result (V1 m d) rOut)
        ∗ resLoc d ↦{fullShare} (Spec.lookup (m (argLoc d)) (m (tabLoc d)) : Buf (Elt F) (resLoc d))) := by
  rw [held_S5, res_arg, res_tab, res_res]

/-- @main on device `d`'s TensorCore: the tokens regrouped; the call, from every worker's read shares of the regrouped
    tokens and of the table and its block of the flat result, the TensorCore keeping a share of each; the flat result,
    whole again at the flat lookup, regrouped: the lookup. The tokens and the table are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the tokens regrouped
  iapply (wp_hlo_within 𝒱 (SparseCore.T d) none Set.univ (op := opTok) (S := S5) hTok (V := V0 m d)) $$ [Hb Hheld]
  · isplitl [Hb]; · iexact Hb
    iexact Hheld
  iintro ⟨Hb, Hheld⟩
  ihave Hh := (Entails.of_eq (held_tok (F := F) m d)) $$ Hheld
  icases Hh with ⟨Ha, Hw, Ht, Ho, Hr⟩
  rw [wp_ret]; imodintro
  -- one read share per worker of the regrouped tokens and of the table, the flat result in the workers' blocks
  ihave Ht' := (Transfers.pointsTo_toks_split fullShare 32) $$ Ht
  icases Ht' with ⟨Htk, Hts⟩
  ihave Hw' := (Transfers.pointsTo_toks_split fullShare 32) $$ Hw
  icases Hw' with ⟨Hwk, Hws⟩
  ihave Hos := (Entails.of_eq (outPts_blks (F := F) d (m (outLoc d)))) $$ Ho
  -- the call
  iapply ((K (F := F)).wp_run (D (F := F)) 𝒱 (EH := EH) (P := P m) κ d 0) $$ [Hst Hts Hws Hos Hb Ha Hr Htk Hwk]
  isplitr; · iexact Hctx
  isplitl [Hst]; · iexact Hst
  isplitl [Hts Hws Hos]
  · rw [st0_eq, tasks_eq]
    isplitl [Hts]; · iexact Hts
    isplitl [Hws]; · iexact Hws
    iexact Hos
  iintro ⟨Hst, Hdn⟩
  ihave Hdn' := (Entails.of_eq ((dn0_eq m d).trans (tasks_eq m d (flatRes m d)))) $$ Hdn
  icases Hdn' with ⟨Hts, Hws, Hos⟩
  -- the shares and the blocks joined
  ihave Ht := (Transfers.pointsTo_toks_join fullShare 32) $$ [Htk Hts]
  · isplitl [Htk]; · iexact Htk
    iexact Hts
  ihave Hw := (Transfers.pointsTo_toks_join fullShare 32) $$ [Hwk Hws]
  · isplitl [Hwk]; · iexact Hwk
    iexact Hws
  ihave Ho := (Entails.of_eq (outPts_blks (F := F) d (flatRes m d)).symm) $$ Hos
  -- the flat result regrouped
  iapply (wp_hlo_within 𝒱 (SparseCore.T d) none Set.univ (op := opRes) (S := S5) hRes (V := V1 m d)) $$ [Hb Ha Hw Ht Ho Hr]
  · isplitl [Hb]; · iexact Hb
    rw [held_S5, V1_arg, V1_tab, V1_tok, V1_out, V1_res]
    isplitl [Ha]; · iexact Ha
    isplitl [Hw]; · iexact Hw
    isplitl [Ht]; · iexact Ht
    isplitl [Ho]; · iexact Ho
    iexact Hr
  iintro ⟨Hb, Hheld⟩
  ihave Hh := (Entails.of_eq (held_res (F := F) m d)) $$ Hheld
  icases Hh with ⟨Ha, Hw, -, -, Hr⟩
  rw [wp_ret]; imodintro; imodintro
  isplitl [Hst]; · iexact Hst
  isplitl [Ha]; · iexact Ha
  isplitl [Hw]; · iexact Hw
  iexact Hr

end Cert.Proof.KI

end
-- ==== Proof.KIRun.lean ====
/-
  The lookup kernel's run. With every tile's task proved at a symbolic place, the SparseCores' operands split among their
  tiles, and the entry function proved on the TensorCore (the regrouping of the tokens, the call, the regrouping of the flat
  result), every weakly fair execution of the whole family of threads terminates; the result buffer then holds the
  specification's lookup of the tokens and the table, and both arguments are unchanged. The tokens must all name a row of
  the table, which is what the input-domain predicate says of them.
-/
import proofs.«206231_g69020124446782_cont_9to1c4b_129_32_alg».proof.Proof.KISplit
import proofs.«206231_g69020124446782_cont_9to1c4b_129_32_alg».proof.Proof.KIMain
import proofs.«206231_g69020124446782_cont_9to1c4b_129_32_alg».proof.Proof.PreRange
import proofs.«206231_g69020124446782_cont_9to1c4b_129_32_alg».proof.Proof.Reshape
import proofs.«206231_g69020124446782_cont_9to1c4b_129_32_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the run ends in, on every device: the result at the lookup of the two arguments, the arguments unchanged. -/
def QC : PUnit × MemSt nD τ sig (Elt F) → Prop := fun r => ∀ c : Dev nD,
  r.2.mem (resLoc c) = Spec.lookup (m (argLoc c)) (m (tabLoc c))
    ∧ r.2.mem (argLoc c) = m (argLoc c) ∧ r.2.mem (tabLoc c) = m (tabLoc c)

/-- Tokens that all name a row still do once regrouped: each regrouped token is one of the tokens. -/
theorem inRange_idx3 (hin : ∀ d : Dev nD, Spec.InRange (m (argLoc d))) : ∀ d j, (idx3 m d j).toNat < 1000000 := by
  intro d j
  unfold idx3
  exact Spec.inRange_reshape _ _ (hin d) j

/-- From any memory with zero counters whose tokens all name a row of the table: every weakly fair execution of the
    TensorCore's entry function beside the two sequencers and the thirty-two tiles terminates, with the result at the
    lookup and the arguments unchanged. -/
theorem run_main [∀ e, Nonempty (Elt F e)] (hin : ∀ d : Dev nD, Spec.InRange (m (argLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (inRange_idx3 m hin))
    (fun q _ => match q with | 0 => vecSplit m)
    m ρ main (fun _ => iprop(emp)) (FIN m) (u₀ (F := F)) (sep_elim_left.trans (hu₀ m)) (hmain m ρ) (fq m) (hfin m) (QC m) (fun _ h => h)

/-- The input-domain predicate holding on every device (its one word is 1) puts every token in `[0, 999999]`. -/
theorem inRange_of_pre (m : (ℓ : Loc nD τ sig) → Buf (Elt F) ℓ)
    (h : ∀ c : Dev nD, Cert.Pre_input_domain.fn (F := F) (m (argLoc c)) (m (tabLoc c)) = fun _ => 1#1) :
    ∀ d : Dev nD, Spec.InRange (m (argLoc d)) :=
  fun d => Cert.PreSide.inRange_of_pre (F := F) (m (argLoc d)) (m (tabLoc d)) (h d)

end Cert.Proof.KI

end
-- ==== Proof.RefRun.lean ====
/-
  The reference program's run. Its entry function makes one call (the indexing helper), which makes one more (a
  select); with both bodies unfolded at their call sites the program is a straight line of twenty-three host
  operations. This module lists them, shows the entry function equal to that line, and reads back what the result
  buffer and the two argument buffers hold once the line has run: the result is the operations' composed term of
  the two arguments (`takeTerm`), the arguments are unchanged.
-/
import proofs.«206231_g69020124446782_cont_9to1c4b_129_32_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The composed term -/

/-- The token with a negative one wrapped around: `tok + 1000000` where `tok < 0` as a signed number, `tok`
    elsewhere. -/
def wrapIdx (tok : (⟨S1024x200, .i32⟩ : BufTy).Contents (Elt F)) : (⟨S1024x200, .i32⟩ : BufTy).Contents (Elt F) :=
  select (cmpi .slt tok (broadcastInDim S1024x200 ![] bcast_S_S1024x200 (constantI S_ 32 0#32)))
    (addi tok (broadcastInDim S1024x200 ![] bcast_S_S1024x200 (constantI S_ 32 1000000#32))) tok

/-- The wrapped tokens with a trailing unit axis: the gather's index array. -/
def idxCol (tok : (⟨S1024x200, .i32⟩ : BufTy).Contents (Elt F)) : (⟨S1024x200x1, .i32⟩ : BufTy).Contents (Elt F) :=
  broadcastInDim S1024x200x1 ![0, 1] bcast_S1024x200_S1024x200x1_0_1 (wrapIdx (F := F) tok)

/-- Per token, whether the wrapped index lies in `[0, 999999]` as a signed number: the two comparisons, their
    conjunction, reduced by conjunction over the unit axis. -/
def inBounds (tok : (⟨S1024x200, .i32⟩ : BufTy).Contents (Elt F)) : (⟨S1024x200, .i1⟩ : BufTy).Contents (Elt F) :=
  Host.reduce IntOp.andi
    (andi (cmpi .sge (idxCol (F := F) tok) (broadcastInDim S1024x200x1 ![] bcast_S_S1024x200x1 (constantI S_ 32 0#32)))
      (cmpi .sle (idxCol (F := F) tok)
        (broadcastInDim S1024x200x1 ![0, 1, 2] bcast_S1x1x1_S1024x200x1_0_1_2
          (broadcastInDim S1x1x1 ![2] bcast_S1_S1x1x1_2 (constantI S1 32 999999#32)))))
    (constantI S_ 1 1#1) reducesTo_S1024x200x1_S1024x200_d2 h_S_

/-- What the reference computes of its two arguments: the gathered rows where the index is in bounds, the fill
    constant elsewhere. -/
def takeTerm (tok : (⟨S1024x200, .i32⟩ : BufTy).Contents (Elt F)) (W : (⟨S1000000x128, .f32⟩ : BufTy).Contents (Elt F)) :
    (⟨S1024x200x128, .f32⟩ : BufTy).Contents (Elt F) :=
  select (broadcastInDim S1024x200x128 ![0, 1] bcast_S1024x200_S1024x200x128_0_1 (inBounds (F := F) tok))
    (Host.gather gather_S1000000x128_S1024x200x1_S1024x200x128_2_0_n_n_0_2_1128 W (idxCol (F := F) tok))
    (broadcastInDim S1024x200x128 ![] bcast_S_S1024x200x128 (constant S_ .f32 0x7FC00000#32))

/-! ## The program as a line of operations -/

/-- The entry function's operations in order, the calls unfolded: the indexing helper's twenty-two and, at its
    seventh line, the select of the helper it calls. -/
abbrev ops : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 1000000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 999999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1) main_call0.v5 main_call0.v13 (fun x i => Host.gather gather_S1000000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select ]

set_option maxRecDepth 1024 in
/-- The entry function is that line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the buffers hold after the line -/

attribute [local irreducible] Host.reduce Host.gather in
set_option maxRecDepth 8192 in
theorem out_eq (V : Valuation τ sig (Elt F)) :
    after ops V (main_v0 : DevRef τ sig)
      = takeTerm (F := F) (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters: every weakly fair execution of the reference terminates with the result
    buffer at the composed term of the two arguments and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = takeTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.RefValue.lean ====
/-
  The value the reference computes. For tokens that all lie in `[0, 999999]` the reference's composed term is the
  lookup of the specification, index by index: a token in range is not negative as a signed word, so the wrap-around
  select keeps it; both bounds comparisons hold, so the mask reduced over the unit axis is all ones and the final
  select never takes the fill value; and the gather reads the table at the row the token names (the clamp into
  `[0, 999999]` is the identity on a token in range) and at the result's last coordinate.
-/
import proofs.«206231_g69020124446782_cont_9to1c4b_129_32_alg».proof.Proof.RefRun
import proofs.«206231_g69020124446782_cont_9to1c4b_129_32_alg».proof.Proof.Spec
import Idealize.ShloMosaic.Lib.ReduceAll
import Idealize.ShloMosaic.Lib.IdealHost
import Idealize.ShloMosaic.Lib.Pipeline.Value

noncomputable section

namespace Cert.RefSide

open Cert.ReferenceIdeal Cert.ReferenceIdeal.Facts₀ Idealize.ShloMosaic Idealize.ShloMosaic.ValueIdx Idealize.SL.Sem

variable {F : FTy → Type} [FloatOps F] [Cert.ReferenceIdeal.Facts]

/-! ## Words -/

/-- A word below `1000000` reads the same signed and unsigned. -/
theorem toInt_of_lt {t : BitVec 32} (h : t.toNat < 1000000) : t.toInt = (t.toNat : Int) :=
  BitVec.toInt_eq_toNat_of_lt (by omega)

/-- A left fold by `and` from 1 over words that are all 1 is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_all_one f l fun n hn => h n (List.mem_cons_of_mem _ hn)

/-! ## The index chain -/

/-- A token in range is kept by the wrap-around select. -/
theorem wrapIdx_apply (tok : (⟨S1024x200, .i32⟩ : BufTy).Contents (Elt F)) (j : S1024x200.Idx)
    (h : (tok j : BitVec 32).toNat < 1000000) : wrapIdx (F := F) tok j = tok j := by
  show Scalar.select (IntOp.cmpi .slt (tok j : BitVec 32) 0#32) _ (tok j) = tok j
  have hc : ¬ IntOp.cmpi .slt (tok j : BitVec 32) 0#32 = 1#1 := by
    rw [IntOp.cmpi_slt, toInt_of_lt h, show (0#32 : BitVec 32).toInt = 0 from by decide]
    omega
  rw [eq_zero_of_ne_one hc, select_zero]

/-- The index array at `(b, s, 0)` is the wrapped token `(b, s)`. -/
theorem idxCol_apply (tok : (⟨S1024x200, .i32⟩ : BufTy).Contents (Elt F)) (z : S1024x200x1.Idx) :
    idxCol (F := F) tok z = wrapIdx (F := F) tok (ix2 (n0 := 1024) (n1 := 200) (z 0) (z 1)) :=
  broadcastInDim_apply _ _ _ z _ (fun a => match a with | ⟨0, _⟩ => rfl | ⟨1, _⟩ => rfl)

/-- With every token in range the bounds mask is all ones. -/
theorem inBounds_apply (tok : (⟨S1024x200, .i32⟩ : BufTy).Contents (Elt F)) (h : Cert.Spec.InRange tok) (j : S1024x200.Idx) :
    inBounds (F := F) tok j = 1#1 := by
  unfold inBounds
  rw [Host.reduce_eq_foldl]
  refine foldl_andi_all_one _ _ fun i _ => ?_
  have ht := h (ix2 (n0 := 1024) (n1 := 200) (i 0) (i 1))
  show IntOp.andi (IntOp.cmpi .sge (idxCol (F := F) tok i : BitVec 32) 0#32) (IntOp.cmpi .sle (idxCol (F := F) tok i : BitVec 32) 999999#32) = 1#1
  rw [idxCol_apply, wrapIdx_apply tok _ ht, IntOp.andi_eq_one, IntOp.cmpi_sge, IntOp.cmpi_sle, toInt_of_lt ht,
    show (0#32 : BitVec 32).toInt = 0 from by decide, show (999999#32 : BitVec 32).toInt = 999999 from by decide]
  omega

/-! ## The gather at an index -/

section Gather
variable {α : Type}

/-- The gather of rows read at `(b, s, k)`: the table at the start index `idx[b, s, 0]`, read signed and clamped into
    `[0, 999999]`, and at column `k`. -/
theorem gather_rows_apply (W : S1000000x128.Idx → α) (idx : IVec S1024x200x1 32) (y : S1024x200x128.Idx) :
    Host.gather gather_S1000000x128_S1024x200x1_S1024x200x128_2_0_n_n_0_2_1128 W idx y
      = W (ix2 (n0 := 1000000) (n1 := 128)
          ⟨min (idx (ix3 (n0 := 1024) (n1 := 200) (n2 := 1) (y 0) (y 1) 0)).toInt.toNat 999999, by omega⟩ (y 2)) := by
  unfold Host.gather
  congr 1
  funext a
  refine Fin.ext ?_
  match a with
  | ⟨0, _⟩ =>
    show gather_S1000000x128_S1024x200x1_S1024x200x128_2_0_n_n_0_2_1128.start y idx 0
        + gather_S1000000x128_S1024x200x1_S1024x200x128_2_0_n_n_0_2_1128.batchCoord y 0
        + gather_S1000000x128_S1024x200x1_S1024x200x128_2_0_n_n_0_2_1128.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S1024x200x1_S1024x200x128_2_0_n_n_0_2_1128.startIndexMap from
      List.mem_singleton.mpr rfl)]
    have hsi : gather_S1000000x128_S1024x200x1_S1024x200x128_2_0_n_n_0_2_1128.siIdx y
        ⟨List.idxOf (0 : Fin 2) gather_S1000000x128_S1024x200x1_S1024x200x128_2_0_n_n_0_2_1128.startIndexMap,
          List.idxOf_lt_length_iff.2 (List.mem_singleton.mpr rfl)⟩
        = ix3 (n0 := 1024) (n1 := 200) (n2 := 1) (y 0) (y 1) 0 := by
      funext b; refine Fin.ext ?_
      match b with
      | ⟨0, _⟩ => rfl
      | ⟨1, _⟩ => rfl
      | ⟨2, _⟩ => rfl
    rw [hsi]
    rfl
  | ⟨1, _⟩ =>
    show gather_S1000000x128_S1024x200x1_S1024x200x128_2_0_n_n_0_2_1128.start y idx 1
        + gather_S1000000x128_S1024x200x1_S1024x200x128_2_0_n_n_0_2_1128.batchCoord y 1
        + gather_S1000000x128_S1024x200x1_S1024x200x128_2_0_n_n_0_2_1128.offCoord y 1 = (y 2).val
    rw [GatherDims.batchCoord_eq_zero _ _ _ List.not_mem_nil]
    unfold GatherDims.start
    rw [dif_neg (show (1 : Fin 2) ∉ gather_S1000000x128_S1024x200x1_S1024x200x128_2_0_n_n_0_2_1128.startIndexMap from
      fun h => absurd (List.mem_singleton.mp h) (by decide))]
    unfold GatherDims.offCoord
    rw [dif_pos (show (1 : Fin 2) ∈ gather_S1000000x128_S1024x200x1_S1024x200x128_2_0_n_n_0_2_1128.sKept from
      (GatherDims.mem_sKept _ _).mpr ⟨fun h => absurd (List.mem_singleton.mp h) (by decide), List.not_mem_nil⟩)]
    simp only [Nat.zero_add, Nat.add_zero]
    rfl

end Gather

/-! ## The value -/

/-- With every token in range the reference's composed term is the specification's lookup. -/
theorem takeTerm_eq_lookup (tok : (⟨S1024x200, .i32⟩ : BufTy).Contents (Elt F)) (W : (⟨S1000000x128, .f32⟩ : BufTy).Contents (Elt F))
    (h : Cert.Spec.InRange tok) : takeTerm (F := F) tok W = Cert.Spec.lookup tok W := by
  funext y
  have ht := h (ix2 (n0 := 1024) (n1 := 200) (y 0) (y 1))
  have hm : broadcastInDim S1024x200x128 ![0, 1] bcast_S1024x200_S1024x200x128_0_1 (inBounds (F := F) tok) y = 1#1 :=
    (broadcastInDim_apply _ _ _ y (ix2 (n0 := 1024) (n1 := 200) (y 0) (y 1))
      (fun a => match a with | ⟨0, _⟩ => rfl | ⟨1, _⟩ => rfl)).trans (inBounds_apply tok h _)
  unfold takeTerm
  have e : idxCol (F := F) tok (ix3 (n0 := 1024) (n1 := 200) (n2 := 1) (y 0) (y 1) 0)
      = tok (ix2 (n0 := 1024) (n1 := 200) (y 0) (y 1)) :=
    (idxCol_apply tok _).trans (wrapIdx_apply tok _ ht)
  rw [select_apply, hm, select_one, gather_rows_apply]
  show W _ = W _
  refine congrArg W (funext fun a => Fin.ext ?_)
  match a with
  | ⟨0, _⟩ =>
    show min (idxCol (F := F) tok (ix3 (n0 := 1024) (n1 := 200) (n2 := 1) (y 0) (y 1) 0) : BitVec 32).toInt.toNat 999999
      = min (tok (ix2 (n0 := 1024) (n1 := 200) (y 0) (y 1)) : BitVec 32).toNat 999999
    rw [e, toInt_of_lt ht]
    rfl
  | ⟨1, _⟩ => rfl

/-! ## The run, at the ideal values -/

open Idealize.ShloMosaic.StableHlo in
/-- From any memory with zero counters whose tokens all lie in `[0, 999999]`: every weakly fair execution of the
    reference terminates with the result buffer at the lookup of the two arguments and the arguments unchanged. -/
theorem run
    (m : (ℓ : Loc Cert.ReferenceIdeal.nD Cert.ReferenceIdeal.τ Cert.ReferenceIdeal.sig) → Buf (Elt Ideal) ℓ) (ρ : Dev Cert.ReferenceIdeal.nD → PrngReg)
    (hin : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.lookup (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans (takeTerm_eq_lookup _ _ (hin c)), (h c).2.1, (h c).2.2⟩)
    (run_term (F := Ideal) m ρ)

end Cert.RefSide

end
-- ==== Proof.lean ====
/- The lookup kernel as printed, the same kernel read at the ideal values, and the reference each run to the end and leave the
   tokens and the table unchanged; at the ideal values the kernel's result and the reference's are both the lookup of the
   specification, entry (b, s, k) being entry k of the table's row named by token (b, s). -/
import proofs.«206231_g69020124446782_cont_9to1c4b_129_32_alg».proof.Defs
import proofs.«206231_g69020124446782_cont_9to1c4b_129_32_alg».proof.Proof.Gen.Kernel
import proofs.«206231_g69020124446782_cont_9to1c4b_129_32_alg».proof.Proof.Gen.Kernel.Skeleton
import proofs.«206231_g69020124446782_cont_9to1c4b_129_32_alg».proof.Proof.Gen.KernelIdeal
import proofs.«206231_g69020124446782_cont_9to1c4b_129_32_alg».proof.Proof.Gen.KernelIdeal.Skeleton
import proofs.«206231_g69020124446782_cont_9to1c4b_129_32_alg».proof.Proof.Gen.ReferenceIdeal
import proofs.«206231_g69020124446782_cont_9to1c4b_129_32_alg».proof.Proof.Gen.Pre_input_domain
import proofs.«206231_g69020124446782_cont_9to1c4b_129_32_alg».proof.Proof.KBRun
import proofs.«206231_g69020124446782_cont_9to1c4b_129_32_alg».proof.Proof.KIRun
import proofs.«206231_g69020124446782_cont_9to1c4b_129_32_alg».proof.Proof.RefValue
import Idealize.ShloMosaic.Adequacy
import Idealize.ShloMosaic.Init

noncomputable section

namespace Cert.Proof

open Idealize.ShloMosaic Idealize.SL.Sem

/-- The kernel as printed runs and keeps its arguments: its run with the result's value dropped. -/
theorem frame_k : Cert.frame_Kernel := fun m ρ hpre =>
  (θ_run _ _ _).mono (fun _ h c => ⟨(h c).2.1, (h c).2.2⟩)
    (Cert.Proof.KB.run_main (F := Bits) m ρ (Cert.Proof.KB.inRange_of_pre m hpre))

/-- The kernel at the ideal values runs and keeps its arguments: its run with the result's value dropped. -/
theorem frame_ki : Cert.frame_KernelIdeal := fun m ρ hpre =>
  (θ_run _ _ _).mono (fun _ h c => ⟨(h c).2.1, (h c).2.2⟩)
    (Cert.Proof.KI.run_main (F := Ideal) m ρ (Cert.Proof.KI.inRange_of_pre m hpre))

/-- The reference runs and keeps its arguments, whatever the tokens: its run at the composed term, the result dropped. -/
theorem frame_ri : Cert.frame_ReferenceIdeal := fun m ρ _ =>
  (θ_run _ _ _).mono (fun _ h c => (h c).2) (Cert.RefSide.run_term (F := Ideal) m ρ)

/-- At the ideal values, from memories that agree on the tokens and the table, the kernel and the reference both end with
    the lookup of those arguments in their result: tokens in range on the kernel's side are in range on the reference's. -/
theorem algebraic : Cert.algebraic_KernelIdeal_ReferenceIdeal := by
  intro m ρ m' ρ' hpre hagree
  have hin := Cert.Proof.KI.inRange_of_pre (F := Ideal) m hpre
  have hin' : ∀ c : Dev Cert.ReferenceIdeal.nD,
      Cert.Spec.InRange (m' ((c.tc : Thread Cert.ReferenceIdeal.nD Cert.ReferenceIdeal.τ).loc Cert.ReferenceIdeal.main_arg0)) := by
    intro c
    rw [(hagree c).1]
    exact hin c
  refine ⟨fun c => Cert.Spec.lookup (m (Cert.Proof.KI.argLoc c)) (m (Cert.Proof.KI.tabLoc c)),
    Cert.Proof.KI.run_main (F := Ideal) m ρ hin, ?_⟩
  refine (θ_run _ _ _).mono (fun _ h c => ⟨?_, (h c).2.1, (h c).2.2⟩) (Cert.RefSide.run m' ρ' hin')
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
